-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x5 : Shape := ⟨2, ![4194304, 5]⟩
abbrev S3x12 : Shape := ⟨2, ![3, 12]⟩
abbrev S12 : Shape := ⟨1, ![12]⟩
abbrev S12x8 : Shape := ⟨2, ![12, 8]⟩
abbrev S8 : Shape := ⟨1, ![8]⟩
abbrev S8x2 : Shape := ⟨2, ![8, 2]⟩
abbrev S2 : Shape := ⟨1, ![2]⟩
abbrev S_ : Shape := ⟨0, ![]⟩
abbrev S4194304x2 : Shape := ⟨2, ![4194304, 2]⟩
abbrev S4194304 : Shape := ⟨1, ![4194304]⟩
abbrev S4194304x1 : Shape := ⟨2, ![4194304, 1]⟩
abbrev S4194304x3 : Shape := ⟨2, ![4194304, 3]⟩
abbrev S4194304x12 : Shape := ⟨2, ![4194304, 12]⟩
abbrev S1x12 : Shape := ⟨2, ![1, 12]⟩
abbrev S4194304x8 : Shape := ⟨2, ![4194304, 8]⟩
abbrev S1x8 : Shape := ⟨2, ![1, 8]⟩
abbrev S1x2 : Shape := ⟨2, ![1, 2]⟩
abbrev S4194304x2x1 : Shape := ⟨3, ![4194304, 2, 1]⟩
abbrev S4194304x2x2 : Shape := ⟨3, ![4194304, 2, 2]⟩
abbrev S4194304x1x1 : Shape := ⟨3, ![4194304, 1, 1]⟩

class Facts : Prop where
  bcast_S_S4194304x5 : S_.BroadcastsInDim S4194304x5 (![] : Fin 0 → Fin S4194304x5.rank)
  reducesTo_S4194304x5_S_d0_1 : S4194304x5.ReducesTo [0, 1] S_
  h_S_ : 0 < S_.numel
  bcast_S_S3x12 : S_.BroadcastsInDim S3x12 (![] : Fin 0 → Fin S3x12.rank)
  reducesTo_S3x12_S_d0_1 : S3x12.ReducesTo [0, 1] S_
  bcast_S_S12 : S_.BroadcastsInDim S12 (![] : Fin 0 → Fin S12.rank)
  reducesTo_S12_S_d0 : S12.ReducesTo [0] S_
  bcast_S_S12x8 : S_.BroadcastsInDim S12x8 (![] : Fin 0 → Fin S12x8.rank)
  reducesTo_S12x8_S_d0_1 : S12x8.ReducesTo [0, 1] S_
  bcast_S_S8 : S_.BroadcastsInDim S8 (![] : Fin 0 → Fin S8.rank)
  reducesTo_S8_S_d0 : S8.ReducesTo [0] S_
  bcast_S_S8x2 : S_.BroadcastsInDim S8x2 (![] : Fin 0 → Fin S8x2.rank)
  reducesTo_S8x2_S_d0_1 : S8x2.ReducesTo [0, 1] S_
  bcast_S_S2 : S_.BroadcastsInDim S2 (![] : Fin 0 → Fin S2.rank)
  reducesTo_S2_S_d0 : S2.ReducesTo [0] S_
  slices_S4194304x5_S4194304x2_0_0 : S4194304x5.Slices ![0, 0] S4194304x2
  bcast_S2_S4194304x2_1 : S2.BroadcastsInDim S4194304x2 (![1] : Fin 1 → Fin S4194304x2.rank)
  reducesTo_S4194304x2_S4194304_d1 : S4194304x2.ReducesTo [1] S4194304
  bcast_S4194304_S4194304x1_0 : S4194304.BroadcastsInDim S4194304x1 (![0] : Fin 1 → Fin S4194304x1.rank)
  bcast_S_S4194304x1 : S_.BroadcastsInDim S4194304x1 (![] : Fin 0 → Fin S4194304x1.rank)
  concatenates_S4194304x2_S4194304x1_S4194304x3_d1 : Shape.Concatenates [S4194304x2, S4194304x1] S4194304x3 1
  bcast_S12_S1x12_1 : S12.BroadcastsInDim S1x12 (![1] : Fin 1 → Fin S1x12.rank)
  bcast_S1x12_S4194304x12_0_1 : S1x12.BroadcastsInDim S4194304x12 (![0, 1] : Fin 2 → Fin S4194304x12.rank)
  bcast_S_S4194304x12 : S_.BroadcastsInDim S4194304x12 (![] : Fin 0 → Fin S4194304x12.rank)
  bcast_S8_S1x8_1 : S8.BroadcastsInDim S1x8 (![1] : Fin 1 → Fin S1x8.rank)
  bcast_S1x8_S4194304x8_0_1 : S1x8.BroadcastsInDim S4194304x8 (![0, 1] : Fin 2 → Fin S4194304x8.rank)
  bcast_S_S4194304x8 : S_.BroadcastsInDim S4194304x8 (![] : Fin 0 → Fin S4194304x8.rank)
  bcast_S2_S1x2_1 : S2.BroadcastsInDim S1x2 (![1] : Fin 1 → Fin S1x2.rank)
  bcast_S1x2_S4194304x2_0_1 : S1x2.BroadcastsInDim S4194304x2 (![0, 1] : Fin 2 → Fin S4194304x2.rank)
  bcast_S4194304x2_S4194304x2x1_0_1 : S4194304x2.BroadcastsInDim S4194304x2x1 (![0, 1] : Fin 2 → Fin S4194304x2x1.rank)
  concatenates_S4194304x2x1_S4194304x2x1_S4194304x2x2_d2 : Shape.Concatenates [S4194304x2x1, S4194304x2x1] S4194304x2x2 2
  slices_S4194304x2x2_S4194304x1x1_0_0_0 : S4194304x2x2.Slices ![0, 0, 0] S4194304x1x1
  shapeCasts_S4194304x1x1_S4194304 : S4194304x1x1.ShapeCasts S4194304
  slices_S4194304x2x2_S4194304x1x1_0_0_1 : S4194304x2x2.Slices ![0, 0, 1] S4194304x1x1
  slices_S4194304x2x2_S4194304x1x1_0_1_0 : S4194304x2x2.Slices ![0, 1, 0] S4194304x1x1
  slices_S4194304x2x2_S4194304x1x1_0_1_1 : S4194304x2x2.Slices ![0, 1, 1] S4194304x1x1
  bcast_S_S4194304 : S_.BroadcastsInDim S4194304 (![] : Fin 0 → Fin S4194304.rank)
  reducesTo_S4194304_S_d0 : S4194304.ReducesTo [0] S_
  dot_S4194304x3_S3x12_S4194304x12_1_0_0_1_n_n_wf : DotDims.WF S4194304x3 S3x12 S4194304x12 [1] [0] [0] [1] [] []
  dot_S4194304x12_S12x8_S4194304x8_1_0_0_1_n_n_wf : DotDims.WF S4194304x12 S12x8 S4194304x8 [1] [0] [0] [1] [] []
  dot_S4194304x8_S8x2_S4194304x2_1_0_0_1_n_n_wf : DotDims.WF S4194304x8 S8x2 S4194304x2 [1] [0] [0] [1] [] []

variable [Facts]

def dot_S4194304x3_S3x12_S4194304x12_1_0_0_1_n_n : DotDims S4194304x3 S3x12 S4194304x12 where
  lhsContracting := [1]
  rhsContracting := [0]
  lhsNonContracting := [0]
  rhsNonContracting := [1]
  lhsBatch := []
  rhsBatch := []
  wf := dot_S4194304x3_S3x12_S4194304x12_1_0_0_1_n_n_wf
def dot_S4194304x12_S12x8_S4194304x8_1_0_0_1_n_n : DotDims S4194304x12 S12x8 S4194304x8 where
  lhsContracting := [1]
  rhsContracting := [0]
  lhsNonContracting := [0]
  rhsNonContracting := [1]
  lhsBatch := []
  rhsBatch := []
  wf := dot_S4194304x12_S12x8_S4194304x8_1_0_0_1_n_n_wf
def dot_S4194304x8_S8x2_S4194304x2_1_0_0_1_n_n : DotDims S4194304x8 S8x2 S4194304x2 where
  lhsContracting := [1]
  rhsContracting := [0]
  lhsNonContracting := [0]
  rhsNonContracting := [1]
  lhsBatch := []
  rhsBatch := []
  wf := dot_S4194304x8_S8x2_S4194304x2_1_0_0_1_n_n_wf

abbrev lit0 : Fin 2 → BitVec 32 := fun
  | 0 => 0x3F800000#32 | 1 => 0x00000000#32
  | _ => 0#32

abbrev lit1 : Fin 2 → BitVec 32 := fun
  | 0 => 0x00000000#32 | 1 => 0x3F800000#32
  | _ => 0#32

def fn_part6 {F : FTy → Type} [FloatOps F] (main_v33 : IVec S_ 1) (main_v74 : FVec F S4194304x2 .f32) (main_v114 : FVec F S4194304x2 .f32) (main_v115 : FVec F S4194304x2 .f32) (main_v117 : FVec F S4194304x2 .f32) : IVec S_ 1 :=
  let main_v118 : FVec F S4194304x2 .f32 := addf main_v114 main_v117
  let main_v119 : FVec F S4194304x2x1 .f32 := broadcastInDim S4194304x2x1 ![0, 1] bcast_S4194304x2_S4194304x2x1_0_1 main_v74
  let main_v120 : FVec F S4194304x2x1 .f32 := broadcastInDim S4194304x2x1 ![0, 1] bcast_S4194304x2_S4194304x2x1_0_1 main_v115
  let main_v121 : FVec F S4194304x2x2 .f32 := (fun a b => concatenate S4194304x2x2 2 [⟨S4194304x2x1, a⟩, ⟨S4194304x2x1, b⟩] concatenates_S4194304x2x1_S4194304x2x1_S4194304x2x2_d2) main_v119 main_v120
  let main_v122 : FVec F S4194304x1x1 .f32 := (extractStridedSlice S4194304x1x1 ![0, 0, 0] · slices_S4194304x2x2_S4194304x1x1_0_0_0) main_v121
  let main_v123 : FVec F S4194304 .f32 := shapeCast S4194304 main_v122 shapeCasts_S4194304x1x1_S4194304
  let main_v124 : FVec F S4194304x1x1 .f32 := (extractStridedSlice S4194304x1x1 ![0, 0, 1] · slices_S4194304x2x2_S4194304x1x1_0_0_1) main_v121
  let main_v125 : FVec F S4194304 .f32 := shapeCast S4194304 main_v124 shapeCasts_S4194304x1x1_S4194304
  let main_v126 : FVec F S4194304x1x1 .f32 := (extractStridedSlice S4194304x1x1 ![0, 1, 0] · slices_S4194304x2x2_S4194304x1x1_0_1_0) main_v121
  let main_v127 : FVec F S4194304 .f32 := shapeCast S4194304 main_v126 shapeCasts_S4194304x1x1_S4194304
  let main_v128 : FVec F S4194304x1x1 .f32 := (extractStridedSlice S4194304x1x1 ![0, 1, 1] · slices_S4194304x2x2_S4194304x1x1_0_1_1) main_v121
  let main_v129 : FVec F S4194304 .f32 := shapeCast S4194304 main_v128 shapeCasts_S4194304x1x1_S4194304
  let main_v130 : FVec F S4194304 .f32 := mulf main_v123 main_v129
  let main_v131 : FVec F S4194304 .f32 := mulf main_v125 main_v127
  let main_v132 : FVec F S4194304 .f32 := subf main_v130 main_v131
  let main_cst_24 : FVec F S_ .f32 := constant S_ .f32 0x00000000#32
  let main_v133 : FVec F S4194304 .f32 := broadcastInDim S4194304 ![] bcast_S_S4194304 main_cst_24
  let main_v134 : IVec S4194304 1 := cmpf .une main_v132 main_v133
  let main_c_25 : IVec S_ 1 := constantI S_ 1 1#1
  let main_v135 : IVec S_ 1 := (fun x v => Host.reduce IntOp.andi x v reducesTo_S4194304_S_d0 h_S_) main_v134 main_c_25
  let main_v136 : IVec S_ 1 := andi main_v33 main_v135
  main_v136

def fn_part5 {F : FTy → Type} [FloatOps F] (main_arg3 : FVec F S12x8 .f32) (main_arg4 : FVec F S8 .f32) (main_arg5 : FVec F S8x2 .f32) (main_arg6 : FVec F S2 .f32) (main_v33 : IVec S_ 1) (main_v74 : FVec F S4194304x2 .f32) (main_v92 : FVec F S4194304x12 .f32) (main_v93 : FVec F S4194304x12 .f32) (main_v95 : FVec F S4194304x12 .f32) : IVec S_ 1 :=
  let main_v96 : FVec F S4194304x12 .f32 := addf main_v92 main_v95
  let main_v97 : FVec F S4194304x12 .f32 := Host.tanh main_v96
  let main_v98 : FVec F S4194304x12 .f32 := mulf main_v93 main_v97
  let main_v99 : FVec F S4194304x12 .f32 := addf main_v93 main_v98
  let main_cst_22 : FVec F S_ .f32 := constant S_ .f32 0x3F800000#32
  let main_v100 : FVec F S4194304x12 .f32 := broadcastInDim S4194304x12 ![] bcast_S_S4194304x12 main_cst_22
  let main_v101 : FVec F S4194304x12 .f32 := subf main_v100 main_v97
  let main_v102 : FVec F S4194304x12 .f32 := mulf main_v99 main_v101
  let main_v103 : FVec F S4194304x8 .f32 := (fun l r => Host.dotGeneral dot_S4194304x12_S12x8_S4194304x8_1_0_0_1_n_n none l r) main_v97 main_arg3
  let main_v104 : FVec F S4194304x8 .f32 := (fun l r => Host.dotGeneral dot_S4194304x12_S12x8_S4194304x8_1_0_0_1_n_n none l r) main_v102 main_arg3
  let main_v105 : FVec F S1x8 .f32 := broadcastInDim S1x8 ![1] bcast_S8_S1x8_1 main_arg4
  let main_v106 : FVec F S4194304x8 .f32 := broadcastInDim S4194304x8 ![0, 1] bcast_S1x8_S4194304x8_0_1 main_v105
  let main_v107 : FVec F S4194304x8 .f32 := addf main_v103 main_v106
  let main_v108 : FVec F S4194304x8 .f32 := Host.tanh main_v107
  let main_v109 : FVec F S4194304x8 .f32 := mulf main_v104 main_v108
  let main_v110 : FVec F S4194304x8 .f32 := addf main_v104 main_v109
  let main_cst_23 : FVec F S_ .f32 := constant S_ .f32 0x3F800000#32
  let main_v111 : FVec F S4194304x8 .f32 := broadcastInDim S4194304x8 ![] bcast_S_S4194304x8 main_cst_23
  let main_v112 : FVec F S4194304x8 .f32 := subf main_v111 main_v108
  let main_v113 : FVec F S4194304x8 .f32 := mulf main_v110 main_v112
  let main_v114 : FVec F S4194304x2 .f32 := (fun l r => Host.dotGeneral dot_S4194304x8_S8x2_S4194304x2_1_0_0_1_n_n none l r) main_v108 main_arg5
  let main_v115 : FVec F S4194304x2 .f32 := (fun l r => Host.dotGeneral dot_S4194304x8_S8x2_S4194304x2_1_0_0_1_n_n none l r) main_v113 main_arg5
  let main_v116 : FVec F S1x2 .f32 := broadcastInDim S1x2 ![1] bcast_S2_S1x2_1 main_arg6
  let main_v117 : FVec F S4194304x2 .f32 := broadcastInDim S4194304x2 ![0, 1] bcast_S1x2_S4194304x2_0_1 main_v116
  fn_part6 (F := F) main_v33 main_v74 main_v114 main_v115 main_v117

def fn_part4 {F : FTy → Type} [FloatOps F] (main_arg1 : FVec F S3x12 .f32) (main_arg2 : FVec F S12 .f32) (main_arg3 : FVec F S12x8 .f32) (main_arg4 : FVec F S8 .f32) (main_arg5 : FVec F S8x2 .f32) (main_arg6 : FVec F S2 .f32) (main_v33 : IVec S_ 1) (main_v34 : FVec F S4194304x2 .f32) (main_v36 : FVec F S4194304x2 .f32) (main_v73 : FVec F S4194304x2 .f32) (main_v74 : FVec F S4194304x2 .f32) : IVec S_ 1 :=
  let main_v75 : FVec F S1x2 .f32 := broadcastInDim S1x2 ![1] bcast_S2_S1x2_1 main_arg6
  let main_v76 : FVec F S4194304x2 .f32 := broadcastInDim S4194304x2 ![0, 1] bcast_S1x2_S4194304x2_0_1 main_v75
  let main_v77 : FVec F S4194304x2 .f32 := addf main_v73 main_v76
  let main_v78 : FVec F S4194304x2 .f32 := mulf main_v34 main_v34
  let main_v79 : FVec F S4194304x2 .f32 := mulf main_v36 main_v34
  let main_v80 : FVec F S4194304x2 .f32 := mulf main_v34 main_v36
  let main_v81 : FVec F S4194304x2 .f32 := addf main_v79 main_v80
  let main_cst_19 : FVec F S_ .f32 := constant S_ .f32 0x00000000#32
  let main_v82 : FVec F S4194304 .f32 := (fun x v => Host.reduceAdd x v reducesTo_S4194304x2_S4194304_d1 h_S_) main_v78 main_cst_19
  let main_cst_20 : FVec F S_ .f32 := constant S_ .f32 0x00000000#32
  let main_v83 : FVec F S4194304 .f32 := (fun x v => Host.reduceAdd x v reducesTo_S4194304x2_S4194304_d1 h_S_) main_v81 main_cst_20
  let main_v84 : FVec F S4194304x1 .f32 := broadcastInDim S4194304x1 ![0] bcast_S4194304_S4194304x1_0 main_v82
  let main_v85 : FVec F S4194304x1 .f32 := broadcastInDim S4194304x1 ![0] bcast_S4194304_S4194304x1_0 main_v83
  let main_v86 : FVec F S4194304x1 .f32 := Host.sqrt main_v84
  let main_cst_21 : FVec F S_ .f32 := constant S_ .f32 0x3F000000#32
  let main_v87 : FVec F S4194304x1 .f32 := broadcastInDim S4194304x1 ![] bcast_S_S4194304x1 main_cst_21
  let main_v88 : FVec F S4194304x1 .f32 := Host.divf main_v87 main_v86
  let main_v89 : FVec F S4194304x1 .f32 := mulf main_v85 main_v88
  let main_v90 : FVec F S4194304x3 .f32 := (fun a b => concatenate S4194304x3 1 [⟨S4194304x2, a⟩, ⟨S4194304x1, b⟩] concatenates_S4194304x2_S4194304x1_S4194304x3_d1) main_v34 main_v86
  let main_v91 : FVec F S4194304x3 .f32 := (fun a b => concatenate S4194304x3 1 [⟨S4194304x2, a⟩, ⟨S4194304x1, b⟩] concatenates_S4194304x2_S4194304x1_S4194304x3_d1) main_v36 main_v89
  let main_v92 : FVec F S4194304x12 .f32 := (fun l r => Host.dotGeneral dot_S4194304x3_S3x12_S4194304x12_1_0_0_1_n_n none l r) main_v90 main_arg1
  let main_v93 : FVec F S4194304x12 .f32 := (fun l r => Host.dotGeneral dot_S4194304x3_S3x12_S4194304x12_1_0_0_1_n_n none l r) main_v91 main_arg1
  let main_v94 : FVec F S1x12 .f32 := broadcastInDim S1x12 ![1] bcast_S12_S1x12_1 main_arg2
  let main_v95 : FVec F S4194304x12 .f32 := broadcastInDim S4194304x12 ![0, 1] bcast_S1x12_S4194304x12_0_1 main_v94
  fn_part5 (F := F) main_arg3 main_arg4 main_arg5 main_arg6 main_v33 main_v74 main_v92 main_v93 main_v95

def fn_part3 {F : FTy → Type} [FloatOps F] (main_arg1 : FVec F S3x12 .f32) (main_arg2 : FVec F S12 .f32) (main_arg3 : FVec F S12x8 .f32) (main_arg4 : FVec F S8 .f32) (main_arg5 : FVec F S8x2 .f32) (main_arg6 : FVec F S2 .f32) (main_v33 : IVec S_ 1) (main_v34 : FVec F S4194304x2 .f32) (main_v36 : FVec F S4194304x2 .f32) (main_v51 : FVec F S4194304x12 .f32) (main_v52 : FVec F S4194304x12 .f32) : IVec S_ 1 :=
  let main_v53 : FVec F S1x12 .f32 := broadcastInDim S1x12 ![1] bcast_S12_S1x12_1 main_arg2
  let main_v54 : FVec F S4194304x12 .f32 := broadcastInDim S4194304x12 ![0, 1] bcast_S1x12_S4194304x12_0_1 main_v53
  let main_v55 : FVec F S4194304x12 .f32 := addf main_v51 main_v54
  let main_v56 : FVec F S4194304x12 .f32 := Host.tanh main_v55
  let main_v57 : FVec F S4194304x12 .f32 := mulf main_v52 main_v56
  let main_v58 : FVec F S4194304x12 .f32 := addf main_v52 main_v57
  let main_cst_17 : FVec F S_ .f32 := constant S_ .f32 0x3F800000#32
  let main_v59 : FVec F S4194304x12 .f32 := broadcastInDim S4194304x12 ![] bcast_S_S4194304x12 main_cst_17
  let main_v60 : FVec F S4194304x12 .f32 := subf main_v59 main_v56
  let main_v61 : FVec F S4194304x12 .f32 := mulf main_v58 main_v60
  let main_v62 : FVec F S4194304x8 .f32 := (fun l r => Host.dotGeneral dot_S4194304x12_S12x8_S4194304x8_1_0_0_1_n_n none l r) main_v56 main_arg3
  let main_v63 : FVec F S4194304x8 .f32 := (fun l r => Host.dotGeneral dot_S4194304x12_S12x8_S4194304x8_1_0_0_1_n_n none l r) main_v61 main_arg3
  let main_v64 : FVec F S1x8 .f32 := broadcastInDim S1x8 ![1] bcast_S8_S1x8_1 main_arg4
  let main_v65 : FVec F S4194304x8 .f32 := broadcastInDim S4194304x8 ![0, 1] bcast_S1x8_S4194304x8_0_1 main_v64
  let main_v66 : FVec F S4194304x8 .f32 := addf main_v62 main_v65
  let main_v67 : FVec F S4194304x8 .f32 := Host.tanh main_v66
  let main_v68 : FVec F S4194304x8 .f32 := mulf main_v63 main_v67
  let main_v69 : FVec F S4194304x8 .f32 := addf main_v63 main_v68
  let main_cst_18 : FVec F S_ .f32 := constant S_ .f32 0x3F800000#32
  let main_v70 : FVec F S4194304x8 .f32 := broadcastInDim S4194304x8 ![] bcast_S_S4194304x8 main_cst_18
  let main_v71 : FVec F S4194304x8 .f32 := subf main_v70 main_v67
  let main_v72 : FVec F S4194304x8 .f32 := mulf main_v69 main_v71
  let main_v73 : FVec F S4194304x2 .f32 := (fun l r => Host.dotGeneral dot_S4194304x8_S8x2_S4194304x2_1_0_0_1_n_n none l r) main_v67 main_arg5
  let main_v74 : FVec F S4194304x2 .f32 := (fun l r => Host.dotGeneral dot_S4194304x8_S8x2_S4194304x2_1_0_0_1_n_n none l r) main_v72 main_arg5
  fn_part4 (F := F) main_arg1 main_arg2 main_arg3 main_arg4 main_arg5 main_arg6 main_v33 main_v34 main_v36 main_v73 main_v74

def fn_part2 {F : FTy → Type} [FloatOps F] (main_arg0 : FVec F S4194304x5 .f32) (main_arg1 : FVec F S3x12 .f32) (main_arg2 : FVec F S12 .f32) (main_arg3 : FVec F S12x8 .f32) (main_arg4 : FVec F S8 .f32) (main_arg5 : FVec F S8x2 .f32) (main_arg6 : FVec F S2 .f32) (main_cst : FVec F S2 .f32) (main_cst_0 : FVec F S2 .f32) (main_v28 : IVec S_ 1) (main_v31 : IVec S2 1) (main_c_13 : IVec S_ 1) : IVec S_ 1 :=
  let main_v32 : IVec S_ 1 := (fun x v => Host.reduce IntOp.andi x v reducesTo_S2_S_d0 h_S_) main_v31 main_c_13
  let main_v33 : IVec S_ 1 := andi main_v28 main_v32
  let main_v34 : FVec F S4194304x2 .f32 := (extractStridedSlice S4194304x2 ![0, 0] · slices_S4194304x5_S4194304x2_0_0) main_arg0
  let main_v35 : FVec F S4194304x2 .f32 := broadcastInDim S4194304x2 ![1] bcast_S2_S4194304x2_1 main_cst
  let main_v36 : FVec F S4194304x2 .f32 := broadcastInDim S4194304x2 ![1] bcast_S2_S4194304x2_1 main_cst_0
  let main_v37 : FVec F S4194304x2 .f32 := mulf main_v34 main_v34
  let main_v38 : FVec F S4194304x2 .f32 := mulf main_v35 main_v34
  let main_v39 : FVec F S4194304x2 .f32 := mulf main_v34 main_v35
  let main_v40 : FVec F S4194304x2 .f32 := addf main_v38 main_v39
  let main_cst_14 : FVec F S_ .f32 := constant S_ .f32 0x00000000#32
  let main_v41 : FVec F S4194304 .f32 := (fun x v => Host.reduceAdd x v reducesTo_S4194304x2_S4194304_d1 h_S_) main_v37 main_cst_14
  let main_cst_15 : FVec F S_ .f32 := constant S_ .f32 0x00000000#32
  let main_v42 : FVec F S4194304 .f32 := (fun x v => Host.reduceAdd x v reducesTo_S4194304x2_S4194304_d1 h_S_) main_v40 main_cst_15
  let main_v43 : FVec F S4194304x1 .f32 := broadcastInDim S4194304x1 ![0] bcast_S4194304_S4194304x1_0 main_v41
  let main_v44 : FVec F S4194304x1 .f32 := broadcastInDim S4194304x1 ![0] bcast_S4194304_S4194304x1_0 main_v42
  let main_v45 : FVec F S4194304x1 .f32 := Host.sqrt main_v43
  let main_cst_16 : FVec F S_ .f32 := constant S_ .f32 0x3F000000#32
  let main_v46 : FVec F S4194304x1 .f32 := broadcastInDim S4194304x1 ![] bcast_S_S4194304x1 main_cst_16
  let main_v47 : FVec F S4194304x1 .f32 := Host.divf main_v46 main_v45
  let main_v48 : FVec F S4194304x1 .f32 := mulf main_v44 main_v47
  let main_v49 : FVec F S4194304x3 .f32 := (fun a b => concatenate S4194304x3 1 [⟨S4194304x2, a⟩, ⟨S4194304x1, b⟩] concatenates_S4194304x2_S4194304x1_S4194304x3_d1) main_v34 main_v45
  let main_v50 : FVec F S4194304x3 .f32 := (fun a b => concatenate S4194304x3 1 [⟨S4194304x2, a⟩, ⟨S4194304x1, b⟩] concatenates_S4194304x2_S4194304x1_S4194304x3_d1) main_v35 main_v48
  let main_v51 : FVec F S4194304x12 .f32 := (fun l r => Host.dotGeneral dot_S4194304x3_S3x12_S4194304x12_1_0_0_1_n_n none l r) main_v49 main_arg1
  let main_v52 : FVec F S4194304x12 .f32 := (fun l r => Host.dotGeneral dot_S4194304x3_S3x12_S4194304x12_1_0_0_1_n_n none l r) main_v50 main_arg1
  fn_part3 (F := F) main_arg1 main_arg2 main_arg3 main_arg4 main_arg5 main_arg6 main_v33 main_v34 main_v36 main_v51 main_v52

def fn_part1 {F : FTy → Type} [FloatOps F] (main_arg0 : FVec F S4194304x5 .f32) (main_arg1 : FVec F S3x12 .f32) (main_arg2 : FVec F S12 .f32) (main_arg3 : FVec F S12x8 .f32) (main_arg4 : FVec F S8 .f32) (main_arg5 : FVec F S8x2 .f32) (main_arg6 : FVec F S2 .f32) (main_cst : FVec F S2 .f32) (main_cst_0 : FVec F S2 .f32) (main_v13 : IVec S_ 1) (main_v14 : FVec F S12x8 .f32) (main_cst_6 : FVec F S_ .f32) : IVec S_ 1 :=
  let main_v15 : FVec F S12x8 .f32 := broadcastInDim S12x8 ![] bcast_S_S12x8 main_cst_6
  let main_v16 : IVec S12x8 1 := cmpf .olt main_v14 main_v15
  let main_c_7 : IVec S_ 1 := constantI S_ 1 1#1
  let main_v17 : IVec S_ 1 := (fun x v => Host.reduce IntOp.andi x v reducesTo_S12x8_S_d0_1 h_S_) main_v16 main_c_7
  let main_v18 : IVec S_ 1 := andi main_v13 main_v17
  let main_v19 : FVec F S8 .f32 := Host.absf main_arg4
  let main_cst_8 : FVec F S_ .f32 := constant S_ .f32 0x7F800000#32
  let main_v20 : FVec F S8 .f32 := broadcastInDim S8 ![] bcast_S_S8 main_cst_8
  let main_v21 : IVec S8 1 := cmpf .olt main_v19 main_v20
  let main_c_9 : IVec S_ 1 := constantI S_ 1 1#1
  let main_v22 : IVec S_ 1 := (fun x v => Host.reduce IntOp.andi x v reducesTo_S8_S_d0 h_S_) main_v21 main_c_9
  let main_v23 : IVec S_ 1 := andi main_v18 main_v22
  let main_v24 : FVec F S8x2 .f32 := Host.absf main_arg5
  let main_cst_10 : FVec F S_ .f32 := constant S_ .f32 0x7F800000#32
  let main_v25 : FVec F S8x2 .f32 := broadcastInDim S8x2 ![] bcast_S_S8x2 main_cst_10
  let main_v26 : IVec S8x2 1 := cmpf .olt main_v24 main_v25
  let main_c_11 : IVec S_ 1 := constantI S_ 1 1#1
  let main_v27 : IVec S_ 1 := (fun x v => Host.reduce IntOp.andi x v reducesTo_S8x2_S_d0_1 h_S_) main_v26 main_c_11
  let main_v28 : IVec S_ 1 := andi main_v23 main_v27
  let main_v29 : FVec F S2 .f32 := Host.absf main_arg6
  let main_cst_12 : FVec F S_ .f32 := constant S_ .f32 0x7F800000#32
  let main_v30 : FVec F S2 .f32 := broadcastInDim S2 ![] bcast_S_S2 main_cst_12
  let main_v31 : IVec S2 1 := cmpf .olt main_v29 main_v30
  let main_c_13 : IVec S_ 1 := constantI S_ 1 1#1
  fn_part2 (F := F) main_arg0 main_arg1 main_arg2 main_arg3 main_arg4 main_arg5 main_arg6 main_cst main_cst_0 main_v28 main_v31 main_c_13

def fn {F : FTy → Type} [FloatOps F] (main_arg0 : FVec F S4194304x5 .f32) (main_arg1 : FVec F S3x12 .f32) (main_arg2 : FVec F S12 .f32) (main_arg3 : FVec F S12x8 .f32) (main_arg4 : FVec F S8 .f32) (main_arg5 : FVec F S8x2 .f32) (main_arg6 : FVec F S2 .f32) : IVec S_ 1 :=
  let main_cst : FVec F S2 .f32 := fun i => FloatOps.ofBits .f32 (lit0 (S2.rowMajor i))
  let main_cst_0 : FVec F S2 .f32 := fun i => FloatOps.ofBits .f32 (lit1 (S2.rowMajor i))
  let main_v0 : FVec F S4194304x5 .f32 := Host.absf main_arg0
  let main_cst_1 : FVec F S_ .f32 := constant S_ .f32 0x7F800000#32
  let main_v1 : FVec F S4194304x5 .f32 := broadcastInDim S4194304x5 ![] bcast_S_S4194304x5 main_cst_1
  let main_v2 : IVec S4194304x5 1 := cmpf .olt main_v0 main_v1
  let main_c : IVec S_ 1 := constantI S_ 1 1#1
  let main_v3 : IVec S_ 1 := (fun x v => Host.reduce IntOp.andi x v reducesTo_S4194304x5_S_d0_1 h_S_) main_v2 main_c
  let main_v4 : FVec F S3x12 .f32 := Host.absf main_arg1
  let main_cst_2 : FVec F S_ .f32 := constant S_ .f32 0x7F800000#32
  let main_v5 : FVec F S3x12 .f32 := broadcastInDim S3x12 ![] bcast_S_S3x12 main_cst_2
  let main_v6 : IVec S3x12 1 := cmpf .olt main_v4 main_v5
  let main_c_3 : IVec S_ 1 := constantI S_ 1 1#1
  let main_v7 : IVec S_ 1 := (fun x v => Host.reduce IntOp.andi x v reducesTo_S3x12_S_d0_1 h_S_) main_v6 main_c_3
  let main_v8 : IVec S_ 1 := andi main_v3 main_v7
  let main_v9 : FVec F S12 .f32 := Host.absf main_arg2
  let main_cst_4 : FVec F S_ .f32 := constant S_ .f32 0x7F800000#32
  let main_v10 : FVec F S12 .f32 := broadcastInDim S12 ![] bcast_S_S12 main_cst_4
  let main_v11 : IVec S12 1 := cmpf .olt main_v9 main_v10
  let main_c_5 : IVec S_ 1 := constantI S_ 1 1#1
  let main_v12 : IVec S_ 1 := (fun x v => Host.reduce IntOp.andi x v reducesTo_S12_S_d0 h_S_) main_v11 main_c_5
  let main_v13 : IVec S_ 1 := andi main_v8 main_v12
  let main_v14 : FVec F S12x8 .f32 := Host.absf main_arg3
  let main_cst_6 : FVec F S_ .f32 := constant S_ .f32 0x7F800000#32
  fn_part1 (F := F) main_arg0 main_arg1 main_arg2 main_arg3 main_arg4 main_arg5 main_arg6 main_cst main_cst_0 main_v13 main_v14 main_cst_6
-- ==== Kernel.lean ====
abbrev S4194304x5 : Shape := ⟨2, ![4194304, 5]⟩
abbrev S3x12 : Shape := ⟨2, ![3, 12]⟩
abbrev S12 : Shape := ⟨1, ![12]⟩
abbrev S12x8 : Shape := ⟨2, ![12, 8]⟩
abbrev S8 : Shape := ⟨1, ![8]⟩
abbrev S8x2 : Shape := ⟨2, ![8, 2]⟩
abbrev S2 : Shape := ⟨1, ![2]⟩
abbrev S5x4194304 : Shape := ⟨2, ![5, 4194304]⟩
abbrev S12x3 : Shape := ⟨2, ![12, 3]⟩
abbrev S8x12 : Shape := ⟨2, ![8, 12]⟩
abbrev S2x8 : Shape := ⟨2, ![2, 8]⟩
abbrev S12x1 : Shape := ⟨2, ![12, 1]⟩
abbrev S8x1 : Shape := ⟨2, ![8, 1]⟩
abbrev S2x1 : Shape := ⟨2, ![2, 1]⟩
abbrev S2x4194304 : Shape := ⟨2, ![2, 4194304]⟩
abbrev S5x16384 : Shape := ⟨2, ![5, 16384]⟩
abbrev S2x16384 : Shape := ⟨2, ![2, 16384]⟩
abbrev S1x16384 : Shape := ⟨2, ![1, 16384]⟩
abbrev S3x16384 : Shape := ⟨2, ![3, 16384]⟩
abbrev S12x16384 : Shape := ⟨2, ![12, 16384]⟩
abbrev S8x16384 : Shape := ⟨2, ![8, 16384]⟩
abbrev S4194304x2 : Shape := ⟨2, ![4194304, 2]⟩

abbrev nBuf : Space → Nat
  | .hbm => 16
  | .vmem => 10
  | .smem => 0
  | _ => 0

abbrev bufTy : (tb : Table) → Fin (tcTables nBuf tb) → BufTy
  | .hbm, ⟨0, _⟩ => ⟨S4194304x5, .f32⟩
  | .hbm, ⟨1, _⟩ => ⟨S3x12, .f32⟩
  | .hbm, ⟨2, _⟩ => ⟨S12, .f32⟩
  | .hbm, ⟨3, _⟩ => ⟨S12x8, .f32⟩
  | .hbm, ⟨4, _⟩ => ⟨S8, .f32⟩
  | .hbm, ⟨5, _⟩ => ⟨S8x2, .f32⟩
  | .hbm, ⟨6, _⟩ => ⟨S2, .f32⟩
  | .hbm, ⟨7, _⟩ => ⟨S5x4194304, .f32⟩
  | .hbm, ⟨8, _⟩ => ⟨S12x3, .f32⟩
  | .hbm, ⟨9, _⟩ => ⟨S8x12, .f32⟩
  | .hbm, ⟨10, _⟩ => ⟨S2x8, .f32⟩
  | .hbm, ⟨11, _⟩ => ⟨S12x1, .f32⟩
  | .hbm, ⟨12, _⟩ => ⟨S8x1, .f32⟩
  | .hbm, ⟨13, _⟩ => ⟨S2x1, .f32⟩
  | .hbm, ⟨14, _⟩ => ⟨S2x4194304, .f32⟩
  | .hbm, ⟨15, _⟩ => ⟨S4194304x2, .f32⟩
  | .local _ .vmem, ⟨0, _⟩ => ⟨S5x16384, .f32⟩
  | .local _ .vmem, ⟨1, _⟩ => ⟨S5x16384, .f32⟩
  | .local _ .vmem, ⟨2, _⟩ => ⟨S12x3, .f32⟩
  | .local _ .vmem, ⟨3, _⟩ => ⟨S12x1, .f32⟩
  | .local _ .vmem, ⟨4, _⟩ => ⟨S8x12, .f32⟩
  | .local _ .vmem, ⟨5, _⟩ => ⟨S8x1, .f32⟩
  | .local _ .vmem, ⟨6, _⟩ => ⟨S2x8, .f32⟩
  | .local _ .vmem, ⟨7, _⟩ => ⟨S2x1, .f32⟩
  | .local _ .vmem, ⟨8, _⟩ => ⟨S2x16384, .f32⟩
  | .local _ .vmem, ⟨9, _⟩ => ⟨S2x16384, .f32⟩
  | _, _ => ⟨S4194304x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S5x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S12x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x12 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x16384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S4194304x5_S5x4194304_1_0 : S4194304x5.Transposes [1, 0] S5x4194304
  transposes_S3x12_S12x3_1_0 : S3x12.Transposes [1, 0] S12x3
  transposes_S12x8_S8x12_1_0 : S12x8.Transposes [1, 0] S8x12
  transposes_S8x2_S2x8_1_0 : S8x2.Transposes [1, 0] S2x8
  shapeCasts_S12_S12x1 : S12.ShapeCasts S12x1
  shapeCasts_S8_S8x1 : S8.ShapeCasts S8x1
  shapeCasts_S2_S2x1 : S2.ShapeCasts S2x1
  inb_S5x16384_S5x16384_0_0 : ∀ a, (![0, 0] : Fin 2 → Nat) a + S5x16384.size a ≤ S5x16384.size a
  h_S5x16384 : 0 < S5x16384.numel
  shapeCasts_S5x16384_S5x16384 : S5x16384.ShapeCasts S5x16384
  slices_S5x16384_o0_0_S1x16384 : S5x16384.Slices ![0, 0] S1x16384
  slices_S5x16384_o1_0_S1x16384 : S5x16384.Slices ![1, 0] S1x16384
  slices_S5x16384_o2_0_S1x16384 : S5x16384.Slices ![2, 0] S1x16384
  concatenates_S1x16384_S1x16384_S1x16384_S3x16384_d0 : Shape.Concatenates [S1x16384, S1x16384, S1x16384] S3x16384 0
  inb_S12x3_S12x3_0_0 : ∀ a, (![0, 0] : Fin 2 → Nat) a + S12x3.size a ≤ S12x3.size a
  h_S12x3 : 0 < S12x3.numel
  shapeCasts_S12x3_S12x3 : S12x3.ShapeCasts S12x3
  inb_S12x1_S12x1_0_0 : ∀ a, (![0, 0] : Fin 2 → Nat) a + S12x1.size a ≤ S12x1.size a
  h_S12x1 : 0 < S12x1.numel
  shapeCasts_S12x1_S12x1 : S12x1.ShapeCasts S12x1
  inb_S8x12_S8x12_0_0 : ∀ a, (![0, 0] : Fin 2 → Nat) a + S8x12.size a ≤ S8x12.size a
  h_S8x12 : 0 < S8x12.numel
  shapeCasts_S8x12_S8x12 : S8x12.ShapeCasts S8x12
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S2x8_S2x8_0_0 : ∀ a, (![0, 0] : Fin 2 → Nat) a + S2x8.size a ≤ S2x8.size a
  h_S2x8 : 0 < S2x8.numel
  shapeCasts_S2x8_S2x8 : S2x8.ShapeCasts S2x8
  inb_S2x1_S2x1_0_0 : ∀ a, (![0, 0] : Fin 2 → Nat) a + S2x1.size a ≤ S2x1.size a
  h_S2x1 : 0 < S2x1.numel
  shapeCasts_S2x1_S2x1 : S2x1.ShapeCasts S2x1
  broadcasts_S12x1_S12x16384 : S12x1.Broadcasts S12x16384
  broadcasts_S8x1_S8x16384 : S8x1.Broadcasts S8x16384
  broadcasts_S2x1_S2x16384 : S2x1.Broadcasts S2x16384
  slices_S2x16384_o0_0_S1x16384 : S2x16384.Slices ![0, 0] S1x16384
  slices_S2x16384_o1_0_S1x16384 : S2x16384.Slices ![1, 0] S1x16384
  concatenates_S1x16384_S1x16384_S2x16384_d0 : Shape.Concatenates [S1x16384, S1x16384] S2x16384 0
  inb_S2x16384_S2x16384_0_0 : ∀ a, (![0, 0] : Fin 2 → Nat) a + S2x16384.size a ≤ S2x16384.size a
  h_S2x16384 : 0 < S2x16384.numel
  transposes_S2x4194304_S4194304x2_1_0 : S2x4194304.Transposes [1, 0] S4194304x2
  dot_S12x3_S3x16384_S12x16384_1_0_0_1_n_n_wf : DotDims.WF S12x3 S3x16384 S12x16384 [1] [0] [0] [1] [] []
  dot_S8x12_S12x16384_S8x16384_1_0_0_1_n_n_wf : DotDims.WF S8x12 S12x16384 S8x16384 [1] [0] [0] [1] [] []
  dot_S2x8_S8x16384_S2x16384_1_0_0_1_n_n_wf : DotDims.WF S2x8 S8x16384 S2x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5x16384.size a ≤ S5x4194304.size a
  hwx0_0 : ∀ i : grid0.Coords, EltTy.bits .f32 = 32 ∨ (Rect.block (s := S5x4194304) S5x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12x3.size a ≤ S12x3.size a
  hwx0_1 : ∀ i : grid0.Coords, EltTy.bits .f32 = 32 ∨ (Rect.block (s := S12x3) S12x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S12x1.size a ≤ S12x1.size a
  hwx0_2 : ∀ i : grid0.Coords, EltTy.bits .f32 = 32 ∨ (Rect.block (s := S12x1) S12x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x12.size a ≤ S8x12.size a
  hwx0_3 : ∀ i : grid0.Coords, EltTy.bits .f32 = 32 ∨ (Rect.block (s := S8x12) S8x12.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x1.size a ≤ S8x1.size a
  hwx0_4 : ∀ i : grid0.Coords, EltTy.bits .f32 = 32 ∨ (Rect.block (s := S8x1) S8x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x8.size a ≤ S2x8.size a
  hwx0_5 : ∀ i : grid0.Coords, EltTy.bits .f32 = 32 ∨ (Rect.block (s := S2x8) S2x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x1.size a ≤ S2x1.size a
  hwx0_6 : ∀ i : grid0.Coords, EltTy.bits .f32 = 32 ∨ (Rect.block (s := S2x1) S2x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2x16384.size a ≤ S2x4194304.size a
  hwx0_7 : ∀ i : grid0.Coords, EltTy.bits .f32 = 32 ∨ (Rect.block (s := S2x4194304) S2x16384.size (cc0_transform_7 i) (hinb0_7 i)).WholeWords (EltTy.packing .f32)

variable [Facts₀]

def dot_S12x3_S3x16384_S12x16384_1_0_0_1_n_n : DotDims S12x3 S3x16384 S12x16384 where
  lhsContracting := [1]
  rhsContracting := [0]
  lhsNonContracting := [0]
  rhsNonContracting := [1]
  lhsBatch := []
  rhsBatch := []
  wf := dot_S12x3_S3x16384_S12x16384_1_0_0_1_n_n_wf
def dot_S8x12_S12x16384_S8x16384_1_0_0_1_n_n : DotDims S8x12 S12x16384 S8x16384 where
  lhsContracting := [1]
  rhsContracting := [0]
  lhsNonContracting := [0]
  rhsNonContracting := [1]
  lhsBatch := []
  rhsBatch := []
  wf := dot_S8x12_S12x16384_S8x16384_1_0_0_1_n_n_wf
def dot_S2x8_S8x16384_S2x16384_1_0_0_1_n_n : DotDims S2x8 S8x16384 S2x16384 where
  lhsContracting := [1]
  rhsContracting := [0]
  lhsNonContracting := [0]
  rhsNonContracting := [1]
  lhsBatch := []
  rhsBatch := []
  wf := dot_S2x8_S8x16384_S2x16384_1_0_0_1_n_n_wf

abbrev win0_0 : Pipeline.Window sig grid0 :=
  Pipeline.Window.ofSpec (Memref.whole main_v0) S5x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S12x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S12x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S8x12.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S8x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S2x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S2x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S2x16384.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4194304x5 : Shape := ⟨2, ![4194304, 5]⟩
abbrev S3x12 : Shape := ⟨2, ![3, 12]⟩
abbrev S12 : Shape := ⟨1, ![12]⟩
abbrev S12x8 : Shape := ⟨2, ![12, 8]⟩
abbrev S8 : Shape := ⟨1, ![8]⟩
abbrev S8x2 : Shape := ⟨2, ![8, 2]⟩
abbrev S2 : Shape := ⟨1, ![2]⟩
abbrev S2x1 : Shape := ⟨2, ![2, 1]⟩
abbrev S1x2x1 : Shape := ⟨3, ![1, 2, 1]⟩
abbrev S4194304x2 : Shape := ⟨2, ![4194304, 2]⟩
abbrev S_ : Shape := ⟨0, ![]⟩
abbrev S4194304 : Shape := ⟨1, ![4194304]⟩
abbrev S4194304x1 : Shape := ⟨2, ![4194304, 1]⟩
abbrev S4194304x3 : Shape := ⟨2, ![4194304, 3]⟩
abbrev S4194304x12 : Shape := ⟨2, ![4194304, 12]⟩
abbrev S1x12 : Shape := ⟨2, ![1, 12]⟩
abbrev S4194304x8 : Shape := ⟨2, ![4194304, 8]⟩
abbrev S1x8 : Shape := ⟨2, ![1, 8]⟩
abbrev S1x2 : Shape := ⟨2, ![1, 2]⟩
abbrev S4194304x2x1 : Shape := ⟨3, ![4194304, 2, 1]⟩
abbrev S4194304x2x2 : Shape := ⟨3, ![4194304, 2, 2]⟩
abbrev S4194304x1x1 : Shape := ⟨3, ![4194304, 1, 1]⟩
abbrev S4194304x1x2 : Shape := ⟨3, ![4194304, 1, 2]⟩
abbrev S4194304x2x4 : Shape := ⟨3, ![4194304, 2, 4]⟩
abbrev S4194304x4 : Shape := ⟨2, ![4194304, 4]⟩
abbrev S4194304x4x1 : Shape := ⟨3, ![4194304, 4, 1]⟩

abbrev nBuf : Space → Nat
  | .hbm => 158
  | .vmem => 0
  | .smem => 0
  | _ => 0

abbrev hbmTy0_0 (i : Nat) : BufTy := match i % 128 with
  | 0 => ⟨S4194304x5, .f32⟩
  | 1 => ⟨S3x12, .f32⟩
  | 2 => ⟨S12, .f32⟩
  | 3 => ⟨S12x8, .f32⟩
  | 4 => ⟨S8, .f32⟩
  | 5 => ⟨S8x2, .f32⟩
  | 6 => ⟨S2, .f32⟩
  | 7 => ⟨S2, .f32⟩
  | 8 => ⟨S2, .f32⟩
  | 9 => ⟨S2x1, .f32⟩
  | 10 => ⟨S1x2x1, .f32⟩
  | 11 => ⟨S4194304x2, .f32⟩
  | 12 => ⟨S4194304x2, .f32⟩
  | 13 => ⟨S4194304x2, .f32⟩
  | 14 => ⟨S4194304x2, .f32⟩
  | 15 => ⟨S4194304x2, .f32⟩
  | 16 => ⟨S4194304x2, .f32⟩
  | 17 => ⟨S4194304x2, .f32⟩
  | 18 => ⟨S_, .f32⟩
  | 19 => ⟨S4194304, .f32⟩
  | 20 => ⟨S_, .f32⟩
  | 21 => ⟨S4194304, .f32⟩
  | 22 => ⟨S4194304x1, .f32⟩
  | 23 => ⟨S4194304x1, .f32⟩
  | 24 => ⟨S4194304x1, .f32⟩
  | 25 => ⟨S_, .f32⟩
  | 26 => ⟨S4194304x1, .f32⟩
  | 27 => ⟨S4194304x1, .f32⟩
  | 28 => ⟨S4194304x1, .f32⟩
  | 29 => ⟨S4194304x3, .f32⟩
  | 30 => ⟨S4194304x3, .f32⟩
  | 31 => ⟨S4194304x12, .f32⟩
  | 32 => ⟨S4194304x12, .f32⟩
  | 33 => ⟨S1x12, .f32⟩
  | 34 => ⟨S4194304x12, .f32⟩
  | 35 => ⟨S4194304x12, .f32⟩
  | 36 => ⟨S4194304x12, .f32⟩
  | 37 => ⟨S4194304x12, .f32⟩
  | 38 => ⟨S4194304x12, .f32⟩
  | 39 => ⟨S_, .f32⟩
  | 40 => ⟨S4194304x12, .f32⟩
  | 41 => ⟨S4194304x12, .f32⟩
  | 42 => ⟨S4194304x12, .f32⟩
  | 43 => ⟨S4194304x8, .f32⟩
  | 44 => ⟨S4194304x8, .f32⟩
  | 45 => ⟨S1x8, .f32⟩
  | 46 => ⟨S4194304x8, .f32⟩
  | 47 => ⟨S4194304x8, .f32⟩
  | 48 => ⟨S4194304x8, .f32⟩
  | 49 => ⟨S4194304x8, .f32⟩
  | 50 => ⟨S4194304x8, .f32⟩
  | 51 => ⟨S_, .f32⟩
  | 52 => ⟨S4194304x8, .f32⟩
  | 53 => ⟨S4194304x8, .f32⟩
  | 54 => ⟨S4194304x8, .f32⟩
  | 55 => ⟨S4194304x2, .f32⟩
  | 56 => ⟨S4194304x2, .f32⟩
  | 57 => ⟨S1x2, .f32⟩
  | 58 => ⟨S4194304x2, .f32⟩
  | 59 => ⟨S4194304x2, .f32⟩
  | 60 => ⟨S4194304x2, .f32⟩
  | 61 => ⟨S4194304x2, .f32⟩
  | 62 => ⟨S4194304x2, .f32⟩
  | 63 => ⟨S4194304x2, .f32⟩
  | 64 => ⟨S_, .f32⟩
  | 65 => ⟨S4194304, .f32⟩
  | 66 => ⟨S_, .f32⟩
  | 67 => ⟨S4194304, .f32⟩
  | 68 => ⟨S4194304x1, .f32⟩
  | 69 => ⟨S4194304x1, .f32⟩
  | 70 => ⟨S4194304x1, .f32⟩
  | 71 => ⟨S_, .f32⟩
  | 72 => ⟨S4194304x1, .f32⟩
  | 73 => ⟨S4194304x1, .f32⟩
  | 74 => ⟨S4194304x1, .f32⟩
  | 75 => ⟨S4194304x3, .f32⟩
  | 76 => ⟨S4194304x3, .f32⟩
  | 77 => ⟨S4194304x12, .f32⟩
  | 78 => ⟨S4194304x12, .f32⟩
  | 79 => ⟨S1x12, .f32⟩
  | 80 => ⟨S4194304x12, .f32⟩
  | 81 => ⟨S4194304x12, .f32⟩
  | 82 => ⟨S4194304x12, .f32⟩
  | 83 => ⟨S4194304x12, .f32⟩
  | 84 => ⟨S4194304x12, .f32⟩
  | 85 => ⟨S_, .f32⟩
  | 86 => ⟨S4194304x12, .f32⟩
  | 87 => ⟨S4194304x12, .f32⟩
  | 88 => ⟨S4194304x12, .f32⟩
  | 89 => ⟨S4194304x8, .f32⟩
  | 90 => ⟨S4194304x8, .f32⟩
  | 91 => ⟨S1x8, .f32⟩
  | 92 => ⟨S4194304x8, .f32⟩
  | 93 => ⟨S4194304x8, .f32⟩
  | 94 => ⟨S4194304x8, .f32⟩
  | 95 => ⟨S4194304x8, .f32⟩
  | 96 => ⟨S4194304x8, .f32⟩
  | 97 => ⟨S_, .f32⟩
  | 98 => ⟨S4194304x8, .f32⟩
  | 99 => ⟨S4194304x8, .f32⟩
  | 100 => ⟨S4194304x8, .f32⟩
  | 101 => ⟨S4194304x2, .f32⟩
  | 102 => ⟨S4194304x2, .f32⟩
  | 103 => ⟨S1x2, .f32⟩
  | 104 => ⟨S4194304x2, .f32⟩
  | 105 => ⟨S4194304x2, .f32⟩
  | 106 => ⟨S4194304x2x1, .f32⟩
  | 107 => ⟨S4194304x2x1, .f32⟩
  | 108 => ⟨S4194304x2x2, .f32⟩
  | 109 => ⟨S4194304x1x1, .f32⟩
  | 110 => ⟨S4194304, .f32⟩
  | 111 => ⟨S4194304x1x1, .f32⟩
  | 112 => ⟨S4194304, .f32⟩
  | 113 => ⟨S4194304x1x1, .f32⟩
  | 114 => ⟨S4194304, .f32⟩
  | 115 => ⟨S4194304x1x1, .f32⟩
  | 116 => ⟨S4194304, .f32⟩
  | 117 => ⟨S4194304, .f32⟩
  | 118 => ⟨S4194304, .f32⟩
  | 119 => ⟨S4194304, .f32⟩
  | 120 => ⟨S4194304, .f32⟩
  | 121 => ⟨S4194304x1, .f32⟩
  | 122 => ⟨S4194304x1, .f32⟩
  | 123 => ⟨S4194304x2, .f32⟩
  | 124 => ⟨S4194304, .f32⟩
  | 125 => ⟨S4194304x1, .f32⟩
  | 126 => ⟨S4194304x1, .f32⟩
  | 127 => ⟨S4194304x2, .f32⟩
  | _ => ⟨S4194304x5, .f32⟩

abbrev hbmTy0_1 (i : Nat) : BufTy := match i % 128 with
  | 0 => ⟨S4194304x1x2, .f32⟩
  | 1 => ⟨S4194304x1x2, .f32⟩
  | 2 => ⟨S4194304x2x2, .f32⟩
  | 3 => ⟨S4194304x1x1, .f32⟩
  | 4 => ⟨S4194304x2x2, .f32⟩
  | 5 => ⟨S4194304x2x2, .f32⟩
  | 6 => ⟨S4194304x1, .f32⟩
  | 7 => ⟨S4194304x1, .f32⟩
  | 8 => ⟨S4194304x1, .f32⟩
  | 9 => ⟨S4194304x2, .f32⟩
  | 10 => ⟨S4194304x2x1, .f32⟩
  | 11 => ⟨S_, .f32⟩
  | 12 => ⟨S4194304x2x2, .f32⟩
  | 13 => ⟨S4194304x2x1, .f32⟩
  | 14 => ⟨S_, .f32⟩
  | 15 => ⟨S4194304x2x1, .f32⟩
  | 16 => ⟨S4194304x2x1, .f32⟩
  | 17 => ⟨S4194304x2x4, .f32⟩
  | 18 => ⟨S4194304x3, .f32⟩
  | 19 => ⟨S_, .f32⟩
  | 20 => ⟨S4194304x1, .f32⟩
  | 21 => ⟨S4194304x4, .f32⟩
  | 22 => ⟨S4194304x4x1, .f32⟩
  | 23 => ⟨S4194304x2x1, .f32⟩
  | 24 => ⟨S4194304x2x1, .f32⟩
  | 25 => ⟨S4194304x2, .f32⟩
  | 26 => ⟨S_, .f32⟩
  | 27 => ⟨S4194304x2, .f32⟩
  | 28 => ⟨S4194304x2, .f32⟩
  | 29 => ⟨S4194304x2, .f32⟩
  | _ => ⟨S4194304x5, .f32⟩

abbrev hbmTy (i : Nat) : BufTy := match i / 128 with
  | 0 => hbmTy0_0 i
  | 1 => hbmTy0_1 i
  | _ => ⟨S4194304x5, .f32⟩

abbrev bufTy : (tb : Table) → Fin (tcTables nBuf tb) → BufTy
  | .hbm, ⟨i, _⟩ => hbmTy i
  | _, _ => ⟨S4194304x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_cst_1 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_cst : Ref sig .tc := ⟨.hbm, 18, rfl⟩
abbrev main_call0_v4 : Ref sig .tc := ⟨.hbm, 19, rfl⟩
abbrev main_call0_cst_0 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_v4_0 : Ref sig .tc := ⟨.hbm, 24, rfl⟩
abbrev main_call0_cst_1 : Ref sig .tc := ⟨.hbm, 25, rfl⟩
abbrev main_call0_v9 : Ref sig .tc := ⟨.hbm, 26, rfl⟩
abbrev main_call0_v10 : Ref sig .tc := ⟨.hbm, 27, rfl⟩
abbrev main_v4_1 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst_2 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_3 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_cst : Ref sig .tc := ⟨.hbm, 64, rfl⟩
abbrev main_call1_v4 : Ref sig .tc := ⟨.hbm, 65, rfl⟩
abbrev main_call1_cst_0 : Ref sig .tc := ⟨.hbm, 66, rfl⟩
abbrev main_call1_v5 : Ref sig .tc := ⟨.hbm, 67, rfl⟩
abbrev main_call1_v6 : Ref sig .tc := ⟨.hbm, 68, rfl⟩
abbrev main_call1_v7 : Ref sig .tc := ⟨.hbm, 69, rfl⟩
abbrev main_v34_0 : Ref sig .tc := ⟨.hbm, 70, rfl⟩
abbrev main_call1_cst_1 : Ref sig .tc := ⟨.hbm, 71, rfl⟩
abbrev main_call1_v9 : Ref sig .tc := ⟨.hbm, 72, rfl⟩
abbrev main_call1_v10 : Ref sig .tc := ⟨.hbm, 73, rfl⟩
abbrev main_v34_1 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_cst_4 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_cst_5 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_6 : Ref sig .tc := ⟨.hbm, 139, rfl⟩
abbrev main_v97 : Ref sig .tc := ⟨.hbm, 140, rfl⟩
abbrev main_v98 : Ref sig .tc := ⟨.hbm, 141, rfl⟩
abbrev main_cst_7 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_8 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_cst_9 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩

abbrev nD : Nat := 1
abbrev τ : Topo := Topo.v7x

variable {F : FTy → Type} [FloatOps F]

class Facts₀ : Prop where
  bcast_S2x1_S1x2x1_1_2 : S2x1.BroadcastsInDim S1x2x1 (![1, 2] : Fin 2 → Fin S1x2x1.rank)
  slices_S4194304x5_S4194304x2_0_0 : S4194304x5.Slices ![0, 0] S4194304x2
  bcast_S2_S4194304x2_1 : S2.BroadcastsInDim S4194304x2 (![1] : Fin 1 → Fin S4194304x2.rank)
  reducesTo_S4194304x2_S4194304_d1 : S4194304x2.ReducesTo [1] S4194304
  h_S_ : 0 < S_.numel
  bcast_S4194304_S4194304x1_0 : S4194304.BroadcastsInDim S4194304x1 (![0] : Fin 1 → Fin S4194304x1.rank)
  bcast_S_S4194304x1 : S_.BroadcastsInDim S4194304x1 (![] : Fin 0 → Fin S4194304x1.rank)
  concatenates_S4194304x2_S4194304x1_S4194304x3_d1 : Shape.Concatenates [S4194304x2, S4194304x1] S4194304x3 1
  bcast_S12_S1x12_1 : S12.BroadcastsInDim S1x12 (![1] : Fin 1 → Fin S1x12.rank)
  bcast_S1x12_S4194304x12_0_1 : S1x12.BroadcastsInDim S4194304x12 (![0, 1] : Fin 2 → Fin S4194304x12.rank)
  bcast_S_S4194304x12 : S_.BroadcastsInDim S4194304x12 (![] : Fin 0 → Fin S4194304x12.rank)
  bcast_S8_S1x8_1 : S8.BroadcastsInDim S1x8 (![1] : Fin 1 → Fin S1x8.rank)
  bcast_S1x8_S4194304x8_0_1 : S1x8.BroadcastsInDim S4194304x8 (![0, 1] : Fin 2 → Fin S4194304x8.rank)
  bcast_S_S4194304x8 : S_.BroadcastsInDim S4194304x8 (![] : Fin 0 → Fin S4194304x8.rank)
  bcast_S2_S1x2_1 : S2.BroadcastsInDim S1x2 (![1] : Fin 1 → Fin S1x2.rank)
  bcast_S1x2_S4194304x2_0_1 : S1x2.BroadcastsInDim S4194304x2 (![0, 1] : Fin 2 → Fin S4194304x2.rank)
  bcast_S4194304x2_S4194304x2x1_0_1 : S4194304x2.BroadcastsInDim S4194304x2x1 (![0, 1] : Fin 2 → Fin S4194304x2x1.rank)
  concatenates_S4194304x2x1_S4194304x2x1_S4194304x2x2_d2 : Shape.Concatenates [S4194304x2x1, S4194304x2x1] S4194304x2x2 2
  slices_S4194304x2x2_S4194304x1x1_0_0_0 : S4194304x2x2.Slices ![0, 0, 0] S4194304x1x1
  shapeCasts_S4194304x1x1_S4194304 : S4194304x1x1.ShapeCasts S4194304
  slices_S4194304x2x2_S4194304x1x1_0_0_1 : S4194304x2x2.Slices ![0, 0, 1] S4194304x1x1
  slices_S4194304x2x2_S4194304x1x1_0_1_0 : S4194304x2x2.Slices ![0, 1, 0] S4194304x1x1
  slices_S4194304x2x2_S4194304x1x1_0_1_1 : S4194304x2x2.Slices ![0, 1, 1] S4194304x1x1
  concatenates_S4194304x1_S4194304x1_S4194304x2_d1 : Shape.Concatenates [S4194304x1, S4194304x1] S4194304x2 1
  bcast_S4194304x2_S4194304x1x2_0_2 : S4194304x2.BroadcastsInDim S4194304x1x2 (![0, 2] : Fin 2 → Fin S4194304x1x2.rank)
  concatenates_S4194304x1x2_S4194304x1x2_S4194304x2x2_d1 : Shape.Concatenates [S4194304x1x2, S4194304x1x2] S4194304x2x2 1
  bcast_S4194304_S4194304x1x1_0 : S4194304.BroadcastsInDim S4194304x1x1 (![0] : Fin 1 → Fin S4194304x1x1.rank)
  bcast_S4194304x1x1_S4194304x2x2_0_1_2 : S4194304x1x1.BroadcastsInDim S4194304x2x2 (![0, 1, 2] : Fin 3 → Fin S4194304x2x2.rank)
  slices_S4194304x2_S4194304x1_0_0 : S4194304x2.Slices ![0, 0] S4194304x1
  slices_S4194304x2_S4194304x1_0_1 : S4194304x2.Slices ![0, 1] S4194304x1
  bcast_S_S4194304x2x2 : S_.BroadcastsInDim S4194304x2x2 (![] : Fin 0 → Fin S4194304x2x2.rank)
  bcast_S1x2x1_S4194304x2x1_0_1_2 : S1x2x1.BroadcastsInDim S4194304x2x1 (![0, 1, 2] : Fin 3 → Fin S4194304x2x1.rank)
  bcast_S_S4194304x2x1 : S_.BroadcastsInDim S4194304x2x1 (![] : Fin 0 → Fin S4194304x2x1.rank)
  concatenates_S4194304x2x2_S4194304x2x1_S4194304x2x1_S4194304x2x4_d2 : Shape.Concatenates [S4194304x2x2, S4194304x2x1, S4194304x2x1] S4194304x2x4 2
  slices_S4194304x5_S4194304x3_0_0 : S4194304x5.Slices ![0, 0] S4194304x3
  concatenates_S4194304x3_S4194304x1_S4194304x4_d1 : Shape.Concatenates [S4194304x3, S4194304x1] S4194304x4 1
  bcast_S4194304x4_S4194304x4x1_0_1 : S4194304x4.BroadcastsInDim S4194304x4x1 (![0, 1] : Fin 2 → Fin S4194304x4x1.rank)
  shapeCasts_S4194304x2x1_S4194304x2 : S4194304x2x1.ShapeCasts S4194304x2
  bcast_S_S4194304x2 : S_.BroadcastsInDim S4194304x2 (![] : Fin 0 → Fin S4194304x2.rank)
  dot_S4194304x3_S3x12_S4194304x12_1_0_0_1_n_n_wf : DotDims.WF S4194304x3 S3x12 S4194304x12 [1] [0] [0] [1] [] []
  dot_S4194304x12_S12x8_S4194304x8_1_0_0_1_n_n_wf : DotDims.WF S4194304x12 S12x8 S4194304x8 [1] [0] [0] [1] [] []
  dot_S4194304x8_S8x2_S4194304x2_1_0_0_1_n_n_wf : DotDims.WF S4194304x8 S8x2 S4194304x2 [1] [0] [0] [1] [] []
  dot_S4194304x2x4_S4194304x4x1_S4194304x2x1_2_1_1_2_0_0_wf : DotDims.WF S4194304x2x4 S4194304x4x1 S4194304x2x1 [2] [1] [1] [2] [0] [0]
  dot_S4194304x2x2_S4194304x2x1_S4194304x2x1_2_1_1_2_0_0_wf : DotDims.WF S4194304x2x2 S4194304x2x1 S4194304x2x1 [2] [1] [1] [2] [0] [0]

variable [Facts₀]

def dot_S4194304x3_S3x12_S4194304x12_1_0_0_1_n_n : DotDims S4194304x3 S3x12 S4194304x12 where
  lhsContracting := [1]
  rhsContracting := [0]
  lhsNonContracting := [0]
  rhsNonContracting := [1]
  lhsBatch := []
  rhsBatch := []
  wf := dot_S4194304x3_S3x12_S4194304x12_1_0_0_1_n_n_wf
def dot_S4194304x12_S12x8_S4194304x8_1_0_0_1_n_n : DotDims S4194304x12 S12x8 S4194304x8 where
  lhsContracting := [1]
  rhsContracting := [0]
  lhsNonContracting := [0]
  rhsNonContracting := [1]
  lhsBatch := []
  rhsBatch := []
  wf := dot_S4194304x12_S12x8_S4194304x8_1_0_0_1_n_n_wf
def dot_S4194304x8_S8x2_S4194304x2_1_0_0_1_n_n : DotDims S4194304x8 S8x2 S4194304x2 where
  lhsContracting := [1]
  rhsContracting := [0]
  lhsNonContracting := [0]
  rhsNonContracting := [1]
  lhsBatch := []
  rhsBatch := []
  wf := dot_S4194304x8_S8x2_S4194304x2_1_0_0_1_n_n_wf
def dot_S4194304x2x4_S4194304x4x1_S4194304x2x1_2_1_1_2_0_0 : DotDims S4194304x2x4 S4194304x4x1 S4194304x2x1 where
  lhsContracting := [2]
  rhsContracting := [1]
  lhsNonContracting := [1]
  rhsNonContracting := [2]
  lhsBatch := [0]
  rhsBatch := [0]
  wf := dot_S4194304x2x4_S4194304x4x1_S4194304x2x1_2_1_1_2_0_0_wf
def dot_S4194304x2x2_S4194304x2x1_S4194304x2x1_2_1_1_2_0_0 : DotDims S4194304x2x2 S4194304x2x1 S4194304x2x1 where
  lhsContracting := [2]
  rhsContracting := [1]
  lhsNonContracting := [1]
  rhsNonContracting := [2]
  lhsBatch := [0]
  rhsBatch := [0]
  wf := dot_S4194304x2x2_S4194304x2x1_S4194304x2x1_2_1_1_2_0_0_wf

class Facts : Prop extends Facts₀ where

variable [Facts]
-- ==== Proof.Spec.lean ====
/-
  The mathematics both programs compute, ONE ROW AT A TIME.

  A row of the input is (x0, x1, x2, _, _): two currents, a switching column, two unused entries. Both programs evaluate the
  small network ψ : ℝ² → ℝ², ψ(x0, x1) = W3ᵀ tanh (W2ᵀ tanh (W1ᵀ (x0, x1, ‖(x0, x1)‖) + b1) + b2) + b3, together with its
  Jacobian J = ∂ψ/∂(x0, x1) (two forward-mode pushes, along e₀ and e₁), then solve the 2 × 2 system  J · k = y  in closed form,
  k = adj(J) · y / det J, where y is an affine function of the row and of ψ, and return  k · Δt + (x0, x1).

  The two programs spell this arithmetic differently, and each spelling is recorded here literally, over the extended reals:

  * `kOut` (the kernel): the derivative of the norm as x · (1 / ‖x‖); the derivative of tanh as dz · (1 − h · h); the resistive term
    as c · (x0 + x1); the solve as (adj(J) · y) · (1 / det J).
  * `rOut` (the reference): the derivative of the norm as (e · x + x · e summed) · (½ / ‖x‖); the derivative of tanh as
    (dz + dz · h) · (1 − h); the resistive term inside a 4-term contraction c · x0 + c · x1 + s · x2 + (ψ' · ω) · 1; the solve as
    (adj(J) / det J) · y, the quotient taken entry by entry BEFORE the product.

  For finite entries and det J ≠ 0 the two agree: every difference is an instance of commutativity, of distributivity over finite
  reals, or of (p / δ) · u + (q / δ) · v = (p · u + q · v) · (1 / δ) for real δ ≠ 0. At det J = 0 they do NOT agree on the extended reals
  (the entrywise quotient produces ±∞ and ∞ − ∞ where the kernel's single reciprocal produces one signed infinity): the statement carries
  that hypothesis. At the origin (‖x‖ = 0) both derivatives of the norm are 0 · ⊤ = 0, so the origin needs no hypothesis.

  Literals are kept as their binary words: the same word stands on both sides and is never evaluated.
-/
import Idealize.ShloMosaic.PureOps.Ideal
import Idealize.ShloMosaic.Lib.ValueIdx

noncomputable section

namespace Cert.Spec

open Idealize.ShloMosaic Idealize.ShloMosaic.ValueIdx
open scoped BigOperators

/-! ## The literal words -/

/-- the zero word (a contraction's accumulator, a sum's initial value, `0 − ψ`) -/
abbrev c0 : EReal := Ideal.ofBits .f32 0x00000000#32
/-- 1.0 -/
abbrev c1 : EReal := Ideal.ofBits .f32 0x3F800000#32
/-- 0.5 (the reference's derivative of the square root) -/
abbrev cHalf : EReal := Ideal.ofBits .f32 0x3F000000#32
/-- −R_s, the f32 nearest −0.18 -/
abbrev cR : EReal := Ideal.ofBits .f32 0xBE3851EC#32
/-- ω_el, the f32 nearest 300 π -/
abbrev cW : EReal := Ideal.ofBits .f32 0x446B9E94#32
/-- U_dc / 3, the f32 nearest 560 / 3 -/
abbrev cS : EReal := Ideal.ofBits .f32 0x433AAAAB#32
/-- Δt, the f32 nearest 5 · 10⁻⁵ -/
abbrev cDT : EReal := Ideal.ofBits .f32 0x3851B717#32

/-! ## The parameters: the six weight and bias arrays as plain index functions -/

structure Params where
  W1 : Fin 3 → Fin 12 → EReal
  b1 : Fin 12 → EReal
  W2 : Fin 12 → Fin 8 → EReal
  b2 : Fin 8 → EReal
  W3 : Fin 8 → Fin 2 → EReal
  b3 : Fin 2 → EReal

/-! ## The kernel's spelling -/

section Kernel
variable (P : Params) (x0 x1 x2 : EReal)

/-- ‖(x0, x1)‖ as the kernel writes it -/
def kNorm : EReal := Ideal.sqrt (x0 * x0 + x1 * x1)

/-- the network's input (x0, x1, ‖x‖) -/
def kIn : Fin 3 → EReal := ![x0, x1, kNorm x0 x1]

/-- first hidden layer: tanh (W1ᵀ · in + b1); a contraction is a plain finite sum (its zero accumulator adds nothing) -/
def kH1 (i : Fin 12) : EReal := Ideal.tanh ((∑ l : Fin 3, P.W1 l i * kIn x0 x1 l) + P.b1 i)

/-- second hidden layer -/
def kH2 (i : Fin 8) : EReal := Ideal.tanh ((∑ l : Fin 12, P.W2 l i * kH1 P x0 x1 l) + P.b2 i)

/-- the network's output ψ -/
def kPsi (i : Fin 2) : EReal := (∑ l : Fin 8, P.W3 l i * kH2 P x0 x1 l) + P.b3 i

/-- the tangent of the network's input along e₀ (`e = 0`) or e₁ (`e = 1`): (1, 0, x0 / ‖x‖) or (0, 1, x1 / ‖x‖), the quotient
    written as a product with the reciprocal -/
def kTan (e : Fin 2) : Fin 3 → EReal :=
  match e with
  | ⟨0, _⟩ => ![c1, c0, x0 * Ideal.div c1 (kNorm x0 x1)]
  | ⟨_ + 1, _⟩ => ![c0, c1, x1 * Ideal.div c1 (kNorm x0 x1)]

/-- the push through the first layer: (W1ᵀ · tangent) · (1 − h1 · h1) -/
def kD1 (e : Fin 2) (i : Fin 12) : EReal :=
  (∑ l : Fin 3, P.W1 l i * kTan x0 x1 e l) * (c1 - kH1 P x0 x1 i * kH1 P x0 x1 i)

/-- the push through the second layer -/
def kD2 (e : Fin 2) (i : Fin 8) : EReal :=
  (∑ l : Fin 12, P.W2 l i * kD1 P x0 x1 e l) * (c1 - kH2 P x0 x1 i * kH2 P x0 x1 i)

/-- the Jacobian's column `e`: ∂ψ_i / ∂x_e -/
def kJ (e : Fin 2) (i : Fin 2) : EReal := ∑ l : Fin 8, P.W3 l i * kD2 P x0 x1 e l

/-- det J = ∂ψ₀/∂x₀ · ∂ψ₁/∂x₁ − ∂ψ₀/∂x₁ · ∂ψ₁/∂x₀ -/
def kDet : EReal := kJ P x0 x1 0 0 * kJ P x0 x1 1 1 - kJ P x0 x1 1 0 * kJ P x0 x1 0 1

/-- the right-hand side's first entry: −R_s (x0 + x1) + ψ₁ ω -/
def kY0 : EReal := cR * (x0 + x1) + kPsi P x0 x1 1 * cW

/-- the right-hand side's second entry: −R_s (x0 + x1) + (U_dc / 3) x2 + (0 − ψ₀) ω -/
def kY1 : EReal := (cR * (x0 + x1) + cS * x2) + (c0 - kPsi P x0 x1 0) * cW

/-- the kernel's result for the row, entry `j` -/
def kOut (j : Fin 2) : EReal :=
  match j with
  | ⟨0, _⟩ =>
      ((kJ P x0 x1 1 1 * kY0 P x0 x1 - kJ P x0 x1 1 0 * kY1 P x0 x1 x2) * Ideal.div c1 (kDet P x0 x1)) * cDT + x0
  | ⟨_ + 1, _⟩ =>
      (((c0 - kJ P x0 x1 0 1) * kY0 P x0 x1 + kJ P x0 x1 0 0 * kY1 P x0 x1 x2) * Ideal.div c1 (kDet P x0 x1)) * cDT + x1

end Kernel

/-! ## The reference's spelling -/

section Reference
variable (P : Params) (x0 x1 x2 : EReal)

/-- the two currents as a function of the column -/
def rX : Fin 2 → EReal := ![x0, x1]

/-- the unit vector e₀ = (1, 0) or e₁ = (0, 1), as the dense constants of the reference -/
def rE (e : Fin 2) : Fin 2 → EReal :=
  match e with
  | ⟨0, _⟩ => ![c1, c0]
  | ⟨_ + 1, _⟩ => ![c0, c1]

/-- ‖(x0, x1)‖ as the reference writes it: the root of a sum started at the zero word -/
def rNorm : EReal := Ideal.sqrt (c0 + ∑ l : Fin 2, rX x0 x1 l * rX x0 x1 l)

/-- the derivative of the norm along `e`: (Σ (e · x + x · e)) · (½ / ‖x‖) -/
def rDNorm (e : Fin 2) : EReal :=
  (c0 + ∑ l : Fin 2, (rE e l * rX x0 x1 l + rX x0 x1 l * rE e l)) * Ideal.div cHalf (rNorm x0 x1)

/-- the network's input -/
def rIn : Fin 3 → EReal := ![x0, x1, rNorm x0 x1]

/-- its tangent along `e` -/
def rTan (e : Fin 2) : Fin 3 → EReal := ![rE e 0, rE e 1, rDNorm x0 x1 e]

def rH1 (i : Fin 12) : EReal := Ideal.tanh ((∑ l : Fin 3, rIn x0 x1 l * P.W1 l i) + P.b1 i)

/-- the push through the first layer: (dz + dz · h1) · (1 − h1) -/
def rD1 (e : Fin 2) (i : Fin 12) : EReal :=
  ((∑ l : Fin 3, rTan x0 x1 e l * P.W1 l i) + (∑ l : Fin 3, rTan x0 x1 e l * P.W1 l i) * rH1 P x0 x1 i)
    * (c1 - rH1 P x0 x1 i)

def rH2 (i : Fin 8) : EReal := Ideal.tanh ((∑ l : Fin 12, rH1 P x0 x1 l * P.W2 l i) + P.b2 i)

def rD2 (e : Fin 2) (i : Fin 8) : EReal :=
  ((∑ l : Fin 12, rD1 P x0 x1 e l * P.W2 l i) + (∑ l : Fin 12, rD1 P x0 x1 e l * P.W2 l i) * rH2 P x0 x1 i)
    * (c1 - rH2 P x0 x1 i)

def rPsi (i : Fin 2) : EReal := (∑ l : Fin 8, rH2 P x0 x1 l * P.W3 l i) + P.b3 i

/-- the Jacobian's column `e` -/
def rJ (e : Fin 2) (i : Fin 2) : EReal := ∑ l : Fin 8, rD2 P x0 x1 e l * P.W3 l i

/-- det J, the number the reference divides by -/
def rDet : EReal := rJ P x0 x1 0 0 * rJ P x0 x1 1 1 - rJ P x0 x1 1 0 * rJ P x0 x1 0 1

/-- adj(J) / det J, entry by entry: rows (∂ψ₁/∂x₁, −∂ψ₀/∂x₁) and (−∂ψ₁/∂x₀, ∂ψ₀/∂x₀), each over det J -/
def rInv (j k : Fin 2) : EReal :=
  match j, k with
  | ⟨0, _⟩, ⟨0, _⟩ => Ideal.div (rJ P x0 x1 1 1) (rDet P x0 x1)
  | ⟨0, _⟩, ⟨_ + 1, _⟩ => Ideal.div (-(rJ P x0 x1 1 0)) (rDet P x0 x1)
  | ⟨_ + 1, _⟩, ⟨0, _⟩ => Ideal.div (-(rJ P x0 x1 0 1)) (rDet P x0 x1)
  | ⟨_ + 1, _⟩, ⟨_ + 1, _⟩ => Ideal.div (rJ P x0 x1 0 0) (rDet P x0 x1)

/-- the switching column's coefficients (0, U_dc / 3) -/
def rCs : Fin 2 → EReal := ![c0, cS]

/-- (ψ₁, −ψ₀) -/
def rIPsi : Fin 2 → EReal := ![rPsi P x0 x1 1, -(rPsi P x0 x1 0)]

/-- the 2 × 4 coefficient matrix (−R_s, −R_s, s_k, ψ'_k ω) -/
def rRhs (k : Fin 2) : Fin 4 → EReal := ![cR, cR, rCs k, rIPsi P x0 x1 k * cW]

/-- the vector (x0, x1, x2, 1) -/
def rVec : Fin 4 → EReal := ![x0, x1, x2, c1]

/-- the right-hand side y = rhs · vec -/
def rY (k : Fin 2) : EReal := ∑ l : Fin 4, rRhs P x0 x1 k l * rVec x0 x1 x2 l

/-- the reference's result for the row, entry `j` -/
def rOut (j : Fin 2) : EReal :=
  (∑ k : Fin 2, rInv P x0 x1 j k * rY P x0 x1 x2 k) * cDT + rX x0 x1 j

end Reference

/-! ## From the argument arrays to rows and parameters -/

/-- the six weight and bias arrays read as `Params` -/
def params (a1 : (⟨2, ![3, 12]⟩ : Shape).Idx → EReal) (a2 : (⟨1, ![12]⟩ : Shape).Idx → EReal)
    (a3 : (⟨2, ![12, 8]⟩ : Shape).Idx → EReal) (a4 : (⟨1, ![8]⟩ : Shape).Idx → EReal)
    (a5 : (⟨2, ![8, 2]⟩ : Shape).Idx → EReal) (a6 : (⟨1, ![2]⟩ : Shape).Idx → EReal) : Params where
  W1 l i := a1 (ix2 l i)
  b1 i := a2 (ix1 i)
  W2 l i := a3 (ix2 l i)
  b2 i := a4 (ix1 i)
  W3 l i := a5 (ix2 l i)
  b3 i := a6 (ix1 i)

/-- the kernel's result array as ONE function of the seven argument arrays -/
def kArr (a0 : (⟨2, ![4194304, 5]⟩ : Shape).Idx → EReal) (a1 : (⟨2, ![3, 12]⟩ : Shape).Idx → EReal)
    (a2 : (⟨1, ![12]⟩ : Shape).Idx → EReal) (a3 : (⟨2, ![12, 8]⟩ : Shape).Idx → EReal) (a4 : (⟨1, ![8]⟩ : Shape).Idx → EReal)
    (a5 : (⟨2, ![8, 2]⟩ : Shape).Idx → EReal) (a6 : (⟨1, ![2]⟩ : Shape).Idx → EReal) :
    (⟨2, ![4194304, 2]⟩ : Shape).Idx → EReal := fun j =>
  kOut (params a1 a2 a3 a4 a5 a6) (a0 (ix2 (n0 := 4194304) (n1 := 5) (j 0) 0)) (a0 (ix2 (n0 := 4194304) (n1 := 5) (j 0) 1))
    (a0 (ix2 (n0 := 4194304) (n1 := 5) (j 0) 2)) (j 1)

/-- the reference's result array as ONE function of the seven argument arrays -/
def rArr (a0 : (⟨2, ![4194304, 5]⟩ : Shape).Idx → EReal) (a1 : (⟨2, ![3, 12]⟩ : Shape).Idx → EReal)
    (a2 : (⟨1, ![12]⟩ : Shape).Idx → EReal) (a3 : (⟨2, ![12, 8]⟩ : Shape).Idx → EReal) (a4 : (⟨1, ![8]⟩ : Shape).Idx → EReal)
    (a5 : (⟨2, ![8, 2]⟩ : Shape).Idx → EReal) (a6 : (⟨1, ![2]⟩ : Shape).Idx → EReal) :
    (⟨2, ![4194304, 2]⟩ : Shape).Idx → EReal := fun j =>
  rOut (params a1 a2 a3 a4 a5 a6) (a0 (ix2 (n0 := 4194304) (n1 := 5) (j 0) 0)) (a0 (ix2 (n0 := 4194304) (n1 := 5) (j 0) 1))
    (a0 (ix2 (n0 := 4194304) (n1 := 5) (j 0) 2)) (j 1)

/-- the determinant the reference divides by, one per row, as a function of the argument arrays -/
def detArr (a0 : (⟨2, ![4194304, 5]⟩ : Shape).Idx → EReal) (a1 : (⟨2, ![3, 12]⟩ : Shape).Idx → EReal)
    (a2 : (⟨1, ![12]⟩ : Shape).Idx → EReal) (a3 : (⟨2, ![12, 8]⟩ : Shape).Idx → EReal) (a4 : (⟨1, ![8]⟩ : Shape).Idx → EReal)
    (a5 : (⟨2, ![8, 2]⟩ : Shape).Idx → EReal) (a6 : (⟨1, ![2]⟩ : Shape).Idx → EReal) (r : Fin 4194304) : EReal :=
  rDet (params a1 a2 a3 a4 a5 a6) (a0 (ix2 (n0 := 4194304) (n1 := 5) r 0)) (a0 (ix2 (n0 := 4194304) (n1 := 5) r 1))

end Cert.Spec

end
-- ==== Proof.KPayOps.lean ====
/-
  The kernel body's layout operations and contractions read at one index.

  Inside the kernel the batch runs along the last axis: a block is a [rows, 16384] matrix whose column q is one row of
  the input. Every lemma here is stated over variables of the literal vector types, at explicit coordinates (ix2 p q):
  a one-row slice reads its source row; a stack of one-row pieces reads the piece its row coordinate names; a column
  [n, 1] broadcast along the lanes reads its entry at the row; a matrix product into the zero accumulator is the sum
  over the one contracted coordinate.
-/
import proofs.«109731_j50405736186087_2_alg».proof.Proof.Gen.KernelIdeal
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KPayOps

open Cert.KernelIdeal Cert.KernelIdeal.Gen Idealize.ShloMosaic Idealize.ShloMosaic.ValueIdx
open Facts₀ Facts
open scoped BigOperators

/-! ## One-row slices -/

/-- Row r of a [5, 16384] block, cut out as a [1, 16384] piece, reads the block's row r. -/
theorem slice5_apply (x : FVec Ideal S5x16384 .f32) (o : Nat) (r : Fin 5) (hr : r.val = o)
    (h : S5x16384.Slices ![o, 0] S1x16384) (q : Fin 16384) :
    extractStridedSlice S1x16384 ![o, 0] x h (ix2 (0 : Fin 1) q) = x (ix2 r q) :=
  slice2_axis0_apply o x h (0 : Fin 1) q r (by rw [hr]; rfl)

/-- Row r of a [2, 16384] block, cut out as a [1, 16384] piece, reads the block's row r. -/
theorem slice2_apply (x : FVec Ideal S2x16384 .f32) (o : Nat) (r : Fin 2) (hr : r.val = o)
    (h : S2x16384.Slices ![o, 0] S1x16384) (q : Fin 16384) :
    extractStridedSlice S1x16384 ![o, 0] x h (ix2 (0 : Fin 1) q) = x (ix2 r q) :=
  slice2_axis0_apply o x h (0 : Fin 1) q r (by rw [hr]; rfl)

/-! ## Stacks of one-row pieces -/

/-- Three [1, 16384] pieces stacked along the rows read, at (l, q), piece l at column q. -/
theorem cat3_apply (a b c : FVec Ideal S1x16384 .f32)
    (h : Shape.Concatenates [S1x16384, S1x16384, S1x16384] S3x16384 0) (l : Fin 3) (q : Fin 16384) :
    concatenate S3x16384 0 [⟨S1x16384, a⟩, ⟨S1x16384, b⟩, ⟨S1x16384, c⟩] h (ix2 l q)
      = ![a (ix2 (0 : Fin 1) q), b (ix2 (0 : Fin 1) q), c (ix2 (0 : Fin 1) q)] l := by
  have hi : ∀ (l : Fin 3) (d : Fin S1x16384.rank), d.cast (rfl : S1x16384.rank = S3x16384.rank) ≠ (0 : Fin S3x16384.rank) →
      ((ix2 (0 : Fin 1) q : S1x16384.Idx) d).val = ((ix2 l q : S3x16384.Idx) (d.cast rfl)).val := fun l d hd => by
    match d with
    | ⟨0, _⟩ => exact absurd rfl hd
    | ⟨1, _⟩ => rfl
  match l with
  | ⟨0, _⟩ =>
    exact concatenate_apply_piece (0 : Fin S3x16384.rank) [⟨S1x16384, a⟩, ⟨S1x16384, b⟩, ⟨S1x16384, c⟩] h (ix2 (⟨0, by decide⟩ : Fin 3) q) 0 (show (0 : Nat) < 3 from by decide) S1x16384 a rfl rfl 0 rfl
      (ix2 (0 : Fin 1) q) (hi _) rfl
  | ⟨1, _⟩ =>
    exact concatenate_apply_piece (0 : Fin S3x16384.rank) [⟨S1x16384, a⟩, ⟨S1x16384, b⟩, ⟨S1x16384, c⟩] h (ix2 (⟨1, by decide⟩ : Fin 3) q) 1 (show (1 : Nat) < 3 from by decide) S1x16384 b rfl rfl 1 rfl
      (ix2 (0 : Fin 1) q) (hi _) rfl
  | ⟨2, _⟩ =>
    exact concatenate_apply_piece (0 : Fin S3x16384.rank) [⟨S1x16384, a⟩, ⟨S1x16384, b⟩, ⟨S1x16384, c⟩] h (ix2 (⟨2, by decide⟩ : Fin 3) q) 2 (show (2 : Nat) < 3 from by decide) S1x16384 c rfl rfl 2 rfl
      (ix2 (0 : Fin 1) q) (hi _) rfl

/-- Two [1, 16384] pieces stacked along the rows read, at (l, q), piece l at column q. -/
theorem cat2_apply (a b : FVec Ideal S1x16384 .f32)
    (h : Shape.Concatenates [S1x16384, S1x16384] S2x16384 0) (l : Fin 2) (q : Fin 16384) :
    concatenate S2x16384 0 [⟨S1x16384, a⟩, ⟨S1x16384, b⟩] h (ix2 l q)
      = ![a (ix2 (0 : Fin 1) q), b (ix2 (0 : Fin 1) q)] l := by
  have hi : ∀ (l : Fin 2) (d : Fin S1x16384.rank), d.cast (rfl : S1x16384.rank = S2x16384.rank) ≠ (0 : Fin S2x16384.rank) →
      ((ix2 (0 : Fin 1) q : S1x16384.Idx) d).val = ((ix2 l q : S2x16384.Idx) (d.cast rfl)).val := fun l d hd => by
    match d with
    | ⟨0, _⟩ => exact absurd rfl hd
    | ⟨1, _⟩ => rfl
  match l with
  | ⟨0, _⟩ =>
    exact concatenate_apply_piece (0 : Fin S2x16384.rank) [⟨S1x16384, a⟩, ⟨S1x16384, b⟩] h (ix2 (⟨0, by decide⟩ : Fin 2) q) 0 (show (0 : Nat) < 2 from by decide) S1x16384 a rfl rfl 0 rfl
      (ix2 (0 : Fin 1) q) (hi _) rfl
  | ⟨1, _⟩ =>
    exact concatenate_apply_piece (0 : Fin S2x16384.rank) [⟨S1x16384, a⟩, ⟨S1x16384, b⟩] h (ix2 (⟨1, by decide⟩ : Fin 2) q) 1 (show (1 : Nat) < 2 from by decide) S1x16384 b rfl rfl 1 rfl
      (ix2 (0 : Fin 1) q) (hi _) rfl

/-! ## A column broadcast along the lanes -/

/-- An [n, 1] column broadcast to [n, m] reads, at (i, q), the column's entry i. -/
theorem bcol_apply {n m : Nat} (hn : n ≠ 1) (b : (⟨2, ![n, 1]⟩ : Shape).Idx → EReal)
    (h : (⟨2, ![n, 1]⟩ : Shape).Broadcasts ⟨2, ![n, m]⟩) (i : Fin n) (q : Fin m) :
    broadcastTo ⟨2, ![n, m]⟩ b h (ix2 i q) = b (ix2 i (0 : Fin 1)) := by
  refine broadcastTo_apply b h (ix2 i q) (ix2 i (0 : Fin 1)) fun ax => ?_
  match ax with
  | ⟨0, _⟩ =>
    show i.val = if n = 1 then 0 else i.val
    rw [if_neg hn]
  | ⟨1, _⟩ =>
    show (0 : Nat) = if (1 : Nat) = 1 then 0 else q.val
    rw [if_pos rfl]

/-! ## The three contractions -/

/-- The [12, 3] by [3, 16384] product into the zero accumulator, at (i, q): the sum over the contracted coordinate. -/
theorem mm1_apply (w : FVec Ideal S12x3 .f32) (v : FVec Ideal S3x16384 .f32) (i : Fin 12) (q : Fin 16384) :
    matmul dot_S12x3_S3x16384_S12x16384_1_0_0_1_n_n (some .fp32) w v (constant (F := Ideal) S12x16384 .f32 0x00000000#32) (ix2 i q)
      = ∑ l : Fin 3, w (ix2 i l) * v (ix2 l q) := by
  refine (Ideal.matmul_constant_zero_apply dot_S12x3_S3x16384_S12x16384_1_0_0_1_n_n (some .fp32) w v (ix2 i q)).trans ?_
  rw [← Equiv.sum_comp (contrEquiv1 dot_S12x3_S3x16384_S12x16384_1_0_0_1_n_n 3 rfl rfl).symm]
  refine Finset.sum_congr rfl fun k _ => ?_
  have hl : (dot_S12x3_S3x16384_S12x16384_1_0_0_1_n_n).lhsIdx (ix2 i q) ((contrEquiv1 dot_S12x3_S3x16384_S12x16384_1_0_0_1_n_n 3 rfl rfl).symm k) = ix2 i k := by
    funext a; apply Fin.ext
    match a with
    | ⟨0, _⟩ => rfl
    | ⟨1, _⟩ => exact (DotDims.lhsIdx_val_of_single dot_S12x3_S3x16384_S12x16384_1_0_0_1_n_n (cl := (1 : Fin 2)) rfl _ _).trans (contrEquiv1_symm_val dot_S12x3_S3x16384_S12x16384_1_0_0_1_n_n 3 rfl rfl k)
  have hr : (dot_S12x3_S3x16384_S12x16384_1_0_0_1_n_n).rhsIdx (ix2 i q) ((contrEquiv1 dot_S12x3_S3x16384_S12x16384_1_0_0_1_n_n 3 rfl rfl).symm k) = ix2 k q := by
    funext a; apply Fin.ext
    match a with
    | ⟨0, _⟩ => exact (DotDims.rhsIdx_val_of_single dot_S12x3_S3x16384_S12x16384_1_0_0_1_n_n (cr := (0 : Fin 2)) rfl _ _).trans (contrEquiv1_symm_val dot_S12x3_S3x16384_S12x16384_1_0_0_1_n_n 3 rfl rfl k)
    | ⟨1, _⟩ => rfl
  rw [hl, hr]

/-- The [8, 12] by [12, 16384] product into the zero accumulator, at (i, q): the sum over the contracted coordinate. -/
theorem mm2_apply (w : FVec Ideal S8x12 .f32) (v : FVec Ideal S12x16384 .f32) (i : Fin 8) (q : Fin 16384) :
    matmul dot_S8x12_S12x16384_S8x16384_1_0_0_1_n_n (some .fp32) w v (constant (F := Ideal) S8x16384 .f32 0x00000000#32) (ix2 i q)
      = ∑ l : Fin 12, w (ix2 i l) * v (ix2 l q) := by
  refine (Ideal.matmul_constant_zero_apply dot_S8x12_S12x16384_S8x16384_1_0_0_1_n_n (some .fp32) w v (ix2 i q)).trans ?_
  rw [← Equiv.sum_comp (contrEquiv1 dot_S8x12_S12x16384_S8x16384_1_0_0_1_n_n 12 rfl rfl).symm]
  refine Finset.sum_congr rfl fun k _ => ?_
  have hl : (dot_S8x12_S12x16384_S8x16384_1_0_0_1_n_n).lhsIdx (ix2 i q) ((contrEquiv1 dot_S8x12_S12x16384_S8x16384_1_0_0_1_n_n 12 rfl rfl).symm k) = ix2 i k := by
    funext a; apply Fin.ext
    match a with
    | ⟨0, _⟩ => rfl
    | ⟨1, _⟩ => exact (DotDims.lhsIdx_val_of_single dot_S8x12_S12x16384_S8x16384_1_0_0_1_n_n (cl := (1 : Fin 2)) rfl _ _).trans (contrEquiv1_symm_val dot_S8x12_S12x16384_S8x16384_1_0_0_1_n_n 12 rfl rfl k)
  have hr : (dot_S8x12_S12x16384_S8x16384_1_0_0_1_n_n).rhsIdx (ix2 i q) ((contrEquiv1 dot_S8x12_S12x16384_S8x16384_1_0_0_1_n_n 12 rfl rfl).symm k) = ix2 k q := by
    funext a; apply Fin.ext
    match a with
    | ⟨0, _⟩ => exact (DotDims.rhsIdx_val_of_single dot_S8x12_S12x16384_S8x16384_1_0_0_1_n_n (cr := (0 : Fin 2)) rfl _ _).trans (contrEquiv1_symm_val dot_S8x12_S12x16384_S8x16384_1_0_0_1_n_n 12 rfl rfl k)
    | ⟨1, _⟩ => rfl
  rw [hl, hr]

/-- The [2, 8] by [8, 16384] product into the zero accumulator, at (i, q): the sum over the contracted coordinate. -/
theorem mm3_apply (w : FVec Ideal S2x8 .f32) (v : FVec Ideal S8x16384 .f32) (i : Fin 2) (q : Fin 16384) :
    matmul dot_S2x8_S8x16384_S2x16384_1_0_0_1_n_n (some .fp32) w v (constant (F := Ideal) S2x16384 .f32 0x00000000#32) (ix2 i q)
      = ∑ l : Fin 8, w (ix2 i l) * v (ix2 l q) := by
  refine (Ideal.matmul_constant_zero_apply dot_S2x8_S8x16384_S2x16384_1_0_0_1_n_n (some .fp32) w v (ix2 i q)).trans ?_
  rw [← Equiv.sum_comp (contrEquiv1 dot_S2x8_S8x16384_S2x16384_1_0_0_1_n_n 8 rfl rfl).symm]
  refine Finset.sum_congr rfl fun k _ => ?_
  have hl : (dot_S2x8_S8x16384_S2x16384_1_0_0_1_n_n).lhsIdx (ix2 i q) ((contrEquiv1 dot_S2x8_S8x16384_S2x16384_1_0_0_1_n_n 8 rfl rfl).symm k) = ix2 i k := by
    funext a; apply Fin.ext
    match a with
    | ⟨0, _⟩ => rfl
    | ⟨1, _⟩ => exact (DotDims.lhsIdx_val_of_single dot_S2x8_S8x16384_S2x16384_1_0_0_1_n_n (cl := (1 : Fin 2)) rfl _ _).trans (contrEquiv1_symm_val dot_S2x8_S8x16384_S2x16384_1_0_0_1_n_n 8 rfl rfl k)
  have hr : (dot_S2x8_S8x16384_S2x16384_1_0_0_1_n_n).rhsIdx (ix2 i q) ((contrEquiv1 dot_S2x8_S8x16384_S2x16384_1_0_0_1_n_n 8 rfl rfl).symm k) = ix2 k q := by
    funext a; apply Fin.ext
    match a with
    | ⟨0, _⟩ => exact (DotDims.rhsIdx_val_of_single dot_S2x8_S8x16384_S2x16384_1_0_0_1_n_n (cr := (0 : Fin 2)) rfl _ _).trans (contrEquiv1_symm_val dot_S2x8_S8x16384_S2x16384_1_0_0_1_n_n 8 rfl rfl k)
    | ⟨1, _⟩ => rfl
  rw [hl, hr]

end Cert.KernelIdeal.KPayOps

end
-- ==== Proof.KPay1.lean ====
/-
  The forward pass of the kernel body, read at one column.

  A block column q carries one input row (x0, x1, x2, _, _) on rows 0..4. Read at (i, q), each forward payload is the
  row's scalar quantity of the specification: the two currents and the switching entry, the norm, the two hidden layers,
  the network's output psi, and the two factors 1 - h * h that the tangent pushes multiply by. The weight blocks arrive
  transposed ([out, in]) and the biases as columns ([out, 1]); blkParams reads them back as the specification's
  parameters.
-/
import proofs.«109731_j50405736186087_2_alg».proof.Proof.Gen.KernelIdeal.Skeleton
import proofs.«109731_j50405736186087_2_alg».proof.Proof.Spec
import proofs.«109731_j50405736186087_2_alg».proof.Proof.KPayOps

noncomputable section

namespace Cert.KernelIdeal.KPay

open Cert.KernelIdeal Cert.KernelIdeal.Gen Cert.KernelIdeal.KPayOps Cert.Spec
open Idealize.ShloMosaic Idealize.ShloMosaic.ValueIdx
open Facts₀ Facts
open scoped BigOperators

/-- The parameters as the kernel's blocks hold them: W1, W2, W3 transposed, the biases as columns. -/
def blkParams (w1 : Vec Ideal S12x3 .f32) (b1 : Vec Ideal S12x1 .f32) (w2 : Vec Ideal S8x12 .f32)
    (b2 : Vec Ideal S8x1 .f32) (w3 : Vec Ideal S2x8 .f32) (b3 : Vec Ideal S2x1 .f32) : Params where
  W1 l i := w1 (ix2 i l)
  b1 i := b1 (ix2 i (0 : Fin 1))
  W2 l i := w2 (ix2 i l)
  b2 i := b2 (ix2 i (0 : Fin 1))
  W3 l i := w3 (ix2 i l)
  b3 i := b3 (ix2 i (0 : Fin 1))

variable (v0 : Vec Ideal S5x16384 .f32) (w1 : Vec Ideal S12x3 .f32) (b1 : Vec Ideal S12x1 .f32)
  (w2 : Vec Ideal S8x12 .f32) (b2 : Vec Ideal S8x1 .f32) (w3 : Vec Ideal S2x8 .f32) (b3 : Vec Ideal S2x1 .f32)
  (q : Fin 16384)

/-- rows 0, 1, 2 of the input block -/
theorem pay3_apply : k0_pay3 v0 (ix2 (0 : Fin 1) q) = v0 (ix2 (0 : Fin 5) q) := by
  unfold k0_pay3 k0_pay2
  rw [shapeCast_self]
  exact slice5_apply v0 0 0 rfl _ q

theorem pay4_apply : k0_pay4 v0 (ix2 (0 : Fin 1) q) = v0 (ix2 (1 : Fin 5) q) := by
  unfold k0_pay4 k0_pay2
  rw [shapeCast_self]
  exact slice5_apply v0 1 1 rfl _ q

theorem pay5_apply : k0_pay5 v0 (ix2 (0 : Fin 1) q) = v0 (ix2 (2 : Fin 5) q) := by
  unfold k0_pay5 k0_pay2
  rw [shapeCast_self]
  exact slice5_apply v0 2 2 rfl _ q

/-- the norm of the two currents -/
theorem pay6_apply : k0_pay6 v0 (ix2 (0 : Fin 1) q) = kNorm (v0 (ix2 (0 : Fin 5) q)) (v0 (ix2 (1 : Fin 5) q)) := by
  unfold k0_pay6
  show Ideal.sqrt (k0_pay3 v0 (ix2 (0 : Fin 1) q) * k0_pay3 v0 (ix2 (0 : Fin 1) q)
    + k0_pay4 v0 (ix2 (0 : Fin 1) q) * k0_pay4 v0 (ix2 (0 : Fin 1) q)) = _
  rw [pay3_apply, pay4_apply]
  rfl

local notation "X0" => v0 (ix2 (0 : Fin 5) q)
local notation "X1" => v0 (ix2 (1 : Fin 5) q)
local notation "PP" => blkParams w1 b1 w2 b2 w3 b3

/-- the network's input (x0, x1, norm) as the stack of three one-row pieces -/
theorem in_apply (h : Shape.Concatenates [S1x16384, S1x16384, S1x16384] S3x16384 0) (l : Fin 3) :
    concatenate S3x16384 0 [⟨S1x16384, k0_pay3 v0⟩, ⟨S1x16384, k0_pay4 v0⟩, ⟨S1x16384, k0_pay6 v0⟩] h (ix2 l q)
      = kIn X0 X1 l := by
  rw [cat3_apply, pay3_apply, pay4_apply, pay6_apply]
  rfl

/-- the first hidden layer -/
theorem pay10_apply (i : Fin 12) : k0_pay10 v0 w1 b1 (ix2 i q) = kH1 PP X0 X1 i := by
  unfold k0_pay10 k0_pay7
  rw [shapeCast_self, shapeCast_self]
  show Ideal.tanh (matmul dot_S12x3_S3x16384_S12x16384_1_0_0_1_n_n (some .fp32) w1 _ (constant (F := Ideal) S12x16384 .f32 0x00000000#32) (ix2 i q)
    + broadcastTo S12x16384 b1 _ (ix2 i q)) = _
  rw [mm1_apply, bcol_apply (by decide)]
  unfold kH1
  refine congrArg Ideal.tanh (congrArg₂ (· + ·) (Finset.sum_congr rfl fun l _ => ?_) rfl)
  rw [in_apply]
  rfl

/-- the second hidden layer -/
theorem pay11_apply (i : Fin 8) : k0_pay11 v0 w1 b1 w2 b2 (ix2 i q) = kH2 PP X0 X1 i := by
  unfold k0_pay11 k0_pay8
  rw [shapeCast_self, shapeCast_self]
  show Ideal.tanh (matmul dot_S8x12_S12x16384_S8x16384_1_0_0_1_n_n (some .fp32) w2 _ (constant (F := Ideal) S8x16384 .f32 0x00000000#32) (ix2 i q)
    + broadcastTo S8x16384 b2 _ (ix2 i q)) = _
  rw [mm2_apply, bcol_apply (by decide)]
  unfold kH2
  refine congrArg Ideal.tanh (congrArg₂ (· + ·) (Finset.sum_congr rfl fun l _ => ?_) rfl)
  rw [pay10_apply v0 w1 b1 w2 b2 w3 b3 q l]
  rfl

/-- the network's output psi -/
theorem pay12_apply (i : Fin 2) : k0_pay12 v0 w1 b1 w2 b2 w3 b3 (ix2 i q) = kPsi PP X0 X1 i := by
  unfold k0_pay12 k0_pay9
  rw [shapeCast_self, shapeCast_self]
  show matmul dot_S2x8_S8x16384_S2x16384_1_0_0_1_n_n (some .fp32) w3 _ (constant (F := Ideal) S2x16384 .f32 0x00000000#32) (ix2 i q)
    + broadcastTo S2x16384 b3 _ (ix2 i q) = _
  rw [mm3_apply, bcol_apply (by decide)]
  unfold kPsi
  refine congrArg₂ (· + ·) (Finset.sum_congr rfl fun l _ => ?_) rfl
  rw [pay11_apply v0 w1 b1 w2 b2 w3 b3 q l]
  rfl

/-- the factor 1 - h1 * h1 of the push through the first layer -/
theorem pay13_apply (i : Fin 12) :
    k0_pay13 v0 w1 b1 (ix2 i q) = c1 - kH1 PP X0 X1 i * kH1 PP X0 X1 i := by
  unfold k0_pay13
  show Ideal.ofBits .f32 0x3F800000#32 - k0_pay10 v0 w1 b1 (ix2 i q) * k0_pay10 v0 w1 b1 (ix2 i q) = _
  rw [pay10_apply v0 w1 b1 w2 b2 w3 b3 q i]

/-- the factor 1 - h2 * h2 of the push through the second layer -/
theorem pay14_apply (i : Fin 8) :
    k0_pay14 v0 w1 b1 w2 b2 (ix2 i q) = c1 - kH2 PP X0 X1 i * kH2 PP X0 X1 i := by
  unfold k0_pay14
  show Ideal.ofBits .f32 0x3F800000#32 - k0_pay11 v0 w1 b1 w2 b2 (ix2 i q) * k0_pay11 v0 w1 b1 w2 b2 (ix2 i q) = _
  rw [pay11_apply v0 w1 b1 w2 b2 w3 b3 q i]

end Cert.KernelIdeal.KPay

end
-- ==== Proof.KPay2.lean ====
/-
  The two tangent pushes of the kernel body, read at one column.

  Along e0 the network's input has tangent (1, 0, x0 * (1 / norm)), along e1 it has (0, 1, x1 * (1 / norm)). Each push
  runs the tangent through the three contractions, multiplying by 1 - h1 * h1 after the first and by 1 - h2 * h2 after
  the second; read at (i, q) the result is the Jacobian entry kJ e i of the row in column q. The determinant's
  reciprocal follows from the four entries.

  The lemmas take the values the first part of the body hands over (the rows, the norm, the weight blocks, the two
  factors) as variables, each known at column q by a hypothesis.
-/
import proofs.«109731_j50405736186087_2_alg».proof.Proof.Gen.KernelIdeal.Skeleton
import proofs.«109731_j50405736186087_2_alg».proof.Proof.Spec
import proofs.«109731_j50405736186087_2_alg».proof.Proof.KPayOps

noncomputable section

namespace Cert.KernelIdeal.KPay

open Cert.KernelIdeal Cert.KernelIdeal.Gen Cert.KernelIdeal.KPayOps Cert.Spec
open Idealize.ShloMosaic Idealize.ShloMosaic.ValueIdx
open Facts₀ Facts
open scoped BigOperators

section Push

variable (P : Params) (x0 x1 : EReal) (q : Fin 16384)
  (v2 v3 v8 : FVec Ideal S1x16384 .f32) (v11 : FVec Ideal S12x3 .f32) (v15 : FVec Ideal S8x12 .f32)
  (v19 : FVec Ideal S2x8 .f32) (v35 : FVec Ideal S12x16384 .f32) (v38 : FVec Ideal S8x16384 .f32) (cst : Ideal .f32)
  (h2 : v2 (ix2 (0 : Fin 1) q) = x0) (h3 : v3 (ix2 (0 : Fin 1) q) = x1) (h8 : v8 (ix2 (0 : Fin 1) q) = kNorm x0 x1)
  (h11 : ∀ (i : Fin 12) (l : Fin 3), v11 (ix2 i l) = P.W1 l i)
  (h15 : ∀ (i : Fin 8) (l : Fin 12), v15 (ix2 i l) = P.W2 l i)
  (h19 : ∀ (i : Fin 2) (l : Fin 8), v19 (ix2 i l) = P.W3 l i)
  (h35 : ∀ i : Fin 12, v35 (ix2 i q) = c1 - kH1 P x0 x1 i * kH1 P x0 x1 i)
  (h38 : ∀ i : Fin 8, v38 (ix2 i q) = c1 - kH2 P x0 x1 i * kH2 P x0 x1 i)
  (hc : cst = c1)

include h11 h15 h19 h35 h38 in
/-- A tangent stack T that reads kTan e at column q, pushed through the three layers, reads the Jacobian's column e. -/
theorem push_apply (e : Fin 2) (T : FVec Ideal S3x16384 .f32) (hT : ∀ l : Fin 3, T (ix2 l q) = kTan x0 x1 e l) (i : Fin 2) :
    matmul dot_S2x8_S8x16384_S2x16384_1_0_0_1_n_n (some .fp32) v19
      (mulf (matmul dot_S8x12_S12x16384_S8x16384_1_0_0_1_n_n (some .fp32) v15
        (mulf (matmul dot_S12x3_S3x16384_S12x16384_1_0_0_1_n_n (some .fp32) v11 T
          (constant (F := Ideal) S12x16384 .f32 0x00000000#32)) v35)
        (constant (F := Ideal) S8x16384 .f32 0x00000000#32)) v38)
      (constant (F := Ideal) S2x16384 .f32 0x00000000#32) (ix2 i q) = kJ P x0 x1 e i := by
  rw [mm3_apply]
  unfold kJ
  refine Finset.sum_congr rfl fun l3 _ => ?_
  rw [h19, mulf_apply, mm2_apply, h38]
  unfold kD2
  refine congrArg (P.W3 l3 i * ·) (congrArg (· * _) (Finset.sum_congr rfl fun l2 _ => ?_))
  rw [h15, mulf_apply, mm1_apply, h35]
  unfold kD1
  refine congrArg (P.W2 l2 l3 * ·) (congrArg (· * _) (Finset.sum_congr rfl fun l1 _ => ?_))
  rw [h11, hT]

include h2 h8 hc in
/-- the tangent along e0: rows (1, 0, x0 * (1 / norm)) -/
theorem tan0_apply (h : Shape.Concatenates [S1x16384, S1x16384, S1x16384] S3x16384 0) (l : Fin 3) :
    concatenate S3x16384 0 [⟨S1x16384, k0_pay17 (F := Ideal)⟩, ⟨S1x16384, k0_pay16 (F := Ideal)⟩,
      ⟨S1x16384, mulf v2 (k0_pay15 v8 cst)⟩] h (ix2 l q) = kTan x0 x1 0 l := by
  rw [cat3_apply]
  have e : mulf v2 (k0_pay15 v8 cst) (ix2 (0 : Fin 1) q) = x0 * Ideal.div c1 (kNorm x0 x1) := by
    show v2 (ix2 (0 : Fin 1) q) * Ideal.div cst (v8 (ix2 (0 : Fin 1) q)) = _
    rw [h2, h8, hc]
  rw [e]
  rfl

include h3 h8 hc in
/-- the tangent along e1: rows (0, 1, x1 * (1 / norm)) -/
theorem tan1_apply (h : Shape.Concatenates [S1x16384, S1x16384, S1x16384] S3x16384 0) (l : Fin 3) :
    concatenate S3x16384 0 [⟨S1x16384, k0_pay16 (F := Ideal)⟩, ⟨S1x16384, k0_pay17 (F := Ideal)⟩,
      ⟨S1x16384, mulf v3 (k0_pay15 v8 cst)⟩] h (ix2 l q) = kTan x0 x1 1 l := by
  rw [cat3_apply]
  have e : mulf v3 (k0_pay15 v8 cst) (ix2 (0 : Fin 1) q) = x1 * Ideal.div c1 (kNorm x0 x1) := by
    show v3 (ix2 (0 : Fin 1) q) * Ideal.div cst (v8 (ix2 (0 : Fin 1) q)) = _
    rw [h3, h8, hc]
  rw [e]
  rfl

include h2 h8 h11 h15 h19 h35 h38 hc in
/-- the push along e0 -/
theorem pay18_apply (i : Fin 2) : k0_pay18 v2 v8 v11 v15 v19 v35 v38 cst (ix2 i q) = kJ P x0 x1 0 i := by
  unfold k0_pay18
  exact push_apply P x0 x1 q v11 v15 v19 v35 v38 h11 h15 h19 h35 h38 0 _
    (fun l => tan0_apply x0 x1 q v2 v8 cst h2 h8 hc _ l) i

include h3 h8 h11 h15 h19 h35 h38 hc in
/-- the push along e1 -/
theorem pay19_apply (i : Fin 2) : k0_pay19 v3 v8 v11 v15 v19 v35 v38 cst (ix2 i q) = kJ P x0 x1 1 i := by
  unfold k0_pay19
  exact push_apply P x0 x1 q v11 v15 v19 v35 v38 h11 h15 h19 h35 h38 1 _
    (fun l => tan1_apply x0 x1 q v3 v8 cst h3 h8 hc _ l) i

include h2 h8 h11 h15 h19 h35 h38 hc in
/-- the Jacobian's four entries as one-row pieces -/
theorem pay20_apply : k0_pay20 v2 v8 v11 v15 v19 v35 v38 cst (ix2 (0 : Fin 1) q) = kJ P x0 x1 0 0 := by
  unfold k0_pay20
  exact (slice2_apply _ 0 0 rfl _ q).trans (pay18_apply P x0 x1 q v2 v8 v11 v15 v19 v35 v38 cst h2 h8 h11 h15 h19 h35 h38 hc 0)

include h2 h8 h11 h15 h19 h35 h38 hc in
theorem pay21_apply : k0_pay21 v2 v8 v11 v15 v19 v35 v38 cst (ix2 (0 : Fin 1) q) = kJ P x0 x1 0 1 := by
  unfold k0_pay21
  exact (slice2_apply _ 1 1 rfl _ q).trans (pay18_apply P x0 x1 q v2 v8 v11 v15 v19 v35 v38 cst h2 h8 h11 h15 h19 h35 h38 hc 1)

include h3 h8 h11 h15 h19 h35 h38 hc in
theorem pay22_apply : k0_pay22 v3 v8 v11 v15 v19 v35 v38 cst (ix2 (0 : Fin 1) q) = kJ P x0 x1 1 0 := by
  unfold k0_pay22
  exact (slice2_apply _ 0 0 rfl _ q).trans (pay19_apply P x0 x1 q v3 v8 v11 v15 v19 v35 v38 cst h3 h8 h11 h15 h19 h35 h38 hc 0)

include h3 h8 h11 h15 h19 h35 h38 hc in
theorem pay23_apply : k0_pay23 v3 v8 v11 v15 v19 v35 v38 cst (ix2 (0 : Fin 1) q) = kJ P x0 x1 1 1 := by
  unfold k0_pay23
  exact (slice2_apply _ 1 1 rfl _ q).trans (pay19_apply P x0 x1 q v3 v8 v11 v15 v19 v35 v38 cst h3 h8 h11 h15 h19 h35 h38 hc 1)

include h2 h3 h8 h11 h15 h19 h35 h38 hc in
/-- the reciprocal of the determinant -/
theorem pay24_apply : k0_pay24 v2 v3 v8 v11 v15 v19 v35 v38 cst (ix2 (0 : Fin 1) q) = Ideal.div c1 (kDet P x0 x1) := by
  unfold k0_pay24
  show Ideal.div (Ideal.ofBits .f32 0x3F800000#32)
    (k0_pay20 v2 v8 v11 v15 v19 v35 v38 cst (ix2 (0 : Fin 1) q) * k0_pay23 v3 v8 v11 v15 v19 v35 v38 cst (ix2 (0 : Fin 1) q)
      - k0_pay22 v3 v8 v11 v15 v19 v35 v38 cst (ix2 (0 : Fin 1) q) * k0_pay21 v2 v8 v11 v15 v19 v35 v38 cst (ix2 (0 : Fin 1) q)) = _
  rw [pay20_apply P x0 x1 q v2 v8 v11 v15 v19 v35 v38 cst h2 h8 h11 h15 h19 h35 h38 hc,
    pay21_apply P x0 x1 q v2 v8 v11 v15 v19 v35 v38 cst h2 h8 h11 h15 h19 h35 h38 hc,
    pay22_apply P x0 x1 q v3 v8 v11 v15 v19 v35 v38 cst h3 h8 h11 h15 h19 h35 h38 hc,
    pay23_apply P x0 x1 q v3 v8 v11 v15 v19 v35 v38 cst h3 h8 h11 h15 h19 h35 h38 hc]
  rfl

end Push

end Cert.KernelIdeal.KPay

end
-- ==== Proof.KPay3.lean ====
/-
  The closing arithmetic of the kernel body at one column, and the whole payload.

  From the Jacobian entries, psi and the row, the body forms the right-hand side (kY0, kY1), applies the adjugate, multiplies by
  the determinant's reciprocal and by the time step, and adds the two currents back. Put together with the forward pass and the
  two pushes, the one stored value of the body, read at (j, q), is kOut of column q's row, entry j.
-/
import proofs.«109731_j50405736186087_2_alg».proof.Proof.KPay1
import proofs.«109731_j50405736186087_2_alg».proof.Proof.KPay2

noncomputable section

namespace Cert.KernelIdeal.KPay

open Cert.KernelIdeal Cert.KernelIdeal.Gen Cert.KernelIdeal.KPayOps Cert.Spec
open Idealize.ShloMosaic Idealize.ShloMosaic.ValueIdx
open Facts₀ Facts
open scoped BigOperators

section Solve

variable (P : Params) (x0 x1 x2 : EReal) (q : Fin 16384)
  (v2 v3 v4 v8 : FVec Ideal S1x16384 .f32) (v11 : FVec Ideal S12x3 .f32) (v15 : FVec Ideal S8x12 .f32)
  (v19 : FVec Ideal S2x8 .f32) (v32 : FVec Ideal S2x16384 .f32) (v35 : FVec Ideal S12x16384 .f32)
  (v38 : FVec Ideal S8x16384 .f32) (cst : Ideal .f32)
  (h2 : v2 (ix2 (0 : Fin 1) q) = x0) (h3 : v3 (ix2 (0 : Fin 1) q) = x1) (h4 : v4 (ix2 (0 : Fin 1) q) = x2)
  (h8 : v8 (ix2 (0 : Fin 1) q) = kNorm x0 x1)
  (h11 : ∀ (i : Fin 12) (l : Fin 3), v11 (ix2 i l) = P.W1 l i)
  (h15 : ∀ (i : Fin 8) (l : Fin 12), v15 (ix2 i l) = P.W2 l i)
  (h19 : ∀ (i : Fin 2) (l : Fin 8), v19 (ix2 i l) = P.W3 l i)
  (h32 : ∀ i : Fin 2, v32 (ix2 i q) = kPsi P x0 x1 i)
  (h35 : ∀ i : Fin 12, v35 (ix2 i q) = c1 - kH1 P x0 x1 i * kH1 P x0 x1 i)
  (h38 : ∀ i : Fin 8, v38 (ix2 i q) = c1 - kH2 P x0 x1 i * kH2 P x0 x1 i)
  (hc : cst = c1)

include h2 h3 in
/-- the resistive term -R_s (x0 + x1) -/
theorem pay25_apply : k0_pay25 v2 v3 (ix2 (0 : Fin 1) q) = cR * (x0 + x1) := by
  unfold k0_pay25
  show Ideal.ofBits .f32 0xBE3851EC#32 * (v2 (ix2 (0 : Fin 1) q) + v3 (ix2 (0 : Fin 1) q)) = _
  rw [h2, h3]

include h2 h3 h32 in
/-- the right-hand side's first entry -/
theorem pay26_apply : k0_pay26 v2 v3 v32 (ix2 (0 : Fin 1) q) = kY0 P x0 x1 := by
  unfold k0_pay26
  show k0_pay25 v2 v3 (ix2 (0 : Fin 1) q)
    + extractStridedSlice S1x16384 ![1, 0] v32 _ (ix2 (0 : Fin 1) q) * Ideal.ofBits .f32 0x446B9E94#32 = _
  rw [pay25_apply x0 x1 q v2 v3 h2 h3, slice2_apply v32 1 1 rfl, h32]
  rfl

include h2 h3 h4 h32 in
/-- the right-hand side's second entry -/
theorem pay27_apply : k0_pay27 v2 v3 v4 v32 (ix2 (0 : Fin 1) q) = kY1 P x0 x1 x2 := by
  unfold k0_pay27
  show (k0_pay25 v2 v3 (ix2 (0 : Fin 1) q) + Ideal.ofBits .f32 0x433AAAAB#32 * v4 (ix2 (0 : Fin 1) q))
    + (Ideal.ofBits .f32 0x00000000#32 - extractStridedSlice S1x16384 ![0, 0] v32 _ (ix2 (0 : Fin 1) q))
      * Ideal.ofBits .f32 0x446B9E94#32 = _
  rw [pay25_apply x0 x1 q v2 v3 h2 h3, slice2_apply v32 0 0 rfl, h32, h4]
  rfl

include h2 h3 h4 h8 h11 h15 h19 h32 h35 h38 hc in
/-- the adjugate's first row applied to the right-hand side -/
theorem pay28_apply : k0_pay28 v2 v3 v4 v8 v11 v15 v19 v32 v35 v38 cst (ix2 (0 : Fin 1) q)
    = kJ P x0 x1 1 1 * kY0 P x0 x1 - kJ P x0 x1 1 0 * kY1 P x0 x1 x2 := by
  unfold k0_pay28
  show k0_pay23 v3 v8 v11 v15 v19 v35 v38 cst (ix2 (0 : Fin 1) q) * k0_pay26 v2 v3 v32 (ix2 (0 : Fin 1) q)
    - k0_pay22 v3 v8 v11 v15 v19 v35 v38 cst (ix2 (0 : Fin 1) q) * k0_pay27 v2 v3 v4 v32 (ix2 (0 : Fin 1) q) = _
  rw [pay23_apply P x0 x1 q v3 v8 v11 v15 v19 v35 v38 cst h3 h8 h11 h15 h19 h35 h38 hc, pay22_apply P x0 x1 q v3 v8 v11 v15 v19 v35 v38 cst h3 h8 h11 h15 h19 h35 h38 hc,
    pay26_apply P x0 x1 q v2 v3 v32 h2 h3 h32, pay27_apply P x0 x1 x2 q v2 v3 v4 v32 h2 h3 h4 h32]

end Solve

section Store

variable (P : Params) (x0 x1 x2 : EReal) (q : Fin 16384)
  (v2 v3 v57 v58 v65 v73 v81 v84 : FVec Ideal S1x16384 .f32)
  (h2 : v2 (ix2 (0 : Fin 1) q) = x0) (h3 : v3 (ix2 (0 : Fin 1) q) = x1)
  (h57 : v57 (ix2 (0 : Fin 1) q) = kJ P x0 x1 0 0) (h58 : v58 (ix2 (0 : Fin 1) q) = kJ P x0 x1 0 1)
  (h65 : v65 (ix2 (0 : Fin 1) q) = Ideal.div c1 (kDet P x0 x1))
  (h73 : v73 (ix2 (0 : Fin 1) q) = kY0 P x0 x1) (h81 : v81 (ix2 (0 : Fin 1) q) = kY1 P x0 x1 x2)
  (h84 : v84 (ix2 (0 : Fin 1) q) = kJ P x0 x1 1 1 * kY0 P x0 x1 - kJ P x0 x1 1 0 * kY1 P x0 x1 x2)

include h2 h3 h57 h58 h65 h73 h81 h84 in
/-- the stored value: the solve times the time step, plus the two currents -/
theorem pay1_apply (j : Fin 2) : k0_pay1 v2 v3 v57 v58 v65 v73 v81 v84 (ix2 j q) = kOut P x0 x1 x2 j := by
  unfold k0_pay1
  show concatenate S2x16384 0 [⟨S1x16384, mulf v84 v65⟩,
      ⟨S1x16384, mulf (addf (mulf (subf (broadcast S1x16384 (Scalar.ofBits (F := Ideal) .f32 0x00000000#32)) v58) v73) (mulf v57 v81)) v65⟩] _ (ix2 j q)
        * Ideal.ofBits .f32 0x3851B717#32
      + concatenate S2x16384 0 [⟨S1x16384, v2⟩, ⟨S1x16384, v3⟩] _ (ix2 j q) = _
  rw [cat2_apply, cat2_apply]
  match j with
  | ⟨0, _⟩ =>
    show v84 (ix2 (0 : Fin 1) q) * v65 (ix2 (0 : Fin 1) q) * Ideal.ofBits .f32 0x3851B717#32 + v2 (ix2 (0 : Fin 1) q) = _
    rw [h84, h65, h2]
    rfl
  | ⟨1, _⟩ =>
    show ((Ideal.ofBits .f32 0x00000000#32 - v58 (ix2 (0 : Fin 1) q)) * v73 (ix2 (0 : Fin 1) q)
        + v57 (ix2 (0 : Fin 1) q) * v81 (ix2 (0 : Fin 1) q)) * v65 (ix2 (0 : Fin 1) q) * Ideal.ofBits .f32 0x3851B717#32
      + v3 (ix2 (0 : Fin 1) q) = _
    rw [h58, h73, h57, h81, h65, h3]
    rfl

end Store

/-! ## The whole payload -/

/-- The body's one stored value as a function of the seven loaded blocks. -/
def pay (x0 : Vec Ideal S5x16384 .f32) (x1 : Vec Ideal S12x3 .f32) (x2 : Vec Ideal S12x1 .f32) (x3 : Vec Ideal S8x12 .f32)
    (x4 : Vec Ideal S8x1 .f32) (x5 : Vec Ideal S2x8 .f32) (x6 : Vec Ideal S2x1 .f32) : Vec Ideal S2x16384 .f32 :=
  k0_pay1 (k0_pay3 x0) (k0_pay4 x0) (k0_pay20 (k0_pay3 x0) (k0_pay6 x0) (k0_pay7 x1) (k0_pay8 x3) (k0_pay9 x5) (k0_pay13 x0 x1 x2) (k0_pay14 x0 x1 x2 x3 x4) (Scalar.ofBits .f32 0x3F800000#32)) (k0_pay21 (k0_pay3 x0) (k0_pay6 x0) (k0_pay7 x1) (k0_pay8 x3) (k0_pay9 x5) (k0_pay13 x0 x1 x2) (k0_pay14 x0 x1 x2 x3 x4) (Scalar.ofBits .f32 0x3F800000#32)) (k0_pay24 (k0_pay3 x0) (k0_pay4 x0) (k0_pay6 x0) (k0_pay7 x1) (k0_pay8 x3) (k0_pay9 x5) (k0_pay13 x0 x1 x2) (k0_pay14 x0 x1 x2 x3 x4) (Scalar.ofBits .f32 0x3F800000#32)) (k0_pay26 (k0_pay3 x0) (k0_pay4 x0) (k0_pay12 x0 x1 x2 x3 x4 x5 x6)) (k0_pay27 (k0_pay3 x0) (k0_pay4 x0) (k0_pay5 x0) (k0_pay12 x0 x1 x2 x3 x4 x5 x6)) (k0_pay28 (k0_pay3 x0) (k0_pay4 x0) (k0_pay5 x0) (k0_pay6 x0) (k0_pay7 x1) (k0_pay8 x3) (k0_pay9 x5) (k0_pay12 x0 x1 x2 x3 x4 x5 x6) (k0_pay13 x0 x1 x2) (k0_pay14 x0 x1 x2 x3 x4) (Scalar.ofBits .f32 0x3F800000#32))

/-- Read at (j, q) it is kOut of the row in column q, with the parameters the weight and bias blocks hold. -/
theorem pay_apply (x0 : Vec Ideal S5x16384 .f32) (x1 : Vec Ideal S12x3 .f32) (x2 : Vec Ideal S12x1 .f32) (x3 : Vec Ideal S8x12 .f32)
    (x4 : Vec Ideal S8x1 .f32) (x5 : Vec Ideal S2x8 .f32) (x6 : Vec Ideal S2x1 .f32) (j : Fin 2) (q : Fin 16384) :
    pay x0 x1 x2 x3 x4 x5 x6 (ix2 j q)
      = kOut (blkParams x1 x2 x3 x4 x5 x6) (x0 (ix2 (0 : Fin 5) q)) (x0 (ix2 (1 : Fin 5) q)) (x0 (ix2 (2 : Fin 5) q)) j := by
  have h2 := pay3_apply x0 q
  have h3 := pay4_apply x0 q
  have h4 := pay5_apply x0 q
  have h8 := pay6_apply x0 q
  have h11 : ∀ (i : Fin 12) (l : Fin 3), k0_pay7 x1 (ix2 i l) = (blkParams x1 x2 x3 x4 x5 x6).W1 l i := fun i l => by
    unfold k0_pay7; rw [shapeCast_self]; rfl
  have h15 : ∀ (i : Fin 8) (l : Fin 12), k0_pay8 x3 (ix2 i l) = (blkParams x1 x2 x3 x4 x5 x6).W2 l i := fun i l => by
    unfold k0_pay8; rw [shapeCast_self]; rfl
  have h19 : ∀ (i : Fin 2) (l : Fin 8), k0_pay9 x5 (ix2 i l) = (blkParams x1 x2 x3 x4 x5 x6).W3 l i := fun i l => by
    unfold k0_pay9; rw [shapeCast_self]; rfl
  have h32 := pay12_apply x0 x1 x2 x3 x4 x5 x6 q
  have h35 := pay13_apply x0 x1 x2 x3 x4 x5 x6 q
  have h38 := pay14_apply x0 x1 x2 x3 x4 x5 x6 q
  have hc : (Scalar.ofBits (F := Ideal) .f32 0x3F800000#32 : Ideal .f32) = c1 := rfl
  unfold pay
  exact pay1_apply (blkParams x1 x2 x3 x4 x5 x6) _ _ _ q _ _ _ _ _ _ _ _ h2 h3
    (pay20_apply _ _ _ q _ _ _ _ _ _ _ _ h2 h8 h11 h15 h19 h35 h38 hc)
    (pay21_apply _ _ _ q _ _ _ _ _ _ _ _ h2 h8 h11 h15 h19 h35 h38 hc)
    (pay24_apply _ _ _ q _ _ _ _ _ _ _ _ _ h2 h3 h8 h11 h15 h19 h35 h38 hc)
    (pay26_apply _ _ _ q _ _ _ h2 h3 h32)
    (pay27_apply _ _ _ _ q _ _ _ _ h2 h3 h4 h32)
    (pay28_apply _ _ _ _ q _ _ _ _ _ _ _ _ _ _ _ h2 h3 h4 h8 h11 h15 h19 h32 h35 h38 hc) j

end Cert.KernelIdeal.KPay

end
-- ==== Proof.KBlocks.lean ====
/-
  From the body's blocks to the output array of the region.

  The region's arrays are the host's re-layouts of the arguments: the input transposed to [5, 4194304], the three weight
  matrices transposed, the three biases reshaped to columns. Grid point t stages columns t * 16384 .. t * 16384 + 16383
  of the transposed input (block (0, t)), the whole weight and bias arrays, and writes block (0, t) of the [2, 4194304]
  output. Column q of that block is row t * 16384 + q of the input, so what point t writes back is block t of kArrT,
  the specification's array with its two axes exchanged; the 256 blocks tile the output, so the output ends holding kArrT.
-/
import proofs.«109731_j50405736186087_2_alg».proof.Proof.Gen.KernelIdeal.Frame
import proofs.«109731_j50405736186087_2_alg».proof.Proof.KPay3
import Idealize.ShloMosaic.Lib.Pipeline.Value
import Idealize.ShloMosaic.Lib.ValueLayout

noncomputable section

namespace Cert.KernelIdeal.KBlocks

open Cert.KernelIdeal Cert.KernelIdeal.Gen Cert.Spec Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-! ## The arrays the region finds -/

/-- the input, transposed -/
theorem V_v0 (c : Dev nD) : (V m c main_v0 : S5x4194304.Idx → EReal)
    = transpose S5x4194304 [1, 0] (m ((c : Thread nD τ).loc main_arg0)) Gen.transposes_S4194304x5_S5x4194304_1_0 := by
  show StableHlo.after hostOps0 (fun b => m (c, b)) (Proc.devRef .tc main_v0) = _
  after_results

/-- W1, transposed -/
theorem V_v1 (c : Dev nD) : (V m c main_v1 : S12x3.Idx → EReal)
    = transpose S12x3 [1, 0] (m ((c : Thread nD τ).loc main_arg1)) Gen.transposes_S3x12_S12x3_1_0 := by
  show StableHlo.after hostOps0 (fun b => m (c, b)) (Proc.devRef .tc main_v1) = _
  after_results

/-- W2, transposed -/
theorem V_v2 (c : Dev nD) : (V m c main_v2 : S8x12.Idx → EReal)
    = transpose S8x12 [1, 0] (m ((c : Thread nD τ).loc main_arg3)) Gen.transposes_S12x8_S8x12_1_0 := by
  show StableHlo.after hostOps0 (fun b => m (c, b)) (Proc.devRef .tc main_v2) = _
  after_results

/-- W3, transposed -/
theorem V_v3 (c : Dev nD) : (V m c main_v3 : S2x8.Idx → EReal)
    = transpose S2x8 [1, 0] (m ((c : Thread nD τ).loc main_arg5)) Gen.transposes_S8x2_S2x8_1_0 := by
  show StableHlo.after hostOps0 (fun b => m (c, b)) (Proc.devRef .tc main_v3) = _
  after_results

/-- b1 as a column -/
theorem V_v4 (c : Dev nD) : (V m c main_v4 : S12x1.Idx → EReal)
    = shapeCast S12x1 (m ((c : Thread nD τ).loc main_arg2)) Gen.shapeCasts_S12_S12x1 := by
  show StableHlo.after hostOps0 (fun b => m (c, b)) (Proc.devRef .tc main_v4) = _
  after_results
  rfl

/-- b2 as a column -/
theorem V_v5 (c : Dev nD) : (V m c main_v5 : S8x1.Idx → EReal)
    = shapeCast S8x1 (m ((c : Thread nD τ).loc main_arg4)) Gen.shapeCasts_S8_S8x1 := by
  show StableHlo.after hostOps0 (fun b => m (c, b)) (Proc.devRef .tc main_v5) = _
  after_results
  rfl

/-- b3 as a column -/
theorem V_v6 (c : Dev nD) : (V m c main_v6 : S2x1.Idx → EReal)
    = shapeCast S2x1 (m ((c : Thread nD τ).loc main_arg6)) Gen.shapeCasts_S2_S2x1 := by
  show StableHlo.after hostOps0 (fun b => m (c, b)) (Proc.devRef .tc main_v6) = _
  after_results
  rfl

/-! ## The blocks -/

/-- A vector cast to a column reads, at (i, 0), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index maps over the grid: the input and the output move along their last axis with the point, every weight and bias
    window stays on its one block. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = t.val :=
  (by decide +kernel : ∀ t : Fin grid0.N, _)

/-- Column q of the input block at point t is row t * 16384 + q of the input. -/
theorem iblk0_apply (c : Dev nD) (t : Fin cfg0.N) (k : Fin 5) (q : Fin 16384) (r : Fin 4194304)
    (hr : r.val = t.val * 16384 + q.val) :
    (iblk m c 0 t : Vec Ideal S5x16384 .f32) (ix2 k q) = m ((c : Thread nD τ).loc main_arg0) (ix2 r k) := by
  have e := idx_facts t
  unfold iblk
  rw [View.read_apply]
  show V m c main_v0 (((cfg0.win 0).blk t).view.emb (ix2 k q)) = _
  have he : ((cfg0.win 0).blk t).view.emb (ix2 k q) = (ix2 k r : S5x4194304.Idx) := by
    funext a; apply Fin.ext
    match a with
    | ⟨0, _⟩ => show win0_0.index t (0 : Fin 2) * 5 + 1 * k.val = k.val; omega
    | ⟨1, _⟩ => show win0_0.index t (1 : Fin 2) * 16384 + 1 * q.val = r.val; omega
  rw [he]
  exact (congrFun (V_v0 m c) _).trans (transpose_ix2_apply _ _ k r)

/-- the W1 block is W1 transposed -/
theorem iblk1_apply (c : Dev nD) (t : Fin cfg0.N) (i : Fin 12) (l : Fin 3) :
    (iblk m c 1 t : Vec Ideal S12x3 .f32) (ix2 i l) = m ((c : Thread nD τ).loc main_arg1) (ix2 l i) := by
  have e := idx_facts t
  unfold iblk
  rw [View.read_apply]
  show V m c main_v1 (((cfg0.win 1).blk t).view.emb (ix2 i l)) = _
  have he : ((cfg0.win 1).blk t).view.emb (ix2 i l) = (ix2 i l : S12x3.Idx) := by
    funext a; apply Fin.ext
    match a with
    | ⟨0, _⟩ => show win0_1.index t (0 : Fin 2) * 12 + 1 * i.val = i.val; omega
    | ⟨1, _⟩ => show win0_1.index t (1 : Fin 2) * 3 + 1 * l.val = l.val; omega
  rw [he]
  exact (congrFun (V_v1 m c) _).trans (transpose_ix2_apply _ _ i l)

/-- the W2 block is W2 transposed -/
theorem iblk3_apply (c : Dev nD) (t : Fin cfg0.N) (i : Fin 8) (l : Fin 12) :
    (iblk m c 3 t : Vec Ideal S8x12 .f32) (ix2 i l) = m ((c : Thread nD τ).loc main_arg3) (ix2 l i) := by
  have e := idx_facts t
  unfold iblk
  rw [View.read_apply]
  show V m c main_v2 (((cfg0.win 3).blk t).view.emb (ix2 i l)) = _
  have he : ((cfg0.win 3).blk t).view.emb (ix2 i l) = (ix2 i l : S8x12.Idx) := by
    funext a; apply Fin.ext
    match a with
    | ⟨0, _⟩ => show win0_3.index t (0 : Fin 2) * 8 + 1 * i.val = i.val; omega
    | ⟨1, _⟩ => show win0_3.index t (1 : Fin 2) * 12 + 1 * l.val = l.val; omega
  rw [he]
  exact (congrFun (V_v2 m c) _).trans (transpose_ix2_apply _ _ i l)

/-- the W3 block is W3 transposed -/
theorem iblk5_apply (c : Dev nD) (t : Fin cfg0.N) (i : Fin 2) (l : Fin 8) :
    (iblk m c 5 t : Vec Ideal S2x8 .f32) (ix2 i l) = m ((c : Thread nD τ).loc main_arg5) (ix2 l i) := by
  have e := idx_facts t
  unfold iblk
  rw [View.read_apply]
  show V m c main_v3 (((cfg0.win 5).blk t).view.emb (ix2 i l)) = _
  have he : ((cfg0.win 5).blk t).view.emb (ix2 i l) = (ix2 i l : S2x8.Idx) := by
    funext a; apply Fin.ext
    match a with
    | ⟨0, _⟩ => show win0_5.index t (0 : Fin 2) * 2 + 1 * i.val = i.val; omega
    | ⟨1, _⟩ => show win0_5.index t (1 : Fin 2) * 8 + 1 * l.val = l.val; omega
  rw [he]
  exact (congrFun (V_v3 m c) _).trans (transpose_ix2_apply _ _ i l)

/-- the b1 block is b1 as a column -/
theorem iblk2_apply (c : Dev nD) (t : Fin cfg0.N) (i : Fin 12) :
    (iblk m c 2 t : Vec Ideal S12x1 .f32) (ix2 i (0 : Fin 1)) = m ((c : Thread nD τ).loc main_arg2) (ix1 i) := by
  have e := idx_facts t
  unfold iblk
  rw [View.read_apply]
  show V m c main_v4 (((cfg0.win 2).blk t).view.emb (ix2 i (0 : Fin 1))) = _
  have he : ((cfg0.win 2).blk t).view.emb (ix2 i (0 : Fin 1)) = (ix2 i (0 : Fin 1) : S12x1.Idx) := by
    funext a; apply Fin.ext
    match a with
    | ⟨0, _⟩ => show win0_2.index t (0 : Fin 2) * 12 + 1 * i.val = i.val; omega
    | ⟨1, _⟩ => show win0_2.index t (1 : Fin 2) * 1 + 1 * 0 = 0; omega
  rw [he]
  exact (congrFun (V_v4 m c) _).trans (shapeCast_a_a1_apply _ _ i (0 : Fin 1))

/-- the b2 block is b2 as a column -/
theorem iblk4_apply (c : Dev nD) (t : Fin cfg0.N) (i : Fin 8) :
    (iblk m c 4 t : Vec Ideal S8x1 .f32) (ix2 i (0 : Fin 1)) = m ((c : Thread nD τ).loc main_arg4) (ix1 i) := by
  have e := idx_facts t
  unfold iblk
  rw [View.read_apply]
  show V m c main_v5 (((cfg0.win 4).blk t).view.emb (ix2 i (0 : Fin 1))) = _
  have he : ((cfg0.win 4).blk t).view.emb (ix2 i (0 : Fin 1)) = (ix2 i (0 : Fin 1) : S8x1.Idx) := by
    funext a; apply Fin.ext
    match a with
    | ⟨0, _⟩ => show win0_4.index t (0 : Fin 2) * 8 + 1 * i.val = i.val; omega
    | ⟨1, _⟩ => show win0_4.index t (1 : Fin 2) * 1 + 1 * 0 = 0; omega
  rw [he]
  exact (congrFun (V_v5 m c) _).trans (shapeCast_a_a1_apply _ _ i (0 : Fin 1))

/-- the b3 block is b3 as a column -/
theorem iblk6_apply (c : Dev nD) (t : Fin cfg0.N) (i : Fin 2) :
    (iblk m c 6 t : Vec Ideal S2x1 .f32) (ix2 i (0 : Fin 1)) = m ((c : Thread nD τ).loc main_arg6) (ix1 i) := by
  have e := idx_facts t
  unfold iblk
  rw [View.read_apply]
  show V m c main_v6 (((cfg0.win 6).blk t).view.emb (ix2 i (0 : Fin 1))) = _
  have he : ((cfg0.win 6).blk t).view.emb (ix2 i (0 : Fin 1)) = (ix2 i (0 : Fin 1) : S2x1.Idx) := by
    funext a; apply Fin.ext
    match a with
    | ⟨0, _⟩ => show win0_6.index t (0 : Fin 2) * 2 + 1 * i.val = i.val; omega
    | ⟨1, _⟩ => show win0_6.index t (1 : Fin 2) * 1 + 1 * 0 = 0; omega
  rw [he]
  exact (congrFun (V_v6 m c) _).trans (shapeCast_a_a1_apply _ _ i (0 : Fin 1))

/-! ## What a point writes back -/

/-- Two parameter records with the same entries are the same record. -/
theorem params_ext (P Q : Params) (h1 : ∀ l i, P.W1 l i = Q.W1 l i) (h2 : ∀ i, P.b1 i = Q.b1 i)
    (h3 : ∀ l i, P.W2 l i = Q.W2 l i) (h4 : ∀ i, P.b2 i = Q.b2 i) (h5 : ∀ l i, P.W3 l i = Q.W3 l i)
    (h6 : ∀ i, P.b3 i = Q.b3 i) : P = Q := by
  cases P; cases Q
  simp only [Params.mk.injEq]
  exact ⟨funext fun l => funext fun i => h1 l i, funext h2, funext fun l => funext fun i => h3 l i, funext h4,
    funext fun l => funext fun i => h5 l i, funext h6⟩

/-- The parameters the weight and bias blocks hold at any point are the arguments' parameters. -/
theorem blkParams_eq (c : Dev nD) (t : Fin cfg0.N) :
    KPay.blkParams (iblk m c 1 t) (iblk m c 2 t) (iblk m c 3 t) (iblk m c 4 t) (iblk m c 5 t) (iblk m c 6 t)
      = params (m ((c : Thread nD τ).loc main_arg1)) (m ((c : Thread nD τ).loc main_arg2))
          (m ((c : Thread nD τ).loc main_arg3)) (m ((c : Thread nD τ).loc main_arg4))
          (m ((c : Thread nD τ).loc main_arg5)) (m ((c : Thread nD τ).loc main_arg6)) :=
  params_ext _ _ (fun l i => iblk1_apply m c t i l) (fun i => iblk2_apply m c t i)
    (fun l i => iblk3_apply m c t i l) (fun i => iblk4_apply m c t i)
    (fun l i => iblk5_apply m c t i l) (fun i => iblk6_apply m c t i)

/-- The specification's result array with its two axes exchanged: entry (j, r) is kOut of row r, entry j. -/
def kArrT (a0 : (⟨2, ![4194304, 5]⟩ : Shape).Idx → EReal) (a1 : (⟨2, ![3, 12]⟩ : Shape).Idx → EReal)
    (a2 : (⟨1, ![12]⟩ : Shape).Idx → EReal) (a3 : (⟨2, ![12, 8]⟩ : Shape).Idx → EReal) (a4 : (⟨1, ![8]⟩ : Shape).Idx → EReal)
    (a5 : (⟨2, ![8, 2]⟩ : Shape).Idx → EReal) (a6 : (⟨1, ![2]⟩ : Shape).Idx → EReal) :
    (⟨2, ![2, 4194304]⟩ : Shape).Idx → EReal := fun i =>
  kOut (params a1 a2 a3 a4 a5 a6) (a0 (ix2 (n0 := 4194304) (n1 := 5) (i 1) 0)) (a0 (ix2 (n0 := 4194304) (n1 := 5) (i 1) 1))
    (a0 (ix2 (n0 := 4194304) (n1 := 5) (i 1) 2)) (i 0)

theorem hz : (![0, 0] : Fin 2 → Nat) = fun _ => 0 := funext fun a => by fin_cases a <;> rfl

/-- What point t writes back to the output is block t of kArrT of the arguments. -/
theorem flushed_eq (c : Dev nD) (t : Fin cfg0.N) :
    (dats m 0 c).flushed 7 t = ((cfg0.win 7).blk t).view.read (Elt Ideal)
      (kArrT (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6))) := by
  show (cfg0.win 7).cut (grid0.coords t) ((dats m 0 c).after 7 t) = _
  rw [after0_7]
  unfold out0_7
  rw [View.canon_unit_zero hz]
  simp only [View.ld_unit_zero (S := S5x16384) hz, View.ld_unit_zero (S := S12x3) hz, View.ld_unit_zero (S := S12x1) hz,
    View.ld_unit_zero (S := S8x12) hz, View.ld_unit_zero (S := S8x1) hz, View.ld_unit_zero (S := S2x8) hz,
    View.ld_unit_zero (S := S2x1) hz]
  have e := idx_facts t
  have hN : t.val < 256 := lt_of_lt_of_eq t.isLt N_0
  funext y
  have hy0 : (y 0).val < 2 := (y 0).isLt
  have hy1 : (y 1).val < 16384 := (y 1).isLt
  have hy : y = (ix2 (⟨(y 0).val, hy0⟩ : Fin 2) (⟨(y 1).val, hy1⟩ : Fin 16384) : S2x16384.Idx) := by
    funext a
    match a with
    | ⟨0, _⟩ => rfl
    | ⟨1, _⟩ => rfl
  generalize (⟨(y 0).val, hy0⟩ : Fin 2) = j at hy
  generalize (⟨(y 1).val, hy1⟩ : Fin 16384) = q at hy
  subst hy
  have hr : t.val * 16384 + q.val < 4194304 := by have := q.isLt; omega
  show KPay.pay (iblk m c 0 t) (iblk m c 1 t) (iblk m c 2 t) (iblk m c 3 t) (iblk m c 4 t) (iblk m c 5 t) (iblk m c 6 t) (ix2 j q)
    = kArrT _ _ _ _ _ _ _ (((cfg0.win 7).blk t).view.emb (ix2 j q))
  have he : ((cfg0.win 7).blk t).view.emb (ix2 j q) = (ix2 j (⟨t.val * 16384 + q.val, hr⟩ : Fin 4194304) : S2x4194304.Idx) := by
    funext a; apply Fin.ext
    match a with
    | ⟨0, _⟩ => show win0_7.index t (0 : Fin 2) * 2 + 1 * j.val = j.val; omega
    | ⟨1, _⟩ => show win0_7.index t (1 : Fin 2) * 16384 + 1 * q.val = t.val * 16384 + q.val; omega
  rw [he]
  refine (KPay.pay_apply (iblk m c 0 t) (iblk m c 1 t) (iblk m c 2 t) (iblk m c 3 t) (iblk m c 4 t) (iblk m c 5 t) (iblk m c 6 t) j q).trans ?_
  rw [blkParams_eq m c t, iblk0_apply m c t 0 q ⟨t.val * 16384 + q.val, hr⟩ rfl, iblk0_apply m c t 1 q ⟨t.val * 16384 + q.val, hr⟩ rfl,
    iblk0_apply m c t 2 q ⟨t.val * 16384 + q.val, hr⟩ rfl]
  rfl

/-! ## The blocks tile the output -/

/-- An index of the output is in point t's block iff each coordinate is in the block's range on its axis. -/
theorem mem_blk (t : Fin cfg0.N) (i : S2x4194304.Idx) :
    i ∈ ((cfg0.win 7).blk t).view.set ↔ ∀ a : Fin 2, win0_7.index t a * S2x16384.size a ≤ (i a).val
      ∧ (i a).val < win0_7.index t a * S2x16384.size a + S2x16384.size a := by
  show i ∈ ((View.whole main_v7).slice (win0_7.rect t)).set ↔ _
  rw [View.set_slice_whole, Rect.mem_set_unit]
  exact Iff.rfl

/-- Column r of the output lies in the block of point r / 16384. -/
theorem cover (i : S2x4194304.Idx) :
    ∃ t : Fin cfg0.N, (cfg0.win 7).flush t = true ∧ i ∈ ((cfg0.win 7).blk t).view.set := by
  have hi0 : (i 0).val < 2 := (i 0).isLt
  have hi1 : (i 1).val < 4194304 := (i 1).isLt
  have hN : cfg0.N = 256 := N_0
  let t : Fin cfg0.N := ⟨(i 1).val / 16384, by rw [hN]; omega⟩
  have ht : t.val = (i 1).val / 16384 := rfl
  have e := idx_facts t
  refine ⟨t, flush0_7 t, ?_⟩
  rw [mem_blk]
  intro a
  match a with
  | ⟨0, _⟩ =>
    show win0_7.index t (0 : Fin 2) * 2 ≤ (i 0).val ∧ (i 0).val < win0_7.index t (0 : Fin 2) * 2 + 2
    omega
  | ⟨1, _⟩ =>
    show win0_7.index t (1 : Fin 2) * 16384 ≤ (i 1).val ∧ (i 1).val < win0_7.index t (1 : Fin 2) * 16384 + 16384
    omega

/-- The region's output array after the run. -/
theorem final (c : Dev nD) : (dats m 0 c).arrAt 7 cfg0.N
    = kArrT (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) :=
  (dats m 0 c).arrAt_eq_of_cover 7 _ (fun t _ => flushed_eq m c t) cover

end Cert.KernelIdeal.KBlocks

end
-- ==== Proof.KValue.lean ====
/-
  The kernel program's result array.

  After the region, one host operation exchanges the two axes of the region's [2, 4194304] output. That output holds kArrT of
  the arguments (the blocks tile it), and kArrT with its axes exchanged is the specification's kArr; the argument arrays are
  never written. So every weakly fair execution ends with the result at kArr of the arguments, whatever the memory it starts from.
-/
import proofs.«109731_j50405736186087_2_alg».proof.Proof.KBlocks

noncomputable section

namespace Cert.KernelIdeal.KValue

open Cert.KernelIdeal Cert.KernelIdeal.Gen Cert.Spec Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- kArrT with its two axes exchanged is kArr. -/
theorem transpose_kArrT (a0 : (⟨2, ![4194304, 5]⟩ : Shape).Idx → EReal) (a1 : (⟨2, ![3, 12]⟩ : Shape).Idx → EReal)
    (a2 : (⟨1, ![12]⟩ : Shape).Idx → EReal) (a3 : (⟨2, ![12, 8]⟩ : Shape).Idx → EReal) (a4 : (⟨1, ![8]⟩ : Shape).Idx → EReal)
    (a5 : (⟨2, ![8, 2]⟩ : Shape).Idx → EReal) (a6 : (⟨1, ![2]⟩ : Shape).Idx → EReal)
    (h : S2x4194304.Transposes [1, 0] S4194304x2) :
    transpose S4194304x2 [1, 0] (KBlocks.kArrT a0 a1 a2 a3 a4 a5 a6) h = kArr a0 a1 a2 a3 a4 a5 a6 := by
  funext j
  obtain ⟨r, e, rfl⟩ : ∃ (r : Fin 4194304) (e : Fin 2), j = ix2 r e := ⟨j 0, j 1, eq_ix2 j⟩
  rw [transpose_ix2_apply]
  rfl

/-- What the host operation after the region leaves in the result buffer. -/
theorem tail_v8 (c : Dev nD) :
    Pipeline.afterTail₀ cfgs (dats m) 0 (V0 m) [hostOps1] c main_v8 = kArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  unfold Pipeline.afterTail₀
  show StableHlo.after hostOps1 _ (Proc.devRef .tc main_v8) = _
  after_results
  have e : Pipeline.withArrays (cfgs 0).spec c (V0 m c) (fun w => (dats m 0 c).arrAt w (cfgs 0).N) (Proc.devRef .tc main_v7)
      = KBlocks.kArrT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
    (Pipeline.withArrays_arr spec0 launch0.win.arr_inj c _ _ 7).trans (KBlocks.final m c)
  rw [e]
  exact transpose_kArrT _ _ _ _ _ _ _ _

/-- Every weakly fair execution of the kernel program, from any memory with zero counters, terminates without a fault with
    the result buffer at kArr of the argument arrays and the argument arrays as they were. -/
theorem run : θ_run (defs (F := Ideal)) (onTc (τ := τ) (main (F := Ideal))) ⟨m, fun _ => 0, ρ⟩ (fun r => ∀ c : Dev nD,
      r.2.mem ((c.tc : Thread nD τ).loc main_v8) = kArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v8 (Pipeline.mem_restRefs_of main_v8 (by decide) (by decide))).trans (tail_v8 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩) (run_main m ρ)

end Cert.KernelIdeal.KValue

end
-- ==== Proof.RRunOps.lean ====
/-
  The reference program's @main as a list of its host operations, in order.

  @main is 121 plain operations and two calls of the outlined function @norm, which computes, row by row, the root of a
  row's sum of squares and the derivative of that root along a direction: fifteen operations (three products, a sum, two
  row sums each from its own zero, two re-shapes of the sums to columns, the root, the constant one half, its quotient by
  the root, and the product of the second sum by that quotient). Each call's fifteen operations stand at the call's place
  over that call's own buffers, the first call at the direction (1, 0), the second at (0, 1): 151 operations in all.
  `main_eq` says that @main is exactly this straight line.
-/
import proofs.«109731_j50405736186087_2_alg».proof.Proof.Gen.ReferenceIdeal
import Idealize.ShloMosaic.Lib.StableHlo.Run

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

/-- @main's 151 operations, in order: operations 1–7 the constant tables, the slice of the two currents and the two
    directions broadcast to every row; 8–22 the first call of @norm (at the direction (1, 0)); 23–53 the network and its
    push along that direction; 54–68 the second call of @norm (at the direction (0, 1)); 69–99 the network and its push
    along that direction; 100–151 the Jacobian's assembly, its determinant and entrywise quotient, the right-hand side,
    the two contractions, the scaling by the time step and the final sum. -/
abbrev ops : List (HloOp τ sig (Elt F)) :=
  [ nullary main_cst (fun i => FloatOps.ofBits .f32 (lit0 (S2.rowMajor i))),
    nullary main_cst_0 (fun i => FloatOps.ofBits .f32 (lit1 (S2.rowMajor i))),
    nullary main_cst_1 (fun i => FloatOps.ofBits .f32 (lit2 (S2x1.rowMajor i))),
    unary main_cst_1 main_v0 (broadcastInDim S1x2x1 ![1, 2] bcast_S2x1_S1x2x1_1_2 : (⟨S2x1, .f32⟩ : BufTy).Contents (Elt F) → (⟨S1x2x1, .f32⟩ : BufTy).Contents (Elt F)),
    unary main_arg0 main_v1 ((extractStridedSlice S4194304x2 ![0, 0] · slices_S4194304x5_S4194304x2_0_0) : (⟨S4194304x5, .f32⟩ : BufTy).Contents (Elt F) → (⟨S4194304x2, .f32⟩ : BufTy).Contents (Elt F)),
    unary main_cst main_v2 (broadcastInDim S4194304x2 ![1] bcast_S2_S4194304x2_1 : (⟨S2, .f32⟩ : BufTy).Contents (Elt F) → (⟨S4194304x2, .f32⟩ : BufTy).Contents (Elt F)),
    unary main_cst_0 main_v3 (broadcastInDim S4194304x2 ![1] bcast_S2_S4194304x2_1 : (⟨S2, .f32⟩ : BufTy).Contents (Elt F) → (⟨S4194304x2, .f32⟩ : BufTy).Contents (Elt F)),
    TRef.binary (.of main_v1 : TRef sig ⟨S4194304x2, .f32⟩) (.of main_v1 : TRef sig ⟨S4194304x2, .f32⟩) main_call0.v0 mulf,
    TRef.binary (.of main_v2 : TRef sig ⟨S4194304x2, .f32⟩) (.of main_v1 : TRef sig ⟨S4194304x2, .f32⟩) main_call0.v1 mulf,
    TRef.binary (.of main_v1 : TRef sig ⟨S4194304x2, .f32⟩) (.of main_v2 : TRef sig ⟨S4194304x2, .f32⟩) main_call0.v2 mulf,
    TRef.binary main_call0.v1 main_call0.v2 main_call0.v3 addf,
    TRef.nullary main_call0.cst (constant S_ .f32 0x00000000#32),
    TRef.binary main_call0.v0 main_call0.cst main_call0.v4 (fun x v => Host.reduceAdd x v reducesTo_S4194304x2_S4194304_d1 h_S_),
    TRef.nullary main_call0.cst_0 (constant S_ .f32 0x00000000#32),
    TRef.binary main_call0.v3 main_call0.cst_0 main_call0.v5 (fun x v => Host.reduceAdd x v reducesTo_S4194304x2_S4194304_d1 h_S_),
    TRef.unary main_call0.v4 main_call0.v6 (broadcastInDim S4194304x1 ![0] bcast_S4194304_S4194304x1_0),
    TRef.unary main_call0.v5 main_call0.v7 (broadcastInDim S4194304x1 ![0] bcast_S4194304_S4194304x1_0),
    TRef.unary main_call0.v6 main_call0.v8 Host.sqrt,
    TRef.nullary main_call0.cst_1 (constant S_ .f32 0x3F000000#32),
    TRef.unary main_call0.cst_1 main_call0.v9 (broadcastInDim S4194304x1 ![] bcast_S_S4194304x1),
    TRef.binary main_call0.v9 main_call0.v8 main_call0.v10 Host.divf,
    TRef.binary main_call0.v7 main_call0.v10 main_call0.v11 mulf,
    binary main_v1 main_v4_0 main_v5 ((fun a b => concatenate S4194304x3 1 [⟨S4194304x2, a⟩, ⟨S4194304x1, b⟩] concatenates_S4194304x2_S4194304x1_S4194304x3_d1) : (⟨S4194304x2, .f32⟩ : BufTy).Contents (Elt F) → (⟨S4194304x1, .f32⟩ : BufTy).Contents (Elt F) → (⟨S4194304x3, .f32⟩ : BufTy).Contents (Elt F)),
    binary main_v2 main_v4_1 main_v6 ((fun a b => concatenate S4194304x3 1 [⟨S4194304x2, a⟩, ⟨S4194304x1, b⟩] concatenates_S4194304x2_S4194304x1_S4194304x3_d1) : (⟨S4194304x2, .f32⟩ : BufTy).Contents (Elt F) → (⟨S4194304x1, .f32⟩ : BufTy).Contents (Elt F) → (⟨S4194304x3, .f32⟩ : BufTy).Contents (Elt F)),
    binary main_v5 main_arg1 main_v7 ((fun l r => Host.dotGeneral dot_S4194304x3_S3x12_S4194304x12_1_0_0_1_n_n none l r) : (⟨S4194304x3, .f32⟩ : BufTy).Contents (Elt F) → (⟨S3x12, .f32⟩ : BufTy).Contents (Elt F) → (⟨S4194304x12, .f32⟩ : BufTy).Contents (Elt F)),
    binary main_v6 main_arg1 main_v8 ((fun l r => Host.dotGeneral dot_S4194304x3_S3x12_S4194304x12_1_0_0_1_n_n none l r) : (⟨S4194304x3, .f32⟩ : BufTy).Contents (Elt F) → (⟨S3x12, .f32⟩ : BufTy).Contents (Elt F) → (⟨S4194304x12, .f32⟩ : BufTy).Contents (Elt F)),
    unary main_arg2 main_v9 (broadcastInDim S1x12 ![1] bcast_S12_S1x12_1 : (⟨S12, .f32⟩ : BufTy).Contents (Elt F) → (⟨S1x12, .f32⟩ : BufTy).Contents (Elt F)),
    unary main_v9 main_v10 (broadcastInDim S4194304x12 ![0, 1] bcast_S1x12_S4194304x12_0_1 : (⟨S1x12, .f32⟩ : BufTy).Contents (Elt F) → (⟨S4194304x12, .f32⟩ : BufTy).Contents (Elt F)),
    binary main_v7 main_v10 main_v11 (addf : (⟨S4194304x12, .f32⟩ : BufTy).Contents (Elt F) → (⟨S4194304x12, .f32⟩ : BufTy).Contents (Elt F) → (⟨S4194304x12, .f32⟩ : BufTy).Contents (Elt F)),
    unary main_v11 main_v12 (Host.tanh : (⟨S4194304x12, .f32⟩ : BufTy).Contents (Elt F) → (⟨S4194304x12, .f32⟩ : BufTy).Contents (Elt F)),
    binary main_v8 main_v12 main_v13 (mulf : (⟨S4194304x12, .f32⟩ : BufTy).Contents (Elt F) → (⟨S4194304x12, .f32⟩ : BufTy).Contents (Elt F) → (⟨S4194304x12, .f32⟩ : BufTy).Contents (Elt F)),
    binary main_v8 main_v13 main_v14 (addf : (⟨S4194304x12, .f32⟩ : BufTy).Contents (Elt F) → (⟨S4194304x12, .f32⟩ : BufTy).Contents (Elt F) → (⟨S4194304x12, .f32⟩ : BufTy).Contents (Elt F)),
    nullary main_cst_2 (constant S_ .f32 0x3F800000#32),
    unary main_cst_2 main_v15 (broadcastInDim S4194304x12 ![] bcast_S_S4194304x12 : (⟨S_, .f32⟩ : BufTy).Contents (Elt F) → (⟨S4194304x12, .f32⟩ : BufTy).Contents (Elt F)),
    binary main_v15 main_v12 main_v16 (subf : (⟨S4194304x12, .f32⟩ : BufTy).Contents (Elt F) → (⟨S4194304x12, .f32⟩ : BufTy).Contents (Elt F) → (⟨S4194304x12, .f32⟩ : BufTy).Contents (Elt F)),
    binary main_v14 main_v16 main_v17 (mulf : (⟨S4194304x12, .f32⟩ : BufTy).Contents (Elt F) → (⟨S4194304x12, .f32⟩ : BufTy).Contents (Elt F) → (⟨S4194304x12, .f32⟩ : BufTy).Contents (Elt F)),
    binary main_v12 main_arg3 main_v18 ((fun l r => Host.dotGeneral dot_S4194304x12_S12x8_S4194304x8_1_0_0_1_n_n none l r) : (⟨S4194304x12, .f32⟩ : BufTy).Contents (Elt F) → (⟨S12x8, .f32⟩ : BufTy).Contents (Elt F) → (⟨S4194304x8, .f32⟩ : BufTy).Contents (Elt F)),
    binary main_v17 main_arg3 main_v19 ((fun l r => Host.dotGeneral dot_S4194304x12_S12x8_S4194304x8_1_0_0_1_n_n none l r) : (⟨S4194304x12, .f32⟩ : BufTy).Contents (Elt F) → (⟨S12x8, .f32⟩ : BufTy).Contents (Elt F) → (⟨S4194304x8, .f32⟩ : BufTy).Contents (Elt F)),
    unary main_arg4 main_v20 (broadcastInDim S1x8 ![1] bcast_S8_S1x8_1 : (⟨S8, .f32⟩ : BufTy).Contents (Elt F) → (⟨S1x8, .f32⟩ : BufTy).Contents (Elt F)),
    unary main_v20 main_v21 (broadcastInDim S4194304x8 ![0, 1] bcast_S1x8_S4194304x8_0_1 : (⟨S1x8, .f32⟩ : BufTy).Contents (Elt F) → (⟨S4194304x8, .f32⟩ : BufTy).Contents (Elt F)),
    binary main_v18 main_v21 main_v22 (addf : (⟨S4194304x8, .f32⟩ : BufTy).Contents (Elt F) → (⟨S4194304x8, .f32⟩ : BufTy).Contents (Elt F) → (⟨S4194304x8, .f32⟩ : BufTy).Contents (Elt F)),
    unary main_v22 main_v23 (Host.tanh : (⟨S4194304x8, .f32⟩ : BufTy).Contents (Elt F) → (⟨S4194304x8, .f32⟩ : BufTy).Contents (Elt F)),
    binary main_v19 main_v23 main_v24 (mulf : (⟨S4194304x8, .f32⟩ : BufTy).Contents (Elt F) → (⟨S4194304x8, .f32⟩ : BufTy).Contents (Elt F) → (⟨S4194304x8, .f32⟩ : BufTy).Contents (Elt F)),
    binary main_v19 main_v24 main_v25 (addf : (⟨S4194304x8, .f32⟩ : BufTy).Contents (Elt F) → (⟨S4194304x8, .f32⟩ : BufTy).Contents (Elt F) → (⟨S4194304x8, .f32⟩ : BufTy).Contents (Elt F)),
    nullary main_cst_3 (constant S_ .f32 0x3F800000#32),
    unary main_cst_3 main_v26 (broadcastInDim S4194304x8 ![] bcast_S_S4194304x8 : (⟨S_, .f32⟩ : BufTy).Contents (Elt F) → (⟨S4194304x8, .f32⟩ : BufTy).Contents (Elt F)),
    binary main_v26 main_v23 main_v27 (subf : (⟨S4194304x8, .f32⟩ : BufTy).Contents (Elt F) → (⟨S4194304x8, .f32⟩ : BufTy).Contents (Elt F) → (⟨S4194304x8, .f32⟩ : BufTy).Contents (Elt F)),
    binary main_v25 main_v27 main_v28 (mulf : (⟨S4194304x8, .f32⟩ : BufTy).Contents (Elt F) → (⟨S4194304x8, .f32⟩ : BufTy).Contents (Elt F) → (⟨S4194304x8, .f32⟩ : BufTy).Contents (Elt F)),
    binary main_v23 main_arg5 main_v29 ((fun l r => Host.dotGeneral dot_S4194304x8_S8x2_S4194304x2_1_0_0_1_n_n none l r) : (⟨S4194304x8, .f32⟩ : BufTy).Contents (Elt F) → (⟨S8x2, .f32⟩ : BufTy).Contents (Elt F) → (⟨S4194304x2, .f32⟩ : BufTy).Contents (Elt F)),
    binary main_v28 main_arg5 main_v30 ((fun l r => Host.dotGeneral dot_S4194304x8_S8x2_S4194304x2_1_0_0_1_n_n none l r) : (⟨S4194304x8, .f32⟩ : BufTy).Contents (Elt F) → (⟨S8x2, .f32⟩ : BufTy).Contents (Elt F) → (⟨S4194304x2, .f32⟩ : BufTy).Contents (Elt F)),
    unary main_arg6 main_v31 (broadcastInDim S1x2 ![1] bcast_S2_S1x2_1 : (⟨S2, .f32⟩ : BufTy).Contents (Elt F) → (⟨S1x2, .f32⟩ : BufTy).Contents (Elt F)),
    unary main_v31 main_v32 (broadcastInDim S4194304x2 ![0, 1] bcast_S1x2_S4194304x2_0_1 : (⟨S1x2, .f32⟩ : BufTy).Contents (Elt F) → (⟨S4194304x2, .f32⟩ : BufTy).Contents (Elt F)),
    binary main_v29 main_v32 main_v33 (addf : (⟨S4194304x2, .f32⟩ : BufTy).Contents (Elt F) → (⟨S4194304x2, .f32⟩ : BufTy).Contents (Elt F) → (⟨S4194304x2, .f32⟩ : BufTy).Contents (Elt F)),
    TRef.binary (.of main_v1 : TRef sig ⟨S4194304x2, .f32⟩) (.of main_v1 : TRef sig ⟨S4194304x2, .f32⟩) main_call1.v0 mulf,
    TRef.binary (.of main_v3 : TRef sig ⟨S4194304x2, .f32⟩) (.of main_v1 : TRef sig ⟨S4194304x2, .f32⟩) main_call1.v1 mulf,
    TRef.binary (.of main_v1 : TRef sig ⟨S4194304x2, .f32⟩) (.of main_v3 : TRef sig ⟨S4194304x2, .f32⟩) main_call1.v2 mulf,
    TRef.binary main_call1.v1 main_call1.v2 main_call1.v3 addf,
    TRef.nullary main_call1.cst (constant S_ .f32 0x00000000#32),
    TRef.binary main_call1.v0 main_call1.cst main_call1.v4 (fun x v => Host.reduceAdd x v reducesTo_S4194304x2_S4194304_d1 h_S_),
    TRef.nullary main_call1.cst_0 (constant S_ .f32 0x00000000#32),
    TRef.binary main_call1.v3 main_call1.cst_0 main_call1.v5 (fun x v => Host.reduceAdd x v reducesTo_S4194304x2_S4194304_d1 h_S_),
    TRef.unary main_call1.v4 main_call1.v6 (broadcastInDim S4194304x1 ![0] bcast_S4194304_S4194304x1_0),
    TRef.unary main_call1.v5 main_call1.v7 (broadcastInDim S4194304x1 ![0] bcast_S4194304_S4194304x1_0),
    TRef.unary main_call1.v6 main_call1.v8 Host.sqrt,
    TRef.nullary main_call1.cst_1 (constant S_ .f32 0x3F000000#32),
    TRef.unary main_call1.cst_1 main_call1.v9 (broadcastInDim S4194304x1 ![] bcast_S_S4194304x1),
    TRef.binary main_call1.v9 main_call1.v8 main_call1.v10 Host.divf,
    TRef.binary main_call1.v7 main_call1.v10 main_call1.v11 mulf,
    binary main_v1 main_v34_0 main_v35 ((fun a b => concatenate S4194304x3 1 [⟨S4194304x2, a⟩, ⟨S4194304x1, b⟩] concatenates_S4194304x2_S4194304x1_S4194304x3_d1) : (⟨S4194304x2, .f32⟩ : BufTy).Contents (Elt F) → (⟨S4194304x1, .f32⟩ : BufTy).Contents (Elt F) → (⟨S4194304x3, .f32⟩ : BufTy).Contents (Elt F)),
    binary main_v3 main_v34_1 main_v36 ((fun a b => concatenate S4194304x3 1 [⟨S4194304x2, a⟩, ⟨S4194304x1, b⟩] concatenates_S4194304x2_S4194304x1_S4194304x3_d1) : (⟨S4194304x2, .f32⟩ : BufTy).Contents (Elt F) → (⟨S4194304x1, .f32⟩ : BufTy).Contents (Elt F) → (⟨S4194304x3, .f32⟩ : BufTy).Contents (Elt F)),
    binary main_v35 main_arg1 main_v37 ((fun l r => Host.dotGeneral dot_S4194304x3_S3x12_S4194304x12_1_0_0_1_n_n none l r) : (⟨S4194304x3, .f32⟩ : BufTy).Contents (Elt F) → (⟨S3x12, .f32⟩ : BufTy).Contents (Elt F) → (⟨S4194304x12, .f32⟩ : BufTy).Contents (Elt F)),
    binary main_v36 main_arg1 main_v38 ((fun l r => Host.dotGeneral dot_S4194304x3_S3x12_S4194304x12_1_0_0_1_n_n none l r) : (⟨S4194304x3, .f32⟩ : BufTy).Contents (Elt F) → (⟨S3x12, .f32⟩ : BufTy).Contents (Elt F) → (⟨S4194304x12, .f32⟩ : BufTy).Contents (Elt F)),
    unary main_arg2 main_v39 (broadcastInDim S1x12 ![1] bcast_S12_S1x12_1 : (⟨S12, .f32⟩ : BufTy).Contents (Elt F) → (⟨S1x12, .f32⟩ : BufTy).Contents (Elt F)),
    unary main_v39 main_v40 (broadcastInDim S4194304x12 ![0, 1] bcast_S1x12_S4194304x12_0_1 : (⟨S1x12, .f32⟩ : BufTy).Contents (Elt F) → (⟨S4194304x12, .f32⟩ : BufTy).Contents (Elt F)),
    binary main_v37 main_v40 main_v41 (addf : (⟨S4194304x12, .f32⟩ : BufTy).Contents (Elt F) → (⟨S4194304x12, .f32⟩ : BufTy).Contents (Elt F) → (⟨S4194304x12, .f32⟩ : BufTy).Contents (Elt F)),
    unary main_v41 main_v42 (Host.tanh : (⟨S4194304x12, .f32⟩ : BufTy).Contents (Elt F) → (⟨S4194304x12, .f32⟩ : BufTy).Contents (Elt F)),
    binary main_v38 main_v42 main_v43 (mulf : (⟨S4194304x12, .f32⟩ : BufTy).Contents (Elt F) → (⟨S4194304x12, .f32⟩ : BufTy).Contents (Elt F) → (⟨S4194304x12, .f32⟩ : BufTy).Contents (Elt F)),
    binary main_v38 main_v43 main_v44 (addf : (⟨S4194304x12, .f32⟩ : BufTy).Contents (Elt F) → (⟨S4194304x12, .f32⟩ : BufTy).Contents (Elt F) → (⟨S4194304x12, .f32⟩ : BufTy).Contents (Elt F)),
    nullary main_cst_4 (constant S_ .f32 0x3F800000#32),
    unary main_cst_4 main_v45 (broadcastInDim S4194304x12 ![] bcast_S_S4194304x12 : (⟨S_, .f32⟩ : BufTy).Contents (Elt F) → (⟨S4194304x12, .f32⟩ : BufTy).Contents (Elt F)),
    binary main_v45 main_v42 main_v46 (subf : (⟨S4194304x12, .f32⟩ : BufTy).Contents (Elt F) → (⟨S4194304x12, .f32⟩ : BufTy).Contents (Elt F) → (⟨S4194304x12, .f32⟩ : BufTy).Contents (Elt F)),
    binary main_v44 main_v46 main_v47 (mulf : (⟨S4194304x12, .f32⟩ : BufTy).Contents (Elt F) → (⟨S4194304x12, .f32⟩ : BufTy).Contents (Elt F) → (⟨S4194304x12, .f32⟩ : BufTy).Contents (Elt F)),
    binary main_v42 main_arg3 main_v48 ((fun l r => Host.dotGeneral dot_S4194304x12_S12x8_S4194304x8_1_0_0_1_n_n none l r) : (⟨S4194304x12, .f32⟩ : BufTy).Contents (Elt F) → (⟨S12x8, .f32⟩ : BufTy).Contents (Elt F) → (⟨S4194304x8, .f32⟩ : BufTy).Contents (Elt F)),
    binary main_v47 main_arg3 main_v49 ((fun l r => Host.dotGeneral dot_S4194304x12_S12x8_S4194304x8_1_0_0_1_n_n none l r) : (⟨S4194304x12, .f32⟩ : BufTy).Contents (Elt F) → (⟨S12x8, .f32⟩ : BufTy).Contents (Elt F) → (⟨S4194304x8, .f32⟩ : BufTy).Contents (Elt F)),
    unary main_arg4 main_v50 (broadcastInDim S1x8 ![1] bcast_S8_S1x8_1 : (⟨S8, .f32⟩ : BufTy).Contents (Elt F) → (⟨S1x8, .f32⟩ : BufTy).Contents (Elt F)),
    unary main_v50 main_v51 (broadcastInDim S4194304x8 ![0, 1] bcast_S1x8_S4194304x8_0_1 : (⟨S1x8, .f32⟩ : BufTy).Contents (Elt F) → (⟨S4194304x8, .f32⟩ : BufTy).Contents (Elt F)),
    binary main_v48 main_v51 main_v52 (addf : (⟨S4194304x8, .f32⟩ : BufTy).Contents (Elt F) → (⟨S4194304x8, .f32⟩ : BufTy).Contents (Elt F) → (⟨S4194304x8, .f32⟩ : BufTy).Contents (Elt F)),
    unary main_v52 main_v53 (Host.tanh : (⟨S4194304x8, .f32⟩ : BufTy).Contents (Elt F) → (⟨S4194304x8, .f32⟩ : BufTy).Contents (Elt F)),
    binary main_v49 main_v53 main_v54 (mulf : (⟨S4194304x8, .f32⟩ : BufTy).Contents (Elt F) → (⟨S4194304x8, .f32⟩ : BufTy).Contents (Elt F) → (⟨S4194304x8, .f32⟩ : BufTy).Contents (Elt F)),
    binary main_v49 main_v54 main_v55 (addf : (⟨S4194304x8, .f32⟩ : BufTy).Contents (Elt F) → (⟨S4194304x8, .f32⟩ : BufTy).Contents (Elt F) → (⟨S4194304x8, .f32⟩ : BufTy).Contents (Elt F)),
    nullary main_cst_5 (constant S_ .f32 0x3F800000#32),
    unary main_cst_5 main_v56 (broadcastInDim S4194304x8 ![] bcast_S_S4194304x8 : (⟨S_, .f32⟩ : BufTy).Contents (Elt F) → (⟨S4194304x8, .f32⟩ : BufTy).Contents (Elt F)),
    binary main_v56 main_v53 main_v57 (subf : (⟨S4194304x8, .f32⟩ : BufTy).Contents (Elt F) → (⟨S4194304x8, .f32⟩ : BufTy).Contents (Elt F) → (⟨S4194304x8, .f32⟩ : BufTy).Contents (Elt F)),
    binary main_v55 main_v57 main_v58 (mulf : (⟨S4194304x8, .f32⟩ : BufTy).Contents (Elt F) → (⟨S4194304x8, .f32⟩ : BufTy).Contents (Elt F) → (⟨S4194304x8, .f32⟩ : BufTy).Contents (Elt F)),
    binary main_v53 main_arg5 main_v59 ((fun l r => Host.dotGeneral dot_S4194304x8_S8x2_S4194304x2_1_0_0_1_n_n none l r) : (⟨S4194304x8, .f32⟩ : BufTy).Contents (Elt F) → (⟨S8x2, .f32⟩ : BufTy).Contents (Elt F) → (⟨S4194304x2, .f32⟩ : BufTy).Contents (Elt F)),
    binary main_v58 main_arg5 main_v60 ((fun l r => Host.dotGeneral dot_S4194304x8_S8x2_S4194304x2_1_0_0_1_n_n none l r) : (⟨S4194304x8, .f32⟩ : BufTy).Contents (Elt F) → (⟨S8x2, .f32⟩ : BufTy).Contents (Elt F) → (⟨S4194304x2, .f32⟩ : BufTy).Contents (Elt F)),
    unary main_arg6 main_v61 (broadcastInDim S1x2 ![1] bcast_S2_S1x2_1 : (⟨S2, .f32⟩ : BufTy).Contents (Elt F) → (⟨S1x2, .f32⟩ : BufTy).Contents (Elt F)),
    unary main_v61 main_v62 (broadcastInDim S4194304x2 ![0, 1] bcast_S1x2_S4194304x2_0_1 : (⟨S1x2, .f32⟩ : BufTy).Contents (Elt F) → (⟨S4194304x2, .f32⟩ : BufTy).Contents (Elt F)),
    binary main_v59 main_v62 main_v63 (addf : (⟨S4194304x2, .f32⟩ : BufTy).Contents (Elt F) → (⟨S4194304x2, .f32⟩ : BufTy).Contents (Elt F) → (⟨S4194304x2, .f32⟩ : BufTy).Contents (Elt F)),
    unary main_v30 main_v64 (broadcastInDim S4194304x2x1 ![0, 1] bcast_S4194304x2_S4194304x2x1_0_1 : (⟨S4194304x2, .f32⟩ : BufTy).Contents (Elt F) → (⟨S4194304x2x1, .f32⟩ : BufTy).Contents (Elt F)),
    unary main_v60 main_v65 (broadcastInDim S4194304x2x1 ![0, 1] bcast_S4194304x2_S4194304x2x1_0_1 : (⟨S4194304x2, .f32⟩ : BufTy).Contents (Elt F) → (⟨S4194304x2x1, .f32⟩ : BufTy).Contents (Elt F)),
    binary main_v64 main_v65 main_v66 ((fun a b => concatenate S4194304x2x2 2 [⟨S4194304x2x1, a⟩, ⟨S4194304x2x1, b⟩] concatenates_S4194304x2x1_S4194304x2x1_S4194304x2x2_d2) : (⟨S4194304x2x1, .f32⟩ : BufTy).Contents (Elt F) → (⟨S4194304x2x1, .f32⟩ : BufTy).Contents (Elt F) → (⟨S4194304x2x2, .f32⟩ : BufTy).Contents (Elt F)),
    unary main_v66 main_v67 ((extractStridedSlice S4194304x1x1 ![0, 0, 0] · slices_S4194304x2x2_S4194304x1x1_0_0_0) : (⟨S4194304x2x2, .f32⟩ : BufTy).Contents (Elt F) → (⟨S4194304x1x1, .f32⟩ : BufTy).Contents (Elt F)),
    reshape main_v67 main_v68 rfl shapeCasts_S4194304x1x1_S4194304,
    unary main_v66 main_v69 ((extractStridedSlice S4194304x1x1 ![0, 0, 1] · slices_S4194304x2x2_S4194304x1x1_0_0_1) : (⟨S4194304x2x2, .f32⟩ : BufTy).Contents (Elt F) → (⟨S4194304x1x1, .f32⟩ : BufTy).Contents (Elt F)),
    reshape main_v69 main_v70 rfl shapeCasts_S4194304x1x1_S4194304,
    unary main_v66 main_v71 ((extractStridedSlice S4194304x1x1 ![0, 1, 0] · slices_S4194304x2x2_S4194304x1x1_0_1_0) : (⟨S4194304x2x2, .f32⟩ : BufTy).Contents (Elt F) → (⟨S4194304x1x1, .f32⟩ : BufTy).Contents (Elt F)),
    reshape main_v71 main_v72 rfl shapeCasts_S4194304x1x1_S4194304,
    unary main_v66 main_v73 ((extractStridedSlice S4194304x1x1 ![0, 1, 1] · slices_S4194304x2x2_S4194304x1x1_0_1_1) : (⟨S4194304x2x2, .f32⟩ : BufTy).Contents (Elt F) → (⟨S4194304x1x1, .f32⟩ : BufTy).Contents (Elt F)),
    reshape main_v73 main_v74 rfl shapeCasts_S4194304x1x1_S4194304,
    binary main_v68 main_v74 main_v75 (mulf : (⟨S4194304, .f32⟩ : BufTy).Contents (Elt F) → (⟨S4194304, .f32⟩ : BufTy).Contents (Elt F) → (⟨S4194304, .f32⟩ : BufTy).Contents (Elt F)),
    binary main_v70 main_v72 main_v76 (mulf : (⟨S4194304, .f32⟩ : BufTy).Contents (Elt F) → (⟨S4194304, .f32⟩ : BufTy).Contents (Elt F) → (⟨S4194304, .f32⟩ : BufTy).Contents (Elt F)),
    binary main_v75 main_v76 main_v77 (subf : (⟨S4194304, .f32⟩ : BufTy).Contents (Elt F) → (⟨S4194304, .f32⟩ : BufTy).Contents (Elt F) → (⟨S4194304, .f32⟩ : BufTy).Contents (Elt F)),
    unary main_v70 main_v78 (Host.negf : (⟨S4194304, .f32⟩ : BufTy).Contents (Elt F) → (⟨S4194304, .f32⟩ : BufTy).Contents (Elt F)),
    unary main_v74 main_v79 (broadcastInDim S4194304x1 ![0] bcast_S4194304_S4194304x1_0 : (⟨S4194304, .f32⟩ : BufTy).Contents (Elt F) → (⟨S4194304x1, .f32⟩ : BufTy).Contents (Elt F)),
    unary main_v78 main_v80 (broadcastInDim S4194304x1 ![0] bcast_S4194304_S4194304x1_0 : (⟨S4194304, .f32⟩ : BufTy).Contents (Elt F) → (⟨S4194304x1, .f32⟩ : BufTy).Contents (Elt F)),
    binary main_v79 main_v80 main_v81 ((fun a b => concatenate S4194304x2 1 [⟨S4194304x1, a⟩, ⟨S4194304x1, b⟩] concatenates_S4194304x1_S4194304x1_S4194304x2_d1) : (⟨S4194304x1, .f32⟩ : BufTy).Contents (Elt F) → (⟨S4194304x1, .f32⟩ : BufTy).Contents (Elt F) → (⟨S4194304x2, .f32⟩ : BufTy).Contents (Elt F)),
    unary main_v72 main_v82 (Host.negf : (⟨S4194304, .f32⟩ : BufTy).Contents (Elt F) → (⟨S4194304, .f32⟩ : BufTy).Contents (Elt F)),
    unary main_v82 main_v83 (broadcastInDim S4194304x1 ![0] bcast_S4194304_S4194304x1_0 : (⟨S4194304, .f32⟩ : BufTy).Contents (Elt F) → (⟨S4194304x1, .f32⟩ : BufTy).Contents (Elt F)),
    unary main_v68 main_v84 (broadcastInDim S4194304x1 ![0] bcast_S4194304_S4194304x1_0 : (⟨S4194304, .f32⟩ : BufTy).Contents (Elt F) → (⟨S4194304x1, .f32⟩ : BufTy).Contents (Elt F)),
    binary main_v83 main_v84 main_v85 ((fun a b => concatenate S4194304x2 1 [⟨S4194304x1, a⟩, ⟨S4194304x1, b⟩] concatenates_S4194304x1_S4194304x1_S4194304x2_d1) : (⟨S4194304x1, .f32⟩ : BufTy).Contents (Elt F) → (⟨S4194304x1, .f32⟩ : BufTy).Contents (Elt F) → (⟨S4194304x2, .f32⟩ : BufTy).Contents (Elt F)),
    unary main_v81 main_v86 (broadcastInDim S4194304x1x2 ![0, 2] bcast_S4194304x2_S4194304x1x2_0_2 : (⟨S4194304x2, .f32⟩ : BufTy).Contents (Elt F) → (⟨S4194304x1x2, .f32⟩ : BufTy).Contents (Elt F)),
    unary main_v85 main_v87 (broadcastInDim S4194304x1x2 ![0, 2] bcast_S4194304x2_S4194304x1x2_0_2 : (⟨S4194304x2, .f32⟩ : BufTy).Contents (Elt F) → (⟨S4194304x1x2, .f32⟩ : BufTy).Contents (Elt F)),
    binary main_v86 main_v87 main_v88 ((fun a b => concatenate S4194304x2x2 1 [⟨S4194304x1x2, a⟩, ⟨S4194304x1x2, b⟩] concatenates_S4194304x1x2_S4194304x1x2_S4194304x2x2_d1) : (⟨S4194304x1x2, .f32⟩ : BufTy).Contents (Elt F) → (⟨S4194304x1x2, .f32⟩ : BufTy).Contents (Elt F) → (⟨S4194304x2x2, .f32⟩ : BufTy).Contents (Elt F)),
    unary main_v77 main_v89 (broadcastInDim S4194304x1x1 ![0] bcast_S4194304_S4194304x1x1_0 : (⟨S4194304, .f32⟩ : BufTy).Contents (Elt F) → (⟨S4194304x1x1, .f32⟩ : BufTy).Contents (Elt F)),
    unary main_v89 main_v90 (broadcastInDim S4194304x2x2 ![0, 1, 2] bcast_S4194304x1x1_S4194304x2x2_0_1_2 : (⟨S4194304x1x1, .f32⟩ : BufTy).Contents (Elt F) → (⟨S4194304x2x2, .f32⟩ : BufTy).Contents (Elt F)),
    binary main_v88 main_v90 main_v91 (Host.divf : (⟨S4194304x2x2, .f32⟩ : BufTy).Contents (Elt F) → (⟨S4194304x2x2, .f32⟩ : BufTy).Contents (Elt F) → (⟨S4194304x2x2, .f32⟩ : BufTy).Contents (Elt F)),
    unary main_v33 main_v92 ((extractStridedSlice S4194304x1 ![0, 0] · slices_S4194304x2_S4194304x1_0_0) : (⟨S4194304x2, .f32⟩ : BufTy).Contents (Elt F) → (⟨S4194304x1, .f32⟩ : BufTy).Contents (Elt F)),
    unary main_v33 main_v93 ((extractStridedSlice S4194304x1 ![0, 1] · slices_S4194304x2_S4194304x1_0_1) : (⟨S4194304x2, .f32⟩ : BufTy).Contents (Elt F) → (⟨S4194304x1, .f32⟩ : BufTy).Contents (Elt F)),
    unary main_v92 main_v94 (Host.negf : (⟨S4194304x1, .f32⟩ : BufTy).Contents (Elt F) → (⟨S4194304x1, .f32⟩ : BufTy).Contents (Elt F)),
    binary main_v93 main_v94 main_v95 ((fun a b => concatenate S4194304x2 1 [⟨S4194304x1, a⟩, ⟨S4194304x1, b⟩] concatenates_S4194304x1_S4194304x1_S4194304x2_d1) : (⟨S4194304x1, .f32⟩ : BufTy).Contents (Elt F) → (⟨S4194304x1, .f32⟩ : BufTy).Contents (Elt F) → (⟨S4194304x2, .f32⟩ : BufTy).Contents (Elt F)),
    unary main_v95 main_v96 (broadcastInDim S4194304x2x1 ![0, 1] bcast_S4194304x2_S4194304x2x1_0_1 : (⟨S4194304x2, .f32⟩ : BufTy).Contents (Elt F) → (⟨S4194304x2x1, .f32⟩ : BufTy).Contents (Elt F)),
    nullary main_cst_6 (constant S_ .f32 0xBE3851EC#32),
    unary main_cst_6 main_v97 (broadcastInDim S4194304x2x2 ![] bcast_S_S4194304x2x2 : (⟨S_, .f32⟩ : BufTy).Contents (Elt F) → (⟨S4194304x2x2, .f32⟩ : BufTy).Contents (Elt F)),
    unary main_v0 main_v98 (broadcastInDim S4194304x2x1 ![0, 1, 2] bcast_S1x2x1_S4194304x2x1_0_1_2 : (⟨S1x2x1, .f32⟩ : BufTy).Contents (Elt F) → (⟨S4194304x2x1, .f32⟩ : BufTy).Contents (Elt F)),
    nullary main_cst_7 (constant S_ .f32 0x446B9E94#32),
    unary main_cst_7 main_v99 (broadcastInDim S4194304x2x1 ![] bcast_S_S4194304x2x1 : (⟨S_, .f32⟩ : BufTy).Contents (Elt F) → (⟨S4194304x2x1, .f32⟩ : BufTy).Contents (Elt F)),
    binary main_v96 main_v99 main_v100 (mulf : (⟨S4194304x2x1, .f32⟩ : BufTy).Contents (Elt F) → (⟨S4194304x2x1, .f32⟩ : BufTy).Contents (Elt F) → (⟨S4194304x2x1, .f32⟩ : BufTy).Contents (Elt F)),
    nary ![main_v97, main_v98, main_v100] main_v101 (fun u => concatenate S4194304x2x4 2 [⟨S4194304x2x2, u 0⟩, ⟨S4194304x2x1, u 1⟩, ⟨S4194304x2x1, u 2⟩] concatenates_S4194304x2x2_S4194304x2x1_S4194304x2x1_S4194304x2x4_d2),
    unary main_arg0 main_v102 ((extractStridedSlice S4194304x3 ![0, 0] · slices_S4194304x5_S4194304x3_0_0) : (⟨S4194304x5, .f32⟩ : BufTy).Contents (Elt F) → (⟨S4194304x3, .f32⟩ : BufTy).Contents (Elt F)),
    nullary main_cst_8 (constant S_ .f32 0x3F800000#32),
    unary main_cst_8 main_v103 (broadcastInDim S4194304x1 ![] bcast_S_S4194304x1 : (⟨S_, .f32⟩ : BufTy).Contents (Elt F) → (⟨S4194304x1, .f32⟩ : BufTy).Contents (Elt F)),
    binary main_v102 main_v103 main_v104 ((fun a b => concatenate S4194304x4 1 [⟨S4194304x3, a⟩, ⟨S4194304x1, b⟩] concatenates_S4194304x3_S4194304x1_S4194304x4_d1) : (⟨S4194304x3, .f32⟩ : BufTy).Contents (Elt F) → (⟨S4194304x1, .f32⟩ : BufTy).Contents (Elt F) → (⟨S4194304x4, .f32⟩ : BufTy).Contents (Elt F)),
    unary main_v104 main_v105 (broadcastInDim S4194304x4x1 ![0, 1] bcast_S4194304x4_S4194304x4x1_0_1 : (⟨S4194304x4, .f32⟩ : BufTy).Contents (Elt F) → (⟨S4194304x4x1, .f32⟩ : BufTy).Contents (Elt F)),
    binary main_v101 main_v105 main_v106 ((fun l r => Host.dotGeneral dot_S4194304x2x4_S4194304x4x1_S4194304x2x1_2_1_1_2_0_0 none l r) : (⟨S4194304x2x4, .f32⟩ : BufTy).Contents (Elt F) → (⟨S4194304x4x1, .f32⟩ : BufTy).Contents (Elt F) → (⟨S4194304x2x1, .f32⟩ : BufTy).Contents (Elt F)),
    binary main_v91 main_v106 main_v107 ((fun l r => Host.dotGeneral dot_S4194304x2x2_S4194304x2x1_S4194304x2x1_2_1_1_2_0_0 none l r) : (⟨S4194304x2x2, .f32⟩ : BufTy).Contents (Elt F) → (⟨S4194304x2x1, .f32⟩ : BufTy).Contents (Elt F) → (⟨S4194304x2x1, .f32⟩ : BufTy).Contents (Elt F)),
    reshape main_v107 main_v108 rfl shapeCasts_S4194304x2x1_S4194304x2,
    nullary main_cst_9 (constant S_ .f32 0x3851B717#32),
    unary main_cst_9 main_v109 (broadcastInDim S4194304x2 ![] bcast_S_S4194304x2 : (⟨S_, .f32⟩ : BufTy).Contents (Elt F) → (⟨S4194304x2, .f32⟩ : BufTy).Contents (Elt F)),
    binary main_v108 main_v109 main_v110 (mulf : (⟨S4194304x2, .f32⟩ : BufTy).Contents (Elt F) → (⟨S4194304x2, .f32⟩ : BufTy).Contents (Elt F) → (⟨S4194304x2, .f32⟩ : BufTy).Contents (Elt F)),
    binary main_v110 main_v1 main_v111 (addf : (⟨S4194304x2, .f32⟩ : BufTy).Contents (Elt F) → (⟨S4194304x2, .f32⟩ : BufTy).Contents (Elt F) → (⟨S4194304x2, .f32⟩ : BufTy).Contents (Elt F)) ]

set_option maxRecDepth 8192 in
set_option maxHeartbeats 4000000 in
/-- @main is that straight line: its three windows in order, each call of @norm its body over the call's buffers; both
    sides are the same chain of operation steps by computation. -/
theorem main_eq (c : Dev nD) : main (F := F) c = seq ops := rfl

end Cert.ReferenceIdeal.RRun

end
-- ==== Proof.RRun.lean ====
/-
  The reference program's run: every weakly fair execution of @main terminates, the result buffer ends at the fold of
  @main's 151 operations over the launch contents of the device's buffers, and the seven argument buffers end as they
  started (no operation writes one: the operations write 151 buffers, each once, none of them an argument).
-/
import proofs.«109731_j50405736186087_2_alg».proof.Proof.RRunOps

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

/-- The signature scopes no TensorCore buffer: every buffer is a tensor value of @main. -/
theorem scopedRefs_eq : (Finset.univ.filter fun b : Ref sig .tc => b.isScoped) = ∅ := by decide
/-- It has no semaphore at all. -/
theorem scopedSems_eq : (Finset.univ.filter fun sm : SemLoc sig => sm.isScoped .tc) = ∅ := by decide

set_option maxRecDepth 8192 in
/-- Every operation touches TensorCore buffers only. -/
theorem ops_sub : (ops : List (HloOp τ sig (Elt F))).Forall fun op => op.bufs ⊆ tcRefs τ sig :=
  ⟨nullary_bufs_sub .., nullary_bufs_sub .., nullary_bufs_sub .., unary_bufs_sub .., unary_bufs_sub .., unary_bufs_sub ..,
    unary_bufs_sub .., binary_bufs_sub .., binary_bufs_sub .., binary_bufs_sub .., binary_bufs_sub .., nullary_bufs_sub ..,
    binary_bufs_sub .., nullary_bufs_sub .., binary_bufs_sub .., unary_bufs_sub .., unary_bufs_sub .., unary_bufs_sub ..,
    nullary_bufs_sub .., unary_bufs_sub .., binary_bufs_sub .., binary_bufs_sub .., binary_bufs_sub .., binary_bufs_sub ..,
    binary_bufs_sub .., binary_bufs_sub .., unary_bufs_sub .., unary_bufs_sub .., binary_bufs_sub .., unary_bufs_sub ..,
    binary_bufs_sub .., binary_bufs_sub .., nullary_bufs_sub .., unary_bufs_sub .., binary_bufs_sub .., binary_bufs_sub ..,
    binary_bufs_sub .., binary_bufs_sub .., unary_bufs_sub .., unary_bufs_sub .., binary_bufs_sub .., unary_bufs_sub ..,
    binary_bufs_sub .., binary_bufs_sub .., nullary_bufs_sub .., unary_bufs_sub .., binary_bufs_sub .., binary_bufs_sub ..,
    binary_bufs_sub .., binary_bufs_sub .., unary_bufs_sub .., unary_bufs_sub .., binary_bufs_sub .., binary_bufs_sub ..,
    binary_bufs_sub .., binary_bufs_sub .., binary_bufs_sub .., nullary_bufs_sub .., binary_bufs_sub .., nullary_bufs_sub ..,
    binary_bufs_sub .., unary_bufs_sub .., unary_bufs_sub .., unary_bufs_sub .., nullary_bufs_sub .., unary_bufs_sub ..,
    binary_bufs_sub .., binary_bufs_sub .., binary_bufs_sub .., binary_bufs_sub .., binary_bufs_sub .., binary_bufs_sub ..,
    unary_bufs_sub .., unary_bufs_sub .., binary_bufs_sub .., unary_bufs_sub .., binary_bufs_sub .., binary_bufs_sub ..,
    nullary_bufs_sub .., unary_bufs_sub .., binary_bufs_sub .., binary_bufs_sub .., binary_bufs_sub .., binary_bufs_sub ..,
    unary_bufs_sub .., unary_bufs_sub .., binary_bufs_sub .., unary_bufs_sub .., binary_bufs_sub .., binary_bufs_sub ..,
    nullary_bufs_sub .., unary_bufs_sub .., binary_bufs_sub .., binary_bufs_sub .., binary_bufs_sub .., binary_bufs_sub ..,
    unary_bufs_sub .., unary_bufs_sub .., binary_bufs_sub .., unary_bufs_sub .., unary_bufs_sub .., binary_bufs_sub ..,
    unary_bufs_sub .., reshape_bufs_sub .., unary_bufs_sub .., reshape_bufs_sub .., unary_bufs_sub .., reshape_bufs_sub ..,
    unary_bufs_sub .., reshape_bufs_sub .., binary_bufs_sub .., binary_bufs_sub .., binary_bufs_sub .., unary_bufs_sub ..,
    unary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., unary_bufs_sub .., binary_bufs_sub .., unary_bufs_sub ..,
    nullary_bufs_sub .., unary_bufs_sub .., unary_bufs_sub .., nullary_bufs_sub .., unary_bufs_sub .., binary_bufs_sub ..,
    nary_bufs_sub .., unary_bufs_sub .., nullary_bufs_sub .., unary_bufs_sub .., binary_bufs_sub .., unary_bufs_sub ..,
    binary_bufs_sub .., binary_bufs_sub .., reshape_bufs_sub .., nullary_bufs_sub .., unary_bufs_sub .., binary_bufs_sub ..,
    binary_bufs_sub ..⟩

/-- The buffer each operation writes, in the operations' order: 151 buffers, pairwise distinct, none an argument. -/
def written : List (Ref sig .tc) :=
  [main_cst, main_cst_0, main_cst_1, main_v0, main_v1, main_v2, main_v3, main_call0_v0, main_call0_v1, main_call0_v2,
    main_call0_v3, main_call0_cst, main_call0_v4, main_call0_cst_0, main_call0_v5, main_call0_v6, main_call0_v7, main_v4_0, main_call0_cst_1, main_call0_v9,
    main_call0_v10, main_v4_1, main_v5, main_v6, main_v7, main_v8, main_v9, main_v10, main_v11, main_v12,
    main_v13, main_v14, main_cst_2, main_v15, main_v16, main_v17, main_v18, main_v19, main_v20, main_v21,
    main_v22, main_v23, main_v24, main_v25, main_cst_3, main_v26, main_v27, main_v28, main_v29, main_v30,
    main_v31, main_v32, main_v33, main_call1_v0, main_call1_v1, main_call1_v2, main_call1_v3, main_call1_cst, main_call1_v4, main_call1_cst_0,
    main_call1_v5, main_call1_v6, main_call1_v7, main_v34_0, main_call1_cst_1, main_call1_v9, main_call1_v10, main_v34_1, main_v35, main_v36,
    main_v37, main_v38, main_v39, main_v40, main_v41, main_v42, main_v43, main_v44, main_cst_4, main_v45,
    main_v46, main_v47, main_v48, main_v49, main_v50, main_v51, main_v52, main_v53, main_v54, main_v55,
    main_cst_5, main_v56, main_v57, main_v58, main_v59, main_v60, main_v61, main_v62, main_v63, main_v64,
    main_v65, main_v66, main_v67, main_v68, main_v69, main_v70, main_v71, main_v72, main_v73, main_v74,
    main_v75, main_v76, main_v77, main_v78, main_v79, main_v80, main_v81, main_v82, main_v83, main_v84,
    main_v85, main_v86, main_v87, main_v88, main_v89, main_v90, main_v91, main_v92, main_v93, main_v94,
    main_v95, main_v96, main_cst_6, main_v97, main_v98, main_cst_7, main_v99, main_v100, main_v101, main_v102,
    main_cst_8, main_v103, main_v104, main_v105, main_v106, main_v107, main_v108, main_cst_9, main_v109, main_v110,
    main_v111]

/-- A buffer of the list, as the one-element set an operation writes, is inside the list's set. -/
theorem written_sub {y : Ref sig .tc} (h : y ∈ written) :
    ({Proc.devRef .tc y} : Finset (DevRef τ sig)) ⊆ (written.map (Proc.devRef (τ := τ) .tc)).toFinset :=
  Finset.singleton_subset_iff.mpr (List.mem_toFinset.mpr (List.mem_map_of_mem h))

set_option maxRecDepth 8192 in
/-- Each operation writes the buffer the list gives it and nothing else. -/
theorem ops_writes :
    (ops : List (HloOp τ sig (Elt F))).Forall fun op => op.writes ⊆ (written.map (Proc.devRef (τ := τ) .tc)).toFinset :=
  ⟨written_sub (y := main_cst) (by decide), written_sub (y := main_cst_0) (by decide), written_sub (y := main_cst_1) (by decide),
    written_sub (y := main_v0) (by decide), written_sub (y := main_v1) (by decide), written_sub (y := main_v2) (by decide),
    written_sub (y := main_v3) (by decide), written_sub (y := main_call0_v0) (by decide), written_sub (y := main_call0_v1) (by decide),
    written_sub (y := main_call0_v2) (by decide), written_sub (y := main_call0_v3) (by decide), written_sub (y := main_call0_cst) (by decide),
    written_sub (y := main_call0_v4) (by decide), written_sub (y := main_call0_cst_0) (by decide), written_sub (y := main_call0_v5) (by decide),
    written_sub (y := main_call0_v6) (by decide), written_sub (y := main_call0_v7) (by decide), written_sub (y := main_v4_0) (by decide),
    written_sub (y := main_call0_cst_1) (by decide), written_sub (y := main_call0_v9) (by decide), written_sub (y := main_call0_v10) (by decide),
    written_sub (y := main_v4_1) (by decide), written_sub (y := main_v5) (by decide), written_sub (y := main_v6) (by decide),
    written_sub (y := main_v7) (by decide), written_sub (y := main_v8) (by decide), written_sub (y := main_v9) (by decide),
    written_sub (y := main_v10) (by decide), written_sub (y := main_v11) (by decide), written_sub (y := main_v12) (by decide),
    written_sub (y := main_v13) (by decide), written_sub (y := main_v14) (by decide), written_sub (y := main_cst_2) (by decide),
    written_sub (y := main_v15) (by decide), written_sub (y := main_v16) (by decide), written_sub (y := main_v17) (by decide),
    written_sub (y := main_v18) (by decide), written_sub (y := main_v19) (by decide), written_sub (y := main_v20) (by decide),
    written_sub (y := main_v21) (by decide), written_sub (y := main_v22) (by decide), written_sub (y := main_v23) (by decide),
    written_sub (y := main_v24) (by decide), written_sub (y := main_v25) (by decide), written_sub (y := main_cst_3) (by decide),
    written_sub (y := main_v26) (by decide), written_sub (y := main_v27) (by decide), written_sub (y := main_v28) (by decide),
    written_sub (y := main_v29) (by decide), written_sub (y := main_v30) (by decide), written_sub (y := main_v31) (by decide),
    written_sub (y := main_v32) (by decide), written_sub (y := main_v33) (by decide), written_sub (y := main_call1_v0) (by decide),
    written_sub (y := main_call1_v1) (by decide), written_sub (y := main_call1_v2) (by decide), written_sub (y := main_call1_v3) (by decide),
    written_sub (y := main_call1_cst) (by decide), written_sub (y := main_call1_v4) (by decide), written_sub (y := main_call1_cst_0) (by decide),
    written_sub (y := main_call1_v5) (by decide), written_sub (y := main_call1_v6) (by decide), written_sub (y := main_call1_v7) (by decide),
    written_sub (y := main_v34_0) (by decide), written_sub (y := main_call1_cst_1) (by decide), written_sub (y := main_call1_v9) (by decide),
    written_sub (y := main_call1_v10) (by decide), written_sub (y := main_v34_1) (by decide), written_sub (y := main_v35) (by decide),
    written_sub (y := main_v36) (by decide), written_sub (y := main_v37) (by decide), written_sub (y := main_v38) (by decide),
    written_sub (y := main_v39) (by decide), written_sub (y := main_v40) (by decide), written_sub (y := main_v41) (by decide),
    written_sub (y := main_v42) (by decide), written_sub (y := main_v43) (by decide), written_sub (y := main_v44) (by decide),
    written_sub (y := main_cst_4) (by decide), written_sub (y := main_v45) (by decide), written_sub (y := main_v46) (by decide),
    written_sub (y := main_v47) (by decide), written_sub (y := main_v48) (by decide), written_sub (y := main_v49) (by decide),
    written_sub (y := main_v50) (by decide), written_sub (y := main_v51) (by decide), written_sub (y := main_v52) (by decide),
    written_sub (y := main_v53) (by decide), written_sub (y := main_v54) (by decide), written_sub (y := main_v55) (by decide),
    written_sub (y := main_cst_5) (by decide), written_sub (y := main_v56) (by decide), written_sub (y := main_v57) (by decide),
    written_sub (y := main_v58) (by decide), written_sub (y := main_v59) (by decide), written_sub (y := main_v60) (by decide),
    written_sub (y := main_v61) (by decide), written_sub (y := main_v62) (by decide), written_sub (y := main_v63) (by decide),
    written_sub (y := main_v64) (by decide), written_sub (y := main_v65) (by decide), written_sub (y := main_v66) (by decide),
    written_sub (y := main_v67) (by decide), written_sub (y := main_v68) (by decide), written_sub (y := main_v69) (by decide),
    written_sub (y := main_v70) (by decide), written_sub (y := main_v71) (by decide), written_sub (y := main_v72) (by decide),
    written_sub (y := main_v73) (by decide), written_sub (y := main_v74) (by decide), written_sub (y := main_v75) (by decide),
    written_sub (y := main_v76) (by decide), written_sub (y := main_v77) (by decide), written_sub (y := main_v78) (by decide),
    written_sub (y := main_v79) (by decide), written_sub (y := main_v80) (by decide), written_sub (y := main_v81) (by decide),
    written_sub (y := main_v82) (by decide), written_sub (y := main_v83) (by decide), written_sub (y := main_v84) (by decide),
    written_sub (y := main_v85) (by decide), written_sub (y := main_v86) (by decide), written_sub (y := main_v87) (by decide),
    written_sub (y := main_v88) (by decide), written_sub (y := main_v89) (by decide), written_sub (y := main_v90) (by decide),
    written_sub (y := main_v91) (by decide), written_sub (y := main_v92) (by decide), written_sub (y := main_v93) (by decide),
    written_sub (y := main_v94) (by decide), written_sub (y := main_v95) (by decide), written_sub (y := main_v96) (by decide),
    written_sub (y := main_cst_6) (by decide), written_sub (y := main_v97) (by decide), written_sub (y := main_v98) (by decide),
    written_sub (y := main_cst_7) (by decide), written_sub (y := main_v99) (by decide), written_sub (y := main_v100) (by decide),
    written_sub (y := main_v101) (by decide), written_sub (y := main_v102) (by decide), written_sub (y := main_cst_8) (by decide),
    written_sub (y := main_v103) (by decide), written_sub (y := main_v104) (by decide), written_sub (y := main_v105) (by decide),
    written_sub (y := main_v106) (by decide), written_sub (y := main_v107) (by decide), written_sub (y := main_v108) (by decide),
    written_sub (y := main_cst_9) (by decide), written_sub (y := main_v109) (by decide), written_sub (y := main_v110) (by decide),
    written_sub (y := main_v111) (by decide)⟩

/-- A buffer no operation writes holds after the operations what it held before. -/
theorem kept (V : Valuation τ sig (Elt F)) {r : Ref sig .tc} (hr : r ∉ written) :
    after ops V (Proc.devRef .tc r) = V (Proc.devRef .tc r) :=
  after_of_writes_sub ops V ops_writes hr

/-- On every device, for any float values, from any memory with zero counters: every weakly fair execution of @main
    terminates with the result buffer at the fold of the operations over the launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v111) = after ops (launchContents m c) (Proc.devRef .tc main_v111)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨h c main_v111,
      (h c main_arg0).trans (kept (launchContents m c) (by decide)),
      (h c main_arg1).trans (kept (launchContents m c) (by decide)),
      (h c main_arg2).trans (kept (launchContents m c) (by decide)),
      (h c main_arg3).trans (kept (launchContents m c) (by decide)),
      (h c main_arg4).trans (kept (launchContents m c) (by decide)),
      (h c main_arg5).trans (kept (launchContents m c) (by decide)),
      (h c main_arg6).trans (kept (launchContents m c) (by decide))⟩)
    (run_seq scopedRefs_eq scopedSems_eq defs main (fun _ => ops) main_eq (fun _ => ops_sub) m ρ)

end Cert.ReferenceIdeal.RRun

end
-- ==== Proof.ROpsPlain.lean ====
/-
  The same 151 operations with the two calls' operations spelt over their buffers directly.

  In `ops` an operation of a call of @norm reads and writes its buffers through typed references, which move contents
  between the value's type and the buffer's own type; at the literal buffers of a call both types are the same and the move
  is the identity. `opsP` is the list with those thirty operations written as plain operations on the buffers, the other
  121 unchanged, and `ops_eq` says the two lists are equal: operation by operation the functions agree on every input.
-/
import proofs.«109731_j50405736186087_2_alg».proof.Proof.RRunOps

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

/-- @main's 151 operations, every one a plain operation on buffers. -/
abbrev opsP : List (HloOp τ sig (Elt F)) :=
  [ nullary main_cst (fun i => FloatOps.ofBits .f32 (lit0 (S2.rowMajor i))),
    nullary main_cst_0 (fun i => FloatOps.ofBits .f32 (lit1 (S2.rowMajor i))),
    nullary main_cst_1 (fun i => FloatOps.ofBits .f32 (lit2 (S2x1.rowMajor i))),
    unary main_cst_1 main_v0 (broadcastInDim S1x2x1 ![1, 2] bcast_S2x1_S1x2x1_1_2 : (⟨S2x1, .f32⟩ : BufTy).Contents (Elt F) → (⟨S1x2x1, .f32⟩ : BufTy).Contents (Elt F)),
    unary main_arg0 main_v1 ((extractStridedSlice S4194304x2 ![0, 0] · slices_S4194304x5_S4194304x2_0_0) : (⟨S4194304x5, .f32⟩ : BufTy).Contents (Elt F) → (⟨S4194304x2, .f32⟩ : BufTy).Contents (Elt F)),
    unary main_cst main_v2 (broadcastInDim S4194304x2 ![1] bcast_S2_S4194304x2_1 : (⟨S2, .f32⟩ : BufTy).Contents (Elt F) → (⟨S4194304x2, .f32⟩ : BufTy).Contents (Elt F)),
    unary main_cst_0 main_v3 (broadcastInDim S4194304x2 ![1] bcast_S2_S4194304x2_1 : (⟨S2, .f32⟩ : BufTy).Contents (Elt F) → (⟨S4194304x2, .f32⟩ : BufTy).Contents (Elt F)),
    binary main_v1 main_v1 main_call0_v0 (mulf : (⟨S4194304x2, .f32⟩ : BufTy).Contents (Elt F) → (⟨S4194304x2, .f32⟩ : BufTy).Contents (Elt F) → (⟨S4194304x2, .f32⟩ : BufTy).Contents (Elt F)),
    binary main_v2 main_v1 main_call0_v1 (mulf : (⟨S4194304x2, .f32⟩ : BufTy).Contents (Elt F) → (⟨S4194304x2, .f32⟩ : BufTy).Contents (Elt F) → (⟨S4194304x2, .f32⟩ : BufTy).Contents (Elt F)),
    binary main_v1 main_v2 main_call0_v2 (mulf : (⟨S4194304x2, .f32⟩ : BufTy).Contents (Elt F) → (⟨S4194304x2, .f32⟩ : BufTy).Contents (Elt F) → (⟨S4194304x2, .f32⟩ : BufTy).Contents (Elt F)),
    binary main_call0_v1 main_call0_v2 main_call0_v3 (addf : (⟨S4194304x2, .f32⟩ : BufTy).Contents (Elt F) → (⟨S4194304x2, .f32⟩ : BufTy).Contents (Elt F) → (⟨S4194304x2, .f32⟩ : BufTy).Contents (Elt F)),
    nullary main_call0_cst (constant S_ .f32 0x00000000#32 : (⟨S_, .f32⟩ : BufTy).Contents (Elt F)),
    binary main_call0_v0 main_call0_cst main_call0_v4 (fun x v => Host.reduceAdd x v reducesTo_S4194304x2_S4194304_d1 h_S_ : (⟨S4194304x2, .f32⟩ : BufTy).Contents (Elt F) → (⟨S_, .f32⟩ : BufTy).Contents (Elt F) → (⟨S4194304, .f32⟩ : BufTy).Contents (Elt F)),
    nullary main_call0_cst_0 (constant S_ .f32 0x00000000#32 : (⟨S_, .f32⟩ : BufTy).Contents (Elt F)),
    binary main_call0_v3 main_call0_cst_0 main_call0_v5 (fun x v => Host.reduceAdd x v reducesTo_S4194304x2_S4194304_d1 h_S_ : (⟨S4194304x2, .f32⟩ : BufTy).Contents (Elt F) → (⟨S_, .f32⟩ : BufTy).Contents (Elt F) → (⟨S4194304, .f32⟩ : BufTy).Contents (Elt F)),
    unary main_call0_v4 main_call0_v6 (broadcastInDim S4194304x1 ![0] bcast_S4194304_S4194304x1_0 : (⟨S4194304, .f32⟩ : BufTy).Contents (Elt F) → (⟨S4194304x1, .f32⟩ : BufTy).Contents (Elt F)),
    unary main_call0_v5 main_call0_v7 (broadcastInDim S4194304x1 ![0] bcast_S4194304_S4194304x1_0 : (⟨S4194304, .f32⟩ : BufTy).Contents (Elt F) → (⟨S4194304x1, .f32⟩ : BufTy).Contents (Elt F)),
    unary main_call0_v6 main_v4_0 (Host.sqrt : (⟨S4194304x1, .f32⟩ : BufTy).Contents (Elt F) → (⟨S4194304x1, .f32⟩ : BufTy).Contents (Elt F)),
    nullary main_call0_cst_1 (constant S_ .f32 0x3F000000#32 : (⟨S_, .f32⟩ : BufTy).Contents (Elt F)),
    unary main_call0_cst_1 main_call0_v9 (broadcastInDim S4194304x1 ![] bcast_S_S4194304x1 : (⟨S_, .f32⟩ : BufTy).Contents (Elt F) → (⟨S4194304x1, .f32⟩ : BufTy).Contents (Elt F)),
    binary main_call0_v9 main_v4_0 main_call0_v10 (Host.divf : (⟨S4194304x1, .f32⟩ : BufTy).Contents (Elt F) → (⟨S4194304x1, .f32⟩ : BufTy).Contents (Elt F) → (⟨S4194304x1, .f32⟩ : BufTy).Contents (Elt F)),
    binary main_call0_v7 main_call0_v10 main_v4_1 (mulf : (⟨S4194304x1, .f32⟩ : BufTy).Contents (Elt F) → (⟨S4194304x1, .f32⟩ : BufTy).Contents (Elt F) → (⟨S4194304x1, .f32⟩ : BufTy).Contents (Elt F)),
    binary main_v1 main_v4_0 main_v5 ((fun a b => concatenate S4194304x3 1 [⟨S4194304x2, a⟩, ⟨S4194304x1, b⟩] concatenates_S4194304x2_S4194304x1_S4194304x3_d1) : (⟨S4194304x2, .f32⟩ : BufTy).Contents (Elt F) → (⟨S4194304x1, .f32⟩ : BufTy).Contents (Elt F) → (⟨S4194304x3, .f32⟩ : BufTy).Contents (Elt F)),
    binary main_v2 main_v4_1 main_v6 ((fun a b => concatenate S4194304x3 1 [⟨S4194304x2, a⟩, ⟨S4194304x1, b⟩] concatenates_S4194304x2_S4194304x1_S4194304x3_d1) : (⟨S4194304x2, .f32⟩ : BufTy).Contents (Elt F) → (⟨S4194304x1, .f32⟩ : BufTy).Contents (Elt F) → (⟨S4194304x3, .f32⟩ : BufTy).Contents (Elt F)),
    binary main_v5 main_arg1 main_v7 ((fun l r => Host.dotGeneral dot_S4194304x3_S3x12_S4194304x12_1_0_0_1_n_n none l r) : (⟨S4194304x3, .f32⟩ : BufTy).Contents (Elt F) → (⟨S3x12, .f32⟩ : BufTy).Contents (Elt F) → (⟨S4194304x12, .f32⟩ : BufTy).Contents (Elt F)),
    binary main_v6 main_arg1 main_v8 ((fun l r => Host.dotGeneral dot_S4194304x3_S3x12_S4194304x12_1_0_0_1_n_n none l r) : (⟨S4194304x3, .f32⟩ : BufTy).Contents (Elt F) → (⟨S3x12, .f32⟩ : BufTy).Contents (Elt F) → (⟨S4194304x12, .f32⟩ : BufTy).Contents (Elt F)),
    unary main_arg2 main_v9 (broadcastInDim S1x12 ![1] bcast_S12_S1x12_1 : (⟨S12, .f32⟩ : BufTy).Contents (Elt F) → (⟨S1x12, .f32⟩ : BufTy).Contents (Elt F)),
    unary main_v9 main_v10 (broadcastInDim S4194304x12 ![0, 1] bcast_S1x12_S4194304x12_0_1 : (⟨S1x12, .f32⟩ : BufTy).Contents (Elt F) → (⟨S4194304x12, .f32⟩ : BufTy).Contents (Elt F)),
    binary main_v7 main_v10 main_v11 (addf : (⟨S4194304x12, .f32⟩ : BufTy).Contents (Elt F) → (⟨S4194304x12, .f32⟩ : BufTy).Contents (Elt F) → (⟨S4194304x12, .f32⟩ : BufTy).Contents (Elt F)),
    unary main_v11 main_v12 (Host.tanh : (⟨S4194304x12, .f32⟩ : BufTy).Contents (Elt F) → (⟨S4194304x12, .f32⟩ : BufTy).Contents (Elt F)),
    binary main_v8 main_v12 main_v13 (mulf : (⟨S4194304x12, .f32⟩ : BufTy).Contents (Elt F) → (⟨S4194304x12, .f32⟩ : BufTy).Contents (Elt F) → (⟨S4194304x12, .f32⟩ : BufTy).Contents (Elt F)),
    binary main_v8 main_v13 main_v14 (addf : (⟨S4194304x12, .f32⟩ : BufTy).Contents (Elt F) → (⟨S4194304x12, .f32⟩ : BufTy).Contents (Elt F) → (⟨S4194304x12, .f32⟩ : BufTy).Contents (Elt F)),
    nullary main_cst_2 (constant S_ .f32 0x3F800000#32),
    unary main_cst_2 main_v15 (broadcastInDim S4194304x12 ![] bcast_S_S4194304x12 : (⟨S_, .f32⟩ : BufTy).Contents (Elt F) → (⟨S4194304x12, .f32⟩ : BufTy).Contents (Elt F)),
    binary main_v15 main_v12 main_v16 (subf : (⟨S4194304x12, .f32⟩ : BufTy).Contents (Elt F) → (⟨S4194304x12, .f32⟩ : BufTy).Contents (Elt F) → (⟨S4194304x12, .f32⟩ : BufTy).Contents (Elt F)),
    binary main_v14 main_v16 main_v17 (mulf : (⟨S4194304x12, .f32⟩ : BufTy).Contents (Elt F) → (⟨S4194304x12, .f32⟩ : BufTy).Contents (Elt F) → (⟨S4194304x12, .f32⟩ : BufTy).Contents (Elt F)),
    binary main_v12 main_arg3 main_v18 ((fun l r => Host.dotGeneral dot_S4194304x12_S12x8_S4194304x8_1_0_0_1_n_n none l r) : (⟨S4194304x12, .f32⟩ : BufTy).Contents (Elt F) → (⟨S12x8, .f32⟩ : BufTy).Contents (Elt F) → (⟨S4194304x8, .f32⟩ : BufTy).Contents (Elt F)),
    binary main_v17 main_arg3 main_v19 ((fun l r => Host.dotGeneral dot_S4194304x12_S12x8_S4194304x8_1_0_0_1_n_n none l r) : (⟨S4194304x12, .f32⟩ : BufTy).Contents (Elt F) → (⟨S12x8, .f32⟩ : BufTy).Contents (Elt F) → (⟨S4194304x8, .f32⟩ : BufTy).Contents (Elt F)),
    unary main_arg4 main_v20 (broadcastInDim S1x8 ![1] bcast_S8_S1x8_1 : (⟨S8, .f32⟩ : BufTy).Contents (Elt F) → (⟨S1x8, .f32⟩ : BufTy).Contents (Elt F)),
    unary main_v20 main_v21 (broadcastInDim S4194304x8 ![0, 1] bcast_S1x8_S4194304x8_0_1 : (⟨S1x8, .f32⟩ : BufTy).Contents (Elt F) → (⟨S4194304x8, .f32⟩ : BufTy).Contents (Elt F)),
    binary main_v18 main_v21 main_v22 (addf : (⟨S4194304x8, .f32⟩ : BufTy).Contents (Elt F) → (⟨S4194304x8, .f32⟩ : BufTy).Contents (Elt F) → (⟨S4194304x8, .f32⟩ : BufTy).Contents (Elt F)),
    unary main_v22 main_v23 (Host.tanh : (⟨S4194304x8, .f32⟩ : BufTy).Contents (Elt F) → (⟨S4194304x8, .f32⟩ : BufTy).Contents (Elt F)),
    binary main_v19 main_v23 main_v24 (mulf : (⟨S4194304x8, .f32⟩ : BufTy).Contents (Elt F) → (⟨S4194304x8, .f32⟩ : BufTy).Contents (Elt F) → (⟨S4194304x8, .f32⟩ : BufTy).Contents (Elt F)),
    binary main_v19 main_v24 main_v25 (addf : (⟨S4194304x8, .f32⟩ : BufTy).Contents (Elt F) → (⟨S4194304x8, .f32⟩ : BufTy).Contents (Elt F) → (⟨S4194304x8, .f32⟩ : BufTy).Contents (Elt F)),
    nullary main_cst_3 (constant S_ .f32 0x3F800000#32),
    unary main_cst_3 main_v26 (broadcastInDim S4194304x8 ![] bcast_S_S4194304x8 : (⟨S_, .f32⟩ : BufTy).Contents (Elt F) → (⟨S4194304x8, .f32⟩ : BufTy).Contents (Elt F)),
    binary main_v26 main_v23 main_v27 (subf : (⟨S4194304x8, .f32⟩ : BufTy).Contents (Elt F) → (⟨S4194304x8, .f32⟩ : BufTy).Contents (Elt F) → (⟨S4194304x8, .f32⟩ : BufTy).Contents (Elt F)),
    binary main_v25 main_v27 main_v28 (mulf : (⟨S4194304x8, .f32⟩ : BufTy).Contents (Elt F) → (⟨S4194304x8, .f32⟩ : BufTy).Contents (Elt F) → (⟨S4194304x8, .f32⟩ : BufTy).Contents (Elt F)),
    binary main_v23 main_arg5 main_v29 ((fun l r => Host.dotGeneral dot_S4194304x8_S8x2_S4194304x2_1_0_0_1_n_n none l r) : (⟨S4194304x8, .f32⟩ : BufTy).Contents (Elt F) → (⟨S8x2, .f32⟩ : BufTy).Contents (Elt F) → (⟨S4194304x2, .f32⟩ : BufTy).Contents (Elt F)),
    binary main_v28 main_arg5 main_v30 ((fun l r => Host.dotGeneral dot_S4194304x8_S8x2_S4194304x2_1_0_0_1_n_n none l r) : (⟨S4194304x8, .f32⟩ : BufTy).Contents (Elt F) → (⟨S8x2, .f32⟩ : BufTy).Contents (Elt F) → (⟨S4194304x2, .f32⟩ : BufTy).Contents (Elt F)),
    unary main_arg6 main_v31 (broadcastInDim S1x2 ![1] bcast_S2_S1x2_1 : (⟨S2, .f32⟩ : BufTy).Contents (Elt F) → (⟨S1x2, .f32⟩ : BufTy).Contents (Elt F)),
    unary main_v31 main_v32 (broadcastInDim S4194304x2 ![0, 1] bcast_S1x2_S4194304x2_0_1 : (⟨S1x2, .f32⟩ : BufTy).Contents (Elt F) → (⟨S4194304x2, .f32⟩ : BufTy).Contents (Elt F)),
    binary main_v29 main_v32 main_v33 (addf : (⟨S4194304x2, .f32⟩ : BufTy).Contents (Elt F) → (⟨S4194304x2, .f32⟩ : BufTy).Contents (Elt F) → (⟨S4194304x2, .f32⟩ : BufTy).Contents (Elt F)),
    binary main_v1 main_v1 main_call1_v0 (mulf : (⟨S4194304x2, .f32⟩ : BufTy).Contents (Elt F) → (⟨S4194304x2, .f32⟩ : BufTy).Contents (Elt F) → (⟨S4194304x2, .f32⟩ : BufTy).Contents (Elt F)),
    binary main_v3 main_v1 main_call1_v1 (mulf : (⟨S4194304x2, .f32⟩ : BufTy).Contents (Elt F) → (⟨S4194304x2, .f32⟩ : BufTy).Contents (Elt F) → (⟨S4194304x2, .f32⟩ : BufTy).Contents (Elt F)),
    binary main_v1 main_v3 main_call1_v2 (mulf : (⟨S4194304x2, .f32⟩ : BufTy).Contents (Elt F) → (⟨S4194304x2, .f32⟩ : BufTy).Contents (Elt F) → (⟨S4194304x2, .f32⟩ : BufTy).Contents (Elt F)),
    binary main_call1_v1 main_call1_v2 main_call1_v3 (addf : (⟨S4194304x2, .f32⟩ : BufTy).Contents (Elt F) → (⟨S4194304x2, .f32⟩ : BufTy).Contents (Elt F) → (⟨S4194304x2, .f32⟩ : BufTy).Contents (Elt F)),
    nullary main_call1_cst (constant S_ .f32 0x00000000#32 : (⟨S_, .f32⟩ : BufTy).Contents (Elt F)),
    binary main_call1_v0 main_call1_cst main_call1_v4 (fun x v => Host.reduceAdd x v reducesTo_S4194304x2_S4194304_d1 h_S_ : (⟨S4194304x2, .f32⟩ : BufTy).Contents (Elt F) → (⟨S_, .f32⟩ : BufTy).Contents (Elt F) → (⟨S4194304, .f32⟩ : BufTy).Contents (Elt F)),
    nullary main_call1_cst_0 (constant S_ .f32 0x00000000#32 : (⟨S_, .f32⟩ : BufTy).Contents (Elt F)),
    binary main_call1_v3 main_call1_cst_0 main_call1_v5 (fun x v => Host.reduceAdd x v reducesTo_S4194304x2_S4194304_d1 h_S_ : (⟨S4194304x2, .f32⟩ : BufTy).Contents (Elt F) → (⟨S_, .f32⟩ : BufTy).Contents (Elt F) → (⟨S4194304, .f32⟩ : BufTy).Contents (Elt F)),
    unary main_call1_v4 main_call1_v6 (broadcastInDim S4194304x1 ![0] bcast_S4194304_S4194304x1_0 : (⟨S4194304, .f32⟩ : BufTy).Contents (Elt F) → (⟨S4194304x1, .f32⟩ : BufTy).Contents (Elt F)),
    unary main_call1_v5 main_call1_v7 (broadcastInDim S4194304x1 ![0] bcast_S4194304_S4194304x1_0 : (⟨S4194304, .f32⟩ : BufTy).Contents (Elt F) → (⟨S4194304x1, .f32⟩ : BufTy).Contents (Elt F)),
    unary main_call1_v6 main_v34_0 (Host.sqrt : (⟨S4194304x1, .f32⟩ : BufTy).Contents (Elt F) → (⟨S4194304x1, .f32⟩ : BufTy).Contents (Elt F)),
    nullary main_call1_cst_1 (constant S_ .f32 0x3F000000#32 : (⟨S_, .f32⟩ : BufTy).Contents (Elt F)),
    unary main_call1_cst_1 main_call1_v9 (broadcastInDim S4194304x1 ![] bcast_S_S4194304x1 : (⟨S_, .f32⟩ : BufTy).Contents (Elt F) → (⟨S4194304x1, .f32⟩ : BufTy).Contents (Elt F)),
    binary main_call1_v9 main_v34_0 main_call1_v10 (Host.divf : (⟨S4194304x1, .f32⟩ : BufTy).Contents (Elt F) → (⟨S4194304x1, .f32⟩ : BufTy).Contents (Elt F) → (⟨S4194304x1, .f32⟩ : BufTy).Contents (Elt F)),
    binary main_call1_v7 main_call1_v10 main_v34_1 (mulf : (⟨S4194304x1, .f32⟩ : BufTy).Contents (Elt F) → (⟨S4194304x1, .f32⟩ : BufTy).Contents (Elt F) → (⟨S4194304x1, .f32⟩ : BufTy).Contents (Elt F)),
    binary main_v1 main_v34_0 main_v35 ((fun a b => concatenate S4194304x3 1 [⟨S4194304x2, a⟩, ⟨S4194304x1, b⟩] concatenates_S4194304x2_S4194304x1_S4194304x3_d1) : (⟨S4194304x2, .f32⟩ : BufTy).Contents (Elt F) → (⟨S4194304x1, .f32⟩ : BufTy).Contents (Elt F) → (⟨S4194304x3, .f32⟩ : BufTy).Contents (Elt F)),
    binary main_v3 main_v34_1 main_v36 ((fun a b => concatenate S4194304x3 1 [⟨S4194304x2, a⟩, ⟨S4194304x1, b⟩] concatenates_S4194304x2_S4194304x1_S4194304x3_d1) : (⟨S4194304x2, .f32⟩ : BufTy).Contents (Elt F) → (⟨S4194304x1, .f32⟩ : BufTy).Contents (Elt F) → (⟨S4194304x3, .f32⟩ : BufTy).Contents (Elt F)),
    binary main_v35 main_arg1 main_v37 ((fun l r => Host.dotGeneral dot_S4194304x3_S3x12_S4194304x12_1_0_0_1_n_n none l r) : (⟨S4194304x3, .f32⟩ : BufTy).Contents (Elt F) → (⟨S3x12, .f32⟩ : BufTy).Contents (Elt F) → (⟨S4194304x12, .f32⟩ : BufTy).Contents (Elt F)),
    binary main_v36 main_arg1 main_v38 ((fun l r => Host.dotGeneral dot_S4194304x3_S3x12_S4194304x12_1_0_0_1_n_n none l r) : (⟨S4194304x3, .f32⟩ : BufTy).Contents (Elt F) → (⟨S3x12, .f32⟩ : BufTy).Contents (Elt F) → (⟨S4194304x12, .f32⟩ : BufTy).Contents (Elt F)),
    unary main_arg2 main_v39 (broadcastInDim S1x12 ![1] bcast_S12_S1x12_1 : (⟨S12, .f32⟩ : BufTy).Contents (Elt F) → (⟨S1x12, .f32⟩ : BufTy).Contents (Elt F)),
    unary main_v39 main_v40 (broadcastInDim S4194304x12 ![0, 1] bcast_S1x12_S4194304x12_0_1 : (⟨S1x12, .f32⟩ : BufTy).Contents (Elt F) → (⟨S4194304x12, .f32⟩ : BufTy).Contents (Elt F)),
    binary main_v37 main_v40 main_v41 (addf : (⟨S4194304x12, .f32⟩ : BufTy).Contents (Elt F) → (⟨S4194304x12, .f32⟩ : BufTy).Contents (Elt F) → (⟨S4194304x12, .f32⟩ : BufTy).Contents (Elt F)),
    unary main_v41 main_v42 (Host.tanh : (⟨S4194304x12, .f32⟩ : BufTy).Contents (Elt F) → (⟨S4194304x12, .f32⟩ : BufTy).Contents (Elt F)),
    binary main_v38 main_v42 main_v43 (mulf : (⟨S4194304x12, .f32⟩ : BufTy).Contents (Elt F) → (⟨S4194304x12, .f32⟩ : BufTy).Contents (Elt F) → (⟨S4194304x12, .f32⟩ : BufTy).Contents (Elt F)),
    binary main_v38 main_v43 main_v44 (addf : (⟨S4194304x12, .f32⟩ : BufTy).Contents (Elt F) → (⟨S4194304x12, .f32⟩ : BufTy).Contents (Elt F) → (⟨S4194304x12, .f32⟩ : BufTy).Contents (Elt F)),
    nullary main_cst_4 (constant S_ .f32 0x3F800000#32),
    unary main_cst_4 main_v45 (broadcastInDim S4194304x12 ![] bcast_S_S4194304x12 : (⟨S_, .f32⟩ : BufTy).Contents (Elt F) → (⟨S4194304x12, .f32⟩ : BufTy).Contents (Elt F)),
    binary main_v45 main_v42 main_v46 (subf : (⟨S4194304x12, .f32⟩ : BufTy).Contents (Elt F) → (⟨S4194304x12, .f32⟩ : BufTy).Contents (Elt F) → (⟨S4194304x12, .f32⟩ : BufTy).Contents (Elt F)),
    binary main_v44 main_v46 main_v47 (mulf : (⟨S4194304x12, .f32⟩ : BufTy).Contents (Elt F) → (⟨S4194304x12, .f32⟩ : BufTy).Contents (Elt F) → (⟨S4194304x12, .f32⟩ : BufTy).Contents (Elt F)),
    binary main_v42 main_arg3 main_v48 ((fun l r => Host.dotGeneral dot_S4194304x12_S12x8_S4194304x8_1_0_0_1_n_n none l r) : (⟨S4194304x12, .f32⟩ : BufTy).Contents (Elt F) → (⟨S12x8, .f32⟩ : BufTy).Contents (Elt F) → (⟨S4194304x8, .f32⟩ : BufTy).Contents (Elt F)),
    binary main_v47 main_arg3 main_v49 ((fun l r => Host.dotGeneral dot_S4194304x12_S12x8_S4194304x8_1_0_0_1_n_n none l r) : (⟨S4194304x12, .f32⟩ : BufTy).Contents (Elt F) → (⟨S12x8, .f32⟩ : BufTy).Contents (Elt F) → (⟨S4194304x8, .f32⟩ : BufTy).Contents (Elt F)),
    unary main_arg4 main_v50 (broadcastInDim S1x8 ![1] bcast_S8_S1x8_1 : (⟨S8, .f32⟩ : BufTy).Contents (Elt F) → (⟨S1x8, .f32⟩ : BufTy).Contents (Elt F)),
    unary main_v50 main_v51 (broadcastInDim S4194304x8 ![0, 1] bcast_S1x8_S4194304x8_0_1 : (⟨S1x8, .f32⟩ : BufTy).Contents (Elt F) → (⟨S4194304x8, .f32⟩ : BufTy).Contents (Elt F)),
    binary main_v48 main_v51 main_v52 (addf : (⟨S4194304x8, .f32⟩ : BufTy).Contents (Elt F) → (⟨S4194304x8, .f32⟩ : BufTy).Contents (Elt F) → (⟨S4194304x8, .f32⟩ : BufTy).Contents (Elt F)),
    unary main_v52 main_v53 (Host.tanh : (⟨S4194304x8, .f32⟩ : BufTy).Contents (Elt F) → (⟨S4194304x8, .f32⟩ : BufTy).Contents (Elt F)),
    binary main_v49 main_v53 main_v54 (mulf : (⟨S4194304x8, .f32⟩ : BufTy).Contents (Elt F) → (⟨S4194304x8, .f32⟩ : BufTy).Contents (Elt F) → (⟨S4194304x8, .f32⟩ : BufTy).Contents (Elt F)),
    binary main_v49 main_v54 main_v55 (addf : (⟨S4194304x8, .f32⟩ : BufTy).Contents (Elt F) → (⟨S4194304x8, .f32⟩ : BufTy).Contents (Elt F) → (⟨S4194304x8, .f32⟩ : BufTy).Contents (Elt F)),
    nullary main_cst_5 (constant S_ .f32 0x3F800000#32),
    unary main_cst_5 main_v56 (broadcastInDim S4194304x8 ![] bcast_S_S4194304x8 : (⟨S_, .f32⟩ : BufTy).Contents (Elt F) → (⟨S4194304x8, .f32⟩ : BufTy).Contents (Elt F)),
    binary main_v56 main_v53 main_v57 (subf : (⟨S4194304x8, .f32⟩ : BufTy).Contents (Elt F) → (⟨S4194304x8, .f32⟩ : BufTy).Contents (Elt F) → (⟨S4194304x8, .f32⟩ : BufTy).Contents (Elt F)),
    binary main_v55 main_v57 main_v58 (mulf : (⟨S4194304x8, .f32⟩ : BufTy).Contents (Elt F) → (⟨S4194304x8, .f32⟩ : BufTy).Contents (Elt F) → (⟨S4194304x8, .f32⟩ : BufTy).Contents (Elt F)),
    binary main_v53 main_arg5 main_v59 ((fun l r => Host.dotGeneral dot_S4194304x8_S8x2_S4194304x2_1_0_0_1_n_n none l r) : (⟨S4194304x8, .f32⟩ : BufTy).Contents (Elt F) → (⟨S8x2, .f32⟩ : BufTy).Contents (Elt F) → (⟨S4194304x2, .f32⟩ : BufTy).Contents (Elt F)),
    binary main_v58 main_arg5 main_v60 ((fun l r => Host.dotGeneral dot_S4194304x8_S8x2_S4194304x2_1_0_0_1_n_n none l r) : (⟨S4194304x8, .f32⟩ : BufTy).Contents (Elt F) → (⟨S8x2, .f32⟩ : BufTy).Contents (Elt F) → (⟨S4194304x2, .f32⟩ : BufTy).Contents (Elt F)),
    unary main_arg6 main_v61 (broadcastInDim S1x2 ![1] bcast_S2_S1x2_1 : (⟨S2, .f32⟩ : BufTy).Contents (Elt F) → (⟨S1x2, .f32⟩ : BufTy).Contents (Elt F)),
    unary main_v61 main_v62 (broadcastInDim S4194304x2 ![0, 1] bcast_S1x2_S4194304x2_0_1 : (⟨S1x2, .f32⟩ : BufTy).Contents (Elt F) → (⟨S4194304x2, .f32⟩ : BufTy).Contents (Elt F)),
    binary main_v59 main_v62 main_v63 (addf : (⟨S4194304x2, .f32⟩ : BufTy).Contents (Elt F) → (⟨S4194304x2, .f32⟩ : BufTy).Contents (Elt F) → (⟨S4194304x2, .f32⟩ : BufTy).Contents (Elt F)),
    unary main_v30 main_v64 (broadcastInDim S4194304x2x1 ![0, 1] bcast_S4194304x2_S4194304x2x1_0_1 : (⟨S4194304x2, .f32⟩ : BufTy).Contents (Elt F) → (⟨S4194304x2x1, .f32⟩ : BufTy).Contents (Elt F)),
    unary main_v60 main_v65 (broadcastInDim S4194304x2x1 ![0, 1] bcast_S4194304x2_S4194304x2x1_0_1 : (⟨S4194304x2, .f32⟩ : BufTy).Contents (Elt F) → (⟨S4194304x2x1, .f32⟩ : BufTy).Contents (Elt F)),
    binary main_v64 main_v65 main_v66 ((fun a b => concatenate S4194304x2x2 2 [⟨S4194304x2x1, a⟩, ⟨S4194304x2x1, b⟩] concatenates_S4194304x2x1_S4194304x2x1_S4194304x2x2_d2) : (⟨S4194304x2x1, .f32⟩ : BufTy).Contents (Elt F) → (⟨S4194304x2x1, .f32⟩ : BufTy).Contents (Elt F) → (⟨S4194304x2x2, .f32⟩ : BufTy).Contents (Elt F)),
    unary main_v66 main_v67 ((extractStridedSlice S4194304x1x1 ![0, 0, 0] · slices_S4194304x2x2_S4194304x1x1_0_0_0) : (⟨S4194304x2x2, .f32⟩ : BufTy).Contents (Elt F) → (⟨S4194304x1x1, .f32⟩ : BufTy).Contents (Elt F)),
    reshape main_v67 main_v68 rfl shapeCasts_S4194304x1x1_S4194304,
    unary main_v66 main_v69 ((extractStridedSlice S4194304x1x1 ![0, 0, 1] · slices_S4194304x2x2_S4194304x1x1_0_0_1) : (⟨S4194304x2x2, .f32⟩ : BufTy).Contents (Elt F) → (⟨S4194304x1x1, .f32⟩ : BufTy).Contents (Elt F)),
    reshape main_v69 main_v70 rfl shapeCasts_S4194304x1x1_S4194304,
    unary main_v66 main_v71 ((extractStridedSlice S4194304x1x1 ![0, 1, 0] · slices_S4194304x2x2_S4194304x1x1_0_1_0) : (⟨S4194304x2x2, .f32⟩ : BufTy).Contents (Elt F) → (⟨S4194304x1x1, .f32⟩ : BufTy).Contents (Elt F)),
    reshape main_v71 main_v72 rfl shapeCasts_S4194304x1x1_S4194304,
    unary main_v66 main_v73 ((extractStridedSlice S4194304x1x1 ![0, 1, 1] · slices_S4194304x2x2_S4194304x1x1_0_1_1) : (⟨S4194304x2x2, .f32⟩ : BufTy).Contents (Elt F) → (⟨S4194304x1x1, .f32⟩ : BufTy).Contents (Elt F)),
    reshape main_v73 main_v74 rfl shapeCasts_S4194304x1x1_S4194304,
    binary main_v68 main_v74 main_v75 (mulf : (⟨S4194304, .f32⟩ : BufTy).Contents (Elt F) → (⟨S4194304, .f32⟩ : BufTy).Contents (Elt F) → (⟨S4194304, .f32⟩ : BufTy).Contents (Elt F)),
    binary main_v70 main_v72 main_v76 (mulf : (⟨S4194304, .f32⟩ : BufTy).Contents (Elt F) → (⟨S4194304, .f32⟩ : BufTy).Contents (Elt F) → (⟨S4194304, .f32⟩ : BufTy).Contents (Elt F)),
    binary main_v75 main_v76 main_v77 (subf : (⟨S4194304, .f32⟩ : BufTy).Contents (Elt F) → (⟨S4194304, .f32⟩ : BufTy).Contents (Elt F) → (⟨S4194304, .f32⟩ : BufTy).Contents (Elt F)),
    unary main_v70 main_v78 (Host.negf : (⟨S4194304, .f32⟩ : BufTy).Contents (Elt F) → (⟨S4194304, .f32⟩ : BufTy).Contents (Elt F)),
    unary main_v74 main_v79 (broadcastInDim S4194304x1 ![0] bcast_S4194304_S4194304x1_0 : (⟨S4194304, .f32⟩ : BufTy).Contents (Elt F) → (⟨S4194304x1, .f32⟩ : BufTy).Contents (Elt F)),
    unary main_v78 main_v80 (broadcastInDim S4194304x1 ![0] bcast_S4194304_S4194304x1_0 : (⟨S4194304, .f32⟩ : BufTy).Contents (Elt F) → (⟨S4194304x1, .f32⟩ : BufTy).Contents (Elt F)),
    binary main_v79 main_v80 main_v81 ((fun a b => concatenate S4194304x2 1 [⟨S4194304x1, a⟩, ⟨S4194304x1, b⟩] concatenates_S4194304x1_S4194304x1_S4194304x2_d1) : (⟨S4194304x1, .f32⟩ : BufTy).Contents (Elt F) → (⟨S4194304x1, .f32⟩ : BufTy).Contents (Elt F) → (⟨S4194304x2, .f32⟩ : BufTy).Contents (Elt F)),
    unary main_v72 main_v82 (Host.negf : (⟨S4194304, .f32⟩ : BufTy).Contents (Elt F) → (⟨S4194304, .f32⟩ : BufTy).Contents (Elt F)),
    unary main_v82 main_v83 (broadcastInDim S4194304x1 ![0] bcast_S4194304_S4194304x1_0 : (⟨S4194304, .f32⟩ : BufTy).Contents (Elt F) → (⟨S4194304x1, .f32⟩ : BufTy).Contents (Elt F)),
    unary main_v68 main_v84 (broadcastInDim S4194304x1 ![0] bcast_S4194304_S4194304x1_0 : (⟨S4194304, .f32⟩ : BufTy).Contents (Elt F) → (⟨S4194304x1, .f32⟩ : BufTy).Contents (Elt F)),
    binary main_v83 main_v84 main_v85 ((fun a b => concatenate S4194304x2 1 [⟨S4194304x1, a⟩, ⟨S4194304x1, b⟩] concatenates_S4194304x1_S4194304x1_S4194304x2_d1) : (⟨S4194304x1, .f32⟩ : BufTy).Contents (Elt F) → (⟨S4194304x1, .f32⟩ : BufTy).Contents (Elt F) → (⟨S4194304x2, .f32⟩ : BufTy).Contents (Elt F)),
    unary main_v81 main_v86 (broadcastInDim S4194304x1x2 ![0, 2] bcast_S4194304x2_S4194304x1x2_0_2 : (⟨S4194304x2, .f32⟩ : BufTy).Contents (Elt F) → (⟨S4194304x1x2, .f32⟩ : BufTy).Contents (Elt F)),
    unary main_v85 main_v87 (broadcastInDim S4194304x1x2 ![0, 2] bcast_S4194304x2_S4194304x1x2_0_2 : (⟨S4194304x2, .f32⟩ : BufTy).Contents (Elt F) → (⟨S4194304x1x2, .f32⟩ : BufTy).Contents (Elt F)),
    binary main_v86 main_v87 main_v88 ((fun a b => concatenate S4194304x2x2 1 [⟨S4194304x1x2, a⟩, ⟨S4194304x1x2, b⟩] concatenates_S4194304x1x2_S4194304x1x2_S4194304x2x2_d1) : (⟨S4194304x1x2, .f32⟩ : BufTy).Contents (Elt F) → (⟨S4194304x1x2, .f32⟩ : BufTy).Contents (Elt F) → (⟨S4194304x2x2, .f32⟩ : BufTy).Contents (Elt F)),
    unary main_v77 main_v89 (broadcastInDim S4194304x1x1 ![0] bcast_S4194304_S4194304x1x1_0 : (⟨S4194304, .f32⟩ : BufTy).Contents (Elt F) → (⟨S4194304x1x1, .f32⟩ : BufTy).Contents (Elt F)),
    unary main_v89 main_v90 (broadcastInDim S4194304x2x2 ![0, 1, 2] bcast_S4194304x1x1_S4194304x2x2_0_1_2 : (⟨S4194304x1x1, .f32⟩ : BufTy).Contents (Elt F) → (⟨S4194304x2x2, .f32⟩ : BufTy).Contents (Elt F)),
    binary main_v88 main_v90 main_v91 (Host.divf : (⟨S4194304x2x2, .f32⟩ : BufTy).Contents (Elt F) → (⟨S4194304x2x2, .f32⟩ : BufTy).Contents (Elt F) → (⟨S4194304x2x2, .f32⟩ : BufTy).Contents (Elt F)),
    unary main_v33 main_v92 ((extractStridedSlice S4194304x1 ![0, 0] · slices_S4194304x2_S4194304x1_0_0) : (⟨S4194304x2, .f32⟩ : BufTy).Contents (Elt F) → (⟨S4194304x1, .f32⟩ : BufTy).Contents (Elt F)),
    unary main_v33 main_v93 ((extractStridedSlice S4194304x1 ![0, 1] · slices_S4194304x2_S4194304x1_0_1) : (⟨S4194304x2, .f32⟩ : BufTy).Contents (Elt F) → (⟨S4194304x1, .f32⟩ : BufTy).Contents (Elt F)),
    unary main_v92 main_v94 (Host.negf : (⟨S4194304x1, .f32⟩ : BufTy).Contents (Elt F) → (⟨S4194304x1, .f32⟩ : BufTy).Contents (Elt F)),
    binary main_v93 main_v94 main_v95 ((fun a b => concatenate S4194304x2 1 [⟨S4194304x1, a⟩, ⟨S4194304x1, b⟩] concatenates_S4194304x1_S4194304x1_S4194304x2_d1) : (⟨S4194304x1, .f32⟩ : BufTy).Contents (Elt F) → (⟨S4194304x1, .f32⟩ : BufTy).Contents (Elt F) → (⟨S4194304x2, .f32⟩ : BufTy).Contents (Elt F)),
    unary main_v95 main_v96 (broadcastInDim S4194304x2x1 ![0, 1] bcast_S4194304x2_S4194304x2x1_0_1 : (⟨S4194304x2, .f32⟩ : BufTy).Contents (Elt F) → (⟨S4194304x2x1, .f32⟩ : BufTy).Contents (Elt F)),
    nullary main_cst_6 (constant S_ .f32 0xBE3851EC#32),
    unary main_cst_6 main_v97 (broadcastInDim S4194304x2x2 ![] bcast_S_S4194304x2x2 : (⟨S_, .f32⟩ : BufTy).Contents (Elt F) → (⟨S4194304x2x2, .f32⟩ : BufTy).Contents (Elt F)),
    unary main_v0 main_v98 (broadcastInDim S4194304x2x1 ![0, 1, 2] bcast_S1x2x1_S4194304x2x1_0_1_2 : (⟨S1x2x1, .f32⟩ : BufTy).Contents (Elt F) → (⟨S4194304x2x1, .f32⟩ : BufTy).Contents (Elt F)),
    nullary main_cst_7 (constant S_ .f32 0x446B9E94#32),
    unary main_cst_7 main_v99 (broadcastInDim S4194304x2x1 ![] bcast_S_S4194304x2x1 : (⟨S_, .f32⟩ : BufTy).Contents (Elt F) → (⟨S4194304x2x1, .f32⟩ : BufTy).Contents (Elt F)),
    binary main_v96 main_v99 main_v100 (mulf : (⟨S4194304x2x1, .f32⟩ : BufTy).Contents (Elt F) → (⟨S4194304x2x1, .f32⟩ : BufTy).Contents (Elt F) → (⟨S4194304x2x1, .f32⟩ : BufTy).Contents (Elt F)),
    nary ![main_v97, main_v98, main_v100] main_v101 (fun u => concatenate S4194304x2x4 2 [⟨S4194304x2x2, u 0⟩, ⟨S4194304x2x1, u 1⟩, ⟨S4194304x2x1, u 2⟩] concatenates_S4194304x2x2_S4194304x2x1_S4194304x2x1_S4194304x2x4_d2),
    unary main_arg0 main_v102 ((extractStridedSlice S4194304x3 ![0, 0] · slices_S4194304x5_S4194304x3_0_0) : (⟨S4194304x5, .f32⟩ : BufTy).Contents (Elt F) → (⟨S4194304x3, .f32⟩ : BufTy).Contents (Elt F)),
    nullary main_cst_8 (constant S_ .f32 0x3F800000#32),
    unary main_cst_8 main_v103 (broadcastInDim S4194304x1 ![] bcast_S_S4194304x1 : (⟨S_, .f32⟩ : BufTy).Contents (Elt F) → (⟨S4194304x1, .f32⟩ : BufTy).Contents (Elt F)),
    binary main_v102 main_v103 main_v104 ((fun a b => concatenate S4194304x4 1 [⟨S4194304x3, a⟩, ⟨S4194304x1, b⟩] concatenates_S4194304x3_S4194304x1_S4194304x4_d1) : (⟨S4194304x3, .f32⟩ : BufTy).Contents (Elt F) → (⟨S4194304x1, .f32⟩ : BufTy).Contents (Elt F) → (⟨S4194304x4, .f32⟩ : BufTy).Contents (Elt F)),
    unary main_v104 main_v105 (broadcastInDim S4194304x4x1 ![0, 1] bcast_S4194304x4_S4194304x4x1_0_1 : (⟨S4194304x4, .f32⟩ : BufTy).Contents (Elt F) → (⟨S4194304x4x1, .f32⟩ : BufTy).Contents (Elt F)),
    binary main_v101 main_v105 main_v106 ((fun l r => Host.dotGeneral dot_S4194304x2x4_S4194304x4x1_S4194304x2x1_2_1_1_2_0_0 none l r) : (⟨S4194304x2x4, .f32⟩ : BufTy).Contents (Elt F) → (⟨S4194304x4x1, .f32⟩ : BufTy).Contents (Elt F) → (⟨S4194304x2x1, .f32⟩ : BufTy).Contents (Elt F)),
    binary main_v91 main_v106 main_v107 ((fun l r => Host.dotGeneral dot_S4194304x2x2_S4194304x2x1_S4194304x2x1_2_1_1_2_0_0 none l r) : (⟨S4194304x2x2, .f32⟩ : BufTy).Contents (Elt F) → (⟨S4194304x2x1, .f32⟩ : BufTy).Contents (Elt F) → (⟨S4194304x2x1, .f32⟩ : BufTy).Contents (Elt F)),
    reshape main_v107 main_v108 rfl shapeCasts_S4194304x2x1_S4194304x2,
    nullary main_cst_9 (constant S_ .f32 0x3851B717#32),
    unary main_cst_9 main_v109 (broadcastInDim S4194304x2 ![] bcast_S_S4194304x2 : (⟨S_, .f32⟩ : BufTy).Contents (Elt F) → (⟨S4194304x2, .f32⟩ : BufTy).Contents (Elt F)),
    binary main_v108 main_v109 main_v110 (mulf : (⟨S4194304x2, .f32⟩ : BufTy).Contents (Elt F) → (⟨S4194304x2, .f32⟩ : BufTy).Contents (Elt F) → (⟨S4194304x2, .f32⟩ : BufTy).Contents (Elt F)),
    binary main_v110 main_v1 main_v111 (addf : (⟨S4194304x2, .f32⟩ : BufTy).Contents (Elt F) → (⟨S4194304x2, .f32⟩ : BufTy).Contents (Elt F) → (⟨S4194304x2, .f32⟩ : BufTy).Contents (Elt F)) ]

set_option maxRecDepth 8192 in
set_option maxHeartbeats 4000000 in
/-- The two spellings are the same list. -/
theorem ops_eq : (ops : List (HloOp τ sig (Elt F))) = opsP := rfl

end Cert.ReferenceIdeal.RRun

end
-- ==== Proof.RStages.lean ====
/-
  The reference program, one buffer at a time, as PURE functions of the seven argument arrays.

  A row of the first array is (x0, x1, x2, _, _). The program takes the two currents x = (x0, x1), computes their norm ‖x‖ and the
  derivative of the norm along e₀ = (1, 0) and along e₁ = (0, 1) (two calls of one outlined function: the row sums of x · x and of
  e · x + x · e, the root, ½ over the root, the product), and pushes the input (x0, x1, ‖x‖) and its tangent through the three layers
  ψ = W3ᵀ tanh (W2ᵀ tanh (W1ᵀ · + b1) + b2) + b3, the tangent through each tanh as (dz + dz · h) · (1 − h). The forward pass is
  written twice, once per direction, so there are two copies of ψ. The two pushed columns make the Jacobian L; its determinant is
  a · d − b · c; the adjugate is assembled entry by entry and divided by the determinant entry by entry. The right-hand side is a
  2 × 4 matrix (−R_s, −R_s, s_k, ψ'_k ω) times the vector (x0, x1, x2, 1), with ψ' = (ψ₁, −ψ₀). The result is
  ((adj L / det L) · y) · Δt + x.

  Each definition below is ONE operation of the program applied to earlier definitions: the same operation, dimension record and
  shape fact as the program's line that writes the buffer of that name. Every definition takes all seven arrays, used or not. -/
import proofs.«109731_j50405736186087_2_alg».proof.ReferenceIdeal
import proofs.«109731_j50405736186087_2_alg».proof.Proof.Gen.ReferenceIdeal
import Idealize.ShloMosaic.PureOps.Ideal

noncomputable section

namespace Cert.ReferenceIdeal.RRead

open Cert.ReferenceIdeal Idealize.ShloMosaic
open Facts₀ Facts

/-- the unit vector e₀ = (1, 0) -/
def val_main_cst (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S2 .f32 :=
  fun i => FloatOps.ofBits .f32 (lit0 (S2.rowMajor i))

/-- the unit vector e₁ = (0, 1) -/
def val_main_cst_0 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S2 .f32 :=
  fun i => FloatOps.ofBits .f32 (lit1 (S2.rowMajor i))

/-- the switching column's coefficients (0, U_dc / 3), as a column -/
def val_main_cst_1 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S2x1 .f32 :=
  fun i => FloatOps.ofBits .f32 (lit2 (S2x1.rowMajor i))

/-- the same column under a leading unit axis -/
def val_main_v0 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S1x2x1 .f32 :=
  broadcastInDim S1x2x1 ![1, 2] bcast_S2x1_S1x2x1_1_2 (val_main_cst_1 a0 a1 a2 a3 a4 a5 a6)

/-- the two currents of every row -/
def val_main_v1 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x2 .f32 :=
  extractStridedSlice S4194304x2 ![0, 0] a0 slices_S4194304x5_S4194304x2_0_0

/-- e₀ in every row -/
def val_main_v2 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x2 .f32 :=
  broadcastInDim S4194304x2 ![1] bcast_S2_S4194304x2_1 (val_main_cst a0 a1 a2 a3 a4 a5 a6)

/-- e₁ in every row -/
def val_main_v3 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x2 .f32 :=
  broadcastInDim S4194304x2 ![1] bcast_S2_S4194304x2_1 (val_main_cst_0 a0 a1 a2 a3 a4 a5 a6)

/-- x · x, entry by entry (the norm's call along e₀) -/
def val_main_call0_v0 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x2 .f32 :=
  mulf (val_main_v1 a0 a1 a2 a3 a4 a5 a6) (val_main_v1 a0 a1 a2 a3 a4 a5 a6)

/-- e · x -/
def val_main_call0_v1 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x2 .f32 :=
  mulf (val_main_v2 a0 a1 a2 a3 a4 a5 a6) (val_main_v1 a0 a1 a2 a3 a4 a5 a6)

/-- x · e -/
def val_main_call0_v2 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x2 .f32 :=
  mulf (val_main_v1 a0 a1 a2 a3 a4 a5 a6) (val_main_v2 a0 a1 a2 a3 a4 a5 a6)

/-- e · x + x · e -/
def val_main_call0_v3 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x2 .f32 :=
  addf (val_main_call0_v1 a0 a1 a2 a3 a4 a5 a6) (val_main_call0_v2 a0 a1 a2 a3 a4 a5 a6)

/-- the zero word a row sum starts from -/
def val_main_call0_cst (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S_ .f32 :=
  constant S_ .f32 0x00000000#32

/-- the row sum of x · x -/
def val_main_call0_v4 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304 .f32 :=
  Host.reduceAdd (val_main_call0_v0 a0 a1 a2 a3 a4 a5 a6) (val_main_call0_cst a0 a1 a2 a3 a4 a5 a6) reducesTo_S4194304x2_S4194304_d1 h_S_

/-- the zero word a row sum starts from -/
def val_main_call0_cst_0 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S_ .f32 :=
  constant S_ .f32 0x00000000#32

/-- the row sum of e · x + x · e -/
def val_main_call0_v5 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304 .f32 :=
  Host.reduceAdd (val_main_call0_v3 a0 a1 a2 a3 a4 a5 a6) (val_main_call0_cst_0 a0 a1 a2 a3 a4 a5 a6) reducesTo_S4194304x2_S4194304_d1 h_S_

/-- the first row sum as a column -/
def val_main_call0_v6 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x1 .f32 :=
  broadcastInDim S4194304x1 ![0] bcast_S4194304_S4194304x1_0 (val_main_call0_v4 a0 a1 a2 a3 a4 a5 a6)

/-- the second row sum as a column -/
def val_main_call0_v7 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x1 .f32 :=
  broadcastInDim S4194304x1 ![0] bcast_S4194304_S4194304x1_0 (val_main_call0_v5 a0 a1 a2 a3 a4 a5 a6)

/-- ‖x‖ -/
def val_main_v4_0 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x1 .f32 :=
  Host.sqrt (val_main_call0_v6 a0 a1 a2 a3 a4 a5 a6)

/-- ½ -/
def val_main_call0_cst_1 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S_ .f32 :=
  constant S_ .f32 0x3F000000#32

/-- ½ in every row -/
def val_main_call0_v9 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x1 .f32 :=
  broadcastInDim S4194304x1 ![] bcast_S_S4194304x1 (val_main_call0_cst_1 a0 a1 a2 a3 a4 a5 a6)

/-- ½ / ‖x‖ -/
def val_main_call0_v10 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x1 .f32 :=
  Host.divf (val_main_call0_v9 a0 a1 a2 a3 a4 a5 a6) (val_main_v4_0 a0 a1 a2 a3 a4 a5 a6)

/-- the derivative of the norm along e₀ -/
def val_main_v4_1 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x1 .f32 :=
  mulf (val_main_call0_v7 a0 a1 a2 a3 a4 a5 a6) (val_main_call0_v10 a0 a1 a2 a3 a4 a5 a6)

/-- the network's input (x0, x1, ‖x‖) -/
def val_main_v5 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x3 .f32 :=
  concatenate S4194304x3 1 [⟨S4194304x2, (val_main_v1 a0 a1 a2 a3 a4 a5 a6)⟩, ⟨S4194304x1, (val_main_v4_0 a0 a1 a2 a3 a4 a5 a6)⟩] concatenates_S4194304x2_S4194304x1_S4194304x3_d1

/-- its tangent along e₀ -/
def val_main_v6 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x3 .f32 :=
  concatenate S4194304x3 1 [⟨S4194304x2, (val_main_v2 a0 a1 a2 a3 a4 a5 a6)⟩, ⟨S4194304x1, (val_main_v4_1 a0 a1 a2 a3 a4 a5 a6)⟩] concatenates_S4194304x2_S4194304x1_S4194304x3_d1

/-- input · W1 -/
def val_main_v7 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x12 .f32 :=
  Host.dotGeneral dot_S4194304x3_S3x12_S4194304x12_1_0_0_1_n_n none (val_main_v5 a0 a1 a2 a3 a4 a5 a6) a1

/-- tangent · W1 -/
def val_main_v8 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x12 .f32 :=
  Host.dotGeneral dot_S4194304x3_S3x12_S4194304x12_1_0_0_1_n_n none (val_main_v6 a0 a1 a2 a3 a4 a5 a6) a1

/-- b1 as a row -/
def val_main_v9 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S1x12 .f32 :=
  broadcastInDim S1x12 ![1] bcast_S12_S1x12_1 a2

/-- b1 in every row -/
def val_main_v10 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x12 .f32 :=
  broadcastInDim S4194304x12 ![0, 1] bcast_S1x12_S4194304x12_0_1 (val_main_v9 a0 a1 a2 a3 a4 a5 a6)

/-- input · W1 + b1 -/
def val_main_v11 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x12 .f32 :=
  addf (val_main_v7 a0 a1 a2 a3 a4 a5 a6) (val_main_v10 a0 a1 a2 a3 a4 a5 a6)

/-- the first hidden layer h1 -/
def val_main_v12 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x12 .f32 :=
  Host.tanh (val_main_v11 a0 a1 a2 a3 a4 a5 a6)

/-- dz · h1 -/
def val_main_v13 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x12 .f32 :=
  mulf (val_main_v8 a0 a1 a2 a3 a4 a5 a6) (val_main_v12 a0 a1 a2 a3 a4 a5 a6)

/-- dz + dz · h1 -/
def val_main_v14 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x12 .f32 :=
  addf (val_main_v8 a0 a1 a2 a3 a4 a5 a6) (val_main_v13 a0 a1 a2 a3 a4 a5 a6)

/-- 1 -/
def val_main_cst_2 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S_ .f32 :=
  constant S_ .f32 0x3F800000#32

/-- 1 everywhere -/
def val_main_v15 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x12 .f32 :=
  broadcastInDim S4194304x12 ![] bcast_S_S4194304x12 (val_main_cst_2 a0 a1 a2 a3 a4 a5 a6)

/-- 1 − h1 -/
def val_main_v16 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x12 .f32 :=
  subf (val_main_v15 a0 a1 a2 a3 a4 a5 a6) (val_main_v12 a0 a1 a2 a3 a4 a5 a6)

/-- the push through the first layer, (dz + dz · h1) · (1 − h1) -/
def val_main_v17 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x12 .f32 :=
  mulf (val_main_v14 a0 a1 a2 a3 a4 a5 a6) (val_main_v16 a0 a1 a2 a3 a4 a5 a6)

/-- h1 · W2 -/
def val_main_v18 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x8 .f32 :=
  Host.dotGeneral dot_S4194304x12_S12x8_S4194304x8_1_0_0_1_n_n none (val_main_v12 a0 a1 a2 a3 a4 a5 a6) a3

/-- (the first push) · W2 -/
def val_main_v19 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x8 .f32 :=
  Host.dotGeneral dot_S4194304x12_S12x8_S4194304x8_1_0_0_1_n_n none (val_main_v17 a0 a1 a2 a3 a4 a5 a6) a3

/-- b2 as a row -/
def val_main_v20 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S1x8 .f32 :=
  broadcastInDim S1x8 ![1] bcast_S8_S1x8_1 a4

/-- b2 in every row -/
def val_main_v21 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x8 .f32 :=
  broadcastInDim S4194304x8 ![0, 1] bcast_S1x8_S4194304x8_0_1 (val_main_v20 a0 a1 a2 a3 a4 a5 a6)

/-- h1 · W2 + b2 -/
def val_main_v22 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x8 .f32 :=
  addf (val_main_v18 a0 a1 a2 a3 a4 a5 a6) (val_main_v21 a0 a1 a2 a3 a4 a5 a6)

/-- the second hidden layer h2 -/
def val_main_v23 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x8 .f32 :=
  Host.tanh (val_main_v22 a0 a1 a2 a3 a4 a5 a6)

/-- dz · h2 -/
def val_main_v24 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x8 .f32 :=
  mulf (val_main_v19 a0 a1 a2 a3 a4 a5 a6) (val_main_v23 a0 a1 a2 a3 a4 a5 a6)

/-- dz + dz · h2 -/
def val_main_v25 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x8 .f32 :=
  addf (val_main_v19 a0 a1 a2 a3 a4 a5 a6) (val_main_v24 a0 a1 a2 a3 a4 a5 a6)

/-- 1 -/
def val_main_cst_3 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S_ .f32 :=
  constant S_ .f32 0x3F800000#32

/-- 1 everywhere -/
def val_main_v26 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x8 .f32 :=
  broadcastInDim S4194304x8 ![] bcast_S_S4194304x8 (val_main_cst_3 a0 a1 a2 a3 a4 a5 a6)

/-- 1 − h2 -/
def val_main_v27 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x8 .f32 :=
  subf (val_main_v26 a0 a1 a2 a3 a4 a5 a6) (val_main_v23 a0 a1 a2 a3 a4 a5 a6)

/-- the push through the second layer -/
def val_main_v28 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x8 .f32 :=
  mulf (val_main_v25 a0 a1 a2 a3 a4 a5 a6) (val_main_v27 a0 a1 a2 a3 a4 a5 a6)

/-- h2 · W3 -/
def val_main_v29 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x2 .f32 :=
  Host.dotGeneral dot_S4194304x8_S8x2_S4194304x2_1_0_0_1_n_n none (val_main_v23 a0 a1 a2 a3 a4 a5 a6) a5

/-- the Jacobian's column along e₀: (the second push) · W3 -/
def val_main_v30 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x2 .f32 :=
  Host.dotGeneral dot_S4194304x8_S8x2_S4194304x2_1_0_0_1_n_n none (val_main_v28 a0 a1 a2 a3 a4 a5 a6) a5

/-- b3 as a row -/
def val_main_v31 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S1x2 .f32 :=
  broadcastInDim S1x2 ![1] bcast_S2_S1x2_1 a6

/-- b3 in every row -/
def val_main_v32 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x2 .f32 :=
  broadcastInDim S4194304x2 ![0, 1] bcast_S1x2_S4194304x2_0_1 (val_main_v31 a0 a1 a2 a3 a4 a5 a6)

/-- the network's output ψ -/
def val_main_v33 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x2 .f32 :=
  addf (val_main_v29 a0 a1 a2 a3 a4 a5 a6) (val_main_v32 a0 a1 a2 a3 a4 a5 a6)

/-- x · x, entry by entry (the norm's call along e₁) -/
def val_main_call1_v0 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x2 .f32 :=
  mulf (val_main_v1 a0 a1 a2 a3 a4 a5 a6) (val_main_v1 a0 a1 a2 a3 a4 a5 a6)

/-- e · x -/
def val_main_call1_v1 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x2 .f32 :=
  mulf (val_main_v3 a0 a1 a2 a3 a4 a5 a6) (val_main_v1 a0 a1 a2 a3 a4 a5 a6)

/-- x · e -/
def val_main_call1_v2 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x2 .f32 :=
  mulf (val_main_v1 a0 a1 a2 a3 a4 a5 a6) (val_main_v3 a0 a1 a2 a3 a4 a5 a6)

/-- e · x + x · e -/
def val_main_call1_v3 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x2 .f32 :=
  addf (val_main_call1_v1 a0 a1 a2 a3 a4 a5 a6) (val_main_call1_v2 a0 a1 a2 a3 a4 a5 a6)

/-- the zero word a row sum starts from -/
def val_main_call1_cst (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S_ .f32 :=
  constant S_ .f32 0x00000000#32

/-- the row sum of x · x -/
def val_main_call1_v4 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304 .f32 :=
  Host.reduceAdd (val_main_call1_v0 a0 a1 a2 a3 a4 a5 a6) (val_main_call1_cst a0 a1 a2 a3 a4 a5 a6) reducesTo_S4194304x2_S4194304_d1 h_S_

/-- the zero word a row sum starts from -/
def val_main_call1_cst_0 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S_ .f32 :=
  constant S_ .f32 0x00000000#32

/-- the row sum of e · x + x · e -/
def val_main_call1_v5 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304 .f32 :=
  Host.reduceAdd (val_main_call1_v3 a0 a1 a2 a3 a4 a5 a6) (val_main_call1_cst_0 a0 a1 a2 a3 a4 a5 a6) reducesTo_S4194304x2_S4194304_d1 h_S_

/-- the first row sum as a column -/
def val_main_call1_v6 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x1 .f32 :=
  broadcastInDim S4194304x1 ![0] bcast_S4194304_S4194304x1_0 (val_main_call1_v4 a0 a1 a2 a3 a4 a5 a6)

/-- the second row sum as a column -/
def val_main_call1_v7 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x1 .f32 :=
  broadcastInDim S4194304x1 ![0] bcast_S4194304_S4194304x1_0 (val_main_call1_v5 a0 a1 a2 a3 a4 a5 a6)

/-- ‖x‖ -/
def val_main_v34_0 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x1 .f32 :=
  Host.sqrt (val_main_call1_v6 a0 a1 a2 a3 a4 a5 a6)

/-- ½ -/
def val_main_call1_cst_1 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S_ .f32 :=
  constant S_ .f32 0x3F000000#32

/-- ½ in every row -/
def val_main_call1_v9 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x1 .f32 :=
  broadcastInDim S4194304x1 ![] bcast_S_S4194304x1 (val_main_call1_cst_1 a0 a1 a2 a3 a4 a5 a6)

/-- ½ / ‖x‖ -/
def val_main_call1_v10 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x1 .f32 :=
  Host.divf (val_main_call1_v9 a0 a1 a2 a3 a4 a5 a6) (val_main_v34_0 a0 a1 a2 a3 a4 a5 a6)

/-- the derivative of the norm along e₁ -/
def val_main_v34_1 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x1 .f32 :=
  mulf (val_main_call1_v7 a0 a1 a2 a3 a4 a5 a6) (val_main_call1_v10 a0 a1 a2 a3 a4 a5 a6)

/-- the network's input (x0, x1, ‖x‖) -/
def val_main_v35 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x3 .f32 :=
  concatenate S4194304x3 1 [⟨S4194304x2, (val_main_v1 a0 a1 a2 a3 a4 a5 a6)⟩, ⟨S4194304x1, (val_main_v34_0 a0 a1 a2 a3 a4 a5 a6)⟩] concatenates_S4194304x2_S4194304x1_S4194304x3_d1

/-- its tangent along e₁ -/
def val_main_v36 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x3 .f32 :=
  concatenate S4194304x3 1 [⟨S4194304x2, (val_main_v3 a0 a1 a2 a3 a4 a5 a6)⟩, ⟨S4194304x1, (val_main_v34_1 a0 a1 a2 a3 a4 a5 a6)⟩] concatenates_S4194304x2_S4194304x1_S4194304x3_d1

/-- input · W1 -/
def val_main_v37 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x12 .f32 :=
  Host.dotGeneral dot_S4194304x3_S3x12_S4194304x12_1_0_0_1_n_n none (val_main_v35 a0 a1 a2 a3 a4 a5 a6) a1

/-- tangent · W1 -/
def val_main_v38 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x12 .f32 :=
  Host.dotGeneral dot_S4194304x3_S3x12_S4194304x12_1_0_0_1_n_n none (val_main_v36 a0 a1 a2 a3 a4 a5 a6) a1

/-- b1 as a row -/
def val_main_v39 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S1x12 .f32 :=
  broadcastInDim S1x12 ![1] bcast_S12_S1x12_1 a2

/-- b1 in every row -/
def val_main_v40 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x12 .f32 :=
  broadcastInDim S4194304x12 ![0, 1] bcast_S1x12_S4194304x12_0_1 (val_main_v39 a0 a1 a2 a3 a4 a5 a6)

/-- input · W1 + b1 -/
def val_main_v41 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x12 .f32 :=
  addf (val_main_v37 a0 a1 a2 a3 a4 a5 a6) (val_main_v40 a0 a1 a2 a3 a4 a5 a6)

/-- the first hidden layer h1 -/
def val_main_v42 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x12 .f32 :=
  Host.tanh (val_main_v41 a0 a1 a2 a3 a4 a5 a6)

/-- dz · h1 -/
def val_main_v43 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x12 .f32 :=
  mulf (val_main_v38 a0 a1 a2 a3 a4 a5 a6) (val_main_v42 a0 a1 a2 a3 a4 a5 a6)

/-- dz + dz · h1 -/
def val_main_v44 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x12 .f32 :=
  addf (val_main_v38 a0 a1 a2 a3 a4 a5 a6) (val_main_v43 a0 a1 a2 a3 a4 a5 a6)

/-- 1 -/
def val_main_cst_4 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S_ .f32 :=
  constant S_ .f32 0x3F800000#32

/-- 1 everywhere -/
def val_main_v45 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x12 .f32 :=
  broadcastInDim S4194304x12 ![] bcast_S_S4194304x12 (val_main_cst_4 a0 a1 a2 a3 a4 a5 a6)

/-- 1 − h1 -/
def val_main_v46 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x12 .f32 :=
  subf (val_main_v45 a0 a1 a2 a3 a4 a5 a6) (val_main_v42 a0 a1 a2 a3 a4 a5 a6)

/-- the push through the first layer, (dz + dz · h1) · (1 − h1) -/
def val_main_v47 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x12 .f32 :=
  mulf (val_main_v44 a0 a1 a2 a3 a4 a5 a6) (val_main_v46 a0 a1 a2 a3 a4 a5 a6)

/-- h1 · W2 -/
def val_main_v48 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x8 .f32 :=
  Host.dotGeneral dot_S4194304x12_S12x8_S4194304x8_1_0_0_1_n_n none (val_main_v42 a0 a1 a2 a3 a4 a5 a6) a3

/-- (the first push) · W2 -/
def val_main_v49 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x8 .f32 :=
  Host.dotGeneral dot_S4194304x12_S12x8_S4194304x8_1_0_0_1_n_n none (val_main_v47 a0 a1 a2 a3 a4 a5 a6) a3

/-- b2 as a row -/
def val_main_v50 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S1x8 .f32 :=
  broadcastInDim S1x8 ![1] bcast_S8_S1x8_1 a4

/-- b2 in every row -/
def val_main_v51 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x8 .f32 :=
  broadcastInDim S4194304x8 ![0, 1] bcast_S1x8_S4194304x8_0_1 (val_main_v50 a0 a1 a2 a3 a4 a5 a6)

/-- h1 · W2 + b2 -/
def val_main_v52 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x8 .f32 :=
  addf (val_main_v48 a0 a1 a2 a3 a4 a5 a6) (val_main_v51 a0 a1 a2 a3 a4 a5 a6)

/-- the second hidden layer h2 -/
def val_main_v53 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x8 .f32 :=
  Host.tanh (val_main_v52 a0 a1 a2 a3 a4 a5 a6)

/-- dz · h2 -/
def val_main_v54 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x8 .f32 :=
  mulf (val_main_v49 a0 a1 a2 a3 a4 a5 a6) (val_main_v53 a0 a1 a2 a3 a4 a5 a6)

/-- dz + dz · h2 -/
def val_main_v55 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x8 .f32 :=
  addf (val_main_v49 a0 a1 a2 a3 a4 a5 a6) (val_main_v54 a0 a1 a2 a3 a4 a5 a6)

/-- 1 -/
def val_main_cst_5 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S_ .f32 :=
  constant S_ .f32 0x3F800000#32

/-- 1 everywhere -/
def val_main_v56 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x8 .f32 :=
  broadcastInDim S4194304x8 ![] bcast_S_S4194304x8 (val_main_cst_5 a0 a1 a2 a3 a4 a5 a6)

/-- 1 − h2 -/
def val_main_v57 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x8 .f32 :=
  subf (val_main_v56 a0 a1 a2 a3 a4 a5 a6) (val_main_v53 a0 a1 a2 a3 a4 a5 a6)

/-- the push through the second layer -/
def val_main_v58 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x8 .f32 :=
  mulf (val_main_v55 a0 a1 a2 a3 a4 a5 a6) (val_main_v57 a0 a1 a2 a3 a4 a5 a6)

/-- h2 · W3 -/
def val_main_v59 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x2 .f32 :=
  Host.dotGeneral dot_S4194304x8_S8x2_S4194304x2_1_0_0_1_n_n none (val_main_v53 a0 a1 a2 a3 a4 a5 a6) a5

/-- the Jacobian's column along e₁: (the second push) · W3 -/
def val_main_v60 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x2 .f32 :=
  Host.dotGeneral dot_S4194304x8_S8x2_S4194304x2_1_0_0_1_n_n none (val_main_v58 a0 a1 a2 a3 a4 a5 a6) a5

/-- b3 as a row -/
def val_main_v61 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S1x2 .f32 :=
  broadcastInDim S1x2 ![1] bcast_S2_S1x2_1 a6

/-- b3 in every row -/
def val_main_v62 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x2 .f32 :=
  broadcastInDim S4194304x2 ![0, 1] bcast_S1x2_S4194304x2_0_1 (val_main_v61 a0 a1 a2 a3 a4 a5 a6)

/-- the network's output ψ -/
def val_main_v63 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x2 .f32 :=
  addf (val_main_v59 a0 a1 a2 a3 a4 a5 a6) (val_main_v62 a0 a1 a2 a3 a4 a5 a6)

/-- the column along e₀ under a new last axis -/
def val_main_v64 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x2x1 .f32 :=
  broadcastInDim S4194304x2x1 ![0, 1] bcast_S4194304x2_S4194304x2x1_0_1 (val_main_v30 a0 a1 a2 a3 a4 a5 a6)

/-- the column along e₁ under a new last axis -/
def val_main_v65 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x2x1 .f32 :=
  broadcastInDim S4194304x2x1 ![0, 1] bcast_S4194304x2_S4194304x2x1_0_1 (val_main_v60 a0 a1 a2 a3 a4 a5 a6)

/-- the Jacobian L, L[i][e] = ∂ψ_i / ∂x_e -/
def val_main_v66 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x2x2 .f32 :=
  concatenate S4194304x2x2 2 [⟨S4194304x2x1, (val_main_v64 a0 a1 a2 a3 a4 a5 a6)⟩, ⟨S4194304x2x1, (val_main_v65 a0 a1 a2 a3 a4 a5 a6)⟩] concatenates_S4194304x2x1_S4194304x2x1_S4194304x2x2_d2

/-- the entry L[0][0], as a 1 × 1 block -/
def val_main_v67 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x1x1 .f32 :=
  extractStridedSlice S4194304x1x1 ![0, 0, 0] (val_main_v66 a0 a1 a2 a3 a4 a5 a6) slices_S4194304x2x2_S4194304x1x1_0_0_0

/-- a = L[0][0] -/
def val_main_v68 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304 .f32 :=
  shapeCast S4194304 (val_main_v67 a0 a1 a2 a3 a4 a5 a6) shapeCasts_S4194304x1x1_S4194304

/-- the entry L[0][1], as a 1 × 1 block -/
def val_main_v69 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x1x1 .f32 :=
  extractStridedSlice S4194304x1x1 ![0, 0, 1] (val_main_v66 a0 a1 a2 a3 a4 a5 a6) slices_S4194304x2x2_S4194304x1x1_0_0_1

/-- b = L[0][1] -/
def val_main_v70 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304 .f32 :=
  shapeCast S4194304 (val_main_v69 a0 a1 a2 a3 a4 a5 a6) shapeCasts_S4194304x1x1_S4194304

/-- the entry L[1][0], as a 1 × 1 block -/
def val_main_v71 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x1x1 .f32 :=
  extractStridedSlice S4194304x1x1 ![0, 1, 0] (val_main_v66 a0 a1 a2 a3 a4 a5 a6) slices_S4194304x2x2_S4194304x1x1_0_1_0

/-- c = L[1][0] -/
def val_main_v72 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304 .f32 :=
  shapeCast S4194304 (val_main_v71 a0 a1 a2 a3 a4 a5 a6) shapeCasts_S4194304x1x1_S4194304

/-- the entry L[1][1], as a 1 × 1 block -/
def val_main_v73 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x1x1 .f32 :=
  extractStridedSlice S4194304x1x1 ![0, 1, 1] (val_main_v66 a0 a1 a2 a3 a4 a5 a6) slices_S4194304x2x2_S4194304x1x1_0_1_1

/-- d = L[1][1] -/
def val_main_v74 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304 .f32 :=
  shapeCast S4194304 (val_main_v73 a0 a1 a2 a3 a4 a5 a6) shapeCasts_S4194304x1x1_S4194304

/-- a · d -/
def val_main_v75 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304 .f32 :=
  mulf (val_main_v68 a0 a1 a2 a3 a4 a5 a6) (val_main_v74 a0 a1 a2 a3 a4 a5 a6)

/-- b · c -/
def val_main_v76 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304 .f32 :=
  mulf (val_main_v70 a0 a1 a2 a3 a4 a5 a6) (val_main_v72 a0 a1 a2 a3 a4 a5 a6)

/-- det L = a · d − b · c -/
def val_main_v77 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304 .f32 :=
  subf (val_main_v75 a0 a1 a2 a3 a4 a5 a6) (val_main_v76 a0 a1 a2 a3 a4 a5 a6)

/-- −b -/
def val_main_v78 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304 .f32 :=
  Host.negf (val_main_v70 a0 a1 a2 a3 a4 a5 a6)

/-- d as a column -/
def val_main_v79 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x1 .f32 :=
  broadcastInDim S4194304x1 ![0] bcast_S4194304_S4194304x1_0 (val_main_v74 a0 a1 a2 a3 a4 a5 a6)

/-- −b as a column -/
def val_main_v80 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x1 .f32 :=
  broadcastInDim S4194304x1 ![0] bcast_S4194304_S4194304x1_0 (val_main_v78 a0 a1 a2 a3 a4 a5 a6)

/-- the adjugate's first row (d, −b) -/
def val_main_v81 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x2 .f32 :=
  concatenate S4194304x2 1 [⟨S4194304x1, (val_main_v79 a0 a1 a2 a3 a4 a5 a6)⟩, ⟨S4194304x1, (val_main_v80 a0 a1 a2 a3 a4 a5 a6)⟩] concatenates_S4194304x1_S4194304x1_S4194304x2_d1

/-- −c -/
def val_main_v82 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304 .f32 :=
  Host.negf (val_main_v72 a0 a1 a2 a3 a4 a5 a6)

/-- −c as a column -/
def val_main_v83 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x1 .f32 :=
  broadcastInDim S4194304x1 ![0] bcast_S4194304_S4194304x1_0 (val_main_v82 a0 a1 a2 a3 a4 a5 a6)

/-- a as a column -/
def val_main_v84 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x1 .f32 :=
  broadcastInDim S4194304x1 ![0] bcast_S4194304_S4194304x1_0 (val_main_v68 a0 a1 a2 a3 a4 a5 a6)

/-- the adjugate's second row (−c, a) -/
def val_main_v85 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x2 .f32 :=
  concatenate S4194304x2 1 [⟨S4194304x1, (val_main_v83 a0 a1 a2 a3 a4 a5 a6)⟩, ⟨S4194304x1, (val_main_v84 a0 a1 a2 a3 a4 a5 a6)⟩] concatenates_S4194304x1_S4194304x1_S4194304x2_d1

/-- the first row under a middle unit axis -/
def val_main_v86 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x1x2 .f32 :=
  broadcastInDim S4194304x1x2 ![0, 2] bcast_S4194304x2_S4194304x1x2_0_2 (val_main_v81 a0 a1 a2 a3 a4 a5 a6)

/-- the second row under a middle unit axis -/
def val_main_v87 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x1x2 .f32 :=
  broadcastInDim S4194304x1x2 ![0, 2] bcast_S4194304x2_S4194304x1x2_0_2 (val_main_v85 a0 a1 a2 a3 a4 a5 a6)

/-- the adjugate of L -/
def val_main_v88 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x2x2 .f32 :=
  concatenate S4194304x2x2 1 [⟨S4194304x1x2, (val_main_v86 a0 a1 a2 a3 a4 a5 a6)⟩, ⟨S4194304x1x2, (val_main_v87 a0 a1 a2 a3 a4 a5 a6)⟩] concatenates_S4194304x1x2_S4194304x1x2_S4194304x2x2_d1

/-- det L as a 1 × 1 block -/
def val_main_v89 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x1x1 .f32 :=
  broadcastInDim S4194304x1x1 ![0] bcast_S4194304_S4194304x1x1_0 (val_main_v77 a0 a1 a2 a3 a4 a5 a6)

/-- det L in every entry -/
def val_main_v90 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x2x2 .f32 :=
  broadcastInDim S4194304x2x2 ![0, 1, 2] bcast_S4194304x1x1_S4194304x2x2_0_1_2 (val_main_v89 a0 a1 a2 a3 a4 a5 a6)

/-- adj L / det L, entry by entry -/
def val_main_v91 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x2x2 .f32 :=
  Host.divf (val_main_v88 a0 a1 a2 a3 a4 a5 a6) (val_main_v90 a0 a1 a2 a3 a4 a5 a6)

/-- ψ₀ -/
def val_main_v92 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x1 .f32 :=
  extractStridedSlice S4194304x1 ![0, 0] (val_main_v33 a0 a1 a2 a3 a4 a5 a6) slices_S4194304x2_S4194304x1_0_0

/-- ψ₁ -/
def val_main_v93 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x1 .f32 :=
  extractStridedSlice S4194304x1 ![0, 1] (val_main_v33 a0 a1 a2 a3 a4 a5 a6) slices_S4194304x2_S4194304x1_0_1

/-- −ψ₀ -/
def val_main_v94 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x1 .f32 :=
  Host.negf (val_main_v92 a0 a1 a2 a3 a4 a5 a6)

/-- (ψ₁, −ψ₀) -/
def val_main_v95 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x2 .f32 :=
  concatenate S4194304x2 1 [⟨S4194304x1, (val_main_v93 a0 a1 a2 a3 a4 a5 a6)⟩, ⟨S4194304x1, (val_main_v94 a0 a1 a2 a3 a4 a5 a6)⟩] concatenates_S4194304x1_S4194304x1_S4194304x2_d1

/-- (ψ₁, −ψ₀) as a column per row -/
def val_main_v96 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x2x1 .f32 :=
  broadcastInDim S4194304x2x1 ![0, 1] bcast_S4194304x2_S4194304x2x1_0_1 (val_main_v95 a0 a1 a2 a3 a4 a5 a6)

/-- −R_s -/
def val_main_cst_6 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S_ .f32 :=
  constant S_ .f32 0xBE3851EC#32

/-- −R_s in a 2 × 2 block per row -/
def val_main_v97 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x2x2 .f32 :=
  broadcastInDim S4194304x2x2 ![] bcast_S_S4194304x2x2 (val_main_cst_6 a0 a1 a2 a3 a4 a5 a6)

/-- the switching coefficients (0, U_dc / 3) in every row -/
def val_main_v98 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x2x1 .f32 :=
  broadcastInDim S4194304x2x1 ![0, 1, 2] bcast_S1x2x1_S4194304x2x1_0_1_2 (val_main_v0 a0 a1 a2 a3 a4 a5 a6)

/-- ω_el -/
def val_main_cst_7 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S_ .f32 :=
  constant S_ .f32 0x446B9E94#32

/-- ω_el everywhere -/
def val_main_v99 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x2x1 .f32 :=
  broadcastInDim S4194304x2x1 ![] bcast_S_S4194304x2x1 (val_main_cst_7 a0 a1 a2 a3 a4 a5 a6)

/-- (ψ₁, −ψ₀) · ω_el -/
def val_main_v100 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x2x1 .f32 :=
  mulf (val_main_v96 a0 a1 a2 a3 a4 a5 a6) (val_main_v99 a0 a1 a2 a3 a4 a5 a6)

/-- the 2 × 4 coefficient matrix (−R_s, −R_s, s_k, ψ'_k ω) -/
def val_main_v101 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x2x4 .f32 :=
  concatenate S4194304x2x4 2 [⟨S4194304x2x2, (val_main_v97 a0 a1 a2 a3 a4 a5 a6)⟩, ⟨S4194304x2x1, (val_main_v98 a0 a1 a2 a3 a4 a5 a6)⟩, ⟨S4194304x2x1, (val_main_v100 a0 a1 a2 a3 a4 a5 a6)⟩] concatenates_S4194304x2x2_S4194304x2x1_S4194304x2x1_S4194304x2x4_d2

/-- (x0, x1, x2) -/
def val_main_v102 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x3 .f32 :=
  extractStridedSlice S4194304x3 ![0, 0] a0 slices_S4194304x5_S4194304x3_0_0

/-- 1 -/
def val_main_cst_8 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S_ .f32 :=
  constant S_ .f32 0x3F800000#32

/-- 1 in every row -/
def val_main_v103 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x1 .f32 :=
  broadcastInDim S4194304x1 ![] bcast_S_S4194304x1 (val_main_cst_8 a0 a1 a2 a3 a4 a5 a6)

/-- the vector (x0, x1, x2, 1) -/
def val_main_v104 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x4 .f32 :=
  concatenate S4194304x4 1 [⟨S4194304x3, (val_main_v102 a0 a1 a2 a3 a4 a5 a6)⟩, ⟨S4194304x1, (val_main_v103 a0 a1 a2 a3 a4 a5 a6)⟩] concatenates_S4194304x3_S4194304x1_S4194304x4_d1

/-- the same as a column per row -/
def val_main_v105 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x4x1 .f32 :=
  broadcastInDim S4194304x4x1 ![0, 1] bcast_S4194304x4_S4194304x4x1_0_1 (val_main_v104 a0 a1 a2 a3 a4 a5 a6)

/-- the right-hand side y, row by row -/
def val_main_v106 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x2x1 .f32 :=
  Host.dotGeneral dot_S4194304x2x4_S4194304x4x1_S4194304x2x1_2_1_1_2_0_0 none (val_main_v101 a0 a1 a2 a3 a4 a5 a6) (val_main_v105 a0 a1 a2 a3 a4 a5 a6)

/-- (adj L / det L) · y, row by row -/
def val_main_v107 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x2x1 .f32 :=
  Host.dotGeneral dot_S4194304x2x2_S4194304x2x1_S4194304x2x1_2_1_1_2_0_0 none (val_main_v91 a0 a1 a2 a3 a4 a5 a6) (val_main_v106 a0 a1 a2 a3 a4 a5 a6)

/-- the solution without its unit axis -/
def val_main_v108 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x2 .f32 :=
  shapeCast S4194304x2 (val_main_v107 a0 a1 a2 a3 a4 a5 a6) shapeCasts_S4194304x2x1_S4194304x2

/-- Δt -/
def val_main_cst_9 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S_ .f32 :=
  constant S_ .f32 0x3851B717#32

/-- Δt everywhere -/
def val_main_v109 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x2 .f32 :=
  broadcastInDim S4194304x2 ![] bcast_S_S4194304x2 (val_main_cst_9 a0 a1 a2 a3 a4 a5 a6)

/-- the solution · Δt -/
def val_main_v110 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x2 .f32 :=
  mulf (val_main_v108 a0 a1 a2 a3 a4 a5 a6) (val_main_v109 a0 a1 a2 a3 a4 a5 a6)

/-- the result: the solution · Δt + the two currents -/
def val_main_v111 (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    FVec Ideal S4194304x2 .f32 :=
  addf (val_main_v110 a0 a1 a2 a3 a4 a5 a6) (val_main_v1 a0 a1 a2 a3 a4 a5 a6)

end Cert.ReferenceIdeal.RRead

end
-- ==== Proof.LibAfterRead.lean ====
/-
  Reading one buffer out of a straight line of host operations that assigns every buffer once.

  A line `ops` rewrites the device's buffers in order (`after ops V`). When operation `k` writes exactly the buffer `W[k]`
  (`Writes ops W`), a buffer that is not among `W[j], W[j+1], …` is left alone by every operation from `j` on. So, for the
  whole line: the buffer operation `k` writes ends at that operation's value, and each operand of operation `k` that no
  operation from `k` on writes is read, at that moment, with the contents it has at the END of the line. Together: on the final
  contents `after ops V`, every operation's equation  result = f (operands)  holds as printed.
-/
import Idealize.ShloMosaic.Lib.StableHlo.Run
import Mathlib.Data.List.Forall2

namespace Cert.LibAfterRead

open Idealize.ShloMosaic Idealize.ShloMosaic.StableHlo

variable {τ : Topo} {sig : RefSig} {Val : EltTy → Type}

/-- Running two lines one after the other is running their concatenation. -/
theorem after_app : ∀ (l₁ l₂ : List (HloOp τ sig Val)) (V : Valuation τ sig Val), after (l₁ ++ l₂) V = after l₂ (after l₁ V)
  | [], _, _ => rfl
  | op :: l₁, l₂, V => by rw [List.cons_append, after_cons, after_cons, after_app l₁ l₂]

/-- Related lists: every member of the left one has a partner in the right one. -/
theorem exists_of_forall₂ {α β : Type} {R : α → β → Prop} {l₁ : List α} {l₂ : List β} (h : List.Forall₂ R l₁ l₂) {a : α}
    (ha : a ∈ l₁) : ∃ b ∈ l₂, R a b := by
  induction h with
  | nil => cases ha
  | cons hab _ ih =>
    rcases List.mem_cons.mp ha with rfl | ha'
    · exact ⟨_, List.mem_cons_self, hab⟩
    · obtain ⟨b, hb, r⟩ := ih ha'
      exact ⟨b, List.mem_cons_of_mem _ hb, r⟩

/-- Operation `k` of the line writes exactly the buffer `W[k]`. -/
def Writes (ops : List (HloOp τ sig Val)) (W : List (Ref sig .tc)) : Prop :=
  List.Forall₂ (fun op r => op.writes = {Proc.devRef (τ := τ) .tc r}) ops W

/-- A buffer not among `W[j], W[j+1], …` is written by no operation from `j` on. -/
theorem Writes.not_mem_drop {ops : List (HloOp τ sig Val)} {W : List (Ref sig .tc)} (h : Writes ops W) (j : Nat)
    {y : Ref sig .tc} (hy : y ∉ W.drop j) : ∀ op ∈ ops.drop j, Proc.devRef (τ := τ) .tc y ∉ op.writes := by
  intro op hop hmem
  obtain ⟨r, hr, hw⟩ := exists_of_forall₂ (List.forall₂_drop j h) hop
  rw [hw, Finset.mem_singleton] at hmem
  exact hy (Proc.devRef_injective _ hmem ▸ hr)

/-- The line up to operation `k` has already given a buffer its final contents when no operation from `k` on writes it. -/
theorem after_take {ops : List (HloOp τ sig Val)} {W : List (Ref sig .tc)} (h : Writes ops W) (k : Nat) {a : Ref sig .tc}
    (ha : a ∉ W.drop k) (V : Valuation τ sig Val) :
    after (ops.take k) V (Proc.devRef .tc a) = after ops V (Proc.devRef .tc a) := by
  conv_rhs => rw [← List.take_append_drop k ops]
  rw [after_app, after_of_forall_not_mem _ _ (h.not_mem_drop k ha)]

/-- The buffer operation `k` writes, if no later operation writes it, ends at that operation's result over the contents
    the line has reached before it. -/
theorem after_eq_result {ops : List (HloOp τ sig Val)} {W : List (Ref sig .tc)} (h : Writes ops W) (k : Nat)
    {op : HloOp τ sig Val} (hk : ops[k]? = some op) {y : Ref sig .tc} (hy : y ∉ W.drop (k + 1)) (V : Valuation τ sig Val) :
    after ops V (Proc.devRef .tc y) = op.result (after (ops.take k) V) (Proc.devRef .tc y) := by
  obtain ⟨hlt, rfl⟩ := List.getElem?_eq_some_iff.mp hk
  conv_lhs => rw [← List.take_append_drop k ops, List.drop_eq_getElem_cons hlt]
  rw [after_app, after_cons, after_of_forall_not_mem _ _ (h.not_mem_drop (k + 1) hy)]

section Builders

variable {ops : List (HloOp τ sig Val)} {W : List (Ref sig .tc)}

/-- Operation `k` a value with no operand: its buffer ends at the value. -/
theorem read_nullary (h : Writes ops W) (k : Nat) (V : Valuation τ sig Val) {y : Ref sig .tc} {v : y.ty.Contents Val} {hy}
    (hk : ops[k]? = some (nullary (τ := τ) y v hy)) (hy' : y ∉ W.drop (k + 1)) :
    after ops V (Proc.devRef .tc y) = v := by
  rw [after_eq_result h k hk hy', nullary_result]

/-- Operation `k` a function of one operand: on the final contents its buffer is the function of the operand's. -/
theorem read_unary (h : Writes ops W) (k : Nat) (V : Valuation τ sig Val) {x y : Ref sig .tc} {f : x.ty.Contents Val → y.ty.Contents Val} {hx hy}
    (hk : ops[k]? = some (unary (τ := τ) x y f hx hy)) (hy' : y ∉ W.drop (k + 1)) (hx' : x ∉ W.drop k) :
    after ops V (Proc.devRef .tc y) = f (after ops V (Proc.devRef .tc x)) := by
  rw [after_eq_result h k hk hy', unary_result, after_take h k hx']

/-- Operation `k` a function of two operands. -/
theorem read_binary (h : Writes ops W) (k : Nat) (V : Valuation τ sig Val) {a b y : Ref sig .tc} {f : a.ty.Contents Val → b.ty.Contents Val → y.ty.Contents Val} {ha hb hy}
    (hk : ops[k]? = some (binary (τ := τ) a b y f ha hb hy)) (hy' : y ∉ W.drop (k + 1)) (ha' : a ∉ W.drop k)
    (hb' : b ∉ W.drop k) :
    after ops V (Proc.devRef .tc y) = f (after ops V (Proc.devRef .tc a)) (after ops V (Proc.devRef .tc b)) := by
  rw [after_eq_result h k hk hy', binary_result, after_take h k ha', after_take h k hb']

/-- Operation `k` a change of shape. -/
theorem read_reshape (h : Writes ops W) (k : Nat) (V : Valuation τ sig Val) {x y : Ref sig .tc} {he : x.ty.elt = y.ty.elt} {hn : x.ty.shape.ShapeCasts y.ty.shape} {hx hy}
    (hk : ops[k]? = some (reshape (τ := τ) (Val := Val) x y he hn hx hy)) (hy' : y ∉ W.drop (k + 1)) (hx' : x ∉ W.drop k) :
    after ops V (Proc.devRef .tc y) = fun i => he ▸ shapeCast y.ty.shape (after ops V (Proc.devRef .tc x)) hn i := by
  rw [after_eq_result h k hk hy', reshape_result, after_take h k hx']

/-- Operation `k` a function of a family of operands. -/
theorem read_nary (h : Writes ops W) (k : Nat) (V : Valuation τ sig Val) {n : Nat} {xs : Fin n → Ref sig .tc} {y : Ref sig .tc}
    {f : ((i : Fin n) → (xs i).ty.Contents Val) → y.ty.Contents Val} {hxs hy}
    (hk : ops[k]? = some (nary (τ := τ) xs y f hxs hy)) (hy' : y ∉ W.drop (k + 1)) (hxs' : ∀ i, xs i ∉ W.drop k) :
    after ops V (Proc.devRef .tc y) = f (fun i => after ops V (Proc.devRef .tc (xs i))) := by
  rw [after_eq_result h k hk hy', nary_result]
  exact congrArg f (funext fun i => after_take h k (hxs' i) V)

end Builders

end Cert.LibAfterRead
-- ==== Proof.RValBase.lean ====
/-
  The reference's buffers after the whole line of operations, read back as the stage functions of the seven argument
  arrays, one buffer at a time in program order: the operation that writes a buffer gives, on the final contents, the
  equation  buffer = f (operands)  (every buffer is assigned once and read only afterwards), the operands are already known
  to hold their stages, and the stage of the buffer is by definition f of the operands' stages.
  This module: the bookkeeping (which operation writes which buffer, for the plain spelling of the operations) and the first seven buffers: the constant tables, the two currents, the two unit directions.
-/
import proofs.«109731_j50405736186087_2_alg».proof.Proof.RRun
import proofs.«109731_j50405736186087_2_alg».proof.Proof.ROpsPlain
import proofs.«109731_j50405736186087_2_alg».proof.Proof.RStages
import proofs.«109731_j50405736186087_2_alg».proof.Proof.LibAfterRead

noncomputable section

namespace Cert.ReferenceIdeal.RRun

open Cert.ReferenceIdeal Cert.ReferenceIdeal.Gen Idealize.ShloMosaic Idealize.ShloMosaic.TcCoe Idealize.SL.Sem Idealize.ShloMosaic.StableHlo
open Cert.LibAfterRead Cert.ReferenceIdeal.RRead

set_option maxRecDepth 8192 in
/-- Operation `k` of the plain list writes exactly the `k`-th buffer of `written`. -/
theorem writes_eqP {F : FTy → Type} [FloatOps F] : Writes (opsP : List (HloOp τ sig (Elt F))) written := by
  show List.Forall₂ (fun op r => op.writes = {Proc.devRef (τ := τ) .tc r}) opsP written
  repeat (first | exact List.Forall₂.nil | refine List.Forall₂.cons rfl ?_)

/-- An argument buffer is written by no operation. -/
theorem keptP {F : FTy → Type} [FloatOps F] (V : Valuation τ sig (Elt F)) {r : Ref sig .tc} (hr : r ∉ written) :
    after opsP V (Proc.devRef .tc r) = V (Proc.devRef .tc r) := by
  rw [← ops_eq]; exact kept V hr

variable (V : Valuation τ sig (Elt Ideal))

theorem v_main_cst : after opsP V (Proc.devRef .tc main_cst) = val_main_cst (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_nullary writes_eqP 0 V (y := main_cst) rfl (by decide)]; rfl

theorem v_main_cst_0 : after opsP V (Proc.devRef .tc main_cst_0) = val_main_cst_0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_nullary writes_eqP 1 V (y := main_cst_0) rfl (by decide)]; rfl

theorem v_main_cst_1 : after opsP V (Proc.devRef .tc main_cst_1) = val_main_cst_1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_nullary writes_eqP 2 V (y := main_cst_1) rfl (by decide)]; rfl

theorem v_main_v0 : after opsP V (Proc.devRef .tc main_v0) = val_main_v0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 3 V (x := main_cst_1) (y := main_v0) rfl (by decide) (by decide), v_main_cst_1 V]; rfl

theorem v_main_v1 : after opsP V (Proc.devRef .tc main_v1) = val_main_v1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 4 V (x := main_arg0) (y := main_v1) rfl (by decide) (by decide), keptP V (r := main_arg0) (by decide)]; rfl

theorem v_main_v2 : after opsP V (Proc.devRef .tc main_v2) = val_main_v2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 5 V (x := main_cst) (y := main_v2) rfl (by decide) (by decide), v_main_cst V]; rfl

theorem v_main_v3 : after opsP V (Proc.devRef .tc main_v3) = val_main_v3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 6 V (x := main_cst_0) (y := main_v3) rfl (by decide) (by decide), v_main_cst_0 V]; rfl

end Cert.ReferenceIdeal.RRun

end
-- ==== Proof.RValE0.lean ====
/-
  The reference's buffers after the whole line of operations, read back as the stage functions of the seven argument
  arrays, one buffer at a time in program order: the operation that writes a buffer gives, on the final contents, the
  equation  buffer = f (operands)  (every buffer is assigned once and read only afterwards), the operands are already known
  to hold their stages, and the stage of the buffer is by definition f of the operands' stages.
  This module: the first call of the norm and the network with its push along the direction (1, 0): operations 8–53.
-/
import proofs.«109731_j50405736186087_2_alg».proof.Proof.RValBase

noncomputable section

namespace Cert.ReferenceIdeal.RRun

open Cert.ReferenceIdeal Cert.ReferenceIdeal.Gen Idealize.ShloMosaic Idealize.ShloMosaic.TcCoe Idealize.SL.Sem Idealize.ShloMosaic.StableHlo
open Cert.LibAfterRead Cert.ReferenceIdeal.RRead

variable (V : Valuation τ sig (Elt Ideal))

theorem v_main_call0_v0 : after opsP V (Proc.devRef .tc main_call0_v0) = val_main_call0_v0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 7 V (a := main_v1) (b := main_v1) (y := main_call0_v0) rfl (by decide) (by decide) (by decide), v_main_v1 V]; rfl

theorem v_main_call0_v1 : after opsP V (Proc.devRef .tc main_call0_v1) = val_main_call0_v1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 8 V (a := main_v2) (b := main_v1) (y := main_call0_v1) rfl (by decide) (by decide) (by decide), v_main_v2 V, v_main_v1 V]; rfl

theorem v_main_call0_v2 : after opsP V (Proc.devRef .tc main_call0_v2) = val_main_call0_v2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 9 V (a := main_v1) (b := main_v2) (y := main_call0_v2) rfl (by decide) (by decide) (by decide), v_main_v1 V, v_main_v2 V]; rfl

theorem v_main_call0_v3 : after opsP V (Proc.devRef .tc main_call0_v3) = val_main_call0_v3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 10 V (a := main_call0_v1) (b := main_call0_v2) (y := main_call0_v3) rfl (by decide) (by decide) (by decide), v_main_call0_v1 V, v_main_call0_v2 V]; rfl

theorem v_main_call0_cst : after opsP V (Proc.devRef .tc main_call0_cst) = val_main_call0_cst (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_nullary writes_eqP 11 V (y := main_call0_cst) rfl (by decide)]; rfl

theorem v_main_call0_v4 : after opsP V (Proc.devRef .tc main_call0_v4) = val_main_call0_v4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 12 V (a := main_call0_v0) (b := main_call0_cst) (y := main_call0_v4) rfl (by decide) (by decide) (by decide), v_main_call0_v0 V, v_main_call0_cst V]; rfl

theorem v_main_call0_cst_0 : after opsP V (Proc.devRef .tc main_call0_cst_0) = val_main_call0_cst_0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_nullary writes_eqP 13 V (y := main_call0_cst_0) rfl (by decide)]; rfl

theorem v_main_call0_v5 : after opsP V (Proc.devRef .tc main_call0_v5) = val_main_call0_v5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 14 V (a := main_call0_v3) (b := main_call0_cst_0) (y := main_call0_v5) rfl (by decide) (by decide) (by decide), v_main_call0_v3 V, v_main_call0_cst_0 V]; rfl

theorem v_main_call0_v6 : after opsP V (Proc.devRef .tc main_call0_v6) = val_main_call0_v6 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 15 V (x := main_call0_v4) (y := main_call0_v6) rfl (by decide) (by decide), v_main_call0_v4 V]; rfl

theorem v_main_call0_v7 : after opsP V (Proc.devRef .tc main_call0_v7) = val_main_call0_v7 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 16 V (x := main_call0_v5) (y := main_call0_v7) rfl (by decide) (by decide), v_main_call0_v5 V]; rfl

theorem v_main_v4_0 : after opsP V (Proc.devRef .tc main_v4_0) = val_main_v4_0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 17 V (x := main_call0_v6) (y := main_v4_0) rfl (by decide) (by decide), v_main_call0_v6 V]; rfl

theorem v_main_call0_cst_1 : after opsP V (Proc.devRef .tc main_call0_cst_1) = val_main_call0_cst_1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_nullary writes_eqP 18 V (y := main_call0_cst_1) rfl (by decide)]; rfl

theorem v_main_call0_v9 : after opsP V (Proc.devRef .tc main_call0_v9) = val_main_call0_v9 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 19 V (x := main_call0_cst_1) (y := main_call0_v9) rfl (by decide) (by decide), v_main_call0_cst_1 V]; rfl

theorem v_main_call0_v10 : after opsP V (Proc.devRef .tc main_call0_v10) = val_main_call0_v10 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 20 V (a := main_call0_v9) (b := main_v4_0) (y := main_call0_v10) rfl (by decide) (by decide) (by decide), v_main_call0_v9 V, v_main_v4_0 V]; rfl

theorem v_main_v4_1 : after opsP V (Proc.devRef .tc main_v4_1) = val_main_v4_1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 21 V (a := main_call0_v7) (b := main_call0_v10) (y := main_v4_1) rfl (by decide) (by decide) (by decide), v_main_call0_v7 V, v_main_call0_v10 V]; rfl

theorem v_main_v5 : after opsP V (Proc.devRef .tc main_v5) = val_main_v5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 22 V (a := main_v1) (b := main_v4_0) (y := main_v5) rfl (by decide) (by decide) (by decide), v_main_v1 V, v_main_v4_0 V]; rfl

theorem v_main_v6 : after opsP V (Proc.devRef .tc main_v6) = val_main_v6 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 23 V (a := main_v2) (b := main_v4_1) (y := main_v6) rfl (by decide) (by decide) (by decide), v_main_v2 V, v_main_v4_1 V]; rfl

theorem v_main_v7 : after opsP V (Proc.devRef .tc main_v7) = val_main_v7 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 24 V (a := main_v5) (b := main_arg1) (y := main_v7) rfl (by decide) (by decide) (by decide), v_main_v5 V, keptP V (r := main_arg1) (by decide)]; rfl

theorem v_main_v8 : after opsP V (Proc.devRef .tc main_v8) = val_main_v8 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 25 V (a := main_v6) (b := main_arg1) (y := main_v8) rfl (by decide) (by decide) (by decide), v_main_v6 V, keptP V (r := main_arg1) (by decide)]; rfl

theorem v_main_v9 : after opsP V (Proc.devRef .tc main_v9) = val_main_v9 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 26 V (x := main_arg2) (y := main_v9) rfl (by decide) (by decide), keptP V (r := main_arg2) (by decide)]; rfl

theorem v_main_v10 : after opsP V (Proc.devRef .tc main_v10) = val_main_v10 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 27 V (x := main_v9) (y := main_v10) rfl (by decide) (by decide), v_main_v9 V]; rfl

theorem v_main_v11 : after opsP V (Proc.devRef .tc main_v11) = val_main_v11 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 28 V (a := main_v7) (b := main_v10) (y := main_v11) rfl (by decide) (by decide) (by decide), v_main_v7 V, v_main_v10 V]; rfl

theorem v_main_v12 : after opsP V (Proc.devRef .tc main_v12) = val_main_v12 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 29 V (x := main_v11) (y := main_v12) rfl (by decide) (by decide), v_main_v11 V]; rfl

theorem v_main_v13 : after opsP V (Proc.devRef .tc main_v13) = val_main_v13 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 30 V (a := main_v8) (b := main_v12) (y := main_v13) rfl (by decide) (by decide) (by decide), v_main_v8 V, v_main_v12 V]; rfl

theorem v_main_v14 : after opsP V (Proc.devRef .tc main_v14) = val_main_v14 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 31 V (a := main_v8) (b := main_v13) (y := main_v14) rfl (by decide) (by decide) (by decide), v_main_v8 V, v_main_v13 V]; rfl

theorem v_main_cst_2 : after opsP V (Proc.devRef .tc main_cst_2) = val_main_cst_2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_nullary writes_eqP 32 V (y := main_cst_2) rfl (by decide)]; rfl

theorem v_main_v15 : after opsP V (Proc.devRef .tc main_v15) = val_main_v15 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 33 V (x := main_cst_2) (y := main_v15) rfl (by decide) (by decide), v_main_cst_2 V]; rfl

theorem v_main_v16 : after opsP V (Proc.devRef .tc main_v16) = val_main_v16 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 34 V (a := main_v15) (b := main_v12) (y := main_v16) rfl (by decide) (by decide) (by decide), v_main_v15 V, v_main_v12 V]; rfl

theorem v_main_v17 : after opsP V (Proc.devRef .tc main_v17) = val_main_v17 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 35 V (a := main_v14) (b := main_v16) (y := main_v17) rfl (by decide) (by decide) (by decide), v_main_v14 V, v_main_v16 V]; rfl

theorem v_main_v18 : after opsP V (Proc.devRef .tc main_v18) = val_main_v18 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 36 V (a := main_v12) (b := main_arg3) (y := main_v18) rfl (by decide) (by decide) (by decide), v_main_v12 V, keptP V (r := main_arg3) (by decide)]; rfl

theorem v_main_v19 : after opsP V (Proc.devRef .tc main_v19) = val_main_v19 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 37 V (a := main_v17) (b := main_arg3) (y := main_v19) rfl (by decide) (by decide) (by decide), v_main_v17 V, keptP V (r := main_arg3) (by decide)]; rfl

theorem v_main_v20 : after opsP V (Proc.devRef .tc main_v20) = val_main_v20 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 38 V (x := main_arg4) (y := main_v20) rfl (by decide) (by decide), keptP V (r := main_arg4) (by decide)]; rfl

theorem v_main_v21 : after opsP V (Proc.devRef .tc main_v21) = val_main_v21 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 39 V (x := main_v20) (y := main_v21) rfl (by decide) (by decide), v_main_v20 V]; rfl

theorem v_main_v22 : after opsP V (Proc.devRef .tc main_v22) = val_main_v22 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 40 V (a := main_v18) (b := main_v21) (y := main_v22) rfl (by decide) (by decide) (by decide), v_main_v18 V, v_main_v21 V]; rfl

theorem v_main_v23 : after opsP V (Proc.devRef .tc main_v23) = val_main_v23 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 41 V (x := main_v22) (y := main_v23) rfl (by decide) (by decide), v_main_v22 V]; rfl

theorem v_main_v24 : after opsP V (Proc.devRef .tc main_v24) = val_main_v24 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 42 V (a := main_v19) (b := main_v23) (y := main_v24) rfl (by decide) (by decide) (by decide), v_main_v19 V, v_main_v23 V]; rfl

theorem v_main_v25 : after opsP V (Proc.devRef .tc main_v25) = val_main_v25 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 43 V (a := main_v19) (b := main_v24) (y := main_v25) rfl (by decide) (by decide) (by decide), v_main_v19 V, v_main_v24 V]; rfl

theorem v_main_cst_3 : after opsP V (Proc.devRef .tc main_cst_3) = val_main_cst_3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_nullary writes_eqP 44 V (y := main_cst_3) rfl (by decide)]; rfl

theorem v_main_v26 : after opsP V (Proc.devRef .tc main_v26) = val_main_v26 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 45 V (x := main_cst_3) (y := main_v26) rfl (by decide) (by decide), v_main_cst_3 V]; rfl

theorem v_main_v27 : after opsP V (Proc.devRef .tc main_v27) = val_main_v27 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 46 V (a := main_v26) (b := main_v23) (y := main_v27) rfl (by decide) (by decide) (by decide), v_main_v26 V, v_main_v23 V]; rfl

theorem v_main_v28 : after opsP V (Proc.devRef .tc main_v28) = val_main_v28 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 47 V (a := main_v25) (b := main_v27) (y := main_v28) rfl (by decide) (by decide) (by decide), v_main_v25 V, v_main_v27 V]; rfl

theorem v_main_v29 : after opsP V (Proc.devRef .tc main_v29) = val_main_v29 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 48 V (a := main_v23) (b := main_arg5) (y := main_v29) rfl (by decide) (by decide) (by decide), v_main_v23 V, keptP V (r := main_arg5) (by decide)]; rfl

theorem v_main_v30 : after opsP V (Proc.devRef .tc main_v30) = val_main_v30 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 49 V (a := main_v28) (b := main_arg5) (y := main_v30) rfl (by decide) (by decide) (by decide), v_main_v28 V, keptP V (r := main_arg5) (by decide)]; rfl

theorem v_main_v31 : after opsP V (Proc.devRef .tc main_v31) = val_main_v31 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 50 V (x := main_arg6) (y := main_v31) rfl (by decide) (by decide), keptP V (r := main_arg6) (by decide)]; rfl

theorem v_main_v32 : after opsP V (Proc.devRef .tc main_v32) = val_main_v32 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 51 V (x := main_v31) (y := main_v32) rfl (by decide) (by decide), v_main_v31 V]; rfl

theorem v_main_v33 : after opsP V (Proc.devRef .tc main_v33) = val_main_v33 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 52 V (a := main_v29) (b := main_v32) (y := main_v33) rfl (by decide) (by decide) (by decide), v_main_v29 V, v_main_v32 V]; rfl

end Cert.ReferenceIdeal.RRun

end
-- ==== Proof.RValE1.lean ====
/-
  The reference's buffers after the whole line of operations, read back as the stage functions of the seven argument
  arrays, one buffer at a time in program order: the operation that writes a buffer gives, on the final contents, the
  equation  buffer = f (operands)  (every buffer is assigned once and read only afterwards), the operands are already known
  to hold their stages, and the stage of the buffer is by definition f of the operands' stages.
  This module: the second call of the norm and the network with its push along the direction (0, 1): operations 54–99.
-/
import proofs.«109731_j50405736186087_2_alg».proof.Proof.RValBase

noncomputable section

namespace Cert.ReferenceIdeal.RRun

open Cert.ReferenceIdeal Cert.ReferenceIdeal.Gen Idealize.ShloMosaic Idealize.ShloMosaic.TcCoe Idealize.SL.Sem Idealize.ShloMosaic.StableHlo
open Cert.LibAfterRead Cert.ReferenceIdeal.RRead

variable (V : Valuation τ sig (Elt Ideal))

theorem v_main_call1_v0 : after opsP V (Proc.devRef .tc main_call1_v0) = val_main_call1_v0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 53 V (a := main_v1) (b := main_v1) (y := main_call1_v0) rfl (by decide) (by decide) (by decide), v_main_v1 V]; rfl

theorem v_main_call1_v1 : after opsP V (Proc.devRef .tc main_call1_v1) = val_main_call1_v1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 54 V (a := main_v3) (b := main_v1) (y := main_call1_v1) rfl (by decide) (by decide) (by decide), v_main_v3 V, v_main_v1 V]; rfl

theorem v_main_call1_v2 : after opsP V (Proc.devRef .tc main_call1_v2) = val_main_call1_v2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 55 V (a := main_v1) (b := main_v3) (y := main_call1_v2) rfl (by decide) (by decide) (by decide), v_main_v1 V, v_main_v3 V]; rfl

theorem v_main_call1_v3 : after opsP V (Proc.devRef .tc main_call1_v3) = val_main_call1_v3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 56 V (a := main_call1_v1) (b := main_call1_v2) (y := main_call1_v3) rfl (by decide) (by decide) (by decide), v_main_call1_v1 V, v_main_call1_v2 V]; rfl

theorem v_main_call1_cst : after opsP V (Proc.devRef .tc main_call1_cst) = val_main_call1_cst (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_nullary writes_eqP 57 V (y := main_call1_cst) rfl (by decide)]; rfl

theorem v_main_call1_v4 : after opsP V (Proc.devRef .tc main_call1_v4) = val_main_call1_v4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 58 V (a := main_call1_v0) (b := main_call1_cst) (y := main_call1_v4) rfl (by decide) (by decide) (by decide), v_main_call1_v0 V, v_main_call1_cst V]; rfl

theorem v_main_call1_cst_0 : after opsP V (Proc.devRef .tc main_call1_cst_0) = val_main_call1_cst_0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_nullary writes_eqP 59 V (y := main_call1_cst_0) rfl (by decide)]; rfl

theorem v_main_call1_v5 : after opsP V (Proc.devRef .tc main_call1_v5) = val_main_call1_v5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 60 V (a := main_call1_v3) (b := main_call1_cst_0) (y := main_call1_v5) rfl (by decide) (by decide) (by decide), v_main_call1_v3 V, v_main_call1_cst_0 V]; rfl

theorem v_main_call1_v6 : after opsP V (Proc.devRef .tc main_call1_v6) = val_main_call1_v6 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 61 V (x := main_call1_v4) (y := main_call1_v6) rfl (by decide) (by decide), v_main_call1_v4 V]; rfl

theorem v_main_call1_v7 : after opsP V (Proc.devRef .tc main_call1_v7) = val_main_call1_v7 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 62 V (x := main_call1_v5) (y := main_call1_v7) rfl (by decide) (by decide), v_main_call1_v5 V]; rfl

theorem v_main_v34_0 : after opsP V (Proc.devRef .tc main_v34_0) = val_main_v34_0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 63 V (x := main_call1_v6) (y := main_v34_0) rfl (by decide) (by decide), v_main_call1_v6 V]; rfl

theorem v_main_call1_cst_1 : after opsP V (Proc.devRef .tc main_call1_cst_1) = val_main_call1_cst_1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_nullary writes_eqP 64 V (y := main_call1_cst_1) rfl (by decide)]; rfl

theorem v_main_call1_v9 : after opsP V (Proc.devRef .tc main_call1_v9) = val_main_call1_v9 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 65 V (x := main_call1_cst_1) (y := main_call1_v9) rfl (by decide) (by decide), v_main_call1_cst_1 V]; rfl

theorem v_main_call1_v10 : after opsP V (Proc.devRef .tc main_call1_v10) = val_main_call1_v10 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 66 V (a := main_call1_v9) (b := main_v34_0) (y := main_call1_v10) rfl (by decide) (by decide) (by decide), v_main_call1_v9 V, v_main_v34_0 V]; rfl

theorem v_main_v34_1 : after opsP V (Proc.devRef .tc main_v34_1) = val_main_v34_1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 67 V (a := main_call1_v7) (b := main_call1_v10) (y := main_v34_1) rfl (by decide) (by decide) (by decide), v_main_call1_v7 V, v_main_call1_v10 V]; rfl

theorem v_main_v35 : after opsP V (Proc.devRef .tc main_v35) = val_main_v35 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 68 V (a := main_v1) (b := main_v34_0) (y := main_v35) rfl (by decide) (by decide) (by decide), v_main_v1 V, v_main_v34_0 V]; rfl

theorem v_main_v36 : after opsP V (Proc.devRef .tc main_v36) = val_main_v36 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 69 V (a := main_v3) (b := main_v34_1) (y := main_v36) rfl (by decide) (by decide) (by decide), v_main_v3 V, v_main_v34_1 V]; rfl

theorem v_main_v37 : after opsP V (Proc.devRef .tc main_v37) = val_main_v37 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 70 V (a := main_v35) (b := main_arg1) (y := main_v37) rfl (by decide) (by decide) (by decide), v_main_v35 V, keptP V (r := main_arg1) (by decide)]; rfl

theorem v_main_v38 : after opsP V (Proc.devRef .tc main_v38) = val_main_v38 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 71 V (a := main_v36) (b := main_arg1) (y := main_v38) rfl (by decide) (by decide) (by decide), v_main_v36 V, keptP V (r := main_arg1) (by decide)]; rfl

theorem v_main_v39 : after opsP V (Proc.devRef .tc main_v39) = val_main_v39 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 72 V (x := main_arg2) (y := main_v39) rfl (by decide) (by decide), keptP V (r := main_arg2) (by decide)]; rfl

theorem v_main_v40 : after opsP V (Proc.devRef .tc main_v40) = val_main_v40 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 73 V (x := main_v39) (y := main_v40) rfl (by decide) (by decide), v_main_v39 V]; rfl

theorem v_main_v41 : after opsP V (Proc.devRef .tc main_v41) = val_main_v41 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 74 V (a := main_v37) (b := main_v40) (y := main_v41) rfl (by decide) (by decide) (by decide), v_main_v37 V, v_main_v40 V]; rfl

theorem v_main_v42 : after opsP V (Proc.devRef .tc main_v42) = val_main_v42 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 75 V (x := main_v41) (y := main_v42) rfl (by decide) (by decide), v_main_v41 V]; rfl

theorem v_main_v43 : after opsP V (Proc.devRef .tc main_v43) = val_main_v43 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 76 V (a := main_v38) (b := main_v42) (y := main_v43) rfl (by decide) (by decide) (by decide), v_main_v38 V, v_main_v42 V]; rfl

theorem v_main_v44 : after opsP V (Proc.devRef .tc main_v44) = val_main_v44 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 77 V (a := main_v38) (b := main_v43) (y := main_v44) rfl (by decide) (by decide) (by decide), v_main_v38 V, v_main_v43 V]; rfl

theorem v_main_cst_4 : after opsP V (Proc.devRef .tc main_cst_4) = val_main_cst_4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_nullary writes_eqP 78 V (y := main_cst_4) rfl (by decide)]; rfl

theorem v_main_v45 : after opsP V (Proc.devRef .tc main_v45) = val_main_v45 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 79 V (x := main_cst_4) (y := main_v45) rfl (by decide) (by decide), v_main_cst_4 V]; rfl

theorem v_main_v46 : after opsP V (Proc.devRef .tc main_v46) = val_main_v46 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 80 V (a := main_v45) (b := main_v42) (y := main_v46) rfl (by decide) (by decide) (by decide), v_main_v45 V, v_main_v42 V]; rfl

theorem v_main_v47 : after opsP V (Proc.devRef .tc main_v47) = val_main_v47 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 81 V (a := main_v44) (b := main_v46) (y := main_v47) rfl (by decide) (by decide) (by decide), v_main_v44 V, v_main_v46 V]; rfl

theorem v_main_v48 : after opsP V (Proc.devRef .tc main_v48) = val_main_v48 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 82 V (a := main_v42) (b := main_arg3) (y := main_v48) rfl (by decide) (by decide) (by decide), v_main_v42 V, keptP V (r := main_arg3) (by decide)]; rfl

theorem v_main_v49 : after opsP V (Proc.devRef .tc main_v49) = val_main_v49 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 83 V (a := main_v47) (b := main_arg3) (y := main_v49) rfl (by decide) (by decide) (by decide), v_main_v47 V, keptP V (r := main_arg3) (by decide)]; rfl

theorem v_main_v50 : after opsP V (Proc.devRef .tc main_v50) = val_main_v50 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 84 V (x := main_arg4) (y := main_v50) rfl (by decide) (by decide), keptP V (r := main_arg4) (by decide)]; rfl

theorem v_main_v51 : after opsP V (Proc.devRef .tc main_v51) = val_main_v51 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 85 V (x := main_v50) (y := main_v51) rfl (by decide) (by decide), v_main_v50 V]; rfl

theorem v_main_v52 : after opsP V (Proc.devRef .tc main_v52) = val_main_v52 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 86 V (a := main_v48) (b := main_v51) (y := main_v52) rfl (by decide) (by decide) (by decide), v_main_v48 V, v_main_v51 V]; rfl

theorem v_main_v53 : after opsP V (Proc.devRef .tc main_v53) = val_main_v53 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 87 V (x := main_v52) (y := main_v53) rfl (by decide) (by decide), v_main_v52 V]; rfl

theorem v_main_v54 : after opsP V (Proc.devRef .tc main_v54) = val_main_v54 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 88 V (a := main_v49) (b := main_v53) (y := main_v54) rfl (by decide) (by decide) (by decide), v_main_v49 V, v_main_v53 V]; rfl

theorem v_main_v55 : after opsP V (Proc.devRef .tc main_v55) = val_main_v55 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 89 V (a := main_v49) (b := main_v54) (y := main_v55) rfl (by decide) (by decide) (by decide), v_main_v49 V, v_main_v54 V]; rfl

theorem v_main_cst_5 : after opsP V (Proc.devRef .tc main_cst_5) = val_main_cst_5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_nullary writes_eqP 90 V (y := main_cst_5) rfl (by decide)]; rfl

theorem v_main_v56 : after opsP V (Proc.devRef .tc main_v56) = val_main_v56 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 91 V (x := main_cst_5) (y := main_v56) rfl (by decide) (by decide), v_main_cst_5 V]; rfl

theorem v_main_v57 : after opsP V (Proc.devRef .tc main_v57) = val_main_v57 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 92 V (a := main_v56) (b := main_v53) (y := main_v57) rfl (by decide) (by decide) (by decide), v_main_v56 V, v_main_v53 V]; rfl

theorem v_main_v58 : after opsP V (Proc.devRef .tc main_v58) = val_main_v58 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 93 V (a := main_v55) (b := main_v57) (y := main_v58) rfl (by decide) (by decide) (by decide), v_main_v55 V, v_main_v57 V]; rfl

theorem v_main_v59 : after opsP V (Proc.devRef .tc main_v59) = val_main_v59 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 94 V (a := main_v53) (b := main_arg5) (y := main_v59) rfl (by decide) (by decide) (by decide), v_main_v53 V, keptP V (r := main_arg5) (by decide)]; rfl

theorem v_main_v60 : after opsP V (Proc.devRef .tc main_v60) = val_main_v60 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 95 V (a := main_v58) (b := main_arg5) (y := main_v60) rfl (by decide) (by decide) (by decide), v_main_v58 V, keptP V (r := main_arg5) (by decide)]; rfl

theorem v_main_v61 : after opsP V (Proc.devRef .tc main_v61) = val_main_v61 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 96 V (x := main_arg6) (y := main_v61) rfl (by decide) (by decide), keptP V (r := main_arg6) (by decide)]; rfl

theorem v_main_v62 : after opsP V (Proc.devRef .tc main_v62) = val_main_v62 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 97 V (x := main_v61) (y := main_v62) rfl (by decide) (by decide), v_main_v61 V]; rfl

theorem v_main_v63 : after opsP V (Proc.devRef .tc main_v63) = val_main_v63 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 98 V (a := main_v59) (b := main_v62) (y := main_v63) rfl (by decide) (by decide) (by decide), v_main_v59 V, v_main_v62 V]; rfl

end Cert.ReferenceIdeal.RRun

end
-- ==== Proof.RValTail.lean ====
/-
  The reference's buffers after the whole line of operations, read back as the stage functions of the seven argument
  arrays, one buffer at a time in program order: the operation that writes a buffer gives, on the final contents, the
  equation  buffer = f (operands)  (every buffer is assigned once and read only afterwards), the operands are already known
  to hold their stages, and the stage of the buffer is by definition f of the operands' stages.
  This module: the Jacobian, its determinant and entrywise quotient, the right-hand side, the two contractions and the final scaling and sum: operations 100–151.
-/
import proofs.«109731_j50405736186087_2_alg».proof.Proof.RValE0
import proofs.«109731_j50405736186087_2_alg».proof.Proof.RValE1

noncomputable section

namespace Cert.ReferenceIdeal.RRun

open Cert.ReferenceIdeal Cert.ReferenceIdeal.Gen Idealize.ShloMosaic Idealize.ShloMosaic.TcCoe Idealize.SL.Sem Idealize.ShloMosaic.StableHlo
open Cert.LibAfterRead Cert.ReferenceIdeal.RRead

variable (V : Valuation τ sig (Elt Ideal))

theorem v_main_v64 : after opsP V (Proc.devRef .tc main_v64) = val_main_v64 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 99 V (x := main_v30) (y := main_v64) rfl (by decide) (by decide), v_main_v30 V]; rfl

theorem v_main_v65 : after opsP V (Proc.devRef .tc main_v65) = val_main_v65 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 100 V (x := main_v60) (y := main_v65) rfl (by decide) (by decide), v_main_v60 V]; rfl

theorem v_main_v66 : after opsP V (Proc.devRef .tc main_v66) = val_main_v66 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 101 V (a := main_v64) (b := main_v65) (y := main_v66) rfl (by decide) (by decide) (by decide), v_main_v64 V, v_main_v65 V]; rfl

theorem v_main_v67 : after opsP V (Proc.devRef .tc main_v67) = val_main_v67 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 102 V (x := main_v66) (y := main_v67) rfl (by decide) (by decide), v_main_v66 V]; rfl

theorem v_main_v68 : after opsP V (Proc.devRef .tc main_v68) = val_main_v68 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_reshape writes_eqP 103 V (x := main_v67) (y := main_v68) rfl (by decide) (by decide), v_main_v67 V]; rfl

theorem v_main_v69 : after opsP V (Proc.devRef .tc main_v69) = val_main_v69 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 104 V (x := main_v66) (y := main_v69) rfl (by decide) (by decide), v_main_v66 V]; rfl

theorem v_main_v70 : after opsP V (Proc.devRef .tc main_v70) = val_main_v70 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_reshape writes_eqP 105 V (x := main_v69) (y := main_v70) rfl (by decide) (by decide), v_main_v69 V]; rfl

theorem v_main_v71 : after opsP V (Proc.devRef .tc main_v71) = val_main_v71 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 106 V (x := main_v66) (y := main_v71) rfl (by decide) (by decide), v_main_v66 V]; rfl

theorem v_main_v72 : after opsP V (Proc.devRef .tc main_v72) = val_main_v72 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_reshape writes_eqP 107 V (x := main_v71) (y := main_v72) rfl (by decide) (by decide), v_main_v71 V]; rfl

theorem v_main_v73 : after opsP V (Proc.devRef .tc main_v73) = val_main_v73 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 108 V (x := main_v66) (y := main_v73) rfl (by decide) (by decide), v_main_v66 V]; rfl

theorem v_main_v74 : after opsP V (Proc.devRef .tc main_v74) = val_main_v74 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_reshape writes_eqP 109 V (x := main_v73) (y := main_v74) rfl (by decide) (by decide), v_main_v73 V]; rfl

theorem v_main_v75 : after opsP V (Proc.devRef .tc main_v75) = val_main_v75 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 110 V (a := main_v68) (b := main_v74) (y := main_v75) rfl (by decide) (by decide) (by decide), v_main_v68 V, v_main_v74 V]; rfl

theorem v_main_v76 : after opsP V (Proc.devRef .tc main_v76) = val_main_v76 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 111 V (a := main_v70) (b := main_v72) (y := main_v76) rfl (by decide) (by decide) (by decide), v_main_v70 V, v_main_v72 V]; rfl

theorem v_main_v77 : after opsP V (Proc.devRef .tc main_v77) = val_main_v77 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 112 V (a := main_v75) (b := main_v76) (y := main_v77) rfl (by decide) (by decide) (by decide), v_main_v75 V, v_main_v76 V]; rfl

theorem v_main_v78 : after opsP V (Proc.devRef .tc main_v78) = val_main_v78 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 113 V (x := main_v70) (y := main_v78) rfl (by decide) (by decide), v_main_v70 V]; rfl

theorem v_main_v79 : after opsP V (Proc.devRef .tc main_v79) = val_main_v79 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 114 V (x := main_v74) (y := main_v79) rfl (by decide) (by decide), v_main_v74 V]; rfl

theorem v_main_v80 : after opsP V (Proc.devRef .tc main_v80) = val_main_v80 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 115 V (x := main_v78) (y := main_v80) rfl (by decide) (by decide), v_main_v78 V]; rfl

theorem v_main_v81 : after opsP V (Proc.devRef .tc main_v81) = val_main_v81 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 116 V (a := main_v79) (b := main_v80) (y := main_v81) rfl (by decide) (by decide) (by decide), v_main_v79 V, v_main_v80 V]; rfl

theorem v_main_v82 : after opsP V (Proc.devRef .tc main_v82) = val_main_v82 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 117 V (x := main_v72) (y := main_v82) rfl (by decide) (by decide), v_main_v72 V]; rfl

theorem v_main_v83 : after opsP V (Proc.devRef .tc main_v83) = val_main_v83 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 118 V (x := main_v82) (y := main_v83) rfl (by decide) (by decide), v_main_v82 V]; rfl

theorem v_main_v84 : after opsP V (Proc.devRef .tc main_v84) = val_main_v84 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 119 V (x := main_v68) (y := main_v84) rfl (by decide) (by decide), v_main_v68 V]; rfl

theorem v_main_v85 : after opsP V (Proc.devRef .tc main_v85) = val_main_v85 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 120 V (a := main_v83) (b := main_v84) (y := main_v85) rfl (by decide) (by decide) (by decide), v_main_v83 V, v_main_v84 V]; rfl

theorem v_main_v86 : after opsP V (Proc.devRef .tc main_v86) = val_main_v86 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 121 V (x := main_v81) (y := main_v86) rfl (by decide) (by decide), v_main_v81 V]; rfl

theorem v_main_v87 : after opsP V (Proc.devRef .tc main_v87) = val_main_v87 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 122 V (x := main_v85) (y := main_v87) rfl (by decide) (by decide), v_main_v85 V]; rfl

theorem v_main_v88 : after opsP V (Proc.devRef .tc main_v88) = val_main_v88 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 123 V (a := main_v86) (b := main_v87) (y := main_v88) rfl (by decide) (by decide) (by decide), v_main_v86 V, v_main_v87 V]; rfl

theorem v_main_v89 : after opsP V (Proc.devRef .tc main_v89) = val_main_v89 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 124 V (x := main_v77) (y := main_v89) rfl (by decide) (by decide), v_main_v77 V]; rfl

theorem v_main_v90 : after opsP V (Proc.devRef .tc main_v90) = val_main_v90 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 125 V (x := main_v89) (y := main_v90) rfl (by decide) (by decide), v_main_v89 V]; rfl

theorem v_main_v91 : after opsP V (Proc.devRef .tc main_v91) = val_main_v91 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 126 V (a := main_v88) (b := main_v90) (y := main_v91) rfl (by decide) (by decide) (by decide), v_main_v88 V, v_main_v90 V]; rfl

theorem v_main_v92 : after opsP V (Proc.devRef .tc main_v92) = val_main_v92 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 127 V (x := main_v33) (y := main_v92) rfl (by decide) (by decide), v_main_v33 V]; rfl

theorem v_main_v93 : after opsP V (Proc.devRef .tc main_v93) = val_main_v93 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 128 V (x := main_v33) (y := main_v93) rfl (by decide) (by decide), v_main_v33 V]; rfl

theorem v_main_v94 : after opsP V (Proc.devRef .tc main_v94) = val_main_v94 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 129 V (x := main_v92) (y := main_v94) rfl (by decide) (by decide), v_main_v92 V]; rfl

theorem v_main_v95 : after opsP V (Proc.devRef .tc main_v95) = val_main_v95 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 130 V (a := main_v93) (b := main_v94) (y := main_v95) rfl (by decide) (by decide) (by decide), v_main_v93 V, v_main_v94 V]; rfl

theorem v_main_v96 : after opsP V (Proc.devRef .tc main_v96) = val_main_v96 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 131 V (x := main_v95) (y := main_v96) rfl (by decide) (by decide), v_main_v95 V]; rfl

theorem v_main_cst_6 : after opsP V (Proc.devRef .tc main_cst_6) = val_main_cst_6 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_nullary writes_eqP 132 V (y := main_cst_6) rfl (by decide)]; rfl

theorem v_main_v97 : after opsP V (Proc.devRef .tc main_v97) = val_main_v97 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 133 V (x := main_cst_6) (y := main_v97) rfl (by decide) (by decide), v_main_cst_6 V]; rfl

theorem v_main_v98 : after opsP V (Proc.devRef .tc main_v98) = val_main_v98 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 134 V (x := main_v0) (y := main_v98) rfl (by decide) (by decide), v_main_v0 V]; rfl

theorem v_main_cst_7 : after opsP V (Proc.devRef .tc main_cst_7) = val_main_cst_7 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_nullary writes_eqP 135 V (y := main_cst_7) rfl (by decide)]; rfl

theorem v_main_v99 : after opsP V (Proc.devRef .tc main_v99) = val_main_v99 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 136 V (x := main_cst_7) (y := main_v99) rfl (by decide) (by decide), v_main_cst_7 V]; rfl

theorem v_main_v100 : after opsP V (Proc.devRef .tc main_v100) = val_main_v100 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 137 V (a := main_v96) (b := main_v99) (y := main_v100) rfl (by decide) (by decide) (by decide), v_main_v96 V, v_main_v99 V]; rfl

theorem v_main_v101 : after opsP V (Proc.devRef .tc main_v101) = val_main_v101 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  delta val_main_v101
  rw [← v_main_v97 V, ← v_main_v98 V, ← v_main_v100 V]
  exact read_nary writes_eqP 138 V (xs := ![main_v97, main_v98, main_v100]) (y := main_v101) rfl (by decide) (by decide)

theorem v_main_v102 : after opsP V (Proc.devRef .tc main_v102) = val_main_v102 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 139 V (x := main_arg0) (y := main_v102) rfl (by decide) (by decide), keptP V (r := main_arg0) (by decide)]; rfl

theorem v_main_cst_8 : after opsP V (Proc.devRef .tc main_cst_8) = val_main_cst_8 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_nullary writes_eqP 140 V (y := main_cst_8) rfl (by decide)]; rfl

theorem v_main_v103 : after opsP V (Proc.devRef .tc main_v103) = val_main_v103 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 141 V (x := main_cst_8) (y := main_v103) rfl (by decide) (by decide), v_main_cst_8 V]; rfl

theorem v_main_v104 : after opsP V (Proc.devRef .tc main_v104) = val_main_v104 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 142 V (a := main_v102) (b := main_v103) (y := main_v104) rfl (by decide) (by decide) (by decide), v_main_v102 V, v_main_v103 V]; rfl

theorem v_main_v105 : after opsP V (Proc.devRef .tc main_v105) = val_main_v105 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 143 V (x := main_v104) (y := main_v105) rfl (by decide) (by decide), v_main_v104 V]; rfl

theorem v_main_v106 : after opsP V (Proc.devRef .tc main_v106) = val_main_v106 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 144 V (a := main_v101) (b := main_v105) (y := main_v106) rfl (by decide) (by decide) (by decide), v_main_v101 V, v_main_v105 V]; rfl

theorem v_main_v107 : after opsP V (Proc.devRef .tc main_v107) = val_main_v107 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 145 V (a := main_v91) (b := main_v106) (y := main_v107) rfl (by decide) (by decide) (by decide), v_main_v91 V, v_main_v106 V]; rfl

theorem v_main_v108 : after opsP V (Proc.devRef .tc main_v108) = val_main_v108 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_reshape writes_eqP 146 V (x := main_v107) (y := main_v108) rfl (by decide) (by decide), v_main_v107 V]; rfl

theorem v_main_cst_9 : after opsP V (Proc.devRef .tc main_cst_9) = val_main_cst_9 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_nullary writes_eqP 147 V (y := main_cst_9) rfl (by decide)]; rfl

theorem v_main_v109 : after opsP V (Proc.devRef .tc main_v109) = val_main_v109 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_unary writes_eqP 148 V (x := main_cst_9) (y := main_v109) rfl (by decide) (by decide), v_main_cst_9 V]; rfl

theorem v_main_v110 : after opsP V (Proc.devRef .tc main_v110) = val_main_v110 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 149 V (a := main_v108) (b := main_v109) (y := main_v110) rfl (by decide) (by decide) (by decide), v_main_v108 V, v_main_v109 V]; rfl

theorem v_main_v111 : after opsP V (Proc.devRef .tc main_v111) = val_main_v111 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [read_binary writes_eqP 150 V (a := main_v110) (b := main_v1) (y := main_v111) rfl (by decide) (by decide) (by decide), v_main_v110 V, v_main_v1 V]; rfl

end Cert.ReferenceIdeal.RRun

end
-- ==== Proof.RRunVal.lean ====
/-
  The reference's run with the result named: every weakly fair execution of @main terminates with the result buffer at the
  last stage function of the seven argument arrays as the launch memory holds them, the arguments unchanged. The run gives
  the result buffer as the fold of the 151 operations over the launch contents; the fold over the plain spelling of the
  operations has been read back, buffer by buffer, as the stages; the two spellings are one list.
-/
import proofs.«109731_j50405736186087_2_alg».proof.Proof.RValTail

noncomputable section

namespace Cert.ReferenceIdeal.RRun

open Cert.ReferenceIdeal Cert.ReferenceIdeal.Gen Idealize.ShloMosaic Idealize.ShloMosaic.TcCoe Idealize.SL.Sem Idealize.ShloMosaic.StableHlo
open Cert.LibAfterRead Cert.ReferenceIdeal.RRead

/-- After the 151 operations, from any contents `V`, the result buffer holds the last stage of `V`'s seven arguments. -/
theorem after_val (V : Valuation τ sig (Elt Ideal)) :
    after ops V (Proc.devRef .tc main_v111) = val_main_v111 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [ops_eq]; exact v_main_v111 V

/-- Every weakly fair execution of the reference's @main, from any memory with zero counters, terminates with the result
    buffer at the last stage of the seven argument arrays and the arguments unchanged. -/
theorem run_val (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v111) = val_main_v111 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (after_val (launchContents m c)), (h c).2⟩) (run m ρ)

end Cert.ReferenceIdeal.RRun

end
-- ==== Proof.RTail.lean ====
/-
  The last third of the reference, read one row at a time.

  From the two pushes d₀, d₁ (the Jacobian's columns, each an array [rows, 2]), the network's output ψ [rows, 2], the two currents
  x [rows, 2] and the input rows, the reference stacks the pushes into J [rows, 2, 2], takes the four entries
  a = J₀₀, b = J₀₁, c = J₁₀, d = J₁₁, forms det = a·d − b·c, assembles the adjugate ((d, −b), (−c, a)) by broadcasts and
  concatenations, divides it ENTRY BY ENTRY by det, builds the 2 × 4 coefficient matrix (−R_s, −R_s, s, ψ'·ω) with ψ' = (ψ₁, −ψ₀)
  and the vector (x₀, x₁, x₂, 1), contracts twice along a batch of rows, and returns the product times Δt plus the currents.
  Every operation moves or combines entries of ONE row, so each stage read at an index of row r is a function of row r's entries:
  those functions are Cert.Spec's rInv, rRhs, rVec, rY, rOut with the per-row quantities passed in.
-/
import proofs.«109731_j50405736186087_2_alg».proof.ReferenceIdeal
import proofs.«109731_j50405736186087_2_alg».proof.Proof.Gen.ReferenceIdeal
import proofs.«109731_j50405736186087_2_alg».proof.Proof.Spec
import Idealize.ShloMosaic.Lib.ValueIdx
import Idealize.ShloMosaic.Lib.Pipeline.Value
import Idealize.ShloMosaic.PureOps.Ideal.Laws

noncomputable section

namespace Cert.ReferenceIdeal.RTail

open Idealize.ShloMosaic Idealize.ShloMosaic.ValueIdx Cert.ReferenceIdeal
open Facts₀ Facts
open scoped BigOperators

variable [Facts]

/-! ## The Jacobian, its entries, its determinant -/

/-- an array [rows, 2] given a trailing unit axis -/
def col3 (d : FVec Ideal S4194304x2 .f32) : FVec Ideal S4194304x2x1 .f32 :=
  broadcastInDim S4194304x2x1 ![0, 1] bcast_S4194304x2_S4194304x2x1_0_1 d

theorem col3_apply (d : FVec Ideal S4194304x2 .f32) (r : Fin 4194304) (i : Fin 2) :
    col3 d (ix3 r i (0 : Fin 1)) = d (ix2 r i) := by
  unfold col3
  refine broadcastInDim_apply _ _ d _ (ix2 r i) fun a => ?_
  match a with
  | ⟨0, _⟩ => rfl
  | ⟨1, _⟩ => rfl

/-- the two pushes side by side on a new last axis: J[r, i, e] = ∂ψ_i / ∂x_e -/
def jac (d1 d2 : FVec Ideal S4194304x2 .f32) : FVec Ideal S4194304x2x2 .f32 :=
  concatenate S4194304x2x2 2 [⟨S4194304x2x1, col3 d1⟩, ⟨S4194304x2x1, col3 d2⟩] concatenates_S4194304x2x1_S4194304x2x1_S4194304x2x2_d2

theorem jac_apply0 (d1 d2 : FVec Ideal S4194304x2 .f32) (r : Fin 4194304) (i : Fin 2) :
    jac d1 d2 (ix3 r i (0 : Fin 2)) = d1 (ix2 r i) := by
  unfold jac
  refine (concatenate_pair_apply_left (2 : Fin 3) (col3 d1) (col3 d2) _ (ix3 r i (0 : Fin 2)) rfl (ix3 r i (0 : Fin 1)) fun b => ?_).trans
    (col3_apply d1 r i)
  match b with
  | ⟨0, _⟩ => rfl
  | ⟨1, _⟩ => rfl
  | ⟨2, _⟩ => rfl

theorem jac_apply1 (d1 d2 : FVec Ideal S4194304x2 .f32) (r : Fin 4194304) (i : Fin 2) :
    jac d1 d2 (ix3 r i (1 : Fin 2)) = d2 (ix2 r i) := by
  unfold jac
  refine (concatenate_pair_apply_right (2 : Fin 3) (col3 d1) (col3 d2) _ (ix3 r i (1 : Fin 2)) rfl rfl (ix3 r i (0 : Fin 1))
    (fun b hb => ?_) rfl).trans (col3_apply d2 r i)
  match b with
  | ⟨0, _⟩ => rfl
  | ⟨1, _⟩ => rfl
  | ⟨2, _⟩ => exact absurd rfl hb

/-- one entry of J per row: a slice of extent 1 × 1 flattened to [rows] -/
def ent (L : FVec Ideal S4194304x2x2 .f32) (o : Fin 3 → Nat) (hs : S4194304x2x2.Slices o S4194304x1x1) : FVec Ideal S4194304 .f32 :=
  shapeCast S4194304 (extractStridedSlice S4194304x1x1 o L hs) shapeCasts_S4194304x1x1_S4194304

theorem ent_apply (L : FVec Ideal S4194304x2x2 .f32) (o : Fin 3 → Nat) (hs : S4194304x2x2.Slices o S4194304x1x1) (i e : Fin 2)
    (ho : o = ![0, i.val, e.val]) (r : Fin 4194304) : ent L o hs (ix1 r) = L (ix3 r i e) := by
  subst ho
  unfold ent
  refine (shapeCast_apply _ _ (ix1 r) (ix3 r (0 : Fin 1) (0 : Fin 1)) ?_).trans ?_
  · rw [Shape.rowMajor_val_three, Shape.rowMajor_val_one]
    show ((r.val * 1 + 0) * 1 + 0) = r.val
    omega
  · refine extractStridedSlice_apply _ L hs _ (ix3 r i e) fun a => ?_
    match a with
    | ⟨0, _⟩ => show r.val = 0 + r.val; omega
    | ⟨1, _⟩ => show i.val = i.val + 0; omega
    | ⟨2, _⟩ => show e.val = e.val + 0; omega

theorem ent00 (L : FVec Ideal S4194304x2x2 .f32) (r : Fin 4194304) :
    ent L ![0, 0, 0] slices_S4194304x2x2_S4194304x1x1_0_0_0 (ix1 r) = L (ix3 r (0 : Fin 2) (0 : Fin 2)) := ent_apply L _ _ 0 0 rfl r
theorem ent01 (L : FVec Ideal S4194304x2x2 .f32) (r : Fin 4194304) :
    ent L ![0, 0, 1] slices_S4194304x2x2_S4194304x1x1_0_0_1 (ix1 r) = L (ix3 r (0 : Fin 2) (1 : Fin 2)) := ent_apply L _ _ 0 1 rfl r
theorem ent10 (L : FVec Ideal S4194304x2x2 .f32) (r : Fin 4194304) :
    ent L ![0, 1, 0] slices_S4194304x2x2_S4194304x1x1_0_1_0 (ix1 r) = L (ix3 r (1 : Fin 2) (0 : Fin 2)) := ent_apply L _ _ 1 0 rfl r
theorem ent11 (L : FVec Ideal S4194304x2x2 .f32) (r : Fin 4194304) :
    ent L ![0, 1, 1] slices_S4194304x2x2_S4194304x1x1_0_1_1 (ix1 r) = L (ix3 r (1 : Fin 2) (1 : Fin 2)) := ent_apply L _ _ 1 1 rfl r

/-- det J per row: a·d − b·c with a = J₀₀, d = J₁₁, b = J₀₁, c = J₁₀ -/
def detv (d1 d2 : FVec Ideal S4194304x2 .f32) : FVec Ideal S4194304 .f32 :=
  subf (mulf (ent (jac d1 d2) ![0, 0, 0] slices_S4194304x2x2_S4194304x1x1_0_0_0) (ent (jac d1 d2) ![0, 1, 1] slices_S4194304x2x2_S4194304x1x1_0_1_1))
    (mulf (ent (jac d1 d2) ![0, 0, 1] slices_S4194304x2x2_S4194304x1x1_0_0_1) (ent (jac d1 d2) ![0, 1, 0] slices_S4194304x2x2_S4194304x1x1_0_1_0))

theorem detv_apply (d1 d2 : FVec Ideal S4194304x2 .f32) (r : Fin 4194304) :
    detv d1 d2 (ix1 r) = d1 (ix2 r 0) * d2 (ix2 r 1) - d2 (ix2 r 0) * d1 (ix2 r 1) := by
  unfold detv
  rw [subf_apply, mulf_apply, mulf_apply,
    ent00, ent11, ent01, ent10, jac_apply0, jac_apply1, jac_apply1, jac_apply0]

/-! ## The adjugate over the determinant -/

/-- a per-row scalar given a trailing unit axis -/
def col1 (v : FVec Ideal S4194304 .f32) : FVec Ideal S4194304x1 .f32 :=
  broadcastInDim S4194304x1 ![0] bcast_S4194304_S4194304x1_0 v

theorem col1_apply (v : FVec Ideal S4194304 .f32) (r : Fin 4194304) : col1 v (ix2 r (0 : Fin 1)) = v (ix1 r) := by
  unfold col1
  refine broadcastInDim_apply _ _ v _ (ix1 r) fun a => ?_
  match a with
  | ⟨0, _⟩ => rfl

/-- two per-row scalars side by side: [rows, 2] -/
def pair (u v : FVec Ideal S4194304 .f32) : FVec Ideal S4194304x2 .f32 :=
  concatenate S4194304x2 1 [⟨S4194304x1, col1 u⟩, ⟨S4194304x1, col1 v⟩] concatenates_S4194304x1_S4194304x1_S4194304x2_d1

theorem pair_apply0 (u v : FVec Ideal S4194304 .f32) (r : Fin 4194304) : pair u v (ix2 r (0 : Fin 2)) = u (ix1 r) := by
  unfold pair
  refine (concatenate_pair_apply_left (1 : Fin 2) (col1 u) (col1 v) _ (ix2 r (0 : Fin 2)) rfl (ix2 r (0 : Fin 1)) fun b => ?_).trans (col1_apply u r)
  match b with
  | ⟨0, _⟩ => rfl
  | ⟨1, _⟩ => rfl

theorem pair_apply1 (u v : FVec Ideal S4194304 .f32) (r : Fin 4194304) : pair u v (ix2 r (1 : Fin 2)) = v (ix1 r) := by
  unfold pair
  refine (concatenate_pair_apply_right (1 : Fin 2) (col1 u) (col1 v) _ (ix2 r (1 : Fin 2)) rfl rfl (ix2 r (0 : Fin 1))
    (fun b hb => ?_) rfl).trans (col1_apply v r)
  match b with
  | ⟨0, _⟩ => rfl
  | ⟨1, _⟩ => exact absurd rfl hb

/-- an array [rows, 2] given a unit MIDDLE axis: one row of a 2 × 2 matrix per input row -/
def row3 (p : FVec Ideal S4194304x2 .f32) : FVec Ideal S4194304x1x2 .f32 :=
  broadcastInDim S4194304x1x2 ![0, 2] bcast_S4194304x2_S4194304x1x2_0_2 p

theorem row3_apply (p : FVec Ideal S4194304x2 .f32) (r : Fin 4194304) (k : Fin 2) : row3 p (ix3 r (0 : Fin 1) k) = p (ix2 r k) := by
  unfold row3
  refine broadcastInDim_apply _ _ p _ (ix2 r k) fun a => ?_
  match a with
  | ⟨0, _⟩ => rfl
  | ⟨1, _⟩ => rfl

/-- two rows stacked: [rows, 2, 2] -/
def rows2 (p q : FVec Ideal S4194304x2 .f32) : FVec Ideal S4194304x2x2 .f32 :=
  concatenate S4194304x2x2 1 [⟨S4194304x1x2, row3 p⟩, ⟨S4194304x1x2, row3 q⟩] concatenates_S4194304x1x2_S4194304x1x2_S4194304x2x2_d1

theorem rows2_apply0 (p q : FVec Ideal S4194304x2 .f32) (r : Fin 4194304) (k : Fin 2) : rows2 p q (ix3 r (0 : Fin 2) k) = p (ix2 r k) := by
  unfold rows2
  refine (concatenate_pair_apply_left (1 : Fin 3) (row3 p) (row3 q) _ (ix3 r (0 : Fin 2) k) rfl (ix3 r (0 : Fin 1) k) fun b => ?_).trans (row3_apply p r k)
  match b with
  | ⟨0, _⟩ => rfl
  | ⟨1, _⟩ => rfl
  | ⟨2, _⟩ => rfl

theorem rows2_apply1 (p q : FVec Ideal S4194304x2 .f32) (r : Fin 4194304) (k : Fin 2) : rows2 p q (ix3 r (1 : Fin 2) k) = q (ix2 r k) := by
  unfold rows2
  refine (concatenate_pair_apply_right (1 : Fin 3) (row3 p) (row3 q) _ (ix3 r (1 : Fin 2) k) rfl rfl (ix3 r (0 : Fin 1) k)
    (fun b hb => ?_) rfl).trans (row3_apply q r k)
  match b with
  | ⟨0, _⟩ => rfl
  | ⟨1, _⟩ => exact absurd rfl hb
  | ⟨2, _⟩ => rfl

/-- a per-row scalar repeated over a 2 × 2 matrix -/
def rep22 (v : FVec Ideal S4194304 .f32) : FVec Ideal S4194304x2x2 .f32 :=
  broadcastInDim S4194304x2x2 ![0, 1, 2] bcast_S4194304x1x1_S4194304x2x2_0_1_2
    (broadcastInDim S4194304x1x1 ![0] bcast_S4194304_S4194304x1x1_0 v)

theorem rep22_apply (v : FVec Ideal S4194304 .f32) (r : Fin 4194304) (j k : Fin 2) : rep22 v (ix3 r j k) = v (ix1 r) := by
  unfold rep22
  refine (broadcastInDim_apply _ _ _ _ (ix3 r (0 : Fin 1) (0 : Fin 1)) fun a => ?_).trans
    (broadcastInDim_apply _ _ v _ (ix1 r) fun a => ?_)
  · match a with
    | ⟨0, _⟩ => rfl
    | ⟨1, _⟩ => rfl
    | ⟨2, _⟩ => rfl
  · match a with
    | ⟨0, _⟩ => rfl

/-- adj(J) / det J, entry by entry -/
def invJ (d1 d2 : FVec Ideal S4194304x2 .f32) : FVec Ideal S4194304x2x2 .f32 :=
  Host.divf
    (rows2
      (pair (ent (jac d1 d2) ![0, 1, 1] slices_S4194304x2x2_S4194304x1x1_0_1_1)
        (Host.negf (ent (jac d1 d2) ![0, 0, 1] slices_S4194304x2x2_S4194304x1x1_0_0_1)))
      (pair (Host.negf (ent (jac d1 d2) ![0, 1, 0] slices_S4194304x2x2_S4194304x1x1_0_1_0))
        (ent (jac d1 d2) ![0, 0, 0] slices_S4194304x2x2_S4194304x1x1_0_0_0)))
    (rep22 (detv d1 d2))

theorem negf_apply' (v : FVec Ideal S4194304 .f32) (i : S4194304.Idx) : Host.negf v i = -(v i) := rfl
theorem divf_apply' (u v : FVec Ideal S4194304x2x2 .f32) (i : S4194304x2x2.Idx) : Host.divf u v i = Ideal.div (u i) (v i) := rfl

theorem invJ_apply (d1 d2 : FVec Ideal S4194304x2 .f32) (r : Fin 4194304) :
    invJ d1 d2 (ix3 r (0 : Fin 2) (0 : Fin 2)) = Ideal.div (d2 (ix2 r 1)) (detv d1 d2 (ix1 r))
    ∧ invJ d1 d2 (ix3 r (0 : Fin 2) (1 : Fin 2)) = Ideal.div (-(d2 (ix2 r 0))) (detv d1 d2 (ix1 r))
    ∧ invJ d1 d2 (ix3 r (1 : Fin 2) (0 : Fin 2)) = Ideal.div (-(d1 (ix2 r 1))) (detv d1 d2 (ix1 r))
    ∧ invJ d1 d2 (ix3 r (1 : Fin 2) (1 : Fin 2)) = Ideal.div (d1 (ix2 r 0)) (detv d1 d2 (ix1 r)) := by
  unfold invJ
  refine ⟨?_, ?_, ?_, ?_⟩
  · rw [divf_apply', rep22_apply, rows2_apply0, pair_apply0, ent11, jac_apply1]
  · rw [divf_apply', rep22_apply, rows2_apply0, pair_apply1, negf_apply', ent01, jac_apply1]
  · rw [divf_apply', rep22_apply, rows2_apply1, pair_apply0, negf_apply', ent10, jac_apply0]
  · rw [divf_apply', rep22_apply, rows2_apply1, pair_apply1, ent00, jac_apply0]

/-! ## The right-hand side -/

/-- column `1` of an array [rows, 2], as [rows, 1] -/
def colB (psi : FVec Ideal S4194304x2 .f32) : FVec Ideal S4194304x1 .f32 :=
  extractStridedSlice S4194304x1 ![0, 1] psi slices_S4194304x2_S4194304x1_0_1
/-- column `0` of an array [rows, 2], as [rows, 1] -/
def colA (psi : FVec Ideal S4194304x2 .f32) : FVec Ideal S4194304x1 .f32 :=
  extractStridedSlice S4194304x1 ![0, 0] psi slices_S4194304x2_S4194304x1_0_0

theorem colB_apply (psi : FVec Ideal S4194304x2 .f32) (r : Fin 4194304) : colB psi (ix2 r (0 : Fin 1)) = psi (ix2 r (1 : Fin 2)) := by
  unfold colB
  refine extractStridedSlice_apply _ psi _ (ix2 r (0 : Fin 1)) (ix2 r (1 : Fin 2)) fun a => ?_
  match a with
  | ⟨0, _⟩ => show r.val = 0 + r.val; omega
  | ⟨1, _⟩ => rfl

theorem colA_apply (psi : FVec Ideal S4194304x2 .f32) (r : Fin 4194304) : colA psi (ix2 r (0 : Fin 1)) = psi (ix2 r (0 : Fin 2)) := by
  unfold colA
  refine extractStridedSlice_apply _ psi _ (ix2 r (0 : Fin 1)) (ix2 r (0 : Fin 2)) fun a => ?_
  match a with
  | ⟨0, _⟩ => show r.val = 0 + r.val; omega
  | ⟨1, _⟩ => rfl

theorem negf_apply1 (v : FVec Ideal S4194304x1 .f32) (i : S4194304x1.Idx) : Host.negf v i = -(v i) := rfl

/-- two columns [rows, 1] side by side -/
def pairc (u v : FVec Ideal S4194304x1 .f32) : FVec Ideal S4194304x2 .f32 :=
  concatenate S4194304x2 1 [⟨S4194304x1, u⟩, ⟨S4194304x1, v⟩] concatenates_S4194304x1_S4194304x1_S4194304x2_d1

theorem pairc_apply0 (u v : FVec Ideal S4194304x1 .f32) (r : Fin 4194304) : pairc u v (ix2 r (0 : Fin 2)) = u (ix2 r (0 : Fin 1)) := by
  unfold pairc
  refine concatenate_pair_apply_left (1 : Fin 2) u v _ (ix2 r (0 : Fin 2)) rfl (ix2 r (0 : Fin 1)) fun b => ?_
  match b with
  | ⟨0, _⟩ => rfl
  | ⟨1, _⟩ => rfl

theorem pairc_apply1 (u v : FVec Ideal S4194304x1 .f32) (r : Fin 4194304) : pairc u v (ix2 r (1 : Fin 2)) = v (ix2 r (0 : Fin 1)) := by
  unfold pairc
  refine concatenate_pair_apply_right (1 : Fin 2) u v _ (ix2 r (1 : Fin 2)) rfl rfl (ix2 r (0 : Fin 1)) (fun b hb => ?_) rfl
  match b with
  | ⟨0, _⟩ => rfl
  | ⟨1, _⟩ => exact absurd rfl hb

/-- (ψ₁, −ψ₀), per row -/
def ipsi (psi : FVec Ideal S4194304x2 .f32) : FVec Ideal S4194304x2 .f32 := pairc (colB psi) (Host.negf (colA psi))

theorem ipsi_apply0 (psi : FVec Ideal S4194304x2 .f32) (r : Fin 4194304) : ipsi psi (ix2 r (0 : Fin 2)) = psi (ix2 r (1 : Fin 2)) := by
  unfold ipsi; rw [pairc_apply0, colB_apply]

theorem ipsi_apply1 (psi : FVec Ideal S4194304x2 .f32) (r : Fin 4194304) : ipsi psi (ix2 r (1 : Fin 2)) = -(psi (ix2 r (0 : Fin 2))) := by
  unfold ipsi; rw [pairc_apply1, negf_apply1, colA_apply]

/-- the switching column's coefficients (0, U_dc / 3), the same for every row -/
def csArr : FVec Ideal S4194304x2x1 .f32 :=
  broadcastInDim S4194304x2x1 ![0, 1, 2] bcast_S1x2x1_S4194304x2x1_0_1_2
    (broadcastInDim S1x2x1 ![1, 2] bcast_S2x1_S1x2x1_1_2 (fun i => FloatOps.ofBits .f32 (lit2 (S2x1.rowMajor i))))

theorem csArr_apply (r : Fin 4194304) (k : Fin 2) : csArr (ix3 r k (0 : Fin 1)) = Cert.Spec.rCs k := by
  unfold csArr
  refine (broadcastInDim_apply _ _ _ _ (ix3 (0 : Fin 1) k (0 : Fin 1)) fun a => ?_).trans
    ((broadcastInDim_apply _ _ _ _ (ix2 k (0 : Fin 1)) fun a => ?_).trans ?_)
  · match a with
    | ⟨0, _⟩ => rfl
    | ⟨1, _⟩ => rfl
    | ⟨2, _⟩ => rfl
  · match a with
    | ⟨0, _⟩ => rfl
    | ⟨1, _⟩ => rfl
  · match k with
    | ⟨0, _⟩ => rfl
    | ⟨1, _⟩ => rfl

/-- a scalar word repeated over a shape -/
theorem splat_apply {t : Shape} (hb : S_.BroadcastsInDim t (![] : Fin 0 → Fin t.rank)) (w : BitVec 32) (j : t.Idx) :
    broadcastInDim t ![] hb (constant (F := Ideal) S_ .f32 w) j = Ideal.ofBits .f32 w :=
  (broadcastInDim_apply _ _ _ j ix0 fun a => a.elim0).trans rfl

/-- the 2 × 4 coefficient matrix (−R_s, −R_s, s_k, ψ'_k ω), per row -/
def matR : FVec Ideal S4194304x2x2 .f32 := broadcastInDim S4194304x2x2 ![] bcast_S_S4194304x2x2 (constant S_ .f32 0xBE3851EC#32)
/-- ψ' ω as a column per row -/
def matW (psi : FVec Ideal S4194304x2 .f32) : FVec Ideal S4194304x2x1 .f32 :=
  mulf (col3 (ipsi psi)) (broadcastInDim S4194304x2x1 ![] bcast_S_S4194304x2x1 (constant S_ .f32 0x446B9E94#32))
/-- the three blocks of the coefficient matrix -/
def matPieces (psi : FVec Ideal S4194304x2 .f32) : List ((s : Shape) × (s.Idx → EReal)) :=
  [⟨S4194304x2x2, matR⟩, ⟨S4194304x2x1, csArr⟩, ⟨S4194304x2x1, matW psi⟩]
def mat (psi : FVec Ideal S4194304x2 .f32) : FVec Ideal S4194304x2x4 .f32 :=
  concatenate S4194304x2x4 2 (matPieces psi) concatenates_S4194304x2x2_S4194304x2x1_S4194304x2x1_S4194304x2x4_d2

theorem mat_apply01 (psi : FVec Ideal S4194304x2 .f32) (r : Fin 4194304) (k : Fin 2) (l : Fin 2) :
    mat psi (ix3 r k (⟨l.val, by omega⟩ : Fin 4)) = Cert.Spec.cR := by
  unfold mat
  refine (concatenate_apply_piece (t := S4194304x2x4) (2 : Fin 3) (matPieces psi) concatenates_S4194304x2x2_S4194304x2x1_S4194304x2x1_S4194304x2x4_d2 (ix3 r k (⟨l.val, by omega⟩ : Fin 4)) 0 (by show (0 : Nat) < 3; decide) S4194304x2x2 matR rfl rfl 0 rfl (ix3 r k l) (fun b hb => ?_) ?_).trans
    (splat_apply _ _ _)
  · match b with
    | ⟨0, _⟩ => rfl
    | ⟨1, _⟩ => rfl
    | ⟨2, _⟩ => exact absurd rfl hb
  · show 0 + l.val = l.val; omega

theorem mat_apply2 (psi : FVec Ideal S4194304x2 .f32) (r : Fin 4194304) (k : Fin 2) :
    mat psi (ix3 r k (2 : Fin 4)) = Cert.Spec.rCs k := by
  unfold mat
  refine (concatenate_apply_piece (t := S4194304x2x4) (2 : Fin 3) (matPieces psi) concatenates_S4194304x2x2_S4194304x2x1_S4194304x2x1_S4194304x2x4_d2 (ix3 r k (2 : Fin 4)) 1 (by show (1 : Nat) < 3; decide) S4194304x2x1 csArr rfl rfl 2 rfl (ix3 r k (0 : Fin 1)) (fun b hb => ?_) rfl).trans
    (csArr_apply r k)
  match b with
  | ⟨0, _⟩ => rfl
  | ⟨1, _⟩ => rfl
  | ⟨2, _⟩ => exact absurd rfl hb

theorem mat_apply3 (psi : FVec Ideal S4194304x2 .f32) (r : Fin 4194304) (k : Fin 2) :
    mat psi (ix3 r k (3 : Fin 4)) = ipsi psi (ix2 r k) * Cert.Spec.cW := by
  unfold mat
  refine (concatenate_apply_piece (t := S4194304x2x4) (2 : Fin 3) (matPieces psi) concatenates_S4194304x2x2_S4194304x2x1_S4194304x2x1_S4194304x2x4_d2 (ix3 r k (3 : Fin 4)) 2 (by show (2 : Nat) < 3; decide) S4194304x2x1 (matW psi) rfl rfl 3 rfl (ix3 r k (0 : Fin 1)) (fun b hb => ?_) rfl).trans ?_
  · match b with
    | ⟨0, _⟩ => rfl
    | ⟨1, _⟩ => rfl
    | ⟨2, _⟩ => exact absurd rfl hb
  · unfold matW; rw [mulf_apply, col3_apply, splat_apply]

/-- the first three columns of the input rows -/
def x3 (a0 : FVec Ideal S4194304x5 .f32) : FVec Ideal S4194304x3 .f32 :=
  extractStridedSlice S4194304x3 ![0, 0] a0 slices_S4194304x5_S4194304x3_0_0
/-- a column of ones -/
def ones1 : FVec Ideal S4194304x1 .f32 := broadcastInDim S4194304x1 ![] bcast_S_S4194304x1 (constant S_ .f32 0x3F800000#32)
/-- (x₀, x₁, x₂, 1) per row -/
def vec4 (a0 : FVec Ideal S4194304x5 .f32) : FVec Ideal S4194304x4 .f32 :=
  concatenate S4194304x4 1 [⟨S4194304x3, x3 a0⟩, ⟨S4194304x1, ones1⟩] concatenates_S4194304x3_S4194304x1_S4194304x4_d1
/-- the same as a column [rows, 4, 1] -/
def vec (a0 : FVec Ideal S4194304x5 .f32) : FVec Ideal S4194304x4x1 .f32 :=
  broadcastInDim S4194304x4x1 ![0, 1] bcast_S4194304x4_S4194304x4x1_0_1 (vec4 a0)

theorem vec_apply (a0 : FVec Ideal S4194304x5 .f32) (r : Fin 4194304) (l : Fin 4) : vec a0 (ix3 r l (0 : Fin 1)) = vec4 a0 (ix2 r l) := by
  unfold vec
  refine broadcastInDim_apply _ _ _ _ (ix2 r l) fun a => ?_
  match a with
  | ⟨0, _⟩ => rfl
  | ⟨1, _⟩ => rfl

theorem vec_apply012 (a0 : FVec Ideal S4194304x5 .f32) (r : Fin 4194304) (l : Fin 3) :
    vec a0 (ix3 r (⟨l.val, by omega⟩ : Fin 4) (0 : Fin 1)) = a0 (ix2 r (⟨l.val, by omega⟩ : Fin 5)) := by
  rw [vec_apply]
  unfold vec4
  refine (concatenate_pair_apply_left (1 : Fin 2) (x3 a0) ones1 _ (ix2 r (⟨l.val, by omega⟩ : Fin 4)) rfl (ix2 r l) fun b => ?_).trans ?_
  · match b with
    | ⟨0, _⟩ => rfl
    | ⟨1, _⟩ => rfl
  · unfold x3
    refine extractStridedSlice_apply _ a0 _ (ix2 r l) (ix2 r (⟨l.val, by omega⟩ : Fin 5)) fun a => ?_
    match a with
    | ⟨0, _⟩ => show r.val = 0 + r.val; omega
    | ⟨1, _⟩ => show l.val = 0 + l.val; omega

theorem vec_apply3 (a0 : FVec Ideal S4194304x5 .f32) (r : Fin 4194304) :
    vec a0 (ix3 r (3 : Fin 4) (0 : Fin 1)) = Cert.Spec.c1 := by
  rw [vec_apply]
  unfold vec4
  refine (concatenate_pair_apply_right (1 : Fin 2) (x3 a0) ones1 _ (ix2 r (3 : Fin 4)) rfl rfl (ix2 r (0 : Fin 1)) (fun b hb => ?_) rfl).trans
    (splat_apply _ _ _)
  match b with
  | ⟨0, _⟩ => rfl
  | ⟨1, _⟩ => exact absurd rfl hb

/-! ## The two contractions along the batch of rows -/

theorem dot24_apply (l : FVec Ideal S4194304x2x4 .f32) (v : FVec Ideal S4194304x4x1 .f32) (b : Fin 4194304) (i : Fin 2) :
    Host.dotGeneral (F := Ideal) dot_S4194304x2x4_S4194304x4x1_S4194304x2x1_2_1_1_2_0_0 none l v (ix3 b i (0 : Fin 1))
      = ∑ k : Fin 4, l (ix3 b i k) * v (ix3 b k (0 : Fin 1)) := by
  simp only [Host.dotGeneral]
  rw [Ideal.dotGeneral_apply]
  rw [← Equiv.sum_comp (contrEquiv1 dot_S4194304x2x4_S4194304x4x1_S4194304x2x1_2_1_1_2_0_0 4 rfl rfl).symm]
  refine Finset.sum_congr rfl fun k _ => ?_
  have hl : dot_S4194304x2x4_S4194304x4x1_S4194304x2x1_2_1_1_2_0_0.lhsIdx (ix3 b i (0 : Fin 1)) ((contrEquiv1 dot_S4194304x2x4_S4194304x4x1_S4194304x2x1_2_1_1_2_0_0 4 rfl rfl).symm k) = ix3 b i k := by
    funext a; apply Fin.ext
    match a with
    | ⟨0, _⟩ => rfl
    | ⟨1, _⟩ => rfl
    | ⟨2, _⟩ => exact (DotDims.lhsIdx_val_of_single dot_S4194304x2x4_S4194304x4x1_S4194304x2x1_2_1_1_2_0_0 (cl := (2 : Fin 3)) rfl _ _).trans (contrEquiv1_symm_val dot_S4194304x2x4_S4194304x4x1_S4194304x2x1_2_1_1_2_0_0 4 rfl rfl k)
  have hr : dot_S4194304x2x4_S4194304x4x1_S4194304x2x1_2_1_1_2_0_0.rhsIdx (ix3 b i (0 : Fin 1)) ((contrEquiv1 dot_S4194304x2x4_S4194304x4x1_S4194304x2x1_2_1_1_2_0_0 4 rfl rfl).symm k) = ix3 b k (0 : Fin 1) := by
    funext a; apply Fin.ext
    match a with
    | ⟨0, _⟩ => rfl
    | ⟨1, _⟩ => exact (DotDims.rhsIdx_val_of_single dot_S4194304x2x4_S4194304x4x1_S4194304x2x1_2_1_1_2_0_0 (cr := (1 : Fin 3)) rfl _ _).trans (contrEquiv1_symm_val dot_S4194304x2x4_S4194304x4x1_S4194304x2x1_2_1_1_2_0_0 4 rfl rfl k)
    | ⟨2, _⟩ => rfl
  rw [hl, hr]

theorem dot22_apply (l : FVec Ideal S4194304x2x2 .f32) (v : FVec Ideal S4194304x2x1 .f32) (b : Fin 4194304) (i : Fin 2) :
    Host.dotGeneral (F := Ideal) dot_S4194304x2x2_S4194304x2x1_S4194304x2x1_2_1_1_2_0_0 none l v (ix3 b i (0 : Fin 1))
      = ∑ k : Fin 2, l (ix3 b i k) * v (ix3 b k (0 : Fin 1)) := by
  simp only [Host.dotGeneral]
  rw [Ideal.dotGeneral_apply]
  rw [← Equiv.sum_comp (contrEquiv1 dot_S4194304x2x2_S4194304x2x1_S4194304x2x1_2_1_1_2_0_0 2 rfl rfl).symm]
  refine Finset.sum_congr rfl fun k _ => ?_
  have hl : dot_S4194304x2x2_S4194304x2x1_S4194304x2x1_2_1_1_2_0_0.lhsIdx (ix3 b i (0 : Fin 1)) ((contrEquiv1 dot_S4194304x2x2_S4194304x2x1_S4194304x2x1_2_1_1_2_0_0 2 rfl rfl).symm k) = ix3 b i k := by
    funext a; apply Fin.ext
    match a with
    | ⟨0, _⟩ => rfl
    | ⟨1, _⟩ => rfl
    | ⟨2, _⟩ => exact (DotDims.lhsIdx_val_of_single dot_S4194304x2x2_S4194304x2x1_S4194304x2x1_2_1_1_2_0_0 (cl := (2 : Fin 3)) rfl _ _).trans (contrEquiv1_symm_val dot_S4194304x2x2_S4194304x2x1_S4194304x2x1_2_1_1_2_0_0 2 rfl rfl k)
  have hr : dot_S4194304x2x2_S4194304x2x1_S4194304x2x1_2_1_1_2_0_0.rhsIdx (ix3 b i (0 : Fin 1)) ((contrEquiv1 dot_S4194304x2x2_S4194304x2x1_S4194304x2x1_2_1_1_2_0_0 2 rfl rfl).symm k) = ix3 b k (0 : Fin 1) := by
    funext a; apply Fin.ext
    match a with
    | ⟨0, _⟩ => rfl
    | ⟨1, _⟩ => exact (DotDims.rhsIdx_val_of_single dot_S4194304x2x2_S4194304x2x1_S4194304x2x1_2_1_1_2_0_0 (cr := (1 : Fin 3)) rfl _ _).trans (contrEquiv1_symm_val dot_S4194304x2x2_S4194304x2x1_S4194304x2x1_2_1_1_2_0_0 2 rfl rfl k)
    | ⟨2, _⟩ => rfl
  rw [hl, hr]

/-! ## The result -/

/-- the reference's result array from the two pushes, ψ, the currents and the input rows:
    (adj(J)/det J · (M · v)) flattened, times Δt, plus the currents -/
def out (d1 d2 psi x : FVec Ideal S4194304x2 .f32) (a0 : FVec Ideal S4194304x5 .f32) : FVec Ideal S4194304x2 .f32 :=
  addf
    (mulf
      (shapeCast S4194304x2
        (Host.dotGeneral dot_S4194304x2x2_S4194304x2x1_S4194304x2x1_2_1_1_2_0_0 none (invJ d1 d2) (Host.dotGeneral dot_S4194304x2x4_S4194304x4x1_S4194304x2x1_2_1_1_2_0_0 none (mat psi) (vec a0)))
        shapeCasts_S4194304x2x1_S4194304x2)
      (broadcastInDim S4194304x2 ![] bcast_S_S4194304x2 (constant S_ .f32 0x3851B717#32)))
    x

/-- Row `r` of the result is Cert.Spec's `rOut` of row `r`'s quantities, once the pushes, ψ and the currents at row `r` are the
    per-row Jacobian columns, ψ and currents. -/
theorem out_apply (d1 d2 psi x : FVec Ideal S4194304x2 .f32) (a0 : FVec Ideal S4194304x5 .f32) (P : Cert.Spec.Params)
    (r : Fin 4194304) (x0 x1 x2 : EReal)
    (hd1 : ∀ i : Fin 2, d1 (ix2 r i) = Cert.Spec.rJ P x0 x1 0 i) (hd2 : ∀ i : Fin 2, d2 (ix2 r i) = Cert.Spec.rJ P x0 x1 1 i)
    (hpsi : ∀ i : Fin 2, psi (ix2 r i) = Cert.Spec.rPsi P x0 x1 i) (hx : ∀ i : Fin 2, x (ix2 r i) = Cert.Spec.rX x0 x1 i)
    (h0 : a0 (ix2 r (0 : Fin 5)) = x0) (h1 : a0 (ix2 r (1 : Fin 5)) = x1) (h2 : a0 (ix2 r (2 : Fin 5)) = x2) (j : Fin 2) :
    out d1 d2 psi x a0 (ix2 r j) = Cert.Spec.rOut P x0 x1 x2 j := by
  have hdet : detv d1 d2 (ix1 r) = Cert.Spec.rDet P x0 x1 := by
    rw [detv_apply, hd1, hd2, hd2, hd1]; rfl
  have hinv : ∀ j k : Fin 2, invJ d1 d2 (ix3 r j k) = Cert.Spec.rInv P x0 x1 j k := by
    obtain ⟨e00, e01, e10, e11⟩ := invJ_apply d1 d2 r
    intro j k
    match j, k with
    | ⟨0, _⟩, ⟨0, _⟩ => exact e00.trans (by rw [hdet, hd2]; rfl)
    | ⟨0, _⟩, ⟨1, _⟩ => exact e01.trans (by rw [hdet, hd2]; rfl)
    | ⟨1, _⟩, ⟨0, _⟩ => exact e10.trans (by rw [hdet, hd1]; rfl)
    | ⟨1, _⟩, ⟨1, _⟩ => exact e11.trans (by rw [hdet, hd1]; rfl)
  have hip : ∀ k : Fin 2, ipsi psi (ix2 r k) = Cert.Spec.rIPsi P x0 x1 k := by
    intro k
    match k with
    | ⟨0, _⟩ => exact (ipsi_apply0 psi r).trans (hpsi 1)
    | ⟨1, _⟩ => exact (ipsi_apply1 psi r).trans (congrArg Neg.neg (hpsi 0))
  have hmat : ∀ (k : Fin 2) (l : Fin 4), mat psi (ix3 r k l) = Cert.Spec.rRhs P x0 x1 k l := by
    intro k l
    match l with
    | ⟨0, _⟩ => exact mat_apply01 psi r k 0
    | ⟨1, _⟩ => exact mat_apply01 psi r k 1
    | ⟨2, _⟩ => exact mat_apply2 psi r k
    | ⟨3, _⟩ => exact (mat_apply3 psi r k).trans (by rw [hip]; rfl)
  have hvec : ∀ l : Fin 4, vec a0 (ix3 r l (0 : Fin 1)) = Cert.Spec.rVec x0 x1 x2 l := by
    intro l
    match l with
    | ⟨0, _⟩ => exact (vec_apply012 a0 r 0).trans h0
    | ⟨1, _⟩ => exact (vec_apply012 a0 r 1).trans h1
    | ⟨2, _⟩ => exact (vec_apply012 a0 r 2).trans h2
    | ⟨3, _⟩ => exact vec_apply3 a0 r
  have e : shapeCast S4194304x2
        (Host.dotGeneral dot_S4194304x2x2_S4194304x2x1_S4194304x2x1_2_1_1_2_0_0 none (invJ d1 d2) (Host.dotGeneral dot_S4194304x2x4_S4194304x4x1_S4194304x2x1_2_1_1_2_0_0 none (mat psi) (vec a0)))
        shapeCasts_S4194304x2x1_S4194304x2 (ix2 r j)
      = Host.dotGeneral dot_S4194304x2x2_S4194304x2x1_S4194304x2x1_2_1_1_2_0_0 none (invJ d1 d2) (Host.dotGeneral dot_S4194304x2x4_S4194304x4x1_S4194304x2x1_2_1_1_2_0_0 none (mat psi) (vec a0)) (ix3 r j (0 : Fin 1)) := by
    refine shapeCast_apply _ _ (ix2 r j) (ix3 r j (0 : Fin 1)) ?_
    rw [Shape.rowMajor_val_three, Shape.rowMajor_val_two]
    show ((r.val * 2 + j.val) * 1 + 0) = r.val * 2 + j.val
    omega
  unfold out
  rw [addf_apply, mulf_apply, splat_apply, hx j, e, dot22_apply]
  simp only [dot24_apply, hinv, hmat, hvec]
  rfl

end Cert.ReferenceIdeal.RTail

end
-- ==== Proof.RJoin.lean ====
/-
  The reference's last third, as a function of its first two thirds.

  The stage table names every buffer of the reference as a pure function of the seven argument arrays. From the two pushed
  columns (buffers %30 and %60), the network's output (%33) and the two currents (%1) on, the program is the chain of operations
  read one row at a time in RTail; here the two are identified: the determinant buffer %77 is RTail's `detv` of the pushes, and the
  result %111 is RTail's `out`. Both identities hold by unfolding the definitions: the same operations in the same order.
-/
import proofs.«109731_j50405736186087_2_alg».proof.Proof.RStages
import proofs.«109731_j50405736186087_2_alg».proof.Proof.RTail

noncomputable section

namespace Cert.ReferenceIdeal.RRead

open Cert.ReferenceIdeal Idealize.ShloMosaic
open Facts₀ Facts

theorem val_main_v77_tail (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    val_main_v77 a0 a1 a2 a3 a4 a5 a6 = RTail.detv (val_main_v30 a0 a1 a2 a3 a4 a5 a6) (val_main_v60 a0 a1 a2 a3 a4 a5 a6) := rfl

theorem val_main_v111_tail (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    val_main_v111 a0 a1 a2 a3 a4 a5 a6
      = RTail.out (val_main_v30 a0 a1 a2 a3 a4 a5 a6) (val_main_v60 a0 a1 a2 a3 a4 a5 a6) (val_main_v33 a0 a1 a2 a3 a4 a5 a6) (val_main_v1 a0 a1 a2 a3 a4 a5 a6) a0 := rfl

/-- The determinant buffer at row `r` is Cert.Spec's `rDet` of row `r`, once the two pushes at row `r` are the per-row Jacobian columns. -/
theorem val_main_v77_apply (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) (P : Cert.Spec.Params) (r : Fin 4194304) (x0 x1 : EReal)
    (hd1 : ∀ i : Fin 2, val_main_v30 a0 a1 a2 a3 a4 a5 a6 (ValueIdx.ix2 r i) = Cert.Spec.rJ P x0 x1 0 i)
    (hd2 : ∀ i : Fin 2, val_main_v60 a0 a1 a2 a3 a4 a5 a6 (ValueIdx.ix2 r i) = Cert.Spec.rJ P x0 x1 1 i) :
    val_main_v77 a0 a1 a2 a3 a4 a5 a6 (ValueIdx.ix1 r) = Cert.Spec.rDet P x0 x1 := by
  rw [val_main_v77_tail, RTail.detv_apply, hd1, hd2, hd2, hd1]
  rfl

end Cert.ReferenceIdeal.RRead

end
-- ==== Proof.RReadOps.lean ====
/-
  The reference's operations READ AT AN INDEX, over variable operand arrays.

  Every array of the reference has 4194304 rows, and every operation acts on each row by itself: a slice keeps a row's first
  columns, a broadcast repeats a vector or a word in every row, a row sum adds a row's two entries to the zero word, a
  concatenation puts a row's pieces side by side, a contraction multiplies a row by a weight matrix. Each lemma below says
  what one such operation's result holds at row r and column i, in terms of its operands at row r.
-/
import proofs.«109731_j50405736186087_2_alg».proof.ReferenceIdeal
import proofs.«109731_j50405736186087_2_alg».proof.Proof.Gen.ReferenceIdeal
import Idealize.ShloMosaic.Lib.ValueIdx
import Idealize.ShloMosaic.Lib.Pipeline.Value
import Idealize.ShloMosaic.PureOps.Ideal.Laws

noncomputable section

namespace Cert.ReferenceIdeal.RRead

open Cert.ReferenceIdeal Idealize.ShloMosaic Idealize.ShloMosaic.ValueIdx
open Facts₀ Facts
open scoped BigOperators

/-! ## Layout operations -/

/-- the slice of a row's first two columns, at column i (i' is the same column of the wider row) -/
theorem slice2_apply (a0 : FVec Ideal S4194304x5 .f32) (r : Fin 4194304) (i : Fin 2) (i' : Fin 5) (h : i'.val = i.val) :
    extractStridedSlice S4194304x2 ![0, 0] a0 slices_S4194304x5_S4194304x2_0_0 (ix2 r i) = a0 (ix2 r i') :=
  extractStridedSlice_apply _ a0 _ (ix2 r i) (ix2 r i') (fun a => match a with
    | ⟨0, _⟩ => by show r.val = 0 + r.val; omega
    | ⟨1, _⟩ => by show i'.val = 0 + i.val; omega)

/-- a vector of two entries repeated in every row -/
theorem rowvec2_apply (v : FVec Ideal S2 .f32) (r : Fin 4194304) (i : Fin 2) :
    broadcastInDim S4194304x2 ![1] bcast_S2_S4194304x2_1 v (ix2 r i) = v (ix1 i) :=
  broadcastInDim_apply _ _ v (ix2 r i) (ix1 i) (fun a => match a with
    | ⟨0, _⟩ => by show i.val = if (2 : Nat) = 1 then 0 else i.val; rw [if_neg (by decide)])

/-- one number per row, as a column -/
theorem col_apply (v : FVec Ideal S4194304 .f32) (r : Fin 4194304) :
    broadcastInDim S4194304x1 ![0] bcast_S4194304_S4194304x1_0 v (ix2 r (0 : Fin 1)) = v (ix1 r) :=
  broadcastInDim_apply _ _ v (ix2 r (0 : Fin 1)) (ix1 r) (fun a => match a with
    | ⟨0, _⟩ => by show r.val = if (4194304 : Nat) = 1 then 0 else r.val; rw [if_neg (by decide)])

/-- one word repeated at every index of any shape -/
theorem splat_apply {T : Shape} (h : S_.BroadcastsInDim T (![] : Fin 0 → Fin T.rank)) (b : BitVec 32) (j : T.Idx) :
    broadcastInDim T ![] h (constant (F := Ideal) S_ .f32 b) j = Ideal.ofBits .f32 b :=
  (broadcastInDim_apply _ h (constant (F := Ideal) S_ .f32 b) j ix0 (fun a => a.elim0)).trans rfl

/-- a row (x₀, x₁ | n): its first two entries are the first piece's -/
theorem cat21_apply_left (x : FVec Ideal S4194304x2 .f32) (n : FVec Ideal S4194304x1 .f32) (r : Fin 4194304)
    (i : Fin 2) (i' : Fin 3) (h : i'.val = i.val) :
    concatenate S4194304x3 1 [⟨S4194304x2, x⟩, ⟨S4194304x1, n⟩] concatenates_S4194304x2_S4194304x1_S4194304x3_d1 (ix2 r i')
      = x (ix2 r i) :=
  concatenate_pair_apply_left 1 x n _ (ix2 r i') rfl (ix2 r i) (fun b => match b with
    | ⟨0, _⟩ => rfl
    | ⟨1, _⟩ => h.symm)

/-- a row (x₀, x₁ | n): its third entry is the second piece's one entry -/
theorem cat21_apply_right (x : FVec Ideal S4194304x2 .f32) (n : FVec Ideal S4194304x1 .f32) (r : Fin 4194304) :
    concatenate S4194304x3 1 [⟨S4194304x2, x⟩, ⟨S4194304x1, n⟩] concatenates_S4194304x2_S4194304x1_S4194304x3_d1
        (ix2 r (2 : Fin 3))
      = n (ix2 r (0 : Fin 1)) :=
  concatenate_pair_apply_right 1 x n _ (ix2 r (2 : Fin 3)) rfl rfl (ix2 r (0 : Fin 1))
    (fun b hb => match b, hb with
      | ⟨0, _⟩, _ => rfl
      | ⟨1, _⟩, hb => absurd rfl hb)
    rfl

/-- a bias of 12 entries, made a row and repeated in every row -/
theorem bias12_apply (b : FVec Ideal S12 .f32) (r : Fin 4194304) (i : Fin 12) :
    broadcastInDim S4194304x12 ![0, 1] bcast_S1x12_S4194304x12_0_1 (broadcastInDim S1x12 ![1] bcast_S12_S1x12_1 b) (ix2 r i)
      = b (ix1 i) :=
  (broadcastInDim_apply _ _ (broadcastInDim S1x12 ![1] bcast_S12_S1x12_1 b) (ix2 r i) (ix2 (0 : Fin 1) i) (fun a => match a with
    | ⟨0, _⟩ => by show (0 : Nat) = if (1 : Nat) = 1 then 0 else r.val; rw [if_pos rfl]
    | ⟨1, _⟩ => by show i.val = if (12 : Nat) = 1 then 0 else i.val; rw [if_neg (by decide)])).trans
  (broadcastInDim_apply _ _ b (ix2 (0 : Fin 1) i) (ix1 i) (fun a => match a with
    | ⟨0, _⟩ => by show i.val = if (12 : Nat) = 1 then 0 else i.val; rw [if_neg (by decide)]))

/-- a bias of 8 entries, made a row and repeated in every row -/
theorem bias8_apply (b : FVec Ideal S8 .f32) (r : Fin 4194304) (i : Fin 8) :
    broadcastInDim S4194304x8 ![0, 1] bcast_S1x8_S4194304x8_0_1 (broadcastInDim S1x8 ![1] bcast_S8_S1x8_1 b) (ix2 r i)
      = b (ix1 i) :=
  (broadcastInDim_apply _ _ (broadcastInDim S1x8 ![1] bcast_S8_S1x8_1 b) (ix2 r i) (ix2 (0 : Fin 1) i) (fun a => match a with
    | ⟨0, _⟩ => by show (0 : Nat) = if (1 : Nat) = 1 then 0 else r.val; rw [if_pos rfl]
    | ⟨1, _⟩ => by show i.val = if (8 : Nat) = 1 then 0 else i.val; rw [if_neg (by decide)])).trans
  (broadcastInDim_apply _ _ b (ix2 (0 : Fin 1) i) (ix1 i) (fun a => match a with
    | ⟨0, _⟩ => by show i.val = if (8 : Nat) = 1 then 0 else i.val; rw [if_neg (by decide)]))

/-- a bias of 2 entries, made a row and repeated in every row -/
theorem bias2_apply (b : FVec Ideal S2 .f32) (r : Fin 4194304) (i : Fin 2) :
    broadcastInDim S4194304x2 ![0, 1] bcast_S1x2_S4194304x2_0_1 (broadcastInDim S1x2 ![1] bcast_S2_S1x2_1 b) (ix2 r i)
      = b (ix1 i) :=
  (broadcastInDim_apply _ _ (broadcastInDim S1x2 ![1] bcast_S2_S1x2_1 b) (ix2 r i) (ix2 (0 : Fin 1) i) (fun a => match a with
    | ⟨0, _⟩ => by show (0 : Nat) = if (1 : Nat) = 1 then 0 else r.val; rw [if_pos rfl]
    | ⟨1, _⟩ => by show i.val = if (2 : Nat) = 1 then 0 else i.val; rw [if_neg (by decide)])).trans
  (broadcastInDim_apply _ _ b (ix2 (0 : Fin 1) i) (ix1 i) (fun a => match a with
    | ⟨0, _⟩ => by show i.val = if (2 : Nat) = 1 then 0 else i.val; rw [if_neg (by decide)]))

/-! ## The row sum -/

/-- the sum of a row's two entries, started at the zero word -/
theorem rowsum_apply (x : FVec Ideal S4194304x2 .f32) (r : Fin 4194304) :
    Host.reduceAdd x (constant (F := Ideal) S_ .f32 0x00000000#32) reducesTo_S4194304x2_S4194304_d1 h_S_ (ix1 r)
      = Ideal.ofBits .f32 0x00000000#32 + ∑ k : Fin 2, x (ix2 r k) := by
  simp only [Host.reduceAdd, Ideal.hostReduceAdd_def]
  rw [Ideal.hostReduceAdd_single reducesTo_S4194304x2_S4194304_d1 (by decide)]
  refine congrArg (_ + ·) (Finset.sum_congr rfl fun k _ => ?_)
  exact congrArg x (funext fun a => Fin.ext (by match a with | ⟨0, _⟩ => rfl | ⟨1, _⟩ => rfl))

/-! ## The three contractions: a row times a weight matrix -/

/-- a row of 3 entries times the 3 × 12 matrix -/
theorem dot1_apply (l : FVec Ideal S4194304x3 .f32) (w : FVec Ideal S3x12 .f32) (r : Fin 4194304) (i : Fin 12) :
    Host.dotGeneral (F := Ideal) dot_S4194304x3_S3x12_S4194304x12_1_0_0_1_n_n none l w (ix2 r i)
      = ∑ k : Fin 3, l (ix2 r k) * w (ix2 k i) := by
  simp only [Host.dotGeneral]
  rw [Ideal.dotGeneral_apply]
  rw [← Equiv.sum_comp (contrEquiv1 dot_S4194304x3_S3x12_S4194304x12_1_0_0_1_n_n 3 rfl rfl).symm]
  refine Finset.sum_congr rfl fun k _ => ?_
  have hl : dot_S4194304x3_S3x12_S4194304x12_1_0_0_1_n_n.lhsIdx (ix2 r i)
      ((contrEquiv1 dot_S4194304x3_S3x12_S4194304x12_1_0_0_1_n_n 3 rfl rfl).symm k) = ix2 r k := by
    funext a; apply Fin.ext
    match a with
    | ⟨0, _⟩ => rfl
    | ⟨1, _⟩ => exact (DotDims.lhsIdx_val_of_single dot_S4194304x3_S3x12_S4194304x12_1_0_0_1_n_n (cl := (1 : Fin 2)) rfl _ _).trans (contrEquiv1_symm_val dot_S4194304x3_S3x12_S4194304x12_1_0_0_1_n_n 3 rfl rfl k)
  have hr : dot_S4194304x3_S3x12_S4194304x12_1_0_0_1_n_n.rhsIdx (ix2 r i)
      ((contrEquiv1 dot_S4194304x3_S3x12_S4194304x12_1_0_0_1_n_n 3 rfl rfl).symm k) = ix2 k i := by
    funext a; apply Fin.ext
    match a with
    | ⟨0, _⟩ => exact (DotDims.rhsIdx_val_of_single dot_S4194304x3_S3x12_S4194304x12_1_0_0_1_n_n (cr := (0 : Fin 2)) rfl _ _).trans (contrEquiv1_symm_val dot_S4194304x3_S3x12_S4194304x12_1_0_0_1_n_n 3 rfl rfl k)
    | ⟨1, _⟩ => rfl
  rw [hl, hr]

/-- a row of 12 entries times the 12 × 8 matrix -/
theorem dot2_apply (l : FVec Ideal S4194304x12 .f32) (w : FVec Ideal S12x8 .f32) (r : Fin 4194304) (i : Fin 8) :
    Host.dotGeneral (F := Ideal) dot_S4194304x12_S12x8_S4194304x8_1_0_0_1_n_n none l w (ix2 r i)
      = ∑ k : Fin 12, l (ix2 r k) * w (ix2 k i) := by
  simp only [Host.dotGeneral]
  rw [Ideal.dotGeneral_apply]
  rw [← Equiv.sum_comp (contrEquiv1 dot_S4194304x12_S12x8_S4194304x8_1_0_0_1_n_n 12 rfl rfl).symm]
  refine Finset.sum_congr rfl fun k _ => ?_
  have hl : dot_S4194304x12_S12x8_S4194304x8_1_0_0_1_n_n.lhsIdx (ix2 r i)
      ((contrEquiv1 dot_S4194304x12_S12x8_S4194304x8_1_0_0_1_n_n 12 rfl rfl).symm k) = ix2 r k := by
    funext a; apply Fin.ext
    match a with
    | ⟨0, _⟩ => rfl
    | ⟨1, _⟩ => exact (DotDims.lhsIdx_val_of_single dot_S4194304x12_S12x8_S4194304x8_1_0_0_1_n_n (cl := (1 : Fin 2)) rfl _ _).trans (contrEquiv1_symm_val dot_S4194304x12_S12x8_S4194304x8_1_0_0_1_n_n 12 rfl rfl k)
  have hr : dot_S4194304x12_S12x8_S4194304x8_1_0_0_1_n_n.rhsIdx (ix2 r i)
      ((contrEquiv1 dot_S4194304x12_S12x8_S4194304x8_1_0_0_1_n_n 12 rfl rfl).symm k) = ix2 k i := by
    funext a; apply Fin.ext
    match a with
    | ⟨0, _⟩ => exact (DotDims.rhsIdx_val_of_single dot_S4194304x12_S12x8_S4194304x8_1_0_0_1_n_n (cr := (0 : Fin 2)) rfl _ _).trans (contrEquiv1_symm_val dot_S4194304x12_S12x8_S4194304x8_1_0_0_1_n_n 12 rfl rfl k)
    | ⟨1, _⟩ => rfl
  rw [hl, hr]

/-- a row of 8 entries times the 8 × 2 matrix -/
theorem dot3_apply (l : FVec Ideal S4194304x8 .f32) (w : FVec Ideal S8x2 .f32) (r : Fin 4194304) (i : Fin 2) :
    Host.dotGeneral (F := Ideal) dot_S4194304x8_S8x2_S4194304x2_1_0_0_1_n_n none l w (ix2 r i)
      = ∑ k : Fin 8, l (ix2 r k) * w (ix2 k i) := by
  simp only [Host.dotGeneral]
  rw [Ideal.dotGeneral_apply]
  rw [← Equiv.sum_comp (contrEquiv1 dot_S4194304x8_S8x2_S4194304x2_1_0_0_1_n_n 8 rfl rfl).symm]
  refine Finset.sum_congr rfl fun k _ => ?_
  have hl : dot_S4194304x8_S8x2_S4194304x2_1_0_0_1_n_n.lhsIdx (ix2 r i)
      ((contrEquiv1 dot_S4194304x8_S8x2_S4194304x2_1_0_0_1_n_n 8 rfl rfl).symm k) = ix2 r k := by
    funext a; apply Fin.ext
    match a with
    | ⟨0, _⟩ => rfl
    | ⟨1, _⟩ => exact (DotDims.lhsIdx_val_of_single dot_S4194304x8_S8x2_S4194304x2_1_0_0_1_n_n (cl := (1 : Fin 2)) rfl _ _).trans (contrEquiv1_symm_val dot_S4194304x8_S8x2_S4194304x2_1_0_0_1_n_n 8 rfl rfl k)
  have hr : dot_S4194304x8_S8x2_S4194304x2_1_0_0_1_n_n.rhsIdx (ix2 r i)
      ((contrEquiv1 dot_S4194304x8_S8x2_S4194304x2_1_0_0_1_n_n 8 rfl rfl).symm k) = ix2 k i := by
    funext a; apply Fin.ext
    match a with
    | ⟨0, _⟩ => exact (DotDims.rhsIdx_val_of_single dot_S4194304x8_S8x2_S4194304x2_1_0_0_1_n_n (cr := (0 : Fin 2)) rfl _ _).trans (contrEquiv1_symm_val dot_S4194304x8_S8x2_S4194304x2_1_0_0_1_n_n 8 rfl rfl k)
    | ⟨1, _⟩ => rfl
  rw [hl, hr]

end Cert.ReferenceIdeal.RRead

end
-- ==== Proof.RReadNet.lean ====
/-
  The reference's network READ ROW BY ROW, over variable operand arrays.

  The forward pass is written twice in the program (once per direction of differentiation), so each step is stated once here,
  over arbitrary arrays whose row r is known: the norm of a row and the derivative of the norm along a unit vector; a hidden
  layer tanh (in · W + b); the tangent's push through a hidden layer, (dz + dz · h) · (1 − h) with dz = tan · W; the last,
  linear, layer. The right sides are spelt exactly as the row-wise specification spells them.
-/
import proofs.«109731_j50405736186087_2_alg».proof.Proof.RReadOps
import proofs.«109731_j50405736186087_2_alg».proof.Proof.Spec

noncomputable section

namespace Cert.ReferenceIdeal.RRead

open Cert.ReferenceIdeal Idealize.ShloMosaic Idealize.ShloMosaic.ValueIdx Cert.Spec
open Facts₀ Facts
open scoped BigOperators

/-! ## The host's pointwise operations at an index (over variable arrays, where they are definitional) -/

section Pointwise
variable {s : Shape}

theorem hsqrt_apply (v : FVec Ideal s .f32) (j : s.Idx) : Host.sqrt v j = Ideal.sqrt (v j) := rfl

theorem htanh_apply (v : FVec Ideal s .f32) (j : s.Idx) : Host.tanh v j = Ideal.tanh (v j) := rfl

theorem hdivf_apply (a b : FVec Ideal s .f32) (j : s.Idx) : Host.divf a b j = Ideal.div (a j) (b j) := rfl

end Pointwise

/-! ## The norm of a row and its derivative -/

section Norm
variable (x e : FVec Ideal S4194304x2 .f32) (r : Fin 4194304) (x0 x1 : EReal) (d : Fin 2)

/-- ‖x‖ of row r: the root of the row sum of x · x -/
theorem norm_read (hx : ∀ i : Fin 2, x (ix2 r i) = rX x0 x1 i) :
    Host.sqrt (broadcastInDim S4194304x1 ![0] bcast_S4194304_S4194304x1_0
        (Host.reduceAdd (mulf x x) (constant (F := Ideal) S_ .f32 0x00000000#32) reducesTo_S4194304x2_S4194304_d1 h_S_))
        (ix2 r (0 : Fin 1))
      = rNorm x0 x1 := by
  rw [hsqrt_apply, col_apply, rowsum_apply]
  unfold rNorm
  refine congrArg (fun s => Ideal.sqrt (c0 + s)) (Finset.sum_congr rfl fun l _ => ?_)
  rw [mulf_apply, hx l]

/-- the derivative of ‖x‖ along the unit vector e, in row r: (the row sum of e · x + x · e) · (½ / ‖x‖) -/
theorem dnorm_read (hx : ∀ i : Fin 2, x (ix2 r i) = rX x0 x1 i) (he : ∀ i : Fin 2, e (ix2 r i) = rE d i) :
    mulf (broadcastInDim S4194304x1 ![0] bcast_S4194304_S4194304x1_0
          (Host.reduceAdd (addf (mulf e x) (mulf x e)) (constant (F := Ideal) S_ .f32 0x00000000#32)
            reducesTo_S4194304x2_S4194304_d1 h_S_))
        (Host.divf (broadcastInDim S4194304x1 ![] bcast_S_S4194304x1 (constant (F := Ideal) S_ .f32 0x3F000000#32))
          (Host.sqrt (broadcastInDim S4194304x1 ![0] bcast_S4194304_S4194304x1_0
            (Host.reduceAdd (mulf x x) (constant (F := Ideal) S_ .f32 0x00000000#32) reducesTo_S4194304x2_S4194304_d1 h_S_))))
        (ix2 r (0 : Fin 1))
      = rDNorm x0 x1 d := by
  rw [mulf_apply, hdivf_apply, norm_read x r x0 x1 hx, splat_apply, col_apply, rowsum_apply]
  unfold rDNorm
  refine congrArg (fun s => (c0 + s) * Ideal.div cHalf (rNorm x0 x1)) (Finset.sum_congr rfl fun l _ => ?_)
  rw [addf_apply, mulf_apply, mulf_apply, hx l, he l]

end Norm

/-! ## The three layers -/

section Layers
variable (r : Fin 4194304)

/-- the first hidden layer in row r -/
theorem hidden1_read (inp : FVec Ideal S4194304x3 .f32) (w : FVec Ideal S3x12 .f32) (b : FVec Ideal S12 .f32)
    (IN : Fin 3 → EReal) (hin : ∀ l : Fin 3, inp (ix2 r l) = IN l) (i : Fin 12) :
    Host.tanh (addf (Host.dotGeneral dot_S4194304x3_S3x12_S4194304x12_1_0_0_1_n_n none inp w)
        (broadcastInDim S4194304x12 ![0, 1] bcast_S1x12_S4194304x12_0_1 (broadcastInDim S1x12 ![1] bcast_S12_S1x12_1 b)))
        (ix2 r i)
      = Ideal.tanh ((∑ l : Fin 3, IN l * w (ix2 l i)) + b (ix1 i)) := by
  rw [htanh_apply, addf_apply, dot1_apply, bias12_apply]
  exact congrArg (fun s => Ideal.tanh (s + b (ix1 i))) (Finset.sum_congr rfl fun l _ => by rw [hin l])

/-- the tangent's push through the first hidden layer in row r -/
theorem push1_read (tan : FVec Ideal S4194304x3 .f32) (h : FVec Ideal S4194304x12 .f32) (w : FVec Ideal S3x12 .f32)
    (TN : Fin 3 → EReal) (htan : ∀ l : Fin 3, tan (ix2 r l) = TN l) (H : Fin 12 → EReal) (hh : ∀ i : Fin 12, h (ix2 r i) = H i)
    (i : Fin 12) :
    mulf (addf (Host.dotGeneral dot_S4194304x3_S3x12_S4194304x12_1_0_0_1_n_n none tan w)
          (mulf (Host.dotGeneral dot_S4194304x3_S3x12_S4194304x12_1_0_0_1_n_n none tan w) h))
        (subf (broadcastInDim S4194304x12 ![] bcast_S_S4194304x12 (constant (F := Ideal) S_ .f32 0x3F800000#32)) h) (ix2 r i)
      = ((∑ l : Fin 3, TN l * w (ix2 l i)) + (∑ l : Fin 3, TN l * w (ix2 l i)) * H i) * (c1 - H i) := by
  rw [mulf_apply, addf_apply, mulf_apply, subf_apply, dot1_apply, splat_apply, hh i]
  have hs : (∑ k : Fin 3, tan (ix2 r k) * w (ix2 k i)) = ∑ l : Fin 3, TN l * w (ix2 l i) :=
    Finset.sum_congr rfl fun l _ => by rw [htan l]
  rw [hs]

/-- the second hidden layer in row r -/
theorem hidden2_read (inp : FVec Ideal S4194304x12 .f32) (w : FVec Ideal S12x8 .f32) (b : FVec Ideal S8 .f32)
    (IN : Fin 12 → EReal) (hin : ∀ l : Fin 12, inp (ix2 r l) = IN l) (i : Fin 8) :
    Host.tanh (addf (Host.dotGeneral dot_S4194304x12_S12x8_S4194304x8_1_0_0_1_n_n none inp w)
        (broadcastInDim S4194304x8 ![0, 1] bcast_S1x8_S4194304x8_0_1 (broadcastInDim S1x8 ![1] bcast_S8_S1x8_1 b)))
        (ix2 r i)
      = Ideal.tanh ((∑ l : Fin 12, IN l * w (ix2 l i)) + b (ix1 i)) := by
  rw [htanh_apply, addf_apply, dot2_apply, bias8_apply]
  exact congrArg (fun s => Ideal.tanh (s + b (ix1 i))) (Finset.sum_congr rfl fun l _ => by rw [hin l])

/-- the tangent's push through the second hidden layer in row r -/
theorem push2_read (tan : FVec Ideal S4194304x12 .f32) (h : FVec Ideal S4194304x8 .f32) (w : FVec Ideal S12x8 .f32)
    (TN : Fin 12 → EReal) (htan : ∀ l : Fin 12, tan (ix2 r l) = TN l) (H : Fin 8 → EReal) (hh : ∀ i : Fin 8, h (ix2 r i) = H i)
    (i : Fin 8) :
    mulf (addf (Host.dotGeneral dot_S4194304x12_S12x8_S4194304x8_1_0_0_1_n_n none tan w)
          (mulf (Host.dotGeneral dot_S4194304x12_S12x8_S4194304x8_1_0_0_1_n_n none tan w) h))
        (subf (broadcastInDim S4194304x8 ![] bcast_S_S4194304x8 (constant (F := Ideal) S_ .f32 0x3F800000#32)) h) (ix2 r i)
      = ((∑ l : Fin 12, TN l * w (ix2 l i)) + (∑ l : Fin 12, TN l * w (ix2 l i)) * H i) * (c1 - H i) := by
  rw [mulf_apply, addf_apply, mulf_apply, subf_apply, dot2_apply, splat_apply, hh i]
  have hs : (∑ k : Fin 12, tan (ix2 r k) * w (ix2 k i)) = ∑ l : Fin 12, TN l * w (ix2 l i) :=
    Finset.sum_congr rfl fun l _ => by rw [htan l]
  rw [hs]

/-- the last, linear, layer in row r -/
theorem out_read (inp : FVec Ideal S4194304x8 .f32) (w : FVec Ideal S8x2 .f32) (b : FVec Ideal S2 .f32)
    (IN : Fin 8 → EReal) (hin : ∀ l : Fin 8, inp (ix2 r l) = IN l) (i : Fin 2) :
    addf (Host.dotGeneral dot_S4194304x8_S8x2_S4194304x2_1_0_0_1_n_n none inp w)
        (broadcastInDim S4194304x2 ![0, 1] bcast_S1x2_S4194304x2_0_1 (broadcastInDim S1x2 ![1] bcast_S2_S1x2_1 b)) (ix2 r i)
      = (∑ l : Fin 8, IN l * w (ix2 l i)) + b (ix1 i) := by
  rw [addf_apply, dot3_apply, bias2_apply]
  exact congrArg (fun s => s + b (ix1 i)) (Finset.sum_congr rfl fun l _ => by rw [hin l])

/-- the tangent through the last layer in row r: a column of the Jacobian -/
theorem jac_read (tan : FVec Ideal S4194304x8 .f32) (w : FVec Ideal S8x2 .f32)
    (TN : Fin 8 → EReal) (htan : ∀ l : Fin 8, tan (ix2 r l) = TN l) (i : Fin 2) :
    Host.dotGeneral (F := Ideal) dot_S4194304x8_S8x2_S4194304x2_1_0_0_1_n_n none tan w (ix2 r i)
      = ∑ l : Fin 8, TN l * w (ix2 l i) := by
  rw [dot3_apply]
  exact Finset.sum_congr rfl fun l _ => by rw [htan l]

end Layers

end Cert.ReferenceIdeal.RRead

end
-- ==== Proof.RReadPass.lean ====
/-
  The reference's two forward passes READ ROW BY ROW.

  Row r of the first argument array is (x₀, x₁, x₂, _, _), and P are the six weight and bias arrays read as the network's
  parameters. Buffer by buffer, in the program's order, the value at row r is the row-wise specification's: the two currents, the
  unit vectors, the norm and its derivative along e₀, the network's input and its tangent, the two hidden layers with the
  tangent's pushes, the output ψ and the Jacobian's column along e₀; then the second pass, the same along e₁.
-/
import proofs.«109731_j50405736186087_2_alg».proof.Proof.RStages
import proofs.«109731_j50405736186087_2_alg».proof.Proof.RReadNet

noncomputable section

namespace Cert.ReferenceIdeal.RRead

open Cert.ReferenceIdeal Idealize.ShloMosaic Idealize.ShloMosaic.ValueIdx Cert.Spec
open Facts₀ Facts
open scoped BigOperators

section
variable (a0 : FVec Ideal S4194304x5 .f32) (a1 : FVec Ideal S3x12 .f32) (a2 : FVec Ideal S12 .f32) (a3 : FVec Ideal S12x8 .f32)
  (a4 : FVec Ideal S8 .f32) (a5 : FVec Ideal S8x2 .f32) (a6 : FVec Ideal S2 .f32) (r : Fin 4194304)

local notation "𝐏" => Cert.Spec.params a1 a2 a3 a4 a5 a6
local notation "x₀" => a0 (ix2 r (0 : Fin 5))
local notation "x₁" => a0 (ix2 r (1 : Fin 5))

/-! ## What both passes share -/

/-- the two currents of row r -/
theorem val_main_v1_apply (i : Fin 2) : val_main_v1 a0 a1 a2 a3 a4 a5 a6 (ix2 r i) = rX x₀ x₁ i := by
  match i with
  | ⟨0, _⟩ => exact slice2_apply a0 r 0 0 rfl
  | ⟨1, _⟩ => exact slice2_apply a0 r 1 1 rfl

/-- the dense constant (1, 0) is e₀ -/
theorem val_main_cst_apply (i : Fin 2) : val_main_cst a0 a1 a2 a3 a4 a5 a6 (ix1 i) = rE 0 i := by
  match i with
  | ⟨0, _⟩ => exact congrArg (Ideal.ofBits .f32) (show lit0 (S2.rowMajor (ix1 (0 : Fin 2))) = 0x3F800000#32 from rfl)
  | ⟨1, _⟩ => exact congrArg (Ideal.ofBits .f32) (show lit0 (S2.rowMajor (ix1 (1 : Fin 2))) = 0x00000000#32 from rfl)

/-- the dense constant (0, 1) is e₁ -/
theorem val_main_cst_0_apply (i : Fin 2) : val_main_cst_0 a0 a1 a2 a3 a4 a5 a6 (ix1 i) = rE 1 i := by
  match i with
  | ⟨0, _⟩ => exact congrArg (Ideal.ofBits .f32) (show lit1 (S2.rowMajor (ix1 (0 : Fin 2))) = 0x00000000#32 from rfl)
  | ⟨1, _⟩ => exact congrArg (Ideal.ofBits .f32) (show lit1 (S2.rowMajor (ix1 (1 : Fin 2))) = 0x3F800000#32 from rfl)

/-- e₀ in row r -/
theorem val_main_v2_apply (i : Fin 2) : val_main_v2 a0 a1 a2 a3 a4 a5 a6 (ix2 r i) = rE 0 i :=
  (rowvec2_apply (val_main_cst a0 a1 a2 a3 a4 a5 a6) r i).trans (val_main_cst_apply a0 a1 a2 a3 a4 a5 a6 i)

/-- e₁ in row r -/
theorem val_main_v3_apply (i : Fin 2) : val_main_v3 a0 a1 a2 a3 a4 a5 a6 (ix2 r i) = rE 1 i :=
  (rowvec2_apply (val_main_cst_0 a0 a1 a2 a3 a4 a5 a6) r i).trans (val_main_cst_0_apply a0 a1 a2 a3 a4 a5 a6 i)

/-! ## The first pass: the push along e₀ -/

/-- ‖x‖ of row r (the first call) -/
theorem val_main_v4_0_apply : val_main_v4_0 a0 a1 a2 a3 a4 a5 a6 (ix2 r (0 : Fin 1)) = rNorm x₀ x₁ :=
  norm_read (val_main_v1 a0 a1 a2 a3 a4 a5 a6) r _ _ (val_main_v1_apply a0 a1 a2 a3 a4 a5 a6 r)

/-- the derivative of the norm along e₀ in row r -/
theorem val_main_v4_1_apply : val_main_v4_1 a0 a1 a2 a3 a4 a5 a6 (ix2 r (0 : Fin 1)) = rDNorm x₀ x₁ 0 :=
  dnorm_read (val_main_v1 a0 a1 a2 a3 a4 a5 a6) (val_main_v2 a0 a1 a2 a3 a4 a5 a6) r _ _ 0
    (val_main_v1_apply a0 a1 a2 a3 a4 a5 a6 r) (val_main_v2_apply a0 a1 a2 a3 a4 a5 a6 r)

/-- the network's input in row r -/
theorem val_main_v5_apply (l : Fin 3) : val_main_v5 a0 a1 a2 a3 a4 a5 a6 (ix2 r l) = rIn x₀ x₁ l := by
  match l with
  | ⟨0, _⟩ => exact (cat21_apply_left (val_main_v1 a0 a1 a2 a3 a4 a5 a6) (val_main_v4_0 a0 a1 a2 a3 a4 a5 a6) r 0 0 rfl).trans (val_main_v1_apply a0 a1 a2 a3 a4 a5 a6 r 0)
  | ⟨1, _⟩ => exact (cat21_apply_left (val_main_v1 a0 a1 a2 a3 a4 a5 a6) (val_main_v4_0 a0 a1 a2 a3 a4 a5 a6) r 1 1 rfl).trans (val_main_v1_apply a0 a1 a2 a3 a4 a5 a6 r 1)
  | ⟨2, _⟩ => exact (cat21_apply_right (val_main_v1 a0 a1 a2 a3 a4 a5 a6) (val_main_v4_0 a0 a1 a2 a3 a4 a5 a6) r).trans (val_main_v4_0_apply a0 a1 a2 a3 a4 a5 a6 r)

/-- its tangent along e₀ in row r -/
theorem val_main_v6_apply (l : Fin 3) : val_main_v6 a0 a1 a2 a3 a4 a5 a6 (ix2 r l) = rTan x₀ x₁ 0 l := by
  match l with
  | ⟨0, _⟩ => exact (cat21_apply_left (val_main_v2 a0 a1 a2 a3 a4 a5 a6) (val_main_v4_1 a0 a1 a2 a3 a4 a5 a6) r 0 0 rfl).trans (val_main_v2_apply a0 a1 a2 a3 a4 a5 a6 r 0)
  | ⟨1, _⟩ => exact (cat21_apply_left (val_main_v2 a0 a1 a2 a3 a4 a5 a6) (val_main_v4_1 a0 a1 a2 a3 a4 a5 a6) r 1 1 rfl).trans (val_main_v2_apply a0 a1 a2 a3 a4 a5 a6 r 1)
  | ⟨2, _⟩ => exact (cat21_apply_right (val_main_v2 a0 a1 a2 a3 a4 a5 a6) (val_main_v4_1 a0 a1 a2 a3 a4 a5 a6) r).trans (val_main_v4_1_apply a0 a1 a2 a3 a4 a5 a6 r)

/-- the first hidden layer in row r -/
theorem val_main_v12_apply (i : Fin 12) : val_main_v12 a0 a1 a2 a3 a4 a5 a6 (ix2 r i) = rH1 𝐏 x₀ x₁ i :=
  hidden1_read r (val_main_v5 a0 a1 a2 a3 a4 a5 a6) a1 a2 (rIn x₀ x₁) (val_main_v5_apply a0 a1 a2 a3 a4 a5 a6 r) i

/-- the push through the first hidden layer, along e₀, in row r -/
theorem val_main_v17_apply (i : Fin 12) : val_main_v17 a0 a1 a2 a3 a4 a5 a6 (ix2 r i) = rD1 𝐏 x₀ x₁ 0 i :=
  push1_read r (val_main_v6 a0 a1 a2 a3 a4 a5 a6) (val_main_v12 a0 a1 a2 a3 a4 a5 a6) a1 (rTan x₀ x₁ 0)
    (val_main_v6_apply a0 a1 a2 a3 a4 a5 a6 r) (rH1 𝐏 x₀ x₁) (val_main_v12_apply a0 a1 a2 a3 a4 a5 a6 r) i

/-- the second hidden layer in row r -/
theorem val_main_v23_apply (i : Fin 8) : val_main_v23 a0 a1 a2 a3 a4 a5 a6 (ix2 r i) = rH2 𝐏 x₀ x₁ i :=
  hidden2_read r (val_main_v12 a0 a1 a2 a3 a4 a5 a6) a3 a4 (rH1 𝐏 x₀ x₁) (val_main_v12_apply a0 a1 a2 a3 a4 a5 a6 r) i

/-- the push through the second hidden layer, along e₀, in row r -/
theorem val_main_v28_apply (i : Fin 8) : val_main_v28 a0 a1 a2 a3 a4 a5 a6 (ix2 r i) = rD2 𝐏 x₀ x₁ 0 i :=
  push2_read r (val_main_v17 a0 a1 a2 a3 a4 a5 a6) (val_main_v23 a0 a1 a2 a3 a4 a5 a6) a3 (rD1 𝐏 x₀ x₁ 0)
    (val_main_v17_apply a0 a1 a2 a3 a4 a5 a6 r) (rH2 𝐏 x₀ x₁) (val_main_v23_apply a0 a1 a2 a3 a4 a5 a6 r) i

/-- the network's output ψ in row r (the first copy) -/
theorem val_main_v33_apply (i : Fin 2) : val_main_v33 a0 a1 a2 a3 a4 a5 a6 (ix2 r i) = rPsi 𝐏 x₀ x₁ i :=
  out_read r (val_main_v23 a0 a1 a2 a3 a4 a5 a6) a5 a6 (rH2 𝐏 x₀ x₁) (val_main_v23_apply a0 a1 a2 a3 a4 a5 a6 r) i

/-- the Jacobian's column along e₀ in row r -/
theorem val_main_v30_apply (i : Fin 2) : val_main_v30 a0 a1 a2 a3 a4 a5 a6 (ix2 r i) = rJ 𝐏 x₀ x₁ 0 i :=
  jac_read r (val_main_v28 a0 a1 a2 a3 a4 a5 a6) a5 (rD2 𝐏 x₀ x₁ 0) (val_main_v28_apply a0 a1 a2 a3 a4 a5 a6 r) i

/-! ## The second pass: the push along e₁ -/

/-- ‖x‖ of row r (the second call) -/
theorem val_main_v34_0_apply : val_main_v34_0 a0 a1 a2 a3 a4 a5 a6 (ix2 r (0 : Fin 1)) = rNorm x₀ x₁ :=
  norm_read (val_main_v1 a0 a1 a2 a3 a4 a5 a6) r _ _ (val_main_v1_apply a0 a1 a2 a3 a4 a5 a6 r)

/-- the derivative of the norm along e₁ in row r -/
theorem val_main_v34_1_apply : val_main_v34_1 a0 a1 a2 a3 a4 a5 a6 (ix2 r (0 : Fin 1)) = rDNorm x₀ x₁ 1 :=
  dnorm_read (val_main_v1 a0 a1 a2 a3 a4 a5 a6) (val_main_v3 a0 a1 a2 a3 a4 a5 a6) r _ _ 1
    (val_main_v1_apply a0 a1 a2 a3 a4 a5 a6 r) (val_main_v3_apply a0 a1 a2 a3 a4 a5 a6 r)

/-- the network's input in row r (the second copy) -/
theorem val_main_v35_apply (l : Fin 3) : val_main_v35 a0 a1 a2 a3 a4 a5 a6 (ix2 r l) = rIn x₀ x₁ l := by
  match l with
  | ⟨0, _⟩ => exact (cat21_apply_left (val_main_v1 a0 a1 a2 a3 a4 a5 a6) (val_main_v34_0 a0 a1 a2 a3 a4 a5 a6) r 0 0 rfl).trans (val_main_v1_apply a0 a1 a2 a3 a4 a5 a6 r 0)
  | ⟨1, _⟩ => exact (cat21_apply_left (val_main_v1 a0 a1 a2 a3 a4 a5 a6) (val_main_v34_0 a0 a1 a2 a3 a4 a5 a6) r 1 1 rfl).trans (val_main_v1_apply a0 a1 a2 a3 a4 a5 a6 r 1)
  | ⟨2, _⟩ => exact (cat21_apply_right (val_main_v1 a0 a1 a2 a3 a4 a5 a6) (val_main_v34_0 a0 a1 a2 a3 a4 a5 a6) r).trans (val_main_v34_0_apply a0 a1 a2 a3 a4 a5 a6 r)

/-- its tangent along e₁ in row r -/
theorem val_main_v36_apply (l : Fin 3) : val_main_v36 a0 a1 a2 a3 a4 a5 a6 (ix2 r l) = rTan x₀ x₁ 1 l := by
  match l with
  | ⟨0, _⟩ => exact (cat21_apply_left (val_main_v3 a0 a1 a2 a3 a4 a5 a6) (val_main_v34_1 a0 a1 a2 a3 a4 a5 a6) r 0 0 rfl).trans (val_main_v3_apply a0 a1 a2 a3 a4 a5 a6 r 0)
  | ⟨1, _⟩ => exact (cat21_apply_left (val_main_v3 a0 a1 a2 a3 a4 a5 a6) (val_main_v34_1 a0 a1 a2 a3 a4 a5 a6) r 1 1 rfl).trans (val_main_v3_apply a0 a1 a2 a3 a4 a5 a6 r 1)
  | ⟨2, _⟩ => exact (cat21_apply_right (val_main_v3 a0 a1 a2 a3 a4 a5 a6) (val_main_v34_1 a0 a1 a2 a3 a4 a5 a6) r).trans (val_main_v34_1_apply a0 a1 a2 a3 a4 a5 a6 r)

/-- the first hidden layer in row r (the second copy) -/
theorem val_main_v42_apply (i : Fin 12) : val_main_v42 a0 a1 a2 a3 a4 a5 a6 (ix2 r i) = rH1 𝐏 x₀ x₁ i :=
  hidden1_read r (val_main_v35 a0 a1 a2 a3 a4 a5 a6) a1 a2 (rIn x₀ x₁) (val_main_v35_apply a0 a1 a2 a3 a4 a5 a6 r) i

/-- the push through the first hidden layer, along e₁, in row r -/
theorem val_main_v47_apply (i : Fin 12) : val_main_v47 a0 a1 a2 a3 a4 a5 a6 (ix2 r i) = rD1 𝐏 x₀ x₁ 1 i :=
  push1_read r (val_main_v36 a0 a1 a2 a3 a4 a5 a6) (val_main_v42 a0 a1 a2 a3 a4 a5 a6) a1 (rTan x₀ x₁ 1)
    (val_main_v36_apply a0 a1 a2 a3 a4 a5 a6 r) (rH1 𝐏 x₀ x₁) (val_main_v42_apply a0 a1 a2 a3 a4 a5 a6 r) i

/-- the second hidden layer in row r (the second copy) -/
theorem val_main_v53_apply (i : Fin 8) : val_main_v53 a0 a1 a2 a3 a4 a5 a6 (ix2 r i) = rH2 𝐏 x₀ x₁ i :=
  hidden2_read r (val_main_v42 a0 a1 a2 a3 a4 a5 a6) a3 a4 (rH1 𝐏 x₀ x₁) (val_main_v42_apply a0 a1 a2 a3 a4 a5 a6 r) i

/-- the push through the second hidden layer, along e₁, in row r -/
theorem val_main_v58_apply (i : Fin 8) : val_main_v58 a0 a1 a2 a3 a4 a5 a6 (ix2 r i) = rD2 𝐏 x₀ x₁ 1 i :=
  push2_read r (val_main_v47 a0 a1 a2 a3 a4 a5 a6) (val_main_v53 a0 a1 a2 a3 a4 a5 a6) a3 (rD1 𝐏 x₀ x₁ 1)
    (val_main_v47_apply a0 a1 a2 a3 a4 a5 a6 r) (rH2 𝐏 x₀ x₁) (val_main_v53_apply a0 a1 a2 a3 a4 a5 a6 r) i

/-- the network's output ψ in row r (the second copy) -/
theorem val_main_v63_apply (i : Fin 2) : val_main_v63 a0 a1 a2 a3 a4 a5 a6 (ix2 r i) = rPsi 𝐏 x₀ x₁ i :=
  out_read r (val_main_v53 a0 a1 a2 a3 a4 a5 a6) a5 a6 (rH2 𝐏 x₀ x₁) (val_main_v53_apply a0 a1 a2 a3 a4 a5 a6 r) i

/-- the Jacobian's column along e₁ in row r -/
theorem val_main_v60_apply (i : Fin 2) : val_main_v60 a0 a1 a2 a3 a4 a5 a6 (ix2 r i) = rJ 𝐏 x₀ x₁ 1 i :=
  jac_read r (val_main_v58 a0 a1 a2 a3 a4 a5 a6) a5 (rD2 𝐏 x₀ x₁ 1) (val_main_v58_apply a0 a1 a2 a3 a4 a5 a6 r) i

end

end Cert.ReferenceIdeal.RRead

end
-- ==== Proof.RValue.lean ====
/-
  The reference's result array is `Cert.Spec.rArr` of the argument arrays; its determinant buffer is `Cert.Spec.detArr`.

  Row by row: the pushes, the network's output and the currents at row r are the per-row Jacobian columns, ψ and currents
  (the read-at-an-index lemmas of the first two thirds), and the last third maps those to `rOut` (RTail.out_apply).
-/
import proofs.«109731_j50405736186087_2_alg».proof.Proof.RJoin
import proofs.«109731_j50405736186087_2_alg».proof.Proof.RReadPass

noncomputable section

namespace Cert.ReferenceIdeal.RRead

open Cert.ReferenceIdeal Idealize.ShloMosaic Idealize.ShloMosaic.ValueIdx
open Facts₀ Facts

theorem val_main_v111_eq (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) :
    val_main_v111 a0 a1 a2 a3 a4 a5 a6 = Cert.Spec.rArr a0 a1 a2 a3 a4 a5 a6 := by
  funext j
  obtain ⟨r, i, rfl⟩ : ∃ (r : Fin 4194304) (i : Fin 2), j = ix2 r i := ⟨j 0, j 1, eq_ix2 j⟩
  rw [val_main_v111_tail]
  exact RTail.out_apply _ _ _ _ a0 (Cert.Spec.params a1 a2 a3 a4 a5 a6) r _ _ _
    (fun i => val_main_v30_apply a0 a1 a2 a3 a4 a5 a6 r i) (fun i => val_main_v60_apply a0 a1 a2 a3 a4 a5 a6 r i)
    (fun i => val_main_v33_apply a0 a1 a2 a3 a4 a5 a6 r i) (fun i => val_main_v1_apply a0 a1 a2 a3 a4 a5 a6 r i) rfl rfl rfl i

theorem val_main_v77_eq (a0 : FVec Ideal S4194304x5 .f32) (a1 : FVec Ideal S3x12 .f32) (a2 : FVec Ideal S12 .f32) (a3 : FVec Ideal S12x8 .f32)
    (a4 : FVec Ideal S8 .f32) (a5 : FVec Ideal S8x2 .f32) (a6 : FVec Ideal S2 .f32) (r : Fin 4194304) :
    val_main_v77 a0 a1 a2 a3 a4 a5 a6 (ix1 r) = Cert.Spec.detArr a0 a1 a2 a3 a4 a5 a6 r :=
  val_main_v77_apply a0 a1 a2 a3 a4 a5 a6 (Cert.Spec.params a1 a2 a3 a4 a5 a6) r _ _
    (fun i => val_main_v30_apply a0 a1 a2 a3 a4 a5 a6 r i) (fun i => val_main_v60_apply a0 a1 a2 a3 a4 a5 a6 r i)

end Cert.ReferenceIdeal.RRead

end
-- ==== Proof.AlgBasic.lean ====
/-
  Scalar facts over the extended reals for comparing the two spellings of the row arithmetic.

  An extended real that is neither infinity is a real number; sums, products, differences and finite sums of such numbers are again
  such numbers, tanh of ANY extended real is one, and the root of a nonnegative real is one. On real numbers the laws of a
  commutative ring hold, so each difference between the two spellings is an identity of polynomials once every operand is known to
  be real. The literal words 0, 1 and ½ are evaluated once; every other literal word is only shown to be SOME real.
-/
import proofs.«109731_j50405736186087_2_alg».proof.Proof.Spec
import Idealize.ShloMosaic.PureOps.Ideal.Laws

noncomputable section

namespace Cert.Spec

open Idealize.ShloMosaic
open scoped BigOperators

/-! ## Real numbers among the extended reals -/

/-- `x` is a real number: neither infinity -/
def Fin' (x : EReal) : Prop := x ≠ ⊥ ∧ x ≠ ⊤

theorem fin'_coe (r : ℝ) : Fin' (r : EReal) := ⟨EReal.coe_ne_bot r, EReal.coe_ne_top r⟩

theorem Fin'.exists {x : EReal} (h : Fin' x) : ∃ r : ℝ, x = (r : EReal) := by
  lift x to ℝ using ⟨h.2, h.1⟩
  exact ⟨x, rfl⟩

theorem fin'_of_exists {x : EReal} (h : ∃ r : ℝ, x = (r : EReal)) : Fin' x := by
  obtain ⟨r, rfl⟩ := h; exact fin'_coe r

theorem fin'_zero : Fin' (0 : EReal) := by rw [← EReal.coe_zero]; exact fin'_coe 0

theorem Fin'.add {x y : EReal} (hx : Fin' x) (hy : Fin' y) : Fin' (x + y) := by
  obtain ⟨a, rfl⟩ := hx.exists; obtain ⟨b, rfl⟩ := hy.exists
  rw [← EReal.coe_add]; exact fin'_coe _

theorem Fin'.mul {x y : EReal} (hx : Fin' x) (hy : Fin' y) : Fin' (x * y) := by
  obtain ⟨a, rfl⟩ := hx.exists; obtain ⟨b, rfl⟩ := hy.exists
  rw [← EReal.coe_mul]; exact fin'_coe _

theorem Fin'.sub {x y : EReal} (hx : Fin' x) (hy : Fin' y) : Fin' (x - y) := by
  obtain ⟨a, rfl⟩ := hx.exists; obtain ⟨b, rfl⟩ := hy.exists
  rw [← EReal.coe_sub]; exact fin'_coe _

theorem Fin'.neg {x : EReal} (hx : Fin' x) : Fin' (-x) := by
  obtain ⟨a, rfl⟩ := hx.exists
  rw [← EReal.coe_neg]; exact fin'_coe _

/-- a finite sum of real numbers is a real number -/
theorem fin'_sum {ι : Type*} (s : Finset ι) (f : ι → EReal) (h : ∀ i ∈ s, Fin' (f i)) : Fin' (∑ i ∈ s, f i) := by
  classical
  induction s using Finset.induction_on with
  | empty => rw [Finset.sum_empty]; exact fin'_zero
  | insert a s ha ih =>
    rw [Finset.sum_insert ha]
    exact (h a (Finset.mem_insert_self a s)).add (ih fun i hi => h i (Finset.mem_insert_of_mem hi))

/-- tanh of any extended real is a real number (±1 at the infinities) -/
theorem fin'_tanh (x : EReal) : Fin' (Ideal.tanh x) := by
  induction x using EReal.rec with
  | bot => rw [Ideal.tanh_bot]; exact (fin'_coe 1).neg
  | coe r => rw [Ideal.tanh_coe]; exact fin'_coe _
  | top => rw [Ideal.tanh_top]; exact fin'_coe 1

/-! ## The literal words -/

/-- a binary word whose exponent field is not all ones denotes a real number -/
theorem ieee_real (e m : Nat) {w : Nat} (b : BitVec w) (h : (b.extractLsb' m e).toNat ≠ 2 ^ e - 1) :
    ∃ r : ℝ, Ideal.ieee e m b = (r : EReal) := by
  unfold Ideal.ieee
  simp only [if_neg h]
  split_ifs <;> exact ⟨_, rfl⟩

theorem c0_eq : c0 = ((0 : ℝ) : EReal) := by
  show Ideal.ofBits .f32 0x00000000#32 = _
  rw [Ideal.ofBits_zero_f32, EReal.coe_zero]

theorem c1_eq : c1 = ((1 : ℝ) : EReal) := by
  show Ideal.ofBits .f32 0x3F800000#32 = _
  simp [Ideal.ofBits, Ideal.ieee]
  norm_cast
  norm_num

theorem cHalf_eq : cHalf = ((1 / 2 : ℝ) : EReal) := by
  show Ideal.ofBits .f32 0x3F000000#32 = _
  simp [Ideal.ofBits, Ideal.ieee]
  norm_cast
  norm_num

theorem cR_real : ∃ r : ℝ, cR = (r : EReal) := ieee_real 8 23 (0xBE3851EC#32 : BitVec 32) (by decide)
theorem cW_real : ∃ r : ℝ, cW = (r : EReal) := ieee_real 8 23 (0x446B9E94#32 : BitVec 32) (by decide)
theorem cS_real : ∃ r : ℝ, cS = (r : EReal) := ieee_real 8 23 (0x433AAAAB#32 : BitVec 32) (by decide)
theorem cDT_real : ∃ r : ℝ, cDT = (r : EReal) := ieee_real 8 23 (0x3851B717#32 : BitVec 32) (by decide)

theorem fin'_c0 : Fin' c0 := by rw [c0_eq]; exact fin'_coe _
theorem fin'_c1 : Fin' c1 := by rw [c1_eq]; exact fin'_coe _
theorem fin'_cR : Fin' cR := fin'_of_exists cR_real
theorem fin'_cW : Fin' cW := fin'_of_exists cW_real
theorem fin'_cS : Fin' cS := fin'_of_exists cS_real
theorem fin'_cDT : Fin' cDT := fin'_of_exists cDT_real

/-! ## Contractions -/

/-- a contraction does not care on which side the weight stands -/
theorem contr_comm {n : ℕ} (v w : Fin n → EReal) : (∑ l : Fin n, v l * w l) = (∑ l : Fin n, w l * v l) :=
  Finset.sum_congr rfl fun l _ => mul_comm _ _

/-- a contraction of real numbers is a real number -/
theorem contr_fin {n : ℕ} {v w : Fin n → EReal} (hv : ∀ l, Fin' (v l)) (hw : ∀ l, Fin' (w l)) :
    Fin' (∑ l : Fin n, v l * w l) :=
  fin'_sum _ _ fun l _ => (hv l).mul (hw l)

/-! ## The scalar laws, one per difference between the spellings -/

/-- the derivative of tanh: (dz + dz · h) · (1 − h) = dz · (1 − h · h) -/
theorem tanh_push {dz h : EReal} (hdz : Fin' dz) (hh : Fin' h) :
    (dz + dz * h) * (c1 - h) = dz * (c1 - h * h) := by
  obtain ⟨a, rfl⟩ := hdz.exists; obtain ⟨b, rfl⟩ := hh.exists
  rw [c1_eq]
  norm_cast
  ring

/-- the norm √(a² + b²) of two real numbers is a real number -/
theorem kNorm_coe (a b : ℝ) : kNorm (a : EReal) (b : EReal) = ((Real.sqrt (a * a + b * b) : ℝ) : EReal) := by
  unfold kNorm
  rw [← EReal.coe_mul, ← EReal.coe_mul, ← EReal.coe_add, Ideal.sqrt_coe,
    if_neg (not_lt.mpr (add_nonneg (mul_self_nonneg a) (mul_self_nonneg b)))]

/-- where the norm vanishes both coordinates vanish -/
theorem norm_zero_left {a b : ℝ} (h : Real.sqrt (a * a + b * b) = 0) : a = 0 := by
  have := Real.sqrt_eq_zero'.mp h
  exact mul_self_eq_zero.mp (by linarith [mul_self_nonneg a, mul_self_nonneg b])

theorem norm_zero_right {a b : ℝ} (h : Real.sqrt (a * a + b * b) = 0) : b = 0 := by
  have := Real.sqrt_eq_zero'.mp h
  exact mul_self_eq_zero.mp (by linarith [mul_self_nonneg a, mul_self_nonneg b])

/-- the derivative of the norm: s · (½ / n) = t · (1 / n) when s = 2 t; at n = 0 both quotients are +∞ and t = 0 makes both
    products 0 -/
theorem dnorm_core (s t n : ℝ) (hs : s = 2 * t) (hz : n = 0 → t = 0) :
    (s : EReal) * Ideal.div cHalf (n : EReal) = (t : EReal) * Ideal.div c1 (n : EReal) := by
  by_cases hn : n = 0
  · have ht := hz hn
    subst hs; subst ht
    rw [mul_zero, EReal.coe_zero, zero_mul, zero_mul]
  · rw [Ideal.div_coe hn, Ideal.div_coe hn, cHalf_eq, c1_eq]
    subst hs
    norm_cast
    ring

/-- … and the kernel's spelling of it is a real number -/
theorem dnorm_fin (t n : ℝ) (hz : n = 0 → t = 0) : Fin' ((t : EReal) * Ideal.div c1 (n : EReal)) := by
  by_cases hn : n = 0
  · rw [hz hn, EReal.coe_zero, zero_mul]; exact fin'_zero
  · rw [Ideal.div_coe hn, c1_eq]
    exact (fin'_coe _).mul ((fin'_coe _).mul (fin'_coe _))

/-- the reciprocal of a nonzero real number is a real number -/
theorem fin'_recip {d : EReal} (hd : Fin' d) (hne : d ≠ 0) : Fin' (Ideal.div c1 d) := by
  obtain ⟨δ, rfl⟩ := hd.exists
  have hδ : δ ≠ 0 := fun h => hne (by rw [h, EReal.coe_zero])
  rw [Ideal.div_coe hδ, c1_eq]
  exact (fin'_coe _).mul (fin'_coe _)

/-- the solve, first row: (p / δ) · u + (−q / δ) · v = (p · u − q · v) · (1 / δ) -/
theorem solve_row0 {p q u v d : EReal} (hp : Fin' p) (hq : Fin' q) (hu : Fin' u) (hv : Fin' v) (hd : Fin' d) (hne : d ≠ 0) :
    Ideal.div p d * u + Ideal.div (-q) d * v = (p * u - q * v) * Ideal.div c1 d := by
  obtain ⟨p, rfl⟩ := hp.exists; obtain ⟨q, rfl⟩ := hq.exists; obtain ⟨u, rfl⟩ := hu.exists
  obtain ⟨v, rfl⟩ := hv.exists; obtain ⟨δ, rfl⟩ := hd.exists
  have hδ : δ ≠ 0 := fun h => hne (by rw [h, EReal.coe_zero])
  rw [Ideal.div_coe hδ, Ideal.div_coe hδ, Ideal.div_coe hδ, c1_eq]
  norm_cast
  ring

/-- the solve, second row: (−q / δ) · u + (p / δ) · v = ((0 − q) · u + p · v) · (1 / δ) -/
theorem solve_row1 {p q u v d : EReal} (hp : Fin' p) (hq : Fin' q) (hu : Fin' u) (hv : Fin' v) (hd : Fin' d) (hne : d ≠ 0) :
    Ideal.div (-q) d * u + Ideal.div p d * v = ((c0 - q) * u + p * v) * Ideal.div c1 d := by
  obtain ⟨p, rfl⟩ := hp.exists; obtain ⟨q, rfl⟩ := hq.exists; obtain ⟨u, rfl⟩ := hu.exists
  obtain ⟨v, rfl⟩ := hv.exists; obtain ⟨δ, rfl⟩ := hd.exists
  have hδ : δ ≠ 0 := fun h => hne (by rw [h, EReal.coe_zero])
  rw [Ideal.div_coe hδ, Ideal.div_coe hδ, Ideal.div_coe hδ, c0_eq, c1_eq]
  norm_cast
  ring

/-- the right-hand side's first entry: the 4-term contraction c·x0 + c·x1 + 0·x2 + (ψ·ω)·1 against c·(x0 + x1) + ψ·ω -/
theorem rhs_row0 {x0 x1 x2 ps : EReal} (h0 : Fin' x0) (h1 : Fin' x1) (h2 : Fin' x2) (hps : Fin' ps) :
    cR * x0 + cR * x1 + c0 * x2 + ps * cW * c1 = cR * (x0 + x1) + ps * cW := by
  obtain ⟨a, rfl⟩ := h0.exists; obtain ⟨b, rfl⟩ := h1.exists; obtain ⟨c, rfl⟩ := h2.exists
  obtain ⟨s, rfl⟩ := hps.exists
  obtain ⟨r, hr⟩ := cR_real; obtain ⟨w, hw⟩ := cW_real
  rw [hr, hw, c0_eq, c1_eq]
  norm_cast
  ring

/-- the right-hand side's second entry: c·x0 + c·x1 + s·x2 + (−ψ·ω)·1 against (c·(x0 + x1) + s·x2) + (0 − ψ)·ω -/
theorem rhs_row1 {x0 x1 x2 ps : EReal} (h0 : Fin' x0) (h1 : Fin' x1) (h2 : Fin' x2) (hps : Fin' ps) :
    cR * x0 + cR * x1 + cS * x2 + -ps * cW * c1 = (cR * (x0 + x1) + cS * x2) + (c0 - ps) * cW := by
  obtain ⟨a, rfl⟩ := h0.exists; obtain ⟨b, rfl⟩ := h1.exists; obtain ⟨c, rfl⟩ := h2.exists
  obtain ⟨s, rfl⟩ := hps.exists
  obtain ⟨r, hr⟩ := cR_real; obtain ⟨w, hw⟩ := cW_real; obtain ⟨t, ht⟩ := cS_real
  rw [hr, hw, ht, c0_eq, c1_eq]
  norm_cast
  ring

/-! ## The parameters -/

/-- every weight and bias is a real number -/
structure Params.Finite (P : Params) : Prop where
  W1 : ∀ l i, Fin' (P.W1 l i)
  b1 : ∀ i, Fin' (P.b1 i)
  W2 : ∀ l i, Fin' (P.W2 l i)
  b2 : ∀ i, Fin' (P.b2 i)
  W3 : ∀ l i, Fin' (P.W3 l i)
  b3 : ∀ i, Fin' (P.b3 i)

end Cert.Spec

end
-- ==== Proof.PreFinite.lean ====
/-
  What the precondition says of the argument arrays.

  The precondition is a conjunction of eight all-quantified tests: for each of the seven arrays, every entry's absolute value is
  below +∞ (so the entry is a real number: |x| = max x (−x) is +∞ at both infinities), and the determinant of the network's
  Jacobian differs from zero in every row. The determinant is restated here as one function of the arrays: the two columns of the
  Jacobian are the SAME forward-mode push (`jcol`) applied to the two unit tangents, and the determinant (`det2`) reads the four
  entries back out of the two columns.
-/
import proofs.«109731_j50405736186087_2_alg».proof.Pre_finite_inputs
import proofs.«109731_j50405736186087_2_alg».proof.Proof.AlgBasic
import Idealize.ShloMosaic.Lib.ReduceAll
import Idealize.ShloMosaic.Lib.ValueIdx

noncomputable section

namespace Cert.PreFacts

open Idealize.ShloMosaic Cert.Pre_finite_inputs Cert.Spec

variable [Facts]
open Facts

/-! ## The determinant as a function of the arrays -/

/-- the two currents: columns 0 and 1 of every row -/
def currents {F : FTy → Type} [FloatOps F] (a0 : FVec F S4194304x5 .f32) : FVec F S4194304x2 .f32 :=
  (extractStridedSlice S4194304x2 ![0, 0] · slices_S4194304x5_S4194304x2_0_0) a0

/-- the unit tangent e₀ = (1, 0) in every row -/
def unit0 {F : FTy → Type} [FloatOps F] : FVec F S4194304x2 .f32 :=
  broadcastInDim S4194304x2 ![1] bcast_S2_S4194304x2_1 (fun i => FloatOps.ofBits .f32 (lit0 (S2.rowMajor i)))

/-- the unit tangent e₁ = (0, 1) in every row -/
def unit1 {F : FTy → Type} [FloatOps F] : FVec F S4194304x2 .f32 :=
  broadcastInDim S4194304x2 ![1] bcast_S2_S4194304x2_1 (fun i => FloatOps.ofBits .f32 (lit1 (S2.rowMajor i)))

/-- one column of the Jacobian: the push of the tangent `tang` through the norm, the two tanh layers and the last contraction -/
def jcol {F : FTy → Type} [FloatOps F] (w1 : FVec F S3x12 .f32) (b1 : FVec F S12 .f32) (w2 : FVec F S12x8 .f32)
    (b2 : FVec F S8 .f32) (w3 : FVec F S8x2 .f32) (cur tang : FVec F S4194304x2 .f32) : FVec F S4194304x2 .f32 :=
  let xx : FVec F S4194304x2 .f32 := mulf cur cur
  let tx : FVec F S4194304x2 .f32 := mulf tang cur
  let xt : FVec F S4194304x2 .f32 := mulf cur tang
  let txxt : FVec F S4194304x2 .f32 := addf tx xt
  let zeroA : FVec F S_ .f32 := constant S_ .f32 0x00000000#32
  let ss : FVec F S4194304 .f32 := (fun y v => Host.reduceAdd y v reducesTo_S4194304x2_S4194304_d1 h_S_) xx zeroA
  let zeroB : FVec F S_ .f32 := constant S_ .f32 0x00000000#32
  let ds : FVec F S4194304 .f32 := (fun y v => Host.reduceAdd y v reducesTo_S4194304x2_S4194304_d1 h_S_) txxt zeroB
  let ssc : FVec F S4194304x1 .f32 := broadcastInDim S4194304x1 ![0] bcast_S4194304_S4194304x1_0 ss
  let dsc : FVec F S4194304x1 .f32 := broadcastInDim S4194304x1 ![0] bcast_S4194304_S4194304x1_0 ds
  let nrm : FVec F S4194304x1 .f32 := Host.sqrt ssc
  let halfw : FVec F S_ .f32 := constant S_ .f32 0x3F000000#32
  let half : FVec F S4194304x1 .f32 := broadcastInDim S4194304x1 ![] bcast_S_S4194304x1 halfw
  let hn : FVec F S4194304x1 .f32 := Host.divf half nrm
  let dn : FVec F S4194304x1 .f32 := mulf dsc hn
  let inp : FVec F S4194304x3 .f32 := (fun a b => concatenate S4194304x3 1 [⟨S4194304x2, a⟩, ⟨S4194304x1, b⟩] concatenates_S4194304x2_S4194304x1_S4194304x3_d1) cur nrm
  let tin : FVec F S4194304x3 .f32 := (fun a b => concatenate S4194304x3 1 [⟨S4194304x2, a⟩, ⟨S4194304x1, b⟩] concatenates_S4194304x2_S4194304x1_S4194304x3_d1) tang dn
  let z1 : FVec F S4194304x12 .f32 := (fun l r => Host.dotGeneral dot_S4194304x3_S3x12_S4194304x12_1_0_0_1_n_n none l r) inp w1
  let dz1 : FVec F S4194304x12 .f32 := (fun l r => Host.dotGeneral dot_S4194304x3_S3x12_S4194304x12_1_0_0_1_n_n none l r) tin w1
  let b1r : FVec F S1x12 .f32 := broadcastInDim S1x12 ![1] bcast_S12_S1x12_1 b1
  let b1f : FVec F S4194304x12 .f32 := broadcastInDim S4194304x12 ![0, 1] bcast_S1x12_S4194304x12_0_1 b1r
  let z1b : FVec F S4194304x12 .f32 := addf z1 b1f
  let h1 : FVec F S4194304x12 .f32 := Host.tanh z1b
  let dz1h : FVec F S4194304x12 .f32 := mulf dz1 h1
  let s1 : FVec F S4194304x12 .f32 := addf dz1 dz1h
  let oneA : FVec F S_ .f32 := constant S_ .f32 0x3F800000#32
  let one1 : FVec F S4194304x12 .f32 := broadcastInDim S4194304x12 ![] bcast_S_S4194304x12 oneA
  let omh1 : FVec F S4194304x12 .f32 := subf one1 h1
  let d1 : FVec F S4194304x12 .f32 := mulf s1 omh1
  let z2 : FVec F S4194304x8 .f32 := (fun l r => Host.dotGeneral dot_S4194304x12_S12x8_S4194304x8_1_0_0_1_n_n none l r) h1 w2
  let dz2 : FVec F S4194304x8 .f32 := (fun l r => Host.dotGeneral dot_S4194304x12_S12x8_S4194304x8_1_0_0_1_n_n none l r) d1 w2
  let b2r : FVec F S1x8 .f32 := broadcastInDim S1x8 ![1] bcast_S8_S1x8_1 b2
  let b2f : FVec F S4194304x8 .f32 := broadcastInDim S4194304x8 ![0, 1] bcast_S1x8_S4194304x8_0_1 b2r
  let z2b : FVec F S4194304x8 .f32 := addf z2 b2f
  let h2 : FVec F S4194304x8 .f32 := Host.tanh z2b
  let dz2h : FVec F S4194304x8 .f32 := mulf dz2 h2
  let s2 : FVec F S4194304x8 .f32 := addf dz2 dz2h
  let oneB : FVec F S_ .f32 := constant S_ .f32 0x3F800000#32
  let one2 : FVec F S4194304x8 .f32 := broadcastInDim S4194304x8 ![] bcast_S_S4194304x8 oneB
  let omh2 : FVec F S4194304x8 .f32 := subf one2 h2
  let d2 : FVec F S4194304x8 .f32 := mulf s2 omh2
  let jc : FVec F S4194304x2 .f32 := (fun l r => Host.dotGeneral dot_S4194304x8_S8x2_S4194304x2_1_0_0_1_n_n none l r) d2 w3
  jc

/-- the determinant of the 2 × 2 matrix whose columns are `jc0` and `jc1`, row by row -/
def det2 {F : FTy → Type} [FloatOps F] (jc0 jc1 : FVec F S4194304x2 .f32) : FVec F S4194304 .f32 :=
  let col0 : FVec F S4194304x2x1 .f32 := broadcastInDim S4194304x2x1 ![0, 1] bcast_S4194304x2_S4194304x2x1_0_1 jc0
  let col1 : FVec F S4194304x2x1 .f32 := broadcastInDim S4194304x2x1 ![0, 1] bcast_S4194304x2_S4194304x2x1_0_1 jc1
  let jm : FVec F S4194304x2x2 .f32 := (fun a b => concatenate S4194304x2x2 2 [⟨S4194304x2x1, a⟩, ⟨S4194304x2x1, b⟩] concatenates_S4194304x2x1_S4194304x2x1_S4194304x2x2_d2) col0 col1
  let s00 : FVec F S4194304x1x1 .f32 := (extractStridedSlice S4194304x1x1 ![0, 0, 0] · slices_S4194304x2x2_S4194304x1x1_0_0_0) jm
  let j00 : FVec F S4194304 .f32 := shapeCast S4194304 s00 shapeCasts_S4194304x1x1_S4194304
  let s01 : FVec F S4194304x1x1 .f32 := (extractStridedSlice S4194304x1x1 ![0, 0, 1] · slices_S4194304x2x2_S4194304x1x1_0_0_1) jm
  let j01 : FVec F S4194304 .f32 := shapeCast S4194304 s01 shapeCasts_S4194304x1x1_S4194304
  let s10 : FVec F S4194304x1x1 .f32 := (extractStridedSlice S4194304x1x1 ![0, 1, 0] · slices_S4194304x2x2_S4194304x1x1_0_1_0) jm
  let j10 : FVec F S4194304 .f32 := shapeCast S4194304 s10 shapeCasts_S4194304x1x1_S4194304
  let s11 : FVec F S4194304x1x1 .f32 := (extractStridedSlice S4194304x1x1 ![0, 1, 1] · slices_S4194304x2x2_S4194304x1x1_0_1_1) jm
  let j11 : FVec F S4194304 .f32 := shapeCast S4194304 s11 shapeCasts_S4194304x1x1_S4194304
  let p0 : FVec F S4194304 .f32 := mulf j00 j11
  let p1 : FVec F S4194304 .f32 := mulf j01 j10
  let dt : FVec F S4194304 .f32 := subf p0 p1
  dt

/-- the determinant the precondition tests, as a function of the arrays -/
def detVec {F : FTy → Type} [FloatOps F] (a0 : FVec F S4194304x5 .f32) (a1 : FVec F S3x12 .f32) (a2 : FVec F S12 .f32)
    (a3 : FVec F S12x8 .f32) (a4 : FVec F S8 .f32) (a5 : FVec F S8x2 .f32) : FVec F S4194304 .f32 :=
  det2 (jcol a1 a2 a3 a4 a5 (currents a0) unit0) (jcol a1 a2 a3 a4 a5 (currents a0) unit1)

/-! ## One test at one entry -/

instance : Subsingleton S_.Idx := ⟨fun a b => funext fun d => d.elim0⟩

/-- the word 0x7F800000 is +∞ -/
theorem inf_word : Ideal.ofBits .f32 0x7F800000#32 = ⊤ := by simp [Ideal.ofBits, Ideal.ieee]

/-- |x| < +∞ makes x a real number -/
theorem elt_fin (x : EReal) (h : Ideal.cmp .olt (max x (-x)) (Ideal.ofBits .f32 0x7F800000#32) = 1#1) : Fin' x := by
  rw [inf_word] at h
  induction x using EReal.rec with
  | bot => simp [Ideal.cmp] at h
  | coe r => exact fin'_coe r
  | top => simp [Ideal.cmp] at h

/-- x ≠ 0.0 as a comparison -/
theorem une_zero (x : EReal) (h : Ideal.cmp .une x (Ideal.ofBits .f32 0x00000000#32) = 1#1) : x ≠ 0 := by
  rw [Ideal.ofBits_zero_f32] at h
  intro hx
  subst hx
  simp [Ideal.cmp] at h

/-- one conjunct: every entry of the array is a real number -/
theorem all_fin {S : Shape} {axes : List (Fin S.rank)} (x : FVec Ideal S .f32)
    (bc : S_.BroadcastsInDim S (![] : Fin 0 → Fin S.rank)) (red : S.ReducesTo axes S_) (hu : 0 < S_.numel) (j : S_.Idx)
    (e : Host.reduce IntOp.andi (cmpf .olt (Host.absf x) (broadcastInDim S ![] bc (constant (F := Ideal) S_ .f32 0x7F800000#32)))
        (constantI S_ 1 1#1) red hu j = 1#1) (i : S.Idx) : Fin' (x i) :=
  elt_fin (x i) (Host.reduce_andi_all _ _ red hu j e i)

/-! ## The precondition decoded -/

theorem decode (a0 : FVec Ideal S4194304x5 .f32) (a1 : FVec Ideal S3x12 .f32) (a2 : FVec Ideal S12 .f32)
    (a3 : FVec Ideal S12x8 .f32) (a4 : FVec Ideal S8 .f32) (a5 : FVec Ideal S8x2 .f32) (a6 : FVec Ideal S2 .f32)
    (h : fn (F := Ideal) a0 a1 a2 a3 a4 a5 a6 = fun _ => 1#1) :
    ((∀ i, Fin' (a0 i)) ∧ (∀ i, Fin' (a1 i)) ∧ (∀ i, Fin' (a2 i)) ∧ (∀ i, Fin' (a3 i)) ∧ (∀ i, Fin' (a4 i))
        ∧ (∀ i, Fin' (a5 i)) ∧ (∀ i, Fin' (a6 i)))
      ∧ ∀ i, detVec (F := Ideal) a0 a1 a2 a3 a4 a5 i ≠ 0 := by
  have e := congrFun h ValueIdx.ix0
  dsimp only [fn, fn_part1, fn_part2, fn_part3, fn_part4, fn_part5, fn_part6] at e
  obtain ⟨e33, ed⟩ := IntOp.andi_eq_one.1 e
  obtain ⟨e28, e6⟩ := IntOp.andi_eq_one.1 e33
  obtain ⟨e23, e5⟩ := IntOp.andi_eq_one.1 e28
  obtain ⟨e18, e4⟩ := IntOp.andi_eq_one.1 e23
  obtain ⟨e13, e3⟩ := IntOp.andi_eq_one.1 e18
  obtain ⟨e8, e2⟩ := IntOp.andi_eq_one.1 e13
  obtain ⟨e0, e1⟩ := IntOp.andi_eq_one.1 e8
  refine ⟨⟨all_fin a0 _ _ _ _ e0, all_fin a1 _ _ _ _ e1, all_fin a2 _ _ _ _ e2, all_fin a3 _ _ _ _ e3,
    all_fin a4 _ _ _ _ e4, all_fin a5 _ _ _ _ e5, all_fin a6 _ _ _ _ e6⟩, fun i => ?_⟩
  exact une_zero _ (Host.reduce_andi_all _ _ _ _ _ ed i)

/-- every entry of every argument array is a real number -/
theorem finite_of_pre (a0 : FVec Ideal S4194304x5 .f32) (a1 : FVec Ideal S3x12 .f32) (a2 : FVec Ideal S12 .f32)
    (a3 : FVec Ideal S12x8 .f32) (a4 : FVec Ideal S8 .f32) (a5 : FVec Ideal S8x2 .f32) (a6 : FVec Ideal S2 .f32)
    (h : fn (F := Ideal) a0 a1 a2 a3 a4 a5 a6 = fun _ => 1#1) :
    (∀ i, Fin' (a0 i)) ∧ (∀ i, Fin' (a1 i)) ∧ (∀ i, Fin' (a2 i)) ∧ (∀ i, Fin' (a3 i)) ∧ (∀ i, Fin' (a4 i))
      ∧ (∀ i, Fin' (a5 i)) ∧ (∀ i, Fin' (a6 i)) :=
  (decode a0 a1 a2 a3 a4 a5 a6 h).1

/-- the determinant differs from zero in every row -/
theorem det_of_pre (a0 : FVec Ideal S4194304x5 .f32) (a1 : FVec Ideal S3x12 .f32) (a2 : FVec Ideal S12 .f32)
    (a3 : FVec Ideal S12x8 .f32) (a4 : FVec Ideal S8 .f32) (a5 : FVec Ideal S8x2 .f32) (a6 : FVec Ideal S2 .f32)
    (h : fn (F := Ideal) a0 a1 a2 a3 a4 a5 a6 = fun _ => 1#1) :
    ∀ i, detVec (F := Ideal) a0 a1 a2 a3 a4 a5 i ≠ 0 :=
  (decode a0 a1 a2 a3 a4 a5 a6 h).2

/-- … so the six weight and bias arrays, read as parameters, are real -/
theorem params_finite_of_pre (a0 : FVec Ideal S4194304x5 .f32) (a1 : FVec Ideal S3x12 .f32) (a2 : FVec Ideal S12 .f32)
    (a3 : FVec Ideal S12x8 .f32) (a4 : FVec Ideal S8 .f32) (a5 : FVec Ideal S8x2 .f32) (a6 : FVec Ideal S2 .f32)
    (h : fn (F := Ideal) a0 a1 a2 a3 a4 a5 a6 = fun _ => 1#1) : (Cert.Spec.params a1 a2 a3 a4 a5 a6).Finite := by
  obtain ⟨-, h1, h2, h3, h4, h5, h6⟩ := finite_of_pre a0 a1 a2 a3 a4 a5 a6 h
  exact ⟨fun l i => h1 _, fun i => h2 _, fun l i => h3 _, fun i => h4 _, fun l i => h5 _, fun i => h6 _⟩

end Cert.PreFacts

end
-- ==== Proof.PreBridge.lean ====
/-
  The determinant the precondition tests is the determinant the reference divides by.

  The precondition recomputes the Jacobian with the reference's own operations: the same slice, the same unit tangents, the same
  norm and its derivative, the same three layers and pushes, the same 2 × 2 determinant. Operation by operation the two chains are
  the same terms; their shape facts are propositions, so which proof of a fact a chain carries does not matter.
-/
import proofs.«109731_j50405736186087_2_alg».proof.Proof.PreFinite
import proofs.«109731_j50405736186087_2_alg».proof.Proof.RStages

noncomputable section

namespace Cert.PreFacts

open Idealize.ShloMosaic Cert.Pre_finite_inputs

variable [Facts]

/-- the first column of the Jacobian -/
theorem jcol_unit0 (a0 : FVec Ideal S4194304x5 .f32) (a1 : FVec Ideal S3x12 .f32) (a2 : FVec Ideal S12 .f32)
    (a3 : FVec Ideal S12x8 .f32) (a4 : FVec Ideal S8 .f32) (a5 : FVec Ideal S8x2 .f32) (a6 : FVec Ideal S2 .f32) :
    jcol (F := Ideal) a1 a2 a3 a4 a5 (currents a0) unit0 = Cert.ReferenceIdeal.RRead.val_main_v30 a0 a1 a2 a3 a4 a5 a6 :=
  rfl

/-- the second column of the Jacobian -/
theorem jcol_unit1 (a0 : FVec Ideal S4194304x5 .f32) (a1 : FVec Ideal S3x12 .f32) (a2 : FVec Ideal S12 .f32)
    (a3 : FVec Ideal S12x8 .f32) (a4 : FVec Ideal S8 .f32) (a5 : FVec Ideal S8x2 .f32) (a6 : FVec Ideal S2 .f32) :
    jcol (F := Ideal) a1 a2 a3 a4 a5 (currents a0) unit1 = Cert.ReferenceIdeal.RRead.val_main_v60 a0 a1 a2 a3 a4 a5 a6 :=
  rfl

/-- the determinant the precondition tests is the reference's determinant buffer -/
theorem detVec_eq_v77 (a0 : FVec Ideal S4194304x5 .f32) (a1 : FVec Ideal S3x12 .f32) (a2 : FVec Ideal S12 .f32)
    (a3 : FVec Ideal S12x8 .f32) (a4 : FVec Ideal S8 .f32) (a5 : FVec Ideal S8x2 .f32) (a6 : FVec Ideal S2 .f32) :
    detVec (F := Ideal) a0 a1 a2 a3 a4 a5 = Cert.ReferenceIdeal.RRead.val_main_v77 a0 a1 a2 a3 a4 a5 a6 := by
  unfold detVec
  rw [jcol_unit0 a0 a1 a2 a3 a4 a5 a6, jcol_unit1 a0 a1 a2 a3 a4 a5 a6]
  rfl

/-- under the precondition the reference's determinant differs from zero in every row -/
theorem v77_ne_zero_of_pre (a0 : FVec Ideal S4194304x5 .f32) (a1 : FVec Ideal S3x12 .f32) (a2 : FVec Ideal S12 .f32)
    (a3 : FVec Ideal S12x8 .f32) (a4 : FVec Ideal S8 .f32) (a5 : FVec Ideal S8x2 .f32) (a6 : FVec Ideal S2 .f32)
    (h : fn (F := Ideal) a0 a1 a2 a3 a4 a5 a6 = fun _ => 1#1) :
    ∀ i, Cert.ReferenceIdeal.RRead.val_main_v77 a0 a1 a2 a3 a4 a5 a6 i ≠ 0 := by
  rw [← detVec_eq_v77 a0 a1 a2 a3 a4 a5 a6]
  exact det_of_pre a0 a1 a2 a3 a4 a5 a6 h

end Cert.PreFacts

end
-- ==== Proof.AlgLayers.lean ====
/-
  The two spellings agree layer by layer, and every layer is real.

  Going down the network: the norm (the reference starts its sum of squares from the zero word), the input, the hidden layers
  (a contraction does not care on which side the weight stands), the tangents (the derivative of the norm, the one place where a
  quotient by a possibly vanishing number occurs: at the origin both spellings give 0), the pushes through tanh
  ((dz + dz·h)(1 − h) = dz (1 − h·h) for real dz and h), the output, the Jacobian and its determinant.
-/
import proofs.«109731_j50405736186087_2_alg».proof.Proof.AlgBasic

noncomputable section

namespace Cert.Spec

open Idealize.ShloMosaic
open scoped BigOperators

variable (P : Params) (x0 x1 : EReal)

/-! ## The norm and the network's input -/

theorem rNorm_eq : rNorm x0 x1 = kNorm x0 x1 := by
  unfold rNorm kNorm
  rw [Fin.sum_univ_two, c0_eq, EReal.coe_zero, zero_add]
  rfl

theorem rIn_eq : rIn x0 x1 = kIn x0 x1 := by
  unfold rIn kIn
  rw [rNorm_eq]

theorem kNorm_fin (h0 : Fin' x0) (h1 : Fin' x1) : Fin' (kNorm x0 x1) := by
  obtain ⟨a, rfl⟩ := h0.exists; obtain ⟨b, rfl⟩ := h1.exists
  rw [kNorm_coe]; exact fin'_coe _

theorem kIn_fin (h0 : Fin' x0) (h1 : Fin' x1) (l : Fin 3) : Fin' (kIn x0 x1 l) := by
  match l with
  | ⟨0, _⟩ => exact h0
  | ⟨1, _⟩ => exact h1
  | ⟨2, _⟩ => exact kNorm_fin x0 x1 h0 h1

/-! ## The first hidden layer -/

theorem rH1_eq (i : Fin 12) : rH1 P x0 x1 i = kH1 P x0 x1 i := by
  unfold rH1 kH1
  rw [rIn_eq]
  exact congrArg (fun s => Ideal.tanh (s + P.b1 i)) (contr_comm _ _)

theorem rH1_fun : rH1 P x0 x1 = kH1 P x0 x1 := funext (rH1_eq P x0 x1)

theorem kH1_fin (i : Fin 12) : Fin' (kH1 P x0 x1 i) := fin'_tanh _

/-! ## The tangents of the input -/

theorem kTan_zero : kTan x0 x1 0 = ![c1, c0, x0 * Ideal.div c1 (kNorm x0 x1)] := rfl
theorem kTan_one : kTan x0 x1 1 = ![c0, c1, x1 * Ideal.div c1 (kNorm x0 x1)] := rfl
theorem rTan_zero : rTan x0 x1 0 = ![c1, c0, rDNorm x0 x1 0] := rfl
theorem rTan_one : rTan x0 x1 1 = ![c0, c1, rDNorm x0 x1 1] := rfl

/-- the derivative of the norm along e₀: (1·x0 + x0·1 + 0·x1 + x1·0) · (½ / ‖x‖) = x0 · (1 / ‖x‖) -/
theorem rDNorm_zero (h0 : Fin' x0) (h1 : Fin' x1) : rDNorm x0 x1 0 = x0 * Ideal.div c1 (kNorm x0 x1) := by
  obtain ⟨a, rfl⟩ := h0.exists; obtain ⟨b, rfl⟩ := h1.exists
  have hs : (c0 + ∑ l : Fin 2, (rE 0 l * rX (a : EReal) b l + rX (a : EReal) b l * rE 0 l)) = ((2 * a : ℝ) : EReal) := by
    rw [Fin.sum_univ_two]
    show c0 + ((c1 * (a : EReal) + a * c1) + (c0 * (b : EReal) + b * c0)) = _
    rw [c0_eq, c1_eq]
    norm_cast
    ring
  unfold rDNorm
  rw [hs, rNorm_eq, kNorm_coe]
  exact dnorm_core _ _ _ rfl norm_zero_left

/-- … and along e₁ -/
theorem rDNorm_one (h0 : Fin' x0) (h1 : Fin' x1) : rDNorm x0 x1 1 = x1 * Ideal.div c1 (kNorm x0 x1) := by
  obtain ⟨a, rfl⟩ := h0.exists; obtain ⟨b, rfl⟩ := h1.exists
  have hs : (c0 + ∑ l : Fin 2, (rE 1 l * rX (a : EReal) b l + rX (a : EReal) b l * rE 1 l)) = ((2 * b : ℝ) : EReal) := by
    rw [Fin.sum_univ_two]
    show c0 + ((c0 * (a : EReal) + a * c0) + (c1 * (b : EReal) + b * c1)) = _
    rw [c0_eq, c1_eq]
    norm_cast
    ring
  unfold rDNorm
  rw [hs, rNorm_eq, kNorm_coe]
  exact dnorm_core _ _ _ rfl norm_zero_right

theorem rTan_eq (h0 : Fin' x0) (h1 : Fin' x1) : ∀ e : Fin 2, rTan x0 x1 e = kTan x0 x1 e := by
  rw [Fin.forall_fin_two]
  constructor
  · rw [rTan_zero, kTan_zero, rDNorm_zero x0 x1 h0 h1]
  · rw [rTan_one, kTan_one, rDNorm_one x0 x1 h0 h1]

theorem kTan_fin (h0 : Fin' x0) (h1 : Fin' x1) : ∀ (e : Fin 2) (l : Fin 3), Fin' (kTan x0 x1 e l) := by
  obtain ⟨a, rfl⟩ := h0.exists; obtain ⟨b, rfl⟩ := h1.exists
  rw [Fin.forall_fin_two]
  constructor
  · rw [kTan_zero, kNorm_coe]
    intro l
    match l with
    | ⟨0, _⟩ => exact fin'_c1
    | ⟨1, _⟩ => exact fin'_c0
    | ⟨2, _⟩ => exact dnorm_fin a _ norm_zero_left
  · rw [kTan_one, kNorm_coe]
    intro l
    match l with
    | ⟨0, _⟩ => exact fin'_c0
    | ⟨1, _⟩ => exact fin'_c1
    | ⟨2, _⟩ => exact dnorm_fin b _ norm_zero_right

/-! ## The pushes through the hidden layers -/

/-- one push: the reference's (dz + dz·h)(1 − h) over its contraction against the kernel's dz (1 − h·h) over the commuted one -/
theorem push_contr {n : ℕ} {v w : Fin n → EReal} (hv : ∀ l, Fin' (v l)) (hw : ∀ l, Fin' (w l)) {h : EReal} (hh : Fin' h) :
    ((∑ l : Fin n, v l * w l) + (∑ l : Fin n, v l * w l) * h) * (c1 - h) = (∑ l : Fin n, w l * v l) * (c1 - h * h) := by
  rw [contr_comm v w]
  exact tanh_push (contr_fin hw hv) hh

variable (hP : P.Finite)
include hP

theorem rD1_eq (h0 : Fin' x0) (h1 : Fin' x1) (e : Fin 2) (i : Fin 12) : rD1 P x0 x1 e i = kD1 P x0 x1 e i := by
  unfold rD1 kD1
  rw [rTan_eq x0 x1 h0 h1 e, rH1_eq]
  exact push_contr (kTan_fin x0 x1 h0 h1 e) (fun l => hP.W1 l i) (kH1_fin P x0 x1 i)

theorem rD1_fun (h0 : Fin' x0) (h1 : Fin' x1) (e : Fin 2) : rD1 P x0 x1 e = kD1 P x0 x1 e :=
  funext (rD1_eq P x0 x1 hP h0 h1 e)

theorem kD1_fin (h0 : Fin' x0) (h1 : Fin' x1) (e : Fin 2) (i : Fin 12) : Fin' (kD1 P x0 x1 e i) :=
  (contr_fin (fun l => hP.W1 l i) (kTan_fin x0 x1 h0 h1 e)).mul
    (fin'_c1.sub ((kH1_fin P x0 x1 i).mul (kH1_fin P x0 x1 i)))

omit hP in
theorem rH2_eq (i : Fin 8) : rH2 P x0 x1 i = kH2 P x0 x1 i := by
  unfold rH2 kH2
  rw [rH1_fun]
  exact congrArg (fun s => Ideal.tanh (s + P.b2 i)) (contr_comm _ _)

omit hP in
theorem rH2_fun : rH2 P x0 x1 = kH2 P x0 x1 := funext (rH2_eq P x0 x1)

omit hP in
theorem kH2_fin (i : Fin 8) : Fin' (kH2 P x0 x1 i) := fin'_tanh _

theorem rD2_eq (h0 : Fin' x0) (h1 : Fin' x1) (e : Fin 2) (i : Fin 8) : rD2 P x0 x1 e i = kD2 P x0 x1 e i := by
  unfold rD2 kD2
  rw [rD1_fun P x0 x1 hP h0 h1 e, rH2_eq]
  exact push_contr (kD1_fin P x0 x1 hP h0 h1 e) (fun l => hP.W2 l i) (kH2_fin P x0 x1 i)

theorem rD2_fun (h0 : Fin' x0) (h1 : Fin' x1) (e : Fin 2) : rD2 P x0 x1 e = kD2 P x0 x1 e :=
  funext (rD2_eq P x0 x1 hP h0 h1 e)

theorem kD2_fin (h0 : Fin' x0) (h1 : Fin' x1) (e : Fin 2) (i : Fin 8) : Fin' (kD2 P x0 x1 e i) :=
  (contr_fin (fun l => hP.W2 l i) (kD1_fin P x0 x1 hP h0 h1 e)).mul
    (fin'_c1.sub ((kH2_fin P x0 x1 i).mul (kH2_fin P x0 x1 i)))

/-! ## The output, the Jacobian and its determinant -/

omit hP in
theorem rPsi_eq (i : Fin 2) : rPsi P x0 x1 i = kPsi P x0 x1 i := by
  unfold rPsi kPsi
  rw [rH2_fun]
  exact congrArg (fun s => s + P.b3 i) (contr_comm _ _)

theorem kPsi_fin (i : Fin 2) : Fin' (kPsi P x0 x1 i) :=
  (contr_fin (fun l => hP.W3 l i) (kH2_fin P x0 x1)).add (hP.b3 i)

theorem rJ_eq (h0 : Fin' x0) (h1 : Fin' x1) (e i : Fin 2) : rJ P x0 x1 e i = kJ P x0 x1 e i := by
  unfold rJ kJ
  rw [rD2_fun P x0 x1 hP h0 h1 e]
  exact contr_comm _ _

theorem kJ_fin (h0 : Fin' x0) (h1 : Fin' x1) (e i : Fin 2) : Fin' (kJ P x0 x1 e i) :=
  contr_fin (fun l => hP.W3 l i) (kD2_fin P x0 x1 hP h0 h1 e)

theorem rDet_eq (h0 : Fin' x0) (h1 : Fin' x1) : rDet P x0 x1 = kDet P x0 x1 := by
  unfold kDet rDet
  rw [rJ_eq P x0 x1 hP h0 h1, rJ_eq P x0 x1 hP h0 h1, rJ_eq P x0 x1 hP h0 h1, rJ_eq P x0 x1 hP h0 h1]

theorem kDet_fin (h0 : Fin' x0) (h1 : Fin' x1) : Fin' (kDet P x0 x1) :=
  ((kJ_fin P x0 x1 hP h0 h1 0 0).mul (kJ_fin P x0 x1 hP h0 h1 1 1)).sub
    ((kJ_fin P x0 x1 hP h0 h1 1 0).mul (kJ_fin P x0 x1 hP h0 h1 0 1))

end Cert.Spec

end
-- ==== Proof.Algebra.lean ====
/-
  The two spellings of a row's result agree on real data with a nonzero determinant.

  What is left after the layers: the right-hand side (the reference contracts the coefficient rows (c, c, s_k, ψ'_k ω) with
  (x0, x1, x2, 1); the kernel writes c · (x0 + x1) + … directly — distributivity over real numbers), and the solve (the reference
  divides the adjugate entry by entry and then multiplies; the kernel multiplies and then scales by the reciprocal of the
  determinant — (p / δ) u + (q / δ) v = (p u + q v) (1 / δ) for a real δ ≠ 0).
-/
import proofs.«109731_j50405736186087_2_alg».proof.Proof.AlgLayers

noncomputable section

namespace Cert.Spec

open Idealize.ShloMosaic
open scoped BigOperators

/-- the determinants agree -/
theorem kDet_eq_rDet (P : Params) (hP : P.Finite) (x0 x1 : EReal) (h0 : Fin' x0) (h1 : Fin' x1) :
    kDet P x0 x1 = rDet P x0 x1 :=
  (rDet_eq P x0 x1 hP h0 h1).symm

/-! ## The right-hand side -/

theorem rY_zero (P : Params) (hP : P.Finite) (x0 x1 x2 : EReal) (h0 : Fin' x0) (h1 : Fin' x1) (h2 : Fin' x2) :
    rY P x0 x1 x2 0 = kY0 P x0 x1 := by
  unfold rY kY0
  rw [Fin.sum_univ_four]
  show cR * x0 + cR * x1 + c0 * x2 + rPsi P x0 x1 1 * cW * c1 = _
  rw [rPsi_eq]
  exact rhs_row0 h0 h1 h2 (kPsi_fin P x0 x1 hP 1)

theorem rY_one (P : Params) (hP : P.Finite) (x0 x1 x2 : EReal) (h0 : Fin' x0) (h1 : Fin' x1) (h2 : Fin' x2) :
    rY P x0 x1 x2 1 = kY1 P x0 x1 x2 := by
  unfold rY kY1
  rw [Fin.sum_univ_four]
  show cR * x0 + cR * x1 + cS * x2 + -(rPsi P x0 x1 0) * cW * c1 = _
  rw [rPsi_eq]
  exact rhs_row1 h0 h1 h2 (kPsi_fin P x0 x1 hP 0)

theorem kY0_fin (P : Params) (hP : P.Finite) (x0 x1 : EReal) (h0 : Fin' x0) (h1 : Fin' x1) : Fin' (kY0 P x0 x1) :=
  (fin'_cR.mul (h0.add h1)).add ((kPsi_fin P x0 x1 hP 1).mul fin'_cW)

theorem kY1_fin (P : Params) (hP : P.Finite) (x0 x1 x2 : EReal) (h0 : Fin' x0) (h1 : Fin' x1) (h2 : Fin' x2) :
    Fin' (kY1 P x0 x1 x2) :=
  ((fin'_cR.mul (h0.add h1)).add (fin'_cS.mul h2)).add ((fin'_c0.sub (kPsi_fin P x0 x1 hP 0)).mul fin'_cW)

/-! ## The solve -/

/-- the results agree, entry by entry -/
theorem kOut_eq_rOut (P : Params) (hP : P.Finite) (x0 x1 x2 : EReal) (h0 : Fin' x0) (h1 : Fin' x1) (h2 : Fin' x2)
    (hdet : rDet P x0 x1 ≠ 0) (j : Fin 2) : kOut P x0 x1 x2 j = rOut P x0 x1 x2 j := by
  have hd : kDet P x0 x1 ≠ 0 := by rw [← rDet_eq P x0 x1 hP h0 h1]; exact hdet
  have hdf : Fin' (kDet P x0 x1) := kDet_fin P x0 x1 hP h0 h1
  have hJ : ∀ e i : Fin 2, Fin' (kJ P x0 x1 e i) := kJ_fin P x0 x1 hP h0 h1
  have hy0 : Fin' (kY0 P x0 x1) := kY0_fin P hP x0 x1 h0 h1
  have hy1 : Fin' (kY1 P x0 x1 x2) := kY1_fin P hP x0 x1 x2 h0 h1 h2
  revert j
  rw [Fin.forall_fin_two]
  constructor
  · show ((kJ P x0 x1 1 1 * kY0 P x0 x1 - kJ P x0 x1 1 0 * kY1 P x0 x1 x2) * Ideal.div c1 (kDet P x0 x1)) * cDT + x0
        = (∑ k : Fin 2, rInv P x0 x1 0 k * rY P x0 x1 x2 k) * cDT + x0
    rw [Fin.sum_univ_two]
    show _ = (Ideal.div (rJ P x0 x1 1 1) (rDet P x0 x1) * rY P x0 x1 x2 0
        + Ideal.div (-(rJ P x0 x1 1 0)) (rDet P x0 x1) * rY P x0 x1 x2 1) * cDT + x0
    rw [rY_zero P hP x0 x1 x2 h0 h1 h2, rY_one P hP x0 x1 x2 h0 h1 h2, rDet_eq P x0 x1 hP h0 h1,
      rJ_eq P x0 x1 hP h0 h1, rJ_eq P x0 x1 hP h0 h1, solve_row0 (hJ 1 1) (hJ 1 0) hy0 hy1 hdf hd]
  · show (((c0 - kJ P x0 x1 0 1) * kY0 P x0 x1 + kJ P x0 x1 0 0 * kY1 P x0 x1 x2) * Ideal.div c1 (kDet P x0 x1)) * cDT + x1
        = (∑ k : Fin 2, rInv P x0 x1 1 k * rY P x0 x1 x2 k) * cDT + x1
    rw [Fin.sum_univ_two]
    show _ = (Ideal.div (-(rJ P x0 x1 0 1)) (rDet P x0 x1) * rY P x0 x1 x2 0
        + Ideal.div (rJ P x0 x1 0 0) (rDet P x0 x1) * rY P x0 x1 x2 1) * cDT + x1
    rw [rY_zero P hP x0 x1 x2 h0 h1 h2, rY_one P hP x0 x1 x2 h0 h1 h2, rDet_eq P x0 x1 hP h0 h1,
      rJ_eq P x0 x1 hP h0 h1, rJ_eq P x0 x1 hP h0 h1, solve_row1 (hJ 0 0) (hJ 0 1) hy0 hy1 hdf hd]

end Cert.Spec

end
-- ==== Proof.Bridge.lean ====
/-
  Under the precondition the two result arrays are one array.

  The precondition says every entry of every argument is a real number and that the determinant the reference divides by is
  nonzero in every row. Row by row, the kernel's spelling and the reference's spelling of the arithmetic then agree
  (Cert.Spec.kOut_eq_rOut: commutativity, distributivity over reals, and (p/δ)u + (q/δ)v = (pu + qv)(1/δ) for real δ ≠ 0).
-/
import proofs.«109731_j50405736186087_2_alg».proof.Proof.RValue
import proofs.«109731_j50405736186087_2_alg».proof.Proof.PreBridge
import proofs.«109731_j50405736186087_2_alg».proof.Proof.Algebra

noncomputable section

namespace Cert.Bridge

open Idealize.ShloMosaic Idealize.ShloMosaic.ValueIdx

variable [Cert.Pre_finite_inputs.Facts]

theorem rArr_eq_kArr (a0 : FVec Ideal Cert.ReferenceIdeal.S4194304x5 .f32) (a1 : FVec Ideal Cert.ReferenceIdeal.S3x12 .f32)
    (a2 : FVec Ideal Cert.ReferenceIdeal.S12 .f32) (a3 : FVec Ideal Cert.ReferenceIdeal.S12x8 .f32)
    (a4 : FVec Ideal Cert.ReferenceIdeal.S8 .f32) (a5 : FVec Ideal Cert.ReferenceIdeal.S8x2 .f32)
    (a6 : FVec Ideal Cert.ReferenceIdeal.S2 .f32)
    (h : Cert.Pre_finite_inputs.fn (F := Ideal) a0 a1 a2 a3 a4 a5 a6 = fun _ => 1#1) :
    Cert.Spec.rArr a0 a1 a2 a3 a4 a5 a6 = Cert.Spec.kArr a0 a1 a2 a3 a4 a5 a6 := by
  obtain ⟨f0, -⟩ := Cert.PreFacts.finite_of_pre a0 a1 a2 a3 a4 a5 a6 h
  have hP := Cert.PreFacts.params_finite_of_pre a0 a1 a2 a3 a4 a5 a6 h
  have hne := Cert.PreFacts.v77_ne_zero_of_pre a0 a1 a2 a3 a4 a5 a6 h
  funext j
  obtain ⟨r, i, rfl⟩ : ∃ (r : Fin 4194304) (i : Fin 2), j = ix2 r i := ⟨j 0, j 1, eq_ix2 j⟩
  have hdet : Cert.Spec.rDet (Cert.Spec.params a1 a2 a3 a4 a5 a6) (a0 (ix2 r (0 : Fin 5))) (a0 (ix2 r (1 : Fin 5))) ≠ 0 := by
    have := hne (ix1 r)
    rwa [Cert.ReferenceIdeal.RRead.val_main_v77_eq] at this
  exact (Cert.Spec.kOut_eq_rOut _ hP _ _ _ (f0 _) (f0 _) (f0 _) hdet i).symm

end Cert.Bridge

end
-- ==== Proof.lean ====
/-
  A kernel for one explicit-Euler step of a motor-current model, against its jnp reference, over the extended reals.

  For each of 4194304 rows (x0, x1, x2, _, _) both programs evaluate a small network
      ψ(x0, x1) = W3ᵀ tanh (W2ᵀ tanh (W1ᵀ (x0, x1, ‖(x0, x1)‖) + b1) + b2) + b3 ∈ ℝ²,
  its Jacobian J = ∂ψ/∂(x0, x1) by two forward-mode pushes, the right-hand side
      y = (−R_s (x0 + x1) + ψ₁ ω,  −R_s (x0 + x1) + (U_dc / 3) x2 − ψ₀ ω),
  solve J k = y in closed form, k = adj(J) y / det J, and return k Δt + (x0, x1).
  The kernel works on the transposed input, 16384 rows at a time with the rows on the last axis, and is followed by a transpose
  back; it takes ONE reciprocal 1 / det J and multiplies; the reference divides adj(J) by det J entry by entry and then multiplies.
  On the extended reals those two differ exactly where det J = 0, where the reference's own quotient is undefined: the claim's
  precondition says that every input is finite AND that det J ≠ 0 in every row, and under it the two results are equal, entry by entry.

  The road. `Cert.Spec` states the arithmetic of ONE row twice, once as each program spells it (`kOut`, `rOut`), and the
  whole-array functions `kArr`, `rArr`. The kernel's run ends with its result array at `kArr` of the arguments (the body's payload at an
  index, the blocks put back into the array, the final transpose). The reference's run, written out operation by operation, ends with
  its result at the composed value of its operations, which read at an index is `rArr`. The precondition gives the finiteness of every
  entry and, its determinant being the same chain of operations as the reference's, det J ≠ 0 for `rOut`'s own determinant; and for
  finite data with det J ≠ 0 the two spellings agree (commutativity; distributivity over finite reals; the tangent of the norm,
  (Σ (e·x + x·e)) (½ / ‖x‖) = x_e (1 / ‖x‖), both 0 at the origin; the tangent of tanh, (dz + dz h)(1 − h) = dz (1 − h²);
  (p / δ) u + (q / δ) v = (p u + q v)(1 / δ) for real δ ≠ 0).
  The three frames: the two kernels' are the generated frame runs; the reference's is its run with the result dropped.
  The idealization rewrote nothing, so `preserves` is trivial.
-/
import proofs.«109731_j50405736186087_2_alg».proof.Defs
import proofs.«109731_j50405736186087_2_alg».proof.Proof.Gen.Kernel
import proofs.«109731_j50405736186087_2_alg».proof.Proof.Gen.Kernel.Frame
import proofs.«109731_j50405736186087_2_alg».proof.Proof.Gen.KernelIdeal
import proofs.«109731_j50405736186087_2_alg».proof.Proof.Gen.KernelIdeal.Frame
import proofs.«109731_j50405736186087_2_alg».proof.Proof.Gen.ReferenceIdeal
import proofs.«109731_j50405736186087_2_alg».proof.Proof.Gen.Pre_finite_inputs
import proofs.«109731_j50405736186087_2_alg».proof.Proof.KValue
import proofs.«109731_j50405736186087_2_alg».proof.Proof.RRunVal
import proofs.«109731_j50405736186087_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.RRun.run_val m ρ)

theorem preserves : Cert.preserves_Kernel_KernelIdeal := trivial

/-- Both runs end with the result array at `kArr` of the kernel's arguments: the kernel's by its value; the reference's at
    `rArr` of its own arguments, which are the kernel's, and `rArr = kArr` under the precondition. -/
theorem algebraic : Cert.algebraic_KernelIdeal_ReferenceIdeal := by
  intro m ρ m' ρ' hpre hagree
  refine ⟨fun c => Cert.Spec.kArr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.KValue.run m ρ, ?_⟩
  refine (θ_run Cert.ReferenceIdeal.defs _ _).mono (fun _ h c => ⟨(h c).1.trans ?_, (h c).2⟩)
    (Cert.ReferenceIdeal.RRun.run_val m' ρ')
  obtain ⟨e0, e1, e2, e3, e4, e5, e6⟩ := hagree c
  rw [e0, e1, e2, e3, e4, e5, e6, Cert.ReferenceIdeal.RRead.val_main_v111_eq]
  exact Cert.Bridge.rArr_eq_kArr _ _ _ _ _ _ _ (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
